-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1156) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x24x32 : Shape := ⟨3, ![32768, 24, 32]⟩
abbrev S32768x448 : Shape := ⟨2, ![32768, 448]⟩
abbrev S24x480x32 : Shape := ⟨3, ![24, 480, 32]⟩
abbrev S24x32 : Shape := ⟨2, ![24, 32]⟩
abbrev S_ : Shape := ⟨0, ![]⟩

class Facts : Prop where
  bcast_S_S32768x24x32 : S_.BroadcastsInDim S32768x24x32 (![] : Fin 0 → Fin S32768x24x32.rank)
  reducesTo_S32768x24x32_S_d0_1_2 : S32768x24x32.ReducesTo [0, 1, 2] S_
  h_S_ : 0 < S_.numel
  bcast_S_S32768x448 : S_.BroadcastsInDim S32768x448 (![] : Fin 0 → Fin S32768x448.rank)
  reducesTo_S32768x448_S_d0_1 : S32768x448.ReducesTo [0, 1] S_
  bcast_S_S24x480x32 : S_.BroadcastsInDim S24x480x32 (![] : Fin 0 → Fin S24x480x32.rank)
  reducesTo_S24x480x32_S_d0_1_2 : S24x480x32.ReducesTo [0, 1, 2] S_
  bcast_S_S24x32 : S_.BroadcastsInDim S24x32 (![] : Fin 0 → Fin S24x32.rank)
  reducesTo_S24x32_S_d0_1 : S24x32.ReducesTo [0, 1] S_

variable [Facts]

def fn_part2 {F : FTy → Type} [FloatOps F] (main_arg7 : FVec F S24x32 .f32) (main_v33 : IVec S_ 1) : IVec S_ 1 :=
  let main_v34 : FVec F S24x32 .f32 := Host.absf main_arg7
  let main_cst_12 : FVec F S_ .f32 := constant S_ .f32 0x7F800000#32
  let main_v35 : FVec F S24x32 .f32 := broadcastInDim S24x32 ![] bcast_S_S24x32 main_cst_12
  let main_v36 : IVec S24x32 1 := cmpf .olt main_v34 main_v35
  let main_c_13 : IVec S_ 1 := constantI S_ 1 1#1
  let main_v37 : IVec S_ 1 := (fun x v => Host.reduce IntOp.andi x v reducesTo_S24x32_S_d0_1 h_S_) main_v36 main_c_13
  let main_v38 : IVec S_ 1 := andi main_v33 main_v37
  main_v38

def fn_part1 {F : FTy → Type} [FloatOps F] (main_arg4 : FVec F S24x480x32 .f32) (main_arg5 : FVec F S24x32 .f32) (main_arg6 : FVec F S24x480x32 .f32) (main_arg7 : FVec F S24x32 .f32) (main_v13 : IVec S_ 1) (main_v16 : IVec S24x32 1) : IVec S_ 1 :=
  let main_c_5 : IVec S_ 1 := constantI S_ 1 1#1
  let main_v17 : IVec S_ 1 := (fun x v => Host.reduce IntOp.andi x v reducesTo_S24x32_S_d0_1 h_S_) main_v16 main_c_5
  let main_v18 : IVec S_ 1 := andi main_v13 main_v17
  let main_v19 : FVec F S24x480x32 .f32 := Host.absf main_arg4
  let main_cst_6 : FVec F S_ .f32 := constant S_ .f32 0x7F800000#32
  let main_v20 : FVec F S24x480x32 .f32 := broadcastInDim S24x480x32 ![] bcast_S_S24x480x32 main_cst_6
  let main_v21 : IVec S24x480x32 1 := cmpf .olt main_v19 main_v20
  let main_c_7 : IVec S_ 1 := constantI S_ 1 1#1
  let main_v22 : IVec S_ 1 := (fun x v => Host.reduce IntOp.andi x v reducesTo_S24x480x32_S_d0_1_2 h_S_) main_v21 main_c_7
  let main_v23 : IVec S_ 1 := andi main_v18 main_v22
  let main_v24 : FVec F S24x32 .f32 := Host.absf main_arg5
  let main_cst_8 : FVec F S_ .f32 := constant S_ .f32 0x7F800000#32
  let main_v25 : FVec F S24x32 .f32 := broadcastInDim S24x32 ![] bcast_S_S24x32 main_cst_8
  let main_v26 : IVec S24x32 1 := cmpf .olt main_v24 main_v25
  let main_c_9 : IVec S_ 1 := constantI S_ 1 1#1
  let main_v27 : IVec S_ 1 := (fun x v => Host.reduce IntOp.andi x v reducesTo_S24x32_S_d0_1 h_S_) main_v26 main_c_9
  let main_v28 : IVec S_ 1 := andi main_v23 main_v27
  let main_v29 : FVec F S24x480x32 .f32 := Host.absf main_arg6
  let main_cst_10 : FVec F S_ .f32 := constant S_ .f32 0x7F800000#32
  let main_v30 : FVec F S24x480x32 .f32 := broadcastInDim S24x480x32 ![] bcast_S_S24x480x32 main_cst_10
  let main_v31 : IVec S24x480x32 1 := cmpf .olt main_v29 main_v30
  let main_c_11 : IVec S_ 1 := constantI S_ 1 1#1
  let main_v32 : IVec S_ 1 := (fun x v => Host.reduce IntOp.andi x v reducesTo_S24x480x32_S_d0_1_2 h_S_) main_v31 main_c_11
  let main_v33 : IVec S_ 1 := andi main_v28 main_v32
  fn_part2 (F := F) main_arg7 main_v33

def fn {F : FTy → Type} [FloatOps F] (main_arg0 : FVec F S32768x24x32 .f32) (main_arg1 : FVec F S32768x448 .f32) (main_arg2 : FVec F S24x480x32 .f32) (main_arg3 : FVec F S24x32 .f32) (main_arg4 : FVec F S24x480x32 .f32) (main_arg5 : FVec F S24x32 .f32) (main_arg6 : FVec F S24x480x32 .f32) (main_arg7 : FVec F S24x32 .f32) : IVec S_ 1 :=
  let main_v0 : FVec F S32768x24x32 .f32 := Host.absf main_arg0
  let main_cst : FVec F S_ .f32 := constant S_ .f32 0x7F800000#32
  let main_v1 : FVec F S32768x24x32 .f32 := broadcastInDim S32768x24x32 ![] bcast_S_S32768x24x32 main_cst
  let main_v2 : IVec S32768x24x32 1 := cmpf .olt main_v0 main_v1
  let main_c : IVec S_ 1 := constantI S_ 1 1#1
  let main_v3 : IVec S_ 1 := (fun x v => Host.reduce IntOp.andi x v reducesTo_S32768x24x32_S_d0_1_2 h_S_) main_v2 main_c
  let main_v4 : FVec F S32768x448 .f32 := Host.absf main_arg1
  let main_cst_0 : FVec F S_ .f32 := constant S_ .f32 0x7F800000#32
  let main_v5 : FVec F S32768x448 .f32 := broadcastInDim S32768x448 ![] bcast_S_S32768x448 main_cst_0
  let main_v6 : IVec S32768x448 1 := cmpf .olt main_v4 main_v5
  let main_c_1 : IVec S_ 1 := constantI S_ 1 1#1
  let main_v7 : IVec S_ 1 := (fun x v => Host.reduce IntOp.andi x v reducesTo_S32768x448_S_d0_1 h_S_) main_v6 main_c_1
  let main_v8 : IVec S_ 1 := andi main_v3 main_v7
  let main_v9 : FVec F S24x480x32 .f32 := Host.absf main_arg2
  let main_cst_2 : FVec F S_ .f32 := constant S_ .f32 0x7F800000#32
  let main_v10 : FVec F S24x480x32 .f32 := broadcastInDim S24x480x32 ![] bcast_S_S24x480x32 main_cst_2
  let main_v11 : IVec S24x480x32 1 := cmpf .olt main_v9 main_v10
  let main_c_3 : IVec S_ 1 := constantI S_ 1 1#1
  let main_v12 : IVec S_ 1 := (fun x v => Host.reduce IntOp.andi x v reducesTo_S24x480x32_S_d0_1_2 h_S_) main_v11 main_c_3
  let main_v13 : IVec S_ 1 := andi main_v8 main_v12
  let main_v14 : FVec F S24x32 .f32 := Host.absf main_arg3
  let main_cst_4 : FVec F S_ .f32 := constant S_ .f32 0x7F800000#32
  let main_v15 : FVec F S24x32 .f32 := broadcastInDim S24x32 ![] bcast_S_S24x32 main_cst_4
  let main_v16 : IVec S24x32 1 := cmpf .olt main_v14 main_v15
  fn_part1 (F := F) main_arg4 main_arg5 main_arg6 main_arg7 main_v13 main_v16
-- ==== Kernel.lean ====
abbrev S32768x24x32 : Shape := ⟨3, ![32768, 24, 32]⟩
abbrev S32768x448 : Shape := ⟨2, ![32768, 448]⟩
abbrev S24x480x32 : Shape := ⟨3, ![24, 480, 32]⟩
abbrev S24x32 : Shape := ⟨2, ![24, 32]⟩
abbrev S512x24x32 : Shape := ⟨3, ![512, 24, 32]⟩
abbrev S512x448 : Shape := ⟨2, ![512, 448]⟩
abbrev S512x1x32 : Shape := ⟨3, ![512, 1, 32]⟩
abbrev S512x32 : Shape := ⟨2, ![512, 32]⟩
abbrev S512x480 : Shape := ⟨2, ![512, 480]⟩
abbrev S1x480x32 : Shape := ⟨3, ![1, 480, 32]⟩
abbrev S480x32 : Shape := ⟨2, ![480, 32]⟩
abbrev S1x32 : Shape := ⟨2, ![1, 32]⟩
abbrev S32 : Shape := ⟨1, ![32]⟩

abbrev nBuf : Space → Nat
  | .hbm => 9
  | .vmem => 13
  | .smem => 0
  | _ => 0

abbrev bufTy : (tb : Table) → Fin (tcTables nBuf tb) → BufTy
  | .hbm, ⟨0, _⟩ => ⟨S32768x24x32, .f32⟩
  | .hbm, ⟨1, _⟩ => ⟨S32768x448, .f32⟩
  | .hbm, ⟨2, _⟩ => ⟨S24x480x32, .f32⟩
  | .hbm, ⟨3, _⟩ => ⟨S24x32, .f32⟩
  | .hbm, ⟨4, _⟩ => ⟨S24x480x32, .f32⟩
  | .hbm, ⟨5, _⟩ => ⟨S24x32, .f32⟩
  | .hbm, ⟨6, _⟩ => ⟨S24x480x32, .f32⟩
  | .hbm, ⟨7, _⟩ => ⟨S24x32, .f32⟩
  | .hbm, ⟨8, _⟩ => ⟨S32768x24x32, .f32⟩
  | .local _ .vmem, ⟨0, _⟩ => ⟨S512x24x32, .f32⟩
  | .local _ .vmem, ⟨1, _⟩ => ⟨S512x24x32, .f32⟩
  | .local _ .vmem, ⟨2, _⟩ => ⟨S512x448, .f32⟩
  | .local _ .vmem, ⟨3, _⟩ => ⟨S512x448, .f32⟩
  | .local _ .vmem, ⟨4, _⟩ => ⟨S24x480x32, .f32⟩
  | .local _ .vmem, ⟨5, _⟩ => ⟨S24x32, .f32⟩
  | .local _ .vmem, ⟨6, _⟩ => ⟨S24x480x32, .f32⟩
  | .local _ .vmem, ⟨7, _⟩ => ⟨S24x32, .f32⟩
  | .local _ .vmem, ⟨8, _⟩ => ⟨S24x480x32, .f32⟩
  | .local _ .vmem, ⟨9, _⟩ => ⟨S24x32, .f32⟩
  | .local _ .vmem, ⟨10, _⟩ => ⟨S512x24x32, .f32⟩
  | .local _ .vmem, ⟨11, _⟩ => ⟨S512x24x32, .f32⟩
  | .local _ .vmem, ⟨12, _⟩ => ⟨S512x24x32, .f32⟩
  | _, _ => ⟨S32768x24x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x24x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x448 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S24x480x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S24x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S24x480x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S24x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S24x480x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S24x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x24x32 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  inb_S512x24x32_S512x24x32_0_0_0 : ∀ a, (![0, 0, 0] : Fin 3 → Nat) a + S512x24x32.size a ≤ S512x24x32.size a
  h_S512x24x32 : 0 < S512x24x32.numel
  shapeCasts_S512x24x32_S512x24x32 : S512x24x32.ShapeCasts S512x24x32
  inb_S512x448_S512x448_0_0 : ∀ a, (![0, 0] : Fin 2 → Nat) a + S512x448.size a ≤ S512x448.size a
  h_S512x448 : 0 < S512x448.numel
  bitsLt_bf16_f32 : FTy.bits .bf16 < FTy.bits .f32
  inb_S512x24x32_S512x1x32_0_0_0 : ∀ a, (![0, 0, 0] : Fin 3 → Nat) a + S512x1x32.size a ≤ S512x24x32.size a
  h_S512x1x32 : 0 < S512x1x32.numel
  shapeCasts_S512x1x32_S512x32 : S512x1x32.ShapeCasts S512x32
  concatenates_S512x32_S512x448_S512x480_d1 : Shape.Concatenates [S512x32, S512x448] S512x480 1
  inb_S24x480x32_S1x480x32_0_0_0 : ∀ a, (![0, 0, 0] : Fin 3 → Nat) a + S1x480x32.size a ≤ S24x480x32.size a
  h_S1x480x32 : 0 < S1x480x32.numel
  shapeCasts_S1x480x32_S480x32 : S1x480x32.ShapeCasts S480x32
  inb_S24x32_S1x32_0_0 : ∀ a, (![0, 0] : Fin 2 → Nat) a + S1x32.size a ≤ S24x32.size a
  h_S1x32 : 0 < S1x32.numel
  shapeCasts_S1x32_S32 : S1x32.ShapeCasts S32
  shapeCasts_S32_S1x32 : S32.ShapeCasts S1x32
  broadcasts_S1x32_S512x32 : S1x32.Broadcasts S512x32
  shapeCasts_S512x32_S512x1x32 : S512x32.ShapeCasts S512x1x32
  inb_S24x480x32_S1x480x32_1_0_0 : ∀ a, (![1, 0, 0] : Fin 3 → Nat) a + S1x480x32.size a ≤ S24x480x32.size a
  inb_S24x32_S1x32_1_0 : ∀ a, (![1, 0] : Fin 2 → Nat) a + S1x32.size a ≤ S24x32.size a
  inb_S512x24x32_S512x1x32_0_1_0 : ∀ a, (![0, 1, 0] : Fin 3 → Nat) a + S512x1x32.size a ≤ S512x24x32.size a
  inb_S24x480x32_S1x480x32_2_0_0 : ∀ a, (![2, 0, 0] : Fin 3 → Nat) a + S1x480x32.size a ≤ S24x480x32.size a
  inb_S24x32_S1x32_2_0 : ∀ a, (![2, 0] : Fin 2 → Nat) a + S1x32.size a ≤ S24x32.size a
  inb_S512x24x32_S512x1x32_0_2_0 : ∀ a, (![0, 2, 0] : Fin 3 → Nat) a + S512x1x32.size a ≤ S512x24x32.size a
  inb_S24x480x32_S1x480x32_3_0_0 : ∀ a, (![3, 0, 0] : Fin 3 → Nat) a + S1x480x32.size a ≤ S24x480x32.size a
  inb_S24x32_S1x32_3_0 : ∀ a, (![3, 0] : Fin 2 → Nat) a + S1x32.size a ≤ S24x32.size a
  inb_S512x24x32_S512x1x32_0_3_0 : ∀ a, (![0, 3, 0] : Fin 3 → Nat) a + S512x1x32.size a ≤ S512x24x32.size a
  inb_S24x480x32_S1x480x32_4_0_0 : ∀ a, (![4, 0, 0] : Fin 3 → Nat) a + S1x480x32.size a ≤ S24x480x32.size a
  inb_S24x32_S1x32_4_0 : ∀ a, (![4, 0] : Fin 2 → Nat) a + S1x32.size a ≤ S24x32.size a
  inb_S512x24x32_S512x1x32_0_4_0 : ∀ a, (![0, 4, 0] : Fin 3 → Nat) a + S512x1x32.size a ≤ S512x24x32.size a
  inb_S24x480x32_S1x480x32_5_0_0 : ∀ a, (![5, 0, 0] : Fin 3 → Nat) a + S1x480x32.size a ≤ S24x480x32.size a
  inb_S24x32_S1x32_5_0 : ∀ a, (![5, 0] : Fin 2 → Nat) a + S1x32.size a ≤ S24x32.size a
  inb_S512x24x32_S512x1x32_0_5_0 : ∀ a, (![0, 5, 0] : Fin 3 → Nat) a + S512x1x32.size a ≤ S512x24x32.size a
  inb_S24x480x32_S1x480x32_6_0_0 : ∀ a, (![6, 0, 0] : Fin 3 → Nat) a + S1x480x32.size a ≤ S24x480x32.size a
  inb_S24x32_S1x32_6_0 : ∀ a, (![6, 0] : Fin 2 → Nat) a + S1x32.size a ≤ S24x32.size a
  inb_S512x24x32_S512x1x32_0_6_0 : ∀ a, (![0, 6, 0] : Fin 3 → Nat) a + S512x1x32.size a ≤ S512x24x32.size a
  inb_S24x480x32_S1x480x32_7_0_0 : ∀ a, (![7, 0, 0] : Fin 3 → Nat) a + S1x480x32.size a ≤ S24x480x32.size a
  inb_S24x32_S1x32_7_0 : ∀ a, (![7, 0] : Fin 2 → Nat) a + S1x32.size a ≤ S24x32.size a
  inb_S512x24x32_S512x1x32_0_7_0 : ∀ a, (![0, 7, 0] : Fin 3 → Nat) a + S512x1x32.size a ≤ S512x24x32.size a
  inb_S24x480x32_S1x480x32_8_0_0 : ∀ a, (![8, 0, 0] : Fin 3 → Nat) a + S1x480x32.size a ≤ S24x480x32.size a
  inb_S24x32_S1x32_8_0 : ∀ a, (![8, 0] : Fin 2 → Nat) a + S1x32.size a ≤ S24x32.size a
  inb_S512x24x32_S512x1x32_0_8_0 : ∀ a, (![0, 8, 0] : Fin 3 → Nat) a + S512x1x32.size a ≤ S512x24x32.size a
  inb_S24x480x32_S1x480x32_9_0_0 : ∀ a, (![9, 0, 0] : Fin 3 → Nat) a + S1x480x32.size a ≤ S24x480x32.size a
  inb_S24x32_S1x32_9_0 : ∀ a, (![9, 0] : Fin 2 → Nat) a + S1x32.size a ≤ S24x32.size a
  inb_S512x24x32_S512x1x32_0_9_0 : ∀ a, (![0, 9, 0] : Fin 3 → Nat) a + S512x1x32.size a ≤ S512x24x32.size a
  inb_S24x480x32_S1x480x32_10_0_0 : ∀ a, (![10, 0, 0] : Fin 3 → Nat) a + S1x480x32.size a ≤ S24x480x32.size a
  inb_S24x32_S1x32_10_0 : ∀ a, (![10, 0] : Fin 2 → Nat) a + S1x32.size a ≤ S24x32.size a
  inb_S512x24x32_S512x1x32_0_10_0 : ∀ a, (![0, 10, 0] : Fin 3 → Nat) a + S512x1x32.size a ≤ S512x24x32.size a
  inb_S24x480x32_S1x480x32_11_0_0 : ∀ a, (![11, 0, 0] : Fin 3 → Nat) a + S1x480x32.size a ≤ S24x480x32.size a
  inb_S24x32_S1x32_11_0 : ∀ a, (![11, 0] : Fin 2 → Nat) a + S1x32.size a ≤ S24x32.size a
  inb_S512x24x32_S512x1x32_0_11_0 : ∀ a, (![0, 11, 0] : Fin 3 → Nat) a + S512x1x32.size a ≤ S512x24x32.size a
  inb_S24x480x32_S1x480x32_12_0_0 : ∀ a, (![12, 0, 0] : Fin 3 → Nat) a + S1x480x32.size a ≤ S24x480x32.size a
  inb_S24x32_S1x32_12_0 : ∀ a, (![12, 0] : Fin 2 → Nat) a + S1x32.size a ≤ S24x32.size a
  inb_S512x24x32_S512x1x32_0_12_0 : ∀ a, (![0, 12, 0] : Fin 3 → Nat) a + S512x1x32.size a ≤ S512x24x32.size a
  inb_S24x480x32_S1x480x32_13_0_0 : ∀ a, (![13, 0, 0] : Fin 3 → Nat) a + S1x480x32.size a ≤ S24x480x32.size a
  inb_S24x32_S1x32_13_0 : ∀ a, (![13, 0] : Fin 2 → Nat) a + S1x32.size a ≤ S24x32.size a
  inb_S512x24x32_S512x1x32_0_13_0 : ∀ a, (![0, 13, 0] : Fin 3 → Nat) a + S512x1x32.size a ≤ S512x24x32.size a
  inb_S24x480x32_S1x480x32_14_0_0 : ∀ a, (![14, 0, 0] : Fin 3 → Nat) a + S1x480x32.size a ≤ S24x480x32.size a
  inb_S24x32_S1x32_14_0 : ∀ a, (![14, 0] : Fin 2 → Nat) a + S1x32.size a ≤ S24x32.size a
  inb_S512x24x32_S512x1x32_0_14_0 : ∀ a, (![0, 14, 0] : Fin 3 → Nat) a + S512x1x32.size a ≤ S512x24x32.size a
  inb_S24x480x32_S1x480x32_15_0_0 : ∀ a, (![15, 0, 0] : Fin 3 → Nat) a + S1x480x32.size a ≤ S24x480x32.size a
  inb_S24x32_S1x32_15_0 : ∀ a, (![15, 0] : Fin 2 → Nat) a + S1x32.size a ≤ S24x32.size a
  inb_S512x24x32_S512x1x32_0_15_0 : ∀ a, (![0, 15, 0] : Fin 3 → Nat) a + S512x1x32.size a ≤ S512x24x32.size a
  inb_S24x480x32_S1x480x32_16_0_0 : ∀ a, (![16, 0, 0] : Fin 3 → Nat) a + S1x480x32.size a ≤ S24x480x32.size a
  inb_S24x32_S1x32_16_0 : ∀ a, (![16, 0] : Fin 2 → Nat) a + S1x32.size a ≤ S24x32.size a
  inb_S512x24x32_S512x1x32_0_16_0 : ∀ a, (![0, 16, 0] : Fin 3 → Nat) a + S512x1x32.size a ≤ S512x24x32.size a
  inb_S24x480x32_S1x480x32_17_0_0 : ∀ a, (![17, 0, 0] : Fin 3 → Nat) a + S1x480x32.size a ≤ S24x480x32.size a
  inb_S24x32_S1x32_17_0 : ∀ a, (![17, 0] : Fin 2 → Nat) a + S1x32.size a ≤ S24x32.size a
  inb_S512x24x32_S512x1x32_0_17_0 : ∀ a, (![0, 17, 0] : Fin 3 → Nat) a + S512x1x32.size a ≤ S512x24x32.size a
  inb_S24x480x32_S1x480x32_18_0_0 : ∀ a, (![18, 0, 0] : Fin 3 → Nat) a + S1x480x32.size a ≤ S24x480x32.size a
  inb_S24x32_S1x32_18_0 : ∀ a, (![18, 0] : Fin 2 → Nat) a + S1x32.size a ≤ S24x32.size a
  inb_S512x24x32_S512x1x32_0_18_0 : ∀ a, (![0, 18, 0] : Fin 3 → Nat) a + S512x1x32.size a ≤ S512x24x32.size a
  inb_S24x480x32_S1x480x32_19_0_0 : ∀ a, (![19, 0, 0] : Fin 3 → Nat) a + S1x480x32.size a ≤ S24x480x32.size a
  inb_S24x32_S1x32_19_0 : ∀ a, (![19, 0] : Fin 2 → Nat) a + S1x32.size a ≤ S24x32.size a
  inb_S512x24x32_S512x1x32_0_19_0 : ∀ a, (![0, 19, 0] : Fin 3 → Nat) a + S512x1x32.size a ≤ S512x24x32.size a
  inb_S24x480x32_S1x480x32_20_0_0 : ∀ a, (![20, 0, 0] : Fin 3 → Nat) a + S1x480x32.size a ≤ S24x480x32.size a
  inb_S24x32_S1x32_20_0 : ∀ a, (![20, 0] : Fin 2 → Nat) a + S1x32.size a ≤ S24x32.size a
  inb_S512x24x32_S512x1x32_0_20_0 : ∀ a, (![0, 20, 0] : Fin 3 → Nat) a + S512x1x32.size a ≤ S512x24x32.size a
  inb_S24x480x32_S1x480x32_21_0_0 : ∀ a, (![21, 0, 0] : Fin 3 → Nat) a + S1x480x32.size a ≤ S24x480x32.size a
  inb_S24x32_S1x32_21_0 : ∀ a, (![21, 0] : Fin 2 → Nat) a + S1x32.size a ≤ S24x32.size a
  inb_S512x24x32_S512x1x32_0_21_0 : ∀ a, (![0, 21, 0] : Fin 3 → Nat) a + S512x1x32.size a ≤ S512x24x32.size a
  inb_S24x480x32_S1x480x32_22_0_0 : ∀ a, (![22, 0, 0] : Fin 3 → Nat) a + S1x480x32.size a ≤ S24x480x32.size a
  inb_S24x32_S1x32_22_0 : ∀ a, (![22, 0] : Fin 2 → Nat) a + S1x32.size a ≤ S24x32.size a
  inb_S512x24x32_S512x1x32_0_22_0 : ∀ a, (![0, 22, 0] : Fin 3 → Nat) a + S512x1x32.size a ≤ S512x24x32.size a
  inb_S24x480x32_S1x480x32_23_0_0 : ∀ a, (![23, 0, 0] : Fin 3 → Nat) a + S1x480x32.size a ≤ S24x480x32.size a
  inb_S24x32_S1x32_23_0 : ∀ a, (![23, 0] : Fin 2 → Nat) a + S1x32.size a ≤ S24x32.size a
  inb_S512x24x32_S512x1x32_0_23_0 : ∀ a, (![0, 23, 0] : Fin 3 → Nat) a + S512x1x32.size a ≤ S512x24x32.size a
  dot_S512x480_S480x32_S512x32_1_0_0_1_n_n_wf : DotDims.WF S512x480 S480x32 S512x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x24x32.size a ≤ S32768x24x32.size a
  hwx0_0 : ∀ i : grid0.Coords, EltTy.bits .f32 = 32 ∨ (Rect.block (s := S32768x24x32) S512x24x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x448.size a ≤ S32768x448.size a
  hwx0_1 : ∀ i : grid0.Coords, EltTy.bits .f32 = 32 ∨ (Rect.block (s := S32768x448) S512x448.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S24x480x32.size a ≤ S24x480x32.size a
  hwx0_2 : ∀ i : grid0.Coords, EltTy.bits .f32 = 32 ∨ (Rect.block (s := S24x480x32) S24x480x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S24x32.size a ≤ S24x32.size a
  hwx0_3 : ∀ i : grid0.Coords, EltTy.bits .f32 = 32 ∨ (Rect.block (s := S24x32) S24x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S24x480x32.size a ≤ S24x480x32.size a
  hwx0_4 : ∀ i : grid0.Coords, EltTy.bits .f32 = 32 ∨ (Rect.block (s := S24x480x32) S24x480x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S24x32.size a ≤ S24x32.size a
  hwx0_5 : ∀ i : grid0.Coords, EltTy.bits .f32 = 32 ∨ (Rect.block (s := S24x32) S24x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S24x480x32.size a ≤ S24x480x32.size a
  hwx0_6 : ∀ i : grid0.Coords, EltTy.bits .f32 = 32 ∨ (Rect.block (s := S24x480x32) S24x480x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S24x32.size a ≤ S24x32.size a
  hwx0_7 : ∀ i : grid0.Coords, EltTy.bits .f32 = 32 ∨ (Rect.block (s := S24x32) S24x32.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x24x32.size a ≤ S32768x24x32.size a
  hwx0_8 : ∀ i : grid0.Coords, EltTy.bits .f32 = 32 ∨ (Rect.block (s := S32768x24x32) S512x24x32.size (cc0_transform_8 i) (hinb0_8 i)).WholeWords (EltTy.packing .f32)

variable [Facts₀]

def dot_S512x480_S480x32_S512x32_1_0_0_1_n_n : DotDims S512x480 S480x32 S512x32 where
  lhsContracting := [1]
  rhsContracting := [0]
  lhsNonContracting := [0]
  rhsNonContracting := [1]
  lhsBatch := []
  rhsBatch := []
  wf := dot_S512x480_S480x32_S512x32_1_0_0_1_n_n_wf

abbrev win0_0 : Pipeline.Window sig grid0 :=
  Pipeline.Window.ofSpec (Memref.whole main_arg0) S512x24x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x448.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S24x480x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S24x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S24x480x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S24x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S24x480x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S24x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v0) S512x24x32.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S32768x24x32 : Shape := ⟨3, ![32768, 24, 32]⟩
abbrev S32768x448 : Shape := ⟨2, ![32768, 448]⟩
abbrev S24x480x32 : Shape := ⟨3, ![24, 480, 32]⟩
abbrev S24x32 : Shape := ⟨2, ![24, 32]⟩
abbrev S32768x1x32 : Shape := ⟨3, ![32768, 1, 32]⟩
abbrev S32768x32 : Shape := ⟨2, ![32768, 32]⟩
abbrev S1x480x32 : Shape := ⟨3, ![1, 480, 32]⟩
abbrev S480x32 : Shape := ⟨2, ![480, 32]⟩
abbrev S1x32 : Shape := ⟨2, ![1, 32]⟩
abbrev S32 : Shape := ⟨1, ![32]⟩
abbrev S32768x480 : Shape := ⟨2, ![32768, 480]⟩
abbrev S_ : Shape := ⟨0, ![]⟩
abbrev S32768x16x32 : Shape := ⟨3, ![32768, 16, 32]⟩
abbrev S32768x8x32 : Shape := ⟨3, ![32768, 8, 32]⟩

abbrev nBuf : Space → Nat
  | .hbm => 1285
  | .vmem => 0
  | .smem => 0
  | _ => 0

abbrev hbmTy0_0 (i : Nat) : BufTy := match i % 128 with
  | 0 => ⟨S32768x24x32, .f32⟩
  | 1 => ⟨S32768x448, .f32⟩
  | 2 => ⟨S24x480x32, .f32⟩
  | 3 => ⟨S24x32, .f32⟩
  | 4 => ⟨S24x480x32, .f32⟩
  | 5 => ⟨S24x32, .f32⟩
  | 6 => ⟨S24x480x32, .f32⟩
  | 7 => ⟨S24x32, .f32⟩
  | 8 => ⟨S32768x1x32, .f32⟩
  | 9 => ⟨S32768x32, .f32⟩
  | 10 => ⟨S32768x1x32, .f32⟩
  | 11 => ⟨S32768x32, .f32⟩
  | 12 => ⟨S32768x1x32, .f32⟩
  | 13 => ⟨S32768x32, .f32⟩
  | 14 => ⟨S32768x1x32, .f32⟩
  | 15 => ⟨S32768x32, .f32⟩
  | 16 => ⟨S32768x1x32, .f32⟩
  | 17 => ⟨S32768x32, .f32⟩
  | 18 => ⟨S32768x1x32, .f32⟩
  | 19 => ⟨S32768x32, .f32⟩
  | 20 => ⟨S32768x1x32, .f32⟩
  | 21 => ⟨S32768x32, .f32⟩
  | 22 => ⟨S32768x1x32, .f32⟩
  | 23 => ⟨S32768x32, .f32⟩
  | 24 => ⟨S32768x1x32, .f32⟩
  | 25 => ⟨S32768x32, .f32⟩
  | 26 => ⟨S32768x1x32, .f32⟩
  | 27 => ⟨S32768x32, .f32⟩
  | 28 => ⟨S32768x1x32, .f32⟩
  | 29 => ⟨S32768x32, .f32⟩
  | 30 => ⟨S32768x1x32, .f32⟩
  | 31 => ⟨S32768x32, .f32⟩
  | 32 => ⟨S32768x1x32, .f32⟩
  | 33 => ⟨S32768x32, .f32⟩
  | 34 => ⟨S32768x1x32, .f32⟩
  | 35 => ⟨S32768x32, .f32⟩
  | 36 => ⟨S32768x1x32, .f32⟩
  | 37 => ⟨S32768x32, .f32⟩
  | 38 => ⟨S32768x1x32, .f32⟩
  | 39 => ⟨S32768x32, .f32⟩
  | 40 => ⟨S32768x1x32, .f32⟩
  | 41 => ⟨S32768x32, .f32⟩
  | 42 => ⟨S32768x1x32, .f32⟩
  | 43 => ⟨S32768x32, .f32⟩
  | 44 => ⟨S32768x1x32, .f32⟩
  | 45 => ⟨S32768x32, .f32⟩
  | 46 => ⟨S32768x1x32, .f32⟩
  | 47 => ⟨S32768x32, .f32⟩
  | 48 => ⟨S32768x1x32, .f32⟩
  | 49 => ⟨S32768x32, .f32⟩
  | 50 => ⟨S32768x1x32, .f32⟩
  | 51 => ⟨S32768x32, .f32⟩
  | 52 => ⟨S32768x1x32, .f32⟩
  | 53 => ⟨S32768x32, .f32⟩
  | 54 => ⟨S32768x1x32, .f32⟩
  | 55 => ⟨S32768x32, .f32⟩
  | 56 => ⟨S32768x1x32, .f32⟩
  | 57 => ⟨S32768x32, .f32⟩
  | 58 => ⟨S1x480x32, .f32⟩
  | 59 => ⟨S480x32, .f32⟩
  | 60 => ⟨S1x32, .f32⟩
  | 61 => ⟨S32, .f32⟩
  | 62 => ⟨S1x480x32, .f32⟩
  | 63 => ⟨S480x32, .f32⟩
  | 64 => ⟨S1x32, .f32⟩
  | 65 => ⟨S32, .f32⟩
  | 66 => ⟨S1x480x32, .f32⟩
  | 67 => ⟨S480x32, .f32⟩
  | 68 => ⟨S1x32, .f32⟩
  | 69 => ⟨S32, .f32⟩
  | 70 => ⟨S32768x480, .f32⟩
  | 71 => ⟨S32768x32, .f32⟩
  | 72 => ⟨S1x32, .f32⟩
  | 73 => ⟨S32768x32, .f32⟩
  | 74 => ⟨S32768x32, .f32⟩
  | 75 => ⟨S32768x32, .f32⟩
  | 76 => ⟨S32768x32, .f32⟩
  | 77 => ⟨S_, .f32⟩
  | 78 => ⟨S32768x32, .f32⟩
  | 79 => ⟨S32768x32, .f32⟩
  | 80 => ⟨S_, .f32⟩
  | 81 => ⟨S32768x32, .f32⟩
  | 82 => ⟨S32768x32, .f32⟩
  | 83 => ⟨S32768x32, .f32⟩
  | 84 => ⟨S1x32, .f32⟩
  | 85 => ⟨S32768x32, .f32⟩
  | 86 => ⟨S32768x32, .f32⟩
  | 87 => ⟨S32768x32, .f32⟩
  | 88 => ⟨S32768x32, .f32⟩
  | 89 => ⟨S_, .f32⟩
  | 90 => ⟨S32768x32, .f32⟩
  | 91 => ⟨S32768x32, .f32⟩
  | 92 => ⟨S_, .f32⟩
  | 93 => ⟨S32768x32, .f32⟩
  | 94 => ⟨S32768x32, .f32⟩
  | 95 => ⟨S32768x32, .f32⟩
  | 96 => ⟨S32768x480, .f32⟩
  | 97 => ⟨S32768x32, .f32⟩
  | 98 => ⟨S1x32, .f32⟩
  | 99 => ⟨S32768x32, .f32⟩
  | 100 => ⟨S32768x32, .f32⟩
  | 101 => ⟨S32768x32, .f32⟩
  | 102 => ⟨S_, .f32⟩
  | 103 => ⟨S32768x32, .f32⟩
  | 104 => ⟨S32768x32, .f32⟩
  | 105 => ⟨S32768x32, .f32⟩
  | 106 => ⟨S32768x32, .f32⟩
  | 107 => ⟨S32768x32, .f32⟩
  | 108 => ⟨S1x480x32, .f32⟩
  | 109 => ⟨S480x32, .f32⟩
  | 110 => ⟨S1x32, .f32⟩
  | 111 => ⟨S32, .f32⟩
  | 112 => ⟨S1x480x32, .f32⟩
  | 113 => ⟨S480x32, .f32⟩
  | 114 => ⟨S1x32, .f32⟩
  | 115 => ⟨S32, .f32⟩
  | 116 => ⟨S1x480x32, .f32⟩
  | 117 => ⟨S480x32, .f32⟩
  | 118 => ⟨S1x32, .f32⟩
  | 119 => ⟨S32, .f32⟩
  | 120 => ⟨S32768x480, .f32⟩
  | 121 => ⟨S32768x32, .f32⟩
  | 122 => ⟨S1x32, .f32⟩
  | 123 => ⟨S32768x32, .f32⟩
  | 124 => ⟨S32768x32, .f32⟩
  | 125 => ⟨S32768x32, .f32⟩
  | 126 => ⟨S32768x32, .f32⟩
  | 127 => ⟨S_, .f32⟩
  | _ => ⟨S32768x24x32, .f32⟩

abbrev hbmTy0_1 (i : Nat) : BufTy := match i % 128 with
  | 0 => ⟨S32768x32, .f32⟩
  | 1 => ⟨S32768x32, .f32⟩
  | 2 => ⟨S_, .f32⟩
  | 3 => ⟨S32768x32, .f32⟩
  | 4 => ⟨S32768x32, .f32⟩
  | 5 => ⟨S32768x32, .f32⟩
  | 6 => ⟨S1x32, .f32⟩
  | 7 => ⟨S32768x32, .f32⟩
  | 8 => ⟨S32768x32, .f32⟩
  | 9 => ⟨S32768x32, .f32⟩
  | 10 => ⟨S32768x32, .f32⟩
  | 11 => ⟨S_, .f32⟩
  | 12 => ⟨S32768x32, .f32⟩
  | 13 => ⟨S32768x32, .f32⟩
  | 14 => ⟨S_, .f32⟩
  | 15 => ⟨S32768x32, .f32⟩
  | 16 => ⟨S32768x32, .f32⟩
  | 17 => ⟨S32768x32, .f32⟩
  | 18 => ⟨S32768x480, .f32⟩
  | 19 => ⟨S32768x32, .f32⟩
  | 20 => ⟨S1x32, .f32⟩
  | 21 => ⟨S32768x32, .f32⟩
  | 22 => ⟨S32768x32, .f32⟩
  | 23 => ⟨S32768x32, .f32⟩
  | 24 => ⟨S_, .f32⟩
  | 25 => ⟨S32768x32, .f32⟩
  | 26 => ⟨S32768x32, .f32⟩
  | 27 => ⟨S32768x32, .f32⟩
  | 28 => ⟨S32768x32, .f32⟩
  | 29 => ⟨S32768x32, .f32⟩
  | 30 => ⟨S1x480x32, .f32⟩
  | 31 => ⟨S480x32, .f32⟩
  | 32 => ⟨S1x32, .f32⟩
  | 33 => ⟨S32, .f32⟩
  | 34 => ⟨S1x480x32, .f32⟩
  | 35 => ⟨S480x32, .f32⟩
  | 36 => ⟨S1x32, .f32⟩
  | 37 => ⟨S32, .f32⟩
  | 38 => ⟨S1x480x32, .f32⟩
  | 39 => ⟨S480x32, .f32⟩
  | 40 => ⟨S1x32, .f32⟩
  | 41 => ⟨S32, .f32⟩
  | 42 => ⟨S32768x480, .f32⟩
  | 43 => ⟨S32768x32, .f32⟩
  | 44 => ⟨S1x32, .f32⟩
  | 45 => ⟨S32768x32, .f32⟩
  | 46 => ⟨S32768x32, .f32⟩
  | 47 => ⟨S32768x32, .f32⟩
  | 48 => ⟨S32768x32, .f32⟩
  | 49 => ⟨S_, .f32⟩
  | 50 => ⟨S32768x32, .f32⟩
  | 51 => ⟨S32768x32, .f32⟩
  | 52 => ⟨S_, .f32⟩
  | 53 => ⟨S32768x32, .f32⟩
  | 54 => ⟨S32768x32, .f32⟩
  | 55 => ⟨S32768x32, .f32⟩
  | 56 => ⟨S1x32, .f32⟩
  | 57 => ⟨S32768x32, .f32⟩
  | 58 => ⟨S32768x32, .f32⟩
  | 59 => ⟨S32768x32, .f32⟩
  | 60 => ⟨S32768x32, .f32⟩
  | 61 => ⟨S_, .f32⟩
  | 62 => ⟨S32768x32, .f32⟩
  | 63 => ⟨S32768x32, .f32⟩
  | 64 => ⟨S_, .f32⟩
  | 65 => ⟨S32768x32, .f32⟩
  | 66 => ⟨S32768x32, .f32⟩
  | 67 => ⟨S32768x32, .f32⟩
  | 68 => ⟨S32768x480, .f32⟩
  | 69 => ⟨S32768x32, .f32⟩
  | 70 => ⟨S1x32, .f32⟩
  | 71 => ⟨S32768x32, .f32⟩
  | 72 => ⟨S32768x32, .f32⟩
  | 73 => ⟨S32768x32, .f32⟩
  | 74 => ⟨S_, .f32⟩
  | 75 => ⟨S32768x32, .f32⟩
  | 76 => ⟨S32768x32, .f32⟩
  | 77 => ⟨S32768x32, .f32⟩
  | 78 => ⟨S32768x32, .f32⟩
  | 79 => ⟨S32768x32, .f32⟩
  | 80 => ⟨S1x480x32, .f32⟩
  | 81 => ⟨S480x32, .f32⟩
  | 82 => ⟨S1x32, .f32⟩
  | 83 => ⟨S32, .f32⟩
  | 84 => ⟨S1x480x32, .f32⟩
  | 85 => ⟨S480x32, .f32⟩
  | 86 => ⟨S1x32, .f32⟩
  | 87 => ⟨S32, .f32⟩
  | 88 => ⟨S1x480x32, .f32⟩
  | 89 => ⟨S480x32, .f32⟩
  | 90 => ⟨S1x32, .f32⟩
  | 91 => ⟨S32, .f32⟩
  | 92 => ⟨S32768x480, .f32⟩
  | 93 => ⟨S32768x32, .f32⟩
  | 94 => ⟨S1x32, .f32⟩
  | 95 => ⟨S32768x32, .f32⟩
  | 96 => ⟨S32768x32, .f32⟩
  | 97 => ⟨S32768x32, .f32⟩
  | 98 => ⟨S32768x32, .f32⟩
  | 99 => ⟨S_, .f32⟩
  | 100 => ⟨S32768x32, .f32⟩
  | 101 => ⟨S32768x32, .f32⟩
  | 102 => ⟨S_, .f32⟩
  | 103 => ⟨S32768x32, .f32⟩
  | 104 => ⟨S32768x32, .f32⟩
  | 105 => ⟨S32768x32, .f32⟩
  | 106 => ⟨S1x32, .f32⟩
  | 107 => ⟨S32768x32, .f32⟩
  | 108 => ⟨S32768x32, .f32⟩
  | 109 => ⟨S32768x32, .f32⟩
  | 110 => ⟨S32768x32, .f32⟩
  | 111 => ⟨S_, .f32⟩
  | 112 => ⟨S32768x32, .f32⟩
  | 113 => ⟨S32768x32, .f32⟩
  | 114 => ⟨S_, .f32⟩
  | 115 => ⟨S32768x32, .f32⟩
  | 116 => ⟨S32768x32, .f32⟩
  | 117 => ⟨S32768x32, .f32⟩
  | 118 => ⟨S32768x480, .f32⟩
  | 119 => ⟨S32768x32, .f32⟩
  | 120 => ⟨S1x32, .f32⟩
  | 121 => ⟨S32768x32, .f32⟩
  | 122 => ⟨S32768x32, .f32⟩
  | 123 => ⟨S32768x32, .f32⟩
  | 124 => ⟨S_, .f32⟩
  | 125 => ⟨S32768x32, .f32⟩
  | 126 => ⟨S32768x32, .f32⟩
  | 127 => ⟨S32768x32, .f32⟩
  | _ => ⟨S32768x24x32, .f32⟩

abbrev hbmTy0_2 (i : Nat) : BufTy := match i % 128 with
  | 0 => ⟨S32768x32, .f32⟩
  | 1 => ⟨S32768x32, .f32⟩
  | 2 => ⟨S1x480x32, .f32⟩
  | 3 => ⟨S480x32, .f32⟩
  | 4 => ⟨S1x32, .f32⟩
  | 5 => ⟨S32, .f32⟩
  | 6 => ⟨S1x480x32, .f32⟩
  | 7 => ⟨S480x32, .f32⟩
  | 8 => ⟨S1x32, .f32⟩
  | 9 => ⟨S32, .f32⟩
  | 10 => ⟨S1x480x32, .f32⟩
  | 11 => ⟨S480x32, .f32⟩
  | 12 => ⟨S1x32, .f32⟩
  | 13 => ⟨S32, .f32⟩
  | 14 => ⟨S32768x480, .f32⟩
  | 15 => ⟨S32768x32, .f32⟩
  | 16 => ⟨S1x32, .f32⟩
  | 17 => ⟨S32768x32, .f32⟩
  | 18 => ⟨S32768x32, .f32⟩
  | 19 => ⟨S32768x32, .f32⟩
  | 20 => ⟨S32768x32, .f32⟩
  | 21 => ⟨S_, .f32⟩
  | 22 => ⟨S32768x32, .f32⟩
  | 23 => ⟨S32768x32, .f32⟩
  | 24 => ⟨S_, .f32⟩
  | 25 => ⟨S32768x32, .f32⟩
  | 26 => ⟨S32768x32, .f32⟩
  | 27 => ⟨S32768x32, .f32⟩
  | 28 => ⟨S1x32, .f32⟩
  | 29 => ⟨S32768x32, .f32⟩
  | 30 => ⟨S32768x32, .f32⟩
  | 31 => ⟨S32768x32, .f32⟩
  | 32 => ⟨S32768x32, .f32⟩
  | 33 => ⟨S_, .f32⟩
  | 34 => ⟨S32768x32, .f32⟩
  | 35 => ⟨S32768x32, .f32⟩
  | 36 => ⟨S_, .f32⟩
  | 37 => ⟨S32768x32, .f32⟩
  | 38 => ⟨S32768x32, .f32⟩
  | 39 => ⟨S32768x32, .f32⟩
  | 40 => ⟨S32768x480, .f32⟩
  | 41 => ⟨S32768x32, .f32⟩
  | 42 => ⟨S1x32, .f32⟩
  | 43 => ⟨S32768x32, .f32⟩
  | 44 => ⟨S32768x32, .f32⟩
  | 45 => ⟨S32768x32, .f32⟩
  | 46 => ⟨S_, .f32⟩
  | 47 => ⟨S32768x32, .f32⟩
  | 48 => ⟨S32768x32, .f32⟩
  | 49 => ⟨S32768x32, .f32⟩
  | 50 => ⟨S32768x32, .f32⟩
  | 51 => ⟨S32768x32, .f32⟩
  | 52 => ⟨S1x480x32, .f32⟩
  | 53 => ⟨S480x32, .f32⟩
  | 54 => ⟨S1x32, .f32⟩
  | 55 => ⟨S32, .f32⟩
  | 56 => ⟨S1x480x32, .f32⟩
  | 57 => ⟨S480x32, .f32⟩
  | 58 => ⟨S1x32, .f32⟩
  | 59 => ⟨S32, .f32⟩
  | 60 => ⟨S1x480x32, .f32⟩
  | 61 => ⟨S480x32, .f32⟩
  | 62 => ⟨S1x32, .f32⟩
  | 63 => ⟨S32, .f32⟩
  | 64 => ⟨S32768x480, .f32⟩
  | 65 => ⟨S32768x32, .f32⟩
  | 66 => ⟨S1x32, .f32⟩
  | 67 => ⟨S32768x32, .f32⟩
  | 68 => ⟨S32768x32, .f32⟩
  | 69 => ⟨S32768x32, .f32⟩
  | 70 => ⟨S32768x32, .f32⟩
  | 71 => ⟨S_, .f32⟩
  | 72 => ⟨S32768x32, .f32⟩
  | 73 => ⟨S32768x32, .f32⟩
  | 74 => ⟨S_, .f32⟩
  | 75 => ⟨S32768x32, .f32⟩
  | 76 => ⟨S32768x32, .f32⟩
  | 77 => ⟨S32768x32, .f32⟩
  | 78 => ⟨S1x32, .f32⟩
  | 79 => ⟨S32768x32, .f32⟩
  | 80 => ⟨S32768x32, .f32⟩
  | 81 => ⟨S32768x32, .f32⟩
  | 82 => ⟨S32768x32, .f32⟩
  | 83 => ⟨S_, .f32⟩
  | 84 => ⟨S32768x32, .f32⟩
  | 85 => ⟨S32768x32, .f32⟩
  | 86 => ⟨S_, .f32⟩
  | 87 => ⟨S32768x32, .f32⟩
  | 88 => ⟨S32768x32, .f32⟩
  | 89 => ⟨S32768x32, .f32⟩
  | 90 => ⟨S32768x480, .f32⟩
  | 91 => ⟨S32768x32, .f32⟩
  | 92 => ⟨S1x32, .f32⟩
  | 93 => ⟨S32768x32, .f32⟩
  | 94 => ⟨S32768x32, .f32⟩
  | 95 => ⟨S32768x32, .f32⟩
  | 96 => ⟨S_, .f32⟩
  | 97 => ⟨S32768x32, .f32⟩
  | 98 => ⟨S32768x32, .f32⟩
  | 99 => ⟨S32768x32, .f32⟩
  | 100 => ⟨S32768x32, .f32⟩
  | 101 => ⟨S32768x32, .f32⟩
  | 102 => ⟨S1x480x32, .f32⟩
  | 103 => ⟨S480x32, .f32⟩
  | 104 => ⟨S1x32, .f32⟩
  | 105 => ⟨S32, .f32⟩
  | 106 => ⟨S1x480x32, .f32⟩
  | 107 => ⟨S480x32, .f32⟩
  | 108 => ⟨S1x32, .f32⟩
  | 109 => ⟨S32, .f32⟩
  | 110 => ⟨S1x480x32, .f32⟩
  | 111 => ⟨S480x32, .f32⟩
  | 112 => ⟨S1x32, .f32⟩
  | 113 => ⟨S32, .f32⟩
  | 114 => ⟨S32768x480, .f32⟩
  | 115 => ⟨S32768x32, .f32⟩
  | 116 => ⟨S1x32, .f32⟩
  | 117 => ⟨S32768x32, .f32⟩
  | 118 => ⟨S32768x32, .f32⟩
  | 119 => ⟨S32768x32, .f32⟩
  | 120 => ⟨S32768x32, .f32⟩
  | 121 => ⟨S_, .f32⟩
  | 122 => ⟨S32768x32, .f32⟩
  | 123 => ⟨S32768x32, .f32⟩
  | 124 => ⟨S_, .f32⟩
  | 125 => ⟨S32768x32, .f32⟩
  | 126 => ⟨S32768x32, .f32⟩
  | 127 => ⟨S32768x32, .f32⟩
  | _ => ⟨S32768x24x32, .f32⟩

abbrev hbmTy0_3 (i : Nat) : BufTy := match i % 128 with
  | 0 => ⟨S1x32, .f32⟩
  | 1 => ⟨S32768x32, .f32⟩
  | 2 => ⟨S32768x32, .f32⟩
  | 3 => ⟨S32768x32, .f32⟩
  | 4 => ⟨S32768x32, .f32⟩
  | 5 => ⟨S_, .f32⟩
  | 6 => ⟨S32768x32, .f32⟩
  | 7 => ⟨S32768x32, .f32⟩
  | 8 => ⟨S_, .f32⟩
  | 9 => ⟨S32768x32, .f32⟩
  | 10 => ⟨S32768x32, .f32⟩
  | 11 => ⟨S32768x32, .f32⟩
  | 12 => ⟨S32768x480, .f32⟩
  | 13 => ⟨S32768x32, .f32⟩
  | 14 => ⟨S1x32, .f32⟩
  | 15 => ⟨S32768x32, .f32⟩
  | 16 => ⟨S32768x32, .f32⟩
  | 17 => ⟨S32768x32, .f32⟩
  | 18 => ⟨S_, .f32⟩
  | 19 => ⟨S32768x32, .f32⟩
  | 20 => ⟨S32768x32, .f32⟩
  | 21 => ⟨S32768x32, .f32⟩
  | 22 => ⟨S32768x32, .f32⟩
  | 23 => ⟨S32768x32, .f32⟩
  | 24 => ⟨S1x480x32, .f32⟩
  | 25 => ⟨S480x32, .f32⟩
  | 26 => ⟨S1x32, .f32⟩
  | 27 => ⟨S32, .f32⟩
  | 28 => ⟨S1x480x32, .f32⟩
  | 29 => ⟨S480x32, .f32⟩
  | 30 => ⟨S1x32, .f32⟩
  | 31 => ⟨S32, .f32⟩
  | 32 => ⟨S1x480x32, .f32⟩
  | 33 => ⟨S480x32, .f32⟩
  | 34 => ⟨S1x32, .f32⟩
  | 35 => ⟨S32, .f32⟩
  | 36 => ⟨S32768x480, .f32⟩
  | 37 => ⟨S32768x32, .f32⟩
  | 38 => ⟨S1x32, .f32⟩
  | 39 => ⟨S32768x32, .f32⟩
  | 40 => ⟨S32768x32, .f32⟩
  | 41 => ⟨S32768x32, .f32⟩
  | 42 => ⟨S32768x32, .f32⟩
  | 43 => ⟨S_, .f32⟩
  | 44 => ⟨S32768x32, .f32⟩
  | 45 => ⟨S32768x32, .f32⟩
  | 46 => ⟨S_, .f32⟩
  | 47 => ⟨S32768x32, .f32⟩
  | 48 => ⟨S32768x32, .f32⟩
  | 49 => ⟨S32768x32, .f32⟩
  | 50 => ⟨S1x32, .f32⟩
  | 51 => ⟨S32768x32, .f32⟩
  | 52 => ⟨S32768x32, .f32⟩
  | 53 => ⟨S32768x32, .f32⟩
  | 54 => ⟨S32768x32, .f32⟩
  | 55 => ⟨S_, .f32⟩
  | 56 => ⟨S32768x32, .f32⟩
  | 57 => ⟨S32768x32, .f32⟩
  | 58 => ⟨S_, .f32⟩
  | 59 => ⟨S32768x32, .f32⟩
  | 60 => ⟨S32768x32, .f32⟩
  | 61 => ⟨S32768x32, .f32⟩
  | 62 => ⟨S32768x480, .f32⟩
  | 63 => ⟨S32768x32, .f32⟩
  | 64 => ⟨S1x32, .f32⟩
  | 65 => ⟨S32768x32, .f32⟩
  | 66 => ⟨S32768x32, .f32⟩
  | 67 => ⟨S32768x32, .f32⟩
  | 68 => ⟨S_, .f32⟩
  | 69 => ⟨S32768x32, .f32⟩
  | 70 => ⟨S32768x32, .f32⟩
  | 71 => ⟨S32768x32, .f32⟩
  | 72 => ⟨S32768x32, .f32⟩
  | 73 => ⟨S32768x32, .f32⟩
  | 74 => ⟨S1x480x32, .f32⟩
  | 75 => ⟨S480x32, .f32⟩
  | 76 => ⟨S1x32, .f32⟩
  | 77 => ⟨S32, .f32⟩
  | 78 => ⟨S1x480x32, .f32⟩
  | 79 => ⟨S480x32, .f32⟩
  | 80 => ⟨S1x32, .f32⟩
  | 81 => ⟨S32, .f32⟩
  | 82 => ⟨S1x480x32, .f32⟩
  | 83 => ⟨S480x32, .f32⟩
  | 84 => ⟨S1x32, .f32⟩
  | 85 => ⟨S32, .f32⟩
  | 86 => ⟨S32768x480, .f32⟩
  | 87 => ⟨S32768x32, .f32⟩
  | 88 => ⟨S1x32, .f32⟩
  | 89 => ⟨S32768x32, .f32⟩
  | 90 => ⟨S32768x32, .f32⟩
  | 91 => ⟨S32768x32, .f32⟩
  | 92 => ⟨S32768x32, .f32⟩
  | 93 => ⟨S_, .f32⟩
  | 94 => ⟨S32768x32, .f32⟩
  | 95 => ⟨S32768x32, .f32⟩
  | 96 => ⟨S_, .f32⟩
  | 97 => ⟨S32768x32, .f32⟩
  | 98 => ⟨S32768x32, .f32⟩
  | 99 => ⟨S32768x32, .f32⟩
  | 100 => ⟨S1x32, .f32⟩
  | 101 => ⟨S32768x32, .f32⟩
  | 102 => ⟨S32768x32, .f32⟩
  | 103 => ⟨S32768x32, .f32⟩
  | 104 => ⟨S32768x32, .f32⟩
  | 105 => ⟨S_, .f32⟩
  | 106 => ⟨S32768x32, .f32⟩
  | 107 => ⟨S32768x32, .f32⟩
  | 108 => ⟨S_, .f32⟩
  | 109 => ⟨S32768x32, .f32⟩
  | 110 => ⟨S32768x32, .f32⟩
  | 111 => ⟨S32768x32, .f32⟩
  | 112 => ⟨S32768x480, .f32⟩
  | 113 => ⟨S32768x32, .f32⟩
  | 114 => ⟨S1x32, .f32⟩
  | 115 => ⟨S32768x32, .f32⟩
  | 116 => ⟨S32768x32, .f32⟩
  | 117 => ⟨S32768x32, .f32⟩
  | 118 => ⟨S_, .f32⟩
  | 119 => ⟨S32768x32, .f32⟩
  | 120 => ⟨S32768x32, .f32⟩
  | 121 => ⟨S32768x32, .f32⟩
  | 122 => ⟨S32768x32, .f32⟩
  | 123 => ⟨S32768x32, .f32⟩
  | 124 => ⟨S1x480x32, .f32⟩
  | 125 => ⟨S480x32, .f32⟩
  | 126 => ⟨S1x32, .f32⟩
  | 127 => ⟨S32, .f32⟩
  | _ => ⟨S32768x24x32, .f32⟩

abbrev hbmTy0_4 (i : Nat) : BufTy := match i % 128 with
  | 0 => ⟨S1x480x32, .f32⟩
  | 1 => ⟨S480x32, .f32⟩
  | 2 => ⟨S1x32, .f32⟩
  | 3 => ⟨S32, .f32⟩
  | 4 => ⟨S1x480x32, .f32⟩
  | 5 => ⟨S480x32, .f32⟩
  | 6 => ⟨S1x32, .f32⟩
  | 7 => ⟨S32, .f32⟩
  | 8 => ⟨S32768x480, .f32⟩
  | 9 => ⟨S32768x32, .f32⟩
  | 10 => ⟨S1x32, .f32⟩
  | 11 => ⟨S32768x32, .f32⟩
  | 12 => ⟨S32768x32, .f32⟩
  | 13 => ⟨S32768x32, .f32⟩
  | 14 => ⟨S32768x32, .f32⟩
  | 15 => ⟨S_, .f32⟩
  | 16 => ⟨S32768x32, .f32⟩
  | 17 => ⟨S32768x32, .f32⟩
  | 18 => ⟨S_, .f32⟩
  | 19 => ⟨S32768x32, .f32⟩
  | 20 => ⟨S32768x32, .f32⟩
  | 21 => ⟨S32768x32, .f32⟩
  | 22 => ⟨S1x32, .f32⟩
  | 23 => ⟨S32768x32, .f32⟩
  | 24 => ⟨S32768x32, .f32⟩
  | 25 => ⟨S32768x32, .f32⟩
  | 26 => ⟨S32768x32, .f32⟩
  | 27 => ⟨S_, .f32⟩
  | 28 => ⟨S32768x32, .f32⟩
  | 29 => ⟨S32768x32, .f32⟩
  | 30 => ⟨S_, .f32⟩
  | 31 => ⟨S32768x32, .f32⟩
  | 32 => ⟨S32768x32, .f32⟩
  | 33 => ⟨S32768x32, .f32⟩
  | 34 => ⟨S32768x480, .f32⟩
  | 35 => ⟨S32768x32, .f32⟩
  | 36 => ⟨S1x32, .f32⟩
  | 37 => ⟨S32768x32, .f32⟩
  | 38 => ⟨S32768x32, .f32⟩
  | 39 => ⟨S32768x32, .f32⟩
  | 40 => ⟨S_, .f32⟩
  | 41 => ⟨S32768x32, .f32⟩
  | 42 => ⟨S32768x32, .f32⟩
  | 43 => ⟨S32768x32, .f32⟩
  | 44 => ⟨S32768x32, .f32⟩
  | 45 => ⟨S32768x32, .f32⟩
  | 46 => ⟨S1x480x32, .f32⟩
  | 47 => ⟨S480x32, .f32⟩
  | 48 => ⟨S1x32, .f32⟩
  | 49 => ⟨S32, .f32⟩
  | 50 => ⟨S1x480x32, .f32⟩
  | 51 => ⟨S480x32, .f32⟩
  | 52 => ⟨S1x32, .f32⟩
  | 53 => ⟨S32, .f32⟩
  | 54 => ⟨S1x480x32, .f32⟩
  | 55 => ⟨S480x32, .f32⟩
  | 56 => ⟨S1x32, .f32⟩
  | 57 => ⟨S32, .f32⟩
  | 58 => ⟨S32768x480, .f32⟩
  | 59 => ⟨S32768x32, .f32⟩
  | 60 => ⟨S1x32, .f32⟩
  | 61 => ⟨S32768x32, .f32⟩
  | 62 => ⟨S32768x32, .f32⟩
  | 63 => ⟨S32768x32, .f32⟩
  | 64 => ⟨S32768x32, .f32⟩
  | 65 => ⟨S_, .f32⟩
  | 66 => ⟨S32768x32, .f32⟩
  | 67 => ⟨S32768x32, .f32⟩
  | 68 => ⟨S_, .f32⟩
  | 69 => ⟨S32768x32, .f32⟩
  | 70 => ⟨S32768x32, .f32⟩
  | 71 => ⟨S32768x32, .f32⟩
  | 72 => ⟨S1x32, .f32⟩
  | 73 => ⟨S32768x32, .f32⟩
  | 74 => ⟨S32768x32, .f32⟩
  | 75 => ⟨S32768x32, .f32⟩
  | 76 => ⟨S32768x32, .f32⟩
  | 77 => ⟨S_, .f32⟩
  | 78 => ⟨S32768x32, .f32⟩
  | 79 => ⟨S32768x32, .f32⟩
  | 80 => ⟨S_, .f32⟩
  | 81 => ⟨S32768x32, .f32⟩
  | 82 => ⟨S32768x32, .f32⟩
  | 83 => ⟨S32768x32, .f32⟩
  | 84 => ⟨S32768x480, .f32⟩
  | 85 => ⟨S32768x32, .f32⟩
  | 86 => ⟨S1x32, .f32⟩
  | 87 => ⟨S32768x32, .f32⟩
  | 88 => ⟨S32768x32, .f32⟩
  | 89 => ⟨S32768x32, .f32⟩
  | 90 => ⟨S_, .f32⟩
  | 91 => ⟨S32768x32, .f32⟩
  | 92 => ⟨S32768x32, .f32⟩
  | 93 => ⟨S32768x32, .f32⟩
  | 94 => ⟨S32768x32, .f32⟩
  | 95 => ⟨S32768x32, .f32⟩
  | 96 => ⟨S1x480x32, .f32⟩
  | 97 => ⟨S480x32, .f32⟩
  | 98 => ⟨S1x32, .f32⟩
  | 99 => ⟨S32, .f32⟩
  | 100 => ⟨S1x480x32, .f32⟩
  | 101 => ⟨S480x32, .f32⟩
  | 102 => ⟨S1x32, .f32⟩
  | 103 => ⟨S32, .f32⟩
  | 104 => ⟨S1x480x32, .f32⟩
  | 105 => ⟨S480x32, .f32⟩
  | 106 => ⟨S1x32, .f32⟩
  | 107 => ⟨S32, .f32⟩
  | 108 => ⟨S32768x480, .f32⟩
  | 109 => ⟨S32768x32, .f32⟩
  | 110 => ⟨S1x32, .f32⟩
  | 111 => ⟨S32768x32, .f32⟩
  | 112 => ⟨S32768x32, .f32⟩
  | 113 => ⟨S32768x32, .f32⟩
  | 114 => ⟨S32768x32, .f32⟩
  | 115 => ⟨S_, .f32⟩
  | 116 => ⟨S32768x32, .f32⟩
  | 117 => ⟨S32768x32, .f32⟩
  | 118 => ⟨S_, .f32⟩
  | 119 => ⟨S32768x32, .f32⟩
  | 120 => ⟨S32768x32, .f32⟩
  | 121 => ⟨S32768x32, .f32⟩
  | 122 => ⟨S1x32, .f32⟩
  | 123 => ⟨S32768x32, .f32⟩
  | 124 => ⟨S32768x32, .f32⟩
  | 125 => ⟨S32768x32, .f32⟩
  | 126 => ⟨S32768x32, .f32⟩
  | 127 => ⟨S_, .f32⟩
  | _ => ⟨S32768x24x32, .f32⟩

abbrev hbmTy0_5 (i : Nat) : BufTy := match i % 128 with
  | 0 => ⟨S32768x32, .f32⟩
  | 1 => ⟨S32768x32, .f32⟩
  | 2 => ⟨S_, .f32⟩
  | 3 => ⟨S32768x32, .f32⟩
  | 4 => ⟨S32768x32, .f32⟩
  | 5 => ⟨S32768x32, .f32⟩
  | 6 => ⟨S32768x480, .f32⟩
  | 7 => ⟨S32768x32, .f32⟩
  | 8 => ⟨S1x32, .f32⟩
  | 9 => ⟨S32768x32, .f32⟩
  | 10 => ⟨S32768x32, .f32⟩
  | 11 => ⟨S32768x32, .f32⟩
  | 12 => ⟨S_, .f32⟩
  | 13 => ⟨S32768x32, .f32⟩
  | 14 => ⟨S32768x32, .f32⟩
  | 15 => ⟨S32768x32, .f32⟩
  | 16 => ⟨S32768x32, .f32⟩
  | 17 => ⟨S32768x32, .f32⟩
  | 18 => ⟨S1x480x32, .f32⟩
  | 19 => ⟨S480x32, .f32⟩
  | 20 => ⟨S1x32, .f32⟩
  | 21 => ⟨S32, .f32⟩
  | 22 => ⟨S1x480x32, .f32⟩
  | 23 => ⟨S480x32, .f32⟩
  | 24 => ⟨S1x32, .f32⟩
  | 25 => ⟨S32, .f32⟩
  | 26 => ⟨S1x480x32, .f32⟩
  | 27 => ⟨S480x32, .f32⟩
  | 28 => ⟨S1x32, .f32⟩
  | 29 => ⟨S32, .f32⟩
  | 30 => ⟨S32768x480, .f32⟩
  | 31 => ⟨S32768x32, .f32⟩
  | 32 => ⟨S1x32, .f32⟩
  | 33 => ⟨S32768x32, .f32⟩
  | 34 => ⟨S32768x32, .f32⟩
  | 35 => ⟨S32768x32, .f32⟩
  | 36 => ⟨S32768x32, .f32⟩
  | 37 => ⟨S_, .f32⟩
  | 38 => ⟨S32768x32, .f32⟩
  | 39 => ⟨S32768x32, .f32⟩
  | 40 => ⟨S_, .f32⟩
  | 41 => ⟨S32768x32, .f32⟩
  | 42 => ⟨S32768x32, .f32⟩
  | 43 => ⟨S32768x32, .f32⟩
  | 44 => ⟨S1x32, .f32⟩
  | 45 => ⟨S32768x32, .f32⟩
  | 46 => ⟨S32768x32, .f32⟩
  | 47 => ⟨S32768x32, .f32⟩
  | 48 => ⟨S32768x32, .f32⟩
  | 49 => ⟨S_, .f32⟩
  | 50 => ⟨S32768x32, .f32⟩
  | 51 => ⟨S32768x32, .f32⟩
  | 52 => ⟨S_, .f32⟩
  | 53 => ⟨S32768x32, .f32⟩
  | 54 => ⟨S32768x32, .f32⟩
  | 55 => ⟨S32768x32, .f32⟩
  | 56 => ⟨S32768x480, .f32⟩
  | 57 => ⟨S32768x32, .f32⟩
  | 58 => ⟨S1x32, .f32⟩
  | 59 => ⟨S32768x32, .f32⟩
  | 60 => ⟨S32768x32, .f32⟩
  | 61 => ⟨S32768x32, .f32⟩
  | 62 => ⟨S_, .f32⟩
  | 63 => ⟨S32768x32, .f32⟩
  | 64 => ⟨S32768x32, .f32⟩
  | 65 => ⟨S32768x32, .f32⟩
  | 66 => ⟨S32768x32, .f32⟩
  | 67 => ⟨S32768x32, .f32⟩
  | 68 => ⟨S1x480x32, .f32⟩
  | 69 => ⟨S480x32, .f32⟩
  | 70 => ⟨S1x32, .f32⟩
  | 71 => ⟨S32, .f32⟩
  | 72 => ⟨S1x480x32, .f32⟩
  | 73 => ⟨S480x32, .f32⟩
  | 74 => ⟨S1x32, .f32⟩
  | 75 => ⟨S32, .f32⟩
  | 76 => ⟨S1x480x32, .f32⟩
  | 77 => ⟨S480x32, .f32⟩
  | 78 => ⟨S1x32, .f32⟩
  | 79 => ⟨S32, .f32⟩
  | 80 => ⟨S32768x480, .f32⟩
  | 81 => ⟨S32768x32, .f32⟩
  | 82 => ⟨S1x32, .f32⟩
  | 83 => ⟨S32768x32, .f32⟩
  | 84 => ⟨S32768x32, .f32⟩
  | 85 => ⟨S32768x32, .f32⟩
  | 86 => ⟨S32768x32, .f32⟩
  | 87 => ⟨S_, .f32⟩
  | 88 => ⟨S32768x32, .f32⟩
  | 89 => ⟨S32768x32, .f32⟩
  | 90 => ⟨S_, .f32⟩
  | 91 => ⟨S32768x32, .f32⟩
  | 92 => ⟨S32768x32, .f32⟩
  | 93 => ⟨S32768x32, .f32⟩
  | 94 => ⟨S1x32, .f32⟩
  | 95 => ⟨S32768x32, .f32⟩
  | 96 => ⟨S32768x32, .f32⟩
  | 97 => ⟨S32768x32, .f32⟩
  | 98 => ⟨S32768x32, .f32⟩
  | 99 => ⟨S_, .f32⟩
  | 100 => ⟨S32768x32, .f32⟩
  | 101 => ⟨S32768x32, .f32⟩
  | 102 => ⟨S_, .f32⟩
  | 103 => ⟨S32768x32, .f32⟩
  | 104 => ⟨S32768x32, .f32⟩
  | 105 => ⟨S32768x32, .f32⟩
  | 106 => ⟨S32768x480, .f32⟩
  | 107 => ⟨S32768x32, .f32⟩
  | 108 => ⟨S1x32, .f32⟩
  | 109 => ⟨S32768x32, .f32⟩
  | 110 => ⟨S32768x32, .f32⟩
  | 111 => ⟨S32768x32, .f32⟩
  | 112 => ⟨S_, .f32⟩
  | 113 => ⟨S32768x32, .f32⟩
  | 114 => ⟨S32768x32, .f32⟩
  | 115 => ⟨S32768x32, .f32⟩
  | 116 => ⟨S32768x32, .f32⟩
  | 117 => ⟨S32768x32, .f32⟩
  | 118 => ⟨S1x480x32, .f32⟩
  | 119 => ⟨S480x32, .f32⟩
  | 120 => ⟨S1x32, .f32⟩
  | 121 => ⟨S32, .f32⟩
  | 122 => ⟨S1x480x32, .f32⟩
  | 123 => ⟨S480x32, .f32⟩
  | 124 => ⟨S1x32, .f32⟩
  | 125 => ⟨S32, .f32⟩
  | 126 => ⟨S1x480x32, .f32⟩
  | 127 => ⟨S480x32, .f32⟩
  | _ => ⟨S32768x24x32, .f32⟩

abbrev hbmTy0_6 (i : Nat) : BufTy := match i % 128 with
  | 0 => ⟨S1x32, .f32⟩
  | 1 => ⟨S32, .f32⟩
  | 2 => ⟨S32768x480, .f32⟩
  | 3 => ⟨S32768x32, .f32⟩
  | 4 => ⟨S1x32, .f32⟩
  | 5 => ⟨S32768x32, .f32⟩
  | 6 => ⟨S32768x32, .f32⟩
  | 7 => ⟨S32768x32, .f32⟩
  | 8 => ⟨S32768x32, .f32⟩
  | 9 => ⟨S_, .f32⟩
  | 10 => ⟨S32768x32, .f32⟩
  | 11 => ⟨S32768x32, .f32⟩
  | 12 => ⟨S_, .f32⟩
  | 13 => ⟨S32768x32, .f32⟩
  | 14 => ⟨S32768x32, .f32⟩
  | 15 => ⟨S32768x32, .f32⟩
  | 16 => ⟨S1x32, .f32⟩
  | 17 => ⟨S32768x32, .f32⟩
  | 18 => ⟨S32768x32, .f32⟩
  | 19 => ⟨S32768x32, .f32⟩
  | 20 => ⟨S32768x32, .f32⟩
  | 21 => ⟨S_, .f32⟩
  | 22 => ⟨S32768x32, .f32⟩
  | 23 => ⟨S32768x32, .f32⟩
  | 24 => ⟨S_, .f32⟩
  | 25 => ⟨S32768x32, .f32⟩
  | 26 => ⟨S32768x32, .f32⟩
  | 27 => ⟨S32768x32, .f32⟩
  | 28 => ⟨S32768x480, .f32⟩
  | 29 => ⟨S32768x32, .f32⟩
  | 30 => ⟨S1x32, .f32⟩
  | 31 => ⟨S32768x32, .f32⟩
  | 32 => ⟨S32768x32, .f32⟩
  | 33 => ⟨S32768x32, .f32⟩
  | 34 => ⟨S_, .f32⟩
  | 35 => ⟨S32768x32, .f32⟩
  | 36 => ⟨S32768x32, .f32⟩
  | 37 => ⟨S32768x32, .f32⟩
  | 38 => ⟨S32768x32, .f32⟩
  | 39 => ⟨S32768x32, .f32⟩
  | 40 => ⟨S1x480x32, .f32⟩
  | 41 => ⟨S480x32, .f32⟩
  | 42 => ⟨S1x32, .f32⟩
  | 43 => ⟨S32, .f32⟩
  | 44 => ⟨S1x480x32, .f32⟩
  | 45 => ⟨S480x32, .f32⟩
  | 46 => ⟨S1x32, .f32⟩
  | 47 => ⟨S32, .f32⟩
  | 48 => ⟨S1x480x32, .f32⟩
  | 49 => ⟨S480x32, .f32⟩
  | 50 => ⟨S1x32, .f32⟩
  | 51 => ⟨S32, .f32⟩
  | 52 => ⟨S32768x480, .f32⟩
  | 53 => ⟨S32768x32, .f32⟩
  | 54 => ⟨S1x32, .f32⟩
  | 55 => ⟨S32768x32, .f32⟩
  | 56 => ⟨S32768x32, .f32⟩
  | 57 => ⟨S32768x32, .f32⟩
  | 58 => ⟨S32768x32, .f32⟩
  | 59 => ⟨S_, .f32⟩
  | 60 => ⟨S32768x32, .f32⟩
  | 61 => ⟨S32768x32, .f32⟩
  | 62 => ⟨S_, .f32⟩
  | 63 => ⟨S32768x32, .f32⟩
  | 64 => ⟨S32768x32, .f32⟩
  | 65 => ⟨S32768x32, .f32⟩
  | 66 => ⟨S1x32, .f32⟩
  | 67 => ⟨S32768x32, .f32⟩
  | 68 => ⟨S32768x32, .f32⟩
  | 69 => ⟨S32768x32, .f32⟩
  | 70 => ⟨S32768x32, .f32⟩
  | 71 => ⟨S_, .f32⟩
  | 72 => ⟨S32768x32, .f32⟩
  | 73 => ⟨S32768x32, .f32⟩
  | 74 => ⟨S_, .f32⟩
  | 75 => ⟨S32768x32, .f32⟩
  | 76 => ⟨S32768x32, .f32⟩
  | 77 => ⟨S32768x32, .f32⟩
  | 78 => ⟨S32768x480, .f32⟩
  | 79 => ⟨S32768x32, .f32⟩
  | 80 => ⟨S1x32, .f32⟩
  | 81 => ⟨S32768x32, .f32⟩
  | 82 => ⟨S32768x32, .f32⟩
  | 83 => ⟨S32768x32, .f32⟩
  | 84 => ⟨S_, .f32⟩
  | 85 => ⟨S32768x32, .f32⟩
  | 86 => ⟨S32768x32, .f32⟩
  | 87 => ⟨S32768x32, .f32⟩
  | 88 => ⟨S32768x32, .f32⟩
  | 89 => ⟨S32768x32, .f32⟩
  | 90 => ⟨S1x480x32, .f32⟩
  | 91 => ⟨S480x32, .f32⟩
  | 92 => ⟨S1x32, .f32⟩
  | 93 => ⟨S32, .f32⟩
  | 94 => ⟨S1x480x32, .f32⟩
  | 95 => ⟨S480x32, .f32⟩
  | 96 => ⟨S1x32, .f32⟩
  | 97 => ⟨S32, .f32⟩
  | 98 => ⟨S1x480x32, .f32⟩
  | 99 => ⟨S480x32, .f32⟩
  | 100 => ⟨S1x32, .f32⟩
  | 101 => ⟨S32, .f32⟩
  | 102 => ⟨S32768x480, .f32⟩
  | 103 => ⟨S32768x32, .f32⟩
  | 104 => ⟨S1x32, .f32⟩
  | 105 => ⟨S32768x32, .f32⟩
  | 106 => ⟨S32768x32, .f32⟩
  | 107 => ⟨S32768x32, .f32⟩
  | 108 => ⟨S32768x32, .f32⟩
  | 109 => ⟨S_, .f32⟩
  | 110 => ⟨S32768x32, .f32⟩
  | 111 => ⟨S32768x32, .f32⟩
  | 112 => ⟨S_, .f32⟩
  | 113 => ⟨S32768x32, .f32⟩
  | 114 => ⟨S32768x32, .f32⟩
  | 115 => ⟨S32768x32, .f32⟩
  | 116 => ⟨S1x32, .f32⟩
  | 117 => ⟨S32768x32, .f32⟩
  | 118 => ⟨S32768x32, .f32⟩
  | 119 => ⟨S32768x32, .f32⟩
  | 120 => ⟨S32768x32, .f32⟩
  | 121 => ⟨S_, .f32⟩
  | 122 => ⟨S32768x32, .f32⟩
  | 123 => ⟨S32768x32, .f32⟩
  | 124 => ⟨S_, .f32⟩
  | 125 => ⟨S32768x32, .f32⟩
  | 126 => ⟨S32768x32, .f32⟩
  | 127 => ⟨S32768x32, .f32⟩
  | _ => ⟨S32768x24x32, .f32⟩

abbrev hbmTy0_7 (i : Nat) : BufTy := match i % 128 with
  | 0 => ⟨S32768x480, .f32⟩
  | 1 => ⟨S32768x32, .f32⟩
  | 2 => ⟨S1x32, .f32⟩
  | 3 => ⟨S32768x32, .f32⟩
  | 4 => ⟨S32768x32, .f32⟩
  | 5 => ⟨S32768x32, .f32⟩
  | 6 => ⟨S_, .f32⟩
  | 7 => ⟨S32768x32, .f32⟩
  | 8 => ⟨S32768x32, .f32⟩
  | 9 => ⟨S32768x32, .f32⟩
  | 10 => ⟨S32768x32, .f32⟩
  | 11 => ⟨S32768x32, .f32⟩
  | 12 => ⟨S1x480x32, .f32⟩
  | 13 => ⟨S480x32, .f32⟩
  | 14 => ⟨S1x32, .f32⟩
  | 15 => ⟨S32, .f32⟩
  | 16 => ⟨S1x480x32, .f32⟩
  | 17 => ⟨S480x32, .f32⟩
  | 18 => ⟨S1x32, .f32⟩
  | 19 => ⟨S32, .f32⟩
  | 20 => ⟨S1x480x32, .f32⟩
  | 21 => ⟨S480x32, .f32⟩
  | 22 => ⟨S1x32, .f32⟩
  | 23 => ⟨S32, .f32⟩
  | 24 => ⟨S32768x480, .f32⟩
  | 25 => ⟨S32768x32, .f32⟩
  | 26 => ⟨S1x32, .f32⟩
  | 27 => ⟨S32768x32, .f32⟩
  | 28 => ⟨S32768x32, .f32⟩
  | 29 => ⟨S32768x32, .f32⟩
  | 30 => ⟨S32768x32, .f32⟩
  | 31 => ⟨S_, .f32⟩
  | 32 => ⟨S32768x32, .f32⟩
  | 33 => ⟨S32768x32, .f32⟩
  | 34 => ⟨S_, .f32⟩
  | 35 => ⟨S32768x32, .f32⟩
  | 36 => ⟨S32768x32, .f32⟩
  | 37 => ⟨S32768x32, .f32⟩
  | 38 => ⟨S1x32, .f32⟩
  | 39 => ⟨S32768x32, .f32⟩
  | 40 => ⟨S32768x32, .f32⟩
  | 41 => ⟨S32768x32, .f32⟩
  | 42 => ⟨S32768x32, .f32⟩
  | 43 => ⟨S_, .f32⟩
  | 44 => ⟨S32768x32, .f32⟩
  | 45 => ⟨S32768x32, .f32⟩
  | 46 => ⟨S_, .f32⟩
  | 47 => ⟨S32768x32, .f32⟩
  | 48 => ⟨S32768x32, .f32⟩
  | 49 => ⟨S32768x32, .f32⟩
  | 50 => ⟨S32768x480, .f32⟩
  | 51 => ⟨S32768x32, .f32⟩
  | 52 => ⟨S1x32, .f32⟩
  | 53 => ⟨S32768x32, .f32⟩
  | 54 => ⟨S32768x32, .f32⟩
  | 55 => ⟨S32768x32, .f32⟩
  | 56 => ⟨S_, .f32⟩
  | 57 => ⟨S32768x32, .f32⟩
  | 58 => ⟨S32768x32, .f32⟩
  | 59 => ⟨S32768x32, .f32⟩
  | 60 => ⟨S32768x32, .f32⟩
  | 61 => ⟨S32768x32, .f32⟩
  | 62 => ⟨S1x480x32, .f32⟩
  | 63 => ⟨S480x32, .f32⟩
  | 64 => ⟨S1x32, .f32⟩
  | 65 => ⟨S32, .f32⟩
  | 66 => ⟨S1x480x32, .f32⟩
  | 67 => ⟨S480x32, .f32⟩
  | 68 => ⟨S1x32, .f32⟩
  | 69 => ⟨S32, .f32⟩
  | 70 => ⟨S1x480x32, .f32⟩
  | 71 => ⟨S480x32, .f32⟩
  | 72 => ⟨S1x32, .f32⟩
  | 73 => ⟨S32, .f32⟩
  | 74 => ⟨S32768x480, .f32⟩
  | 75 => ⟨S32768x32, .f32⟩
  | 76 => ⟨S1x32, .f32⟩
  | 77 => ⟨S32768x32, .f32⟩
  | 78 => ⟨S32768x32, .f32⟩
  | 79 => ⟨S32768x32, .f32⟩
  | 80 => ⟨S32768x32, .f32⟩
  | 81 => ⟨S_, .f32⟩
  | 82 => ⟨S32768x32, .f32⟩
  | 83 => ⟨S32768x32, .f32⟩
  | 84 => ⟨S_, .f32⟩
  | 85 => ⟨S32768x32, .f32⟩
  | 86 => ⟨S32768x32, .f32⟩
  | 87 => ⟨S32768x32, .f32⟩
  | 88 => ⟨S1x32, .f32⟩
  | 89 => ⟨S32768x32, .f32⟩
  | 90 => ⟨S32768x32, .f32⟩
  | 91 => ⟨S32768x32, .f32⟩
  | 92 => ⟨S32768x32, .f32⟩
  | 93 => ⟨S_, .f32⟩
  | 94 => ⟨S32768x32, .f32⟩
  | 95 => ⟨S32768x32, .f32⟩
  | 96 => ⟨S_, .f32⟩
  | 97 => ⟨S32768x32, .f32⟩
  | 98 => ⟨S32768x32, .f32⟩
  | 99 => ⟨S32768x32, .f32⟩
  | 100 => ⟨S32768x480, .f32⟩
  | 101 => ⟨S32768x32, .f32⟩
  | 102 => ⟨S1x32, .f32⟩
  | 103 => ⟨S32768x32, .f32⟩
  | 104 => ⟨S32768x32, .f32⟩
  | 105 => ⟨S32768x32, .f32⟩
  | 106 => ⟨S_, .f32⟩
  | 107 => ⟨S32768x32, .f32⟩
  | 108 => ⟨S32768x32, .f32⟩
  | 109 => ⟨S32768x32, .f32⟩
  | 110 => ⟨S32768x32, .f32⟩
  | 111 => ⟨S32768x32, .f32⟩
  | 112 => ⟨S1x480x32, .f32⟩
  | 113 => ⟨S480x32, .f32⟩
  | 114 => ⟨S1x32, .f32⟩
  | 115 => ⟨S32, .f32⟩
  | 116 => ⟨S1x480x32, .f32⟩
  | 117 => ⟨S480x32, .f32⟩
  | 118 => ⟨S1x32, .f32⟩
  | 119 => ⟨S32, .f32⟩
  | 120 => ⟨S1x480x32, .f32⟩
  | 121 => ⟨S480x32, .f32⟩
  | 122 => ⟨S1x32, .f32⟩
  | 123 => ⟨S32, .f32⟩
  | 124 => ⟨S32768x480, .f32⟩
  | 125 => ⟨S32768x32, .f32⟩
  | 126 => ⟨S1x32, .f32⟩
  | 127 => ⟨S32768x32, .f32⟩
  | _ => ⟨S32768x24x32, .f32⟩

abbrev hbmTy0_8 (i : Nat) : BufTy := match i % 128 with
  | 0 => ⟨S32768x32, .f32⟩
  | 1 => ⟨S32768x32, .f32⟩
  | 2 => ⟨S32768x32, .f32⟩
  | 3 => ⟨S_, .f32⟩
  | 4 => ⟨S32768x32, .f32⟩
  | 5 => ⟨S32768x32, .f32⟩
  | 6 => ⟨S_, .f32⟩
  | 7 => ⟨S32768x32, .f32⟩
  | 8 => ⟨S32768x32, .f32⟩
  | 9 => ⟨S32768x32, .f32⟩
  | 10 => ⟨S1x32, .f32⟩
  | 11 => ⟨S32768x32, .f32⟩
  | 12 => ⟨S32768x32, .f32⟩
  | 13 => ⟨S32768x32, .f32⟩
  | 14 => ⟨S32768x32, .f32⟩
  | 15 => ⟨S_, .f32⟩
  | 16 => ⟨S32768x32, .f32⟩
  | 17 => ⟨S32768x32, .f32⟩
  | 18 => ⟨S_, .f32⟩
  | 19 => ⟨S32768x32, .f32⟩
  | 20 => ⟨S32768x32, .f32⟩
  | 21 => ⟨S32768x32, .f32⟩
  | 22 => ⟨S32768x480, .f32⟩
  | 23 => ⟨S32768x32, .f32⟩
  | 24 => ⟨S1x32, .f32⟩
  | 25 => ⟨S32768x32, .f32⟩
  | 26 => ⟨S32768x32, .f32⟩
  | 27 => ⟨S32768x32, .f32⟩
  | 28 => ⟨S_, .f32⟩
  | 29 => ⟨S32768x32, .f32⟩
  | 30 => ⟨S32768x32, .f32⟩
  | 31 => ⟨S32768x32, .f32⟩
  | 32 => ⟨S32768x32, .f32⟩
  | 33 => ⟨S32768x32, .f32⟩
  | 34 => ⟨S1x480x32, .f32⟩
  | 35 => ⟨S480x32, .f32⟩
  | 36 => ⟨S1x32, .f32⟩
  | 37 => ⟨S32, .f32⟩
  | 38 => ⟨S1x480x32, .f32⟩
  | 39 => ⟨S480x32, .f32⟩
  | 40 => ⟨S1x32, .f32⟩
  | 41 => ⟨S32, .f32⟩
  | 42 => ⟨S1x480x32, .f32⟩
  | 43 => ⟨S480x32, .f32⟩
  | 44 => ⟨S1x32, .f32⟩
  | 45 => ⟨S32, .f32⟩
  | 46 => ⟨S32768x480, .f32⟩
  | 47 => ⟨S32768x32, .f32⟩
  | 48 => ⟨S1x32, .f32⟩
  | 49 => ⟨S32768x32, .f32⟩
  | 50 => ⟨S32768x32, .f32⟩
  | 51 => ⟨S32768x32, .f32⟩
  | 52 => ⟨S32768x32, .f32⟩
  | 53 => ⟨S_, .f32⟩
  | 54 => ⟨S32768x32, .f32⟩
  | 55 => ⟨S32768x32, .f32⟩
  | 56 => ⟨S_, .f32⟩
  | 57 => ⟨S32768x32, .f32⟩
  | 58 => ⟨S32768x32, .f32⟩
  | 59 => ⟨S32768x32, .f32⟩
  | 60 => ⟨S1x32, .f32⟩
  | 61 => ⟨S32768x32, .f32⟩
  | 62 => ⟨S32768x32, .f32⟩
  | 63 => ⟨S32768x32, .f32⟩
  | 64 => ⟨S32768x32, .f32⟩
  | 65 => ⟨S_, .f32⟩
  | 66 => ⟨S32768x32, .f32⟩
  | 67 => ⟨S32768x32, .f32⟩
  | 68 => ⟨S_, .f32⟩
  | 69 => ⟨S32768x32, .f32⟩
  | 70 => ⟨S32768x32, .f32⟩
  | 71 => ⟨S32768x32, .f32⟩
  | 72 => ⟨S32768x480, .f32⟩
  | 73 => ⟨S32768x32, .f32⟩
  | 74 => ⟨S1x32, .f32⟩
  | 75 => ⟨S32768x32, .f32⟩
  | 76 => ⟨S32768x32, .f32⟩
  | 77 => ⟨S32768x32, .f32⟩
  | 78 => ⟨S_, .f32⟩
  | 79 => ⟨S32768x32, .f32⟩
  | 80 => ⟨S32768x32, .f32⟩
  | 81 => ⟨S32768x32, .f32⟩
  | 82 => ⟨S32768x32, .f32⟩
  | 83 => ⟨S32768x32, .f32⟩
  | 84 => ⟨S1x480x32, .f32⟩
  | 85 => ⟨S480x32, .f32⟩
  | 86 => ⟨S1x32, .f32⟩
  | 87 => ⟨S32, .f32⟩
  | 88 => ⟨S1x480x32, .f32⟩
  | 89 => ⟨S480x32, .f32⟩
  | 90 => ⟨S1x32, .f32⟩
  | 91 => ⟨S32, .f32⟩
  | 92 => ⟨S1x480x32, .f32⟩
  | 93 => ⟨S480x32, .f32⟩
  | 94 => ⟨S1x32, .f32⟩
  | 95 => ⟨S32, .f32⟩
  | 96 => ⟨S32768x480, .f32⟩
  | 97 => ⟨S32768x32, .f32⟩
  | 98 => ⟨S1x32, .f32⟩
  | 99 => ⟨S32768x32, .f32⟩
  | 100 => ⟨S32768x32, .f32⟩
  | 101 => ⟨S32768x32, .f32⟩
  | 102 => ⟨S32768x32, .f32⟩
  | 103 => ⟨S_, .f32⟩
  | 104 => ⟨S32768x32, .f32⟩
  | 105 => ⟨S32768x32, .f32⟩
  | 106 => ⟨S_, .f32⟩
  | 107 => ⟨S32768x32, .f32⟩
  | 108 => ⟨S32768x32, .f32⟩
  | 109 => ⟨S32768x32, .f32⟩
  | 110 => ⟨S1x32, .f32⟩
  | 111 => ⟨S32768x32, .f32⟩
  | 112 => ⟨S32768x32, .f32⟩
  | 113 => ⟨S32768x32, .f32⟩
  | 114 => ⟨S32768x32, .f32⟩
  | 115 => ⟨S_, .f32⟩
  | 116 => ⟨S32768x32, .f32⟩
  | 117 => ⟨S32768x32, .f32⟩
  | 118 => ⟨S_, .f32⟩
  | 119 => ⟨S32768x32, .f32⟩
  | 120 => ⟨S32768x32, .f32⟩
  | 121 => ⟨S32768x32, .f32⟩
  | 122 => ⟨S32768x480, .f32⟩
  | 123 => ⟨S32768x32, .f32⟩
  | 124 => ⟨S1x32, .f32⟩
  | 125 => ⟨S32768x32, .f32⟩
  | 126 => ⟨S32768x32, .f32⟩
  | 127 => ⟨S32768x32, .f32⟩
  | _ => ⟨S32768x24x32, .f32⟩

abbrev hbmTy0_9 (i : Nat) : BufTy := match i % 128 with
  | 0 => ⟨S_, .f32⟩
  | 1 => ⟨S32768x32, .f32⟩
  | 2 => ⟨S32768x32, .f32⟩
  | 3 => ⟨S32768x32, .f32⟩
  | 4 => ⟨S32768x32, .f32⟩
  | 5 => ⟨S32768x32, .f32⟩
  | 6 => ⟨S1x480x32, .f32⟩
  | 7 => ⟨S480x32, .f32⟩
  | 8 => ⟨S1x32, .f32⟩
  | 9 => ⟨S32, .f32⟩
  | 10 => ⟨S1x480x32, .f32⟩
  | 11 => ⟨S480x32, .f32⟩
  | 12 => ⟨S1x32, .f32⟩
  | 13 => ⟨S32, .f32⟩
  | 14 => ⟨S1x480x32, .f32⟩
  | 15 => ⟨S480x32, .f32⟩
  | 16 => ⟨S1x32, .f32⟩
  | 17 => ⟨S32, .f32⟩
  | 18 => ⟨S32768x480, .f32⟩
  | 19 => ⟨S32768x32, .f32⟩
  | 20 => ⟨S1x32, .f32⟩
  | 21 => ⟨S32768x32, .f32⟩
  | 22 => ⟨S32768x32, .f32⟩
  | 23 => ⟨S32768x32, .f32⟩
  | 24 => ⟨S32768x32, .f32⟩
  | 25 => ⟨S_, .f32⟩
  | 26 => ⟨S32768x32, .f32⟩
  | 27 => ⟨S32768x32, .f32⟩
  | 28 => ⟨S_, .f32⟩
  | 29 => ⟨S32768x32, .f32⟩
  | 30 => ⟨S32768x32, .f32⟩
  | 31 => ⟨S32768x32, .f32⟩
  | 32 => ⟨S1x32, .f32⟩
  | 33 => ⟨S32768x32, .f32⟩
  | 34 => ⟨S32768x32, .f32⟩
  | 35 => ⟨S32768x32, .f32⟩
  | 36 => ⟨S32768x32, .f32⟩
  | 37 => ⟨S_, .f32⟩
  | 38 => ⟨S32768x32, .f32⟩
  | 39 => ⟨S32768x32, .f32⟩
  | 40 => ⟨S_, .f32⟩
  | 41 => ⟨S32768x32, .f32⟩
  | 42 => ⟨S32768x32, .f32⟩
  | 43 => ⟨S32768x32, .f32⟩
  | 44 => ⟨S32768x480, .f32⟩
  | 45 => ⟨S32768x32, .f32⟩
  | 46 => ⟨S1x32, .f32⟩
  | 47 => ⟨S32768x32, .f32⟩
  | 48 => ⟨S32768x32, .f32⟩
  | 49 => ⟨S32768x32, .f32⟩
  | 50 => ⟨S_, .f32⟩
  | 51 => ⟨S32768x32, .f32⟩
  | 52 => ⟨S32768x32, .f32⟩
  | 53 => ⟨S32768x32, .f32⟩
  | 54 => ⟨S32768x32, .f32⟩
  | 55 => ⟨S32768x32, .f32⟩
  | 56 => ⟨S1x480x32, .f32⟩
  | 57 => ⟨S480x32, .f32⟩
  | 58 => ⟨S1x32, .f32⟩
  | 59 => ⟨S32, .f32⟩
  | 60 => ⟨S1x480x32, .f32⟩
  | 61 => ⟨S480x32, .f32⟩
  | 62 => ⟨S1x32, .f32⟩
  | 63 => ⟨S32, .f32⟩
  | 64 => ⟨S1x480x32, .f32⟩
  | 65 => ⟨S480x32, .f32⟩
  | 66 => ⟨S1x32, .f32⟩
  | 67 => ⟨S32, .f32⟩
  | 68 => ⟨S32768x480, .f32⟩
  | 69 => ⟨S32768x32, .f32⟩
  | 70 => ⟨S1x32, .f32⟩
  | 71 => ⟨S32768x32, .f32⟩
  | 72 => ⟨S32768x32, .f32⟩
  | 73 => ⟨S32768x32, .f32⟩
  | 74 => ⟨S32768x32, .f32⟩
  | 75 => ⟨S_, .f32⟩
  | 76 => ⟨S32768x32, .f32⟩
  | 77 => ⟨S32768x32, .f32⟩
  | 78 => ⟨S_, .f32⟩
  | 79 => ⟨S32768x32, .f32⟩
  | 80 => ⟨S32768x32, .f32⟩
  | 81 => ⟨S32768x32, .f32⟩
  | 82 => ⟨S1x32, .f32⟩
  | 83 => ⟨S32768x32, .f32⟩
  | 84 => ⟨S32768x32, .f32⟩
  | 85 => ⟨S32768x32, .f32⟩
  | 86 => ⟨S32768x32, .f32⟩
  | 87 => ⟨S_, .f32⟩
  | 88 => ⟨S32768x32, .f32⟩
  | 89 => ⟨S32768x32, .f32⟩
  | 90 => ⟨S_, .f32⟩
  | 91 => ⟨S32768x32, .f32⟩
  | 92 => ⟨S32768x32, .f32⟩
  | 93 => ⟨S32768x32, .f32⟩
  | 94 => ⟨S32768x480, .f32⟩
  | 95 => ⟨S32768x32, .f32⟩
  | 96 => ⟨S1x32, .f32⟩
  | 97 => ⟨S32768x32, .f32⟩
  | 98 => ⟨S32768x32, .f32⟩
  | 99 => ⟨S32768x32, .f32⟩
  | 100 => ⟨S_, .f32⟩
  | 101 => ⟨S32768x32, .f32⟩
  | 102 => ⟨S32768x32, .f32⟩
  | 103 => ⟨S32768x32, .f32⟩
  | 104 => ⟨S32768x32, .f32⟩
  | 105 => ⟨S32768x32, .f32⟩
  | 106 => ⟨S32768x1x32, .f32⟩
  | 107 => ⟨S32768x1x32, .f32⟩
  | 108 => ⟨S32768x1x32, .f32⟩
  | 109 => ⟨S32768x1x32, .f32⟩
  | 110 => ⟨S32768x1x32, .f32⟩
  | 111 => ⟨S32768x1x32, .f32⟩
  | 112 => ⟨S32768x1x32, .f32⟩
  | 113 => ⟨S32768x1x32, .f32⟩
  | 114 => ⟨S32768x1x32, .f32⟩
  | 115 => ⟨S32768x1x32, .f32⟩
  | 116 => ⟨S32768x1x32, .f32⟩
  | 117 => ⟨S32768x1x32, .f32⟩
  | 118 => ⟨S32768x1x32, .f32⟩
  | 119 => ⟨S32768x1x32, .f32⟩
  | 120 => ⟨S32768x1x32, .f32⟩
  | 121 => ⟨S32768x1x32, .f32⟩
  | 122 => ⟨S32768x1x32, .f32⟩
  | 123 => ⟨S32768x1x32, .f32⟩
  | 124 => ⟨S32768x1x32, .f32⟩
  | 125 => ⟨S32768x1x32, .f32⟩
  | 126 => ⟨S32768x1x32, .f32⟩
  | 127 => ⟨S32768x1x32, .f32⟩
  | _ => ⟨S32768x24x32, .f32⟩

abbrev hbmTy0_10 (i : Nat) : BufTy := match i % 128 with
  | 0 => ⟨S32768x1x32, .f32⟩
  | 1 => ⟨S32768x1x32, .f32⟩
  | 2 => ⟨S32768x16x32, .f32⟩
  | 3 => ⟨S32768x8x32, .f32⟩
  | 4 => ⟨S32768x24x32, .f32⟩
  | _ => ⟨S32768x24x32, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | _ => ⟨S32768x24x32, .f32⟩

abbrev bufTy : (tb : Table) → Fin (tcTables nBuf tb) → BufTy
  | .hbm, ⟨i, _⟩ => hbmTy i
  | _, _ => ⟨S32768x24x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_cst : Ref sig .tc := ⟨.hbm, 77, rfl⟩
abbrev main_v69 : Ref sig .tc := ⟨.hbm, 78, rfl⟩
abbrev main_v70 : Ref sig .tc := ⟨.hbm, 79, rfl⟩
abbrev main_cst_0 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_cst_1 : Ref sig .tc := ⟨.hbm, 89, rfl⟩
abbrev main_v79 : Ref sig .tc := ⟨.hbm, 90, rfl⟩
abbrev main_v80 : Ref sig .tc := ⟨.hbm, 91, rfl⟩
abbrev main_cst_2 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_cst_3 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_cst_4 : Ref sig .tc := ⟨.hbm, 127, rfl⟩
abbrev main_v114 : Ref sig .tc := ⟨.hbm, 128, rfl⟩
abbrev main_v115 : Ref sig .tc := ⟨.hbm, 129, rfl⟩
abbrev main_cst_5 : Ref sig .tc := ⟨.hbm, 130, rfl⟩
abbrev main_v116 : Ref sig .tc := ⟨.hbm, 131, rfl⟩
abbrev main_v117 : Ref sig .tc := ⟨.hbm, 132, rfl⟩
abbrev main_v118 : Ref sig .tc := ⟨.hbm, 133, rfl⟩
abbrev main_v119 : Ref sig .tc := ⟨.hbm, 134, rfl⟩
abbrev main_v120 : Ref sig .tc := ⟨.hbm, 135, rfl⟩
abbrev main_v121 : Ref sig .tc := ⟨.hbm, 136, rfl⟩
abbrev main_v122 : Ref sig .tc := ⟨.hbm, 137, rfl⟩
abbrev main_v123 : Ref sig .tc := ⟨.hbm, 138, rfl⟩
abbrev main_cst_6 : Ref sig .tc := ⟨.hbm, 139, rfl⟩
abbrev main_v124 : Ref sig .tc := ⟨.hbm, 140, rfl⟩
abbrev main_v125 : Ref sig .tc := ⟨.hbm, 141, rfl⟩
abbrev main_cst_7 : Ref sig .tc := ⟨.hbm, 142, rfl⟩
abbrev main_v126 : Ref sig .tc := ⟨.hbm, 143, rfl⟩
abbrev main_v127 : Ref sig .tc := ⟨.hbm, 144, rfl⟩
abbrev main_v128 : Ref sig .tc := ⟨.hbm, 145, rfl⟩
abbrev main_v129 : Ref sig .tc := ⟨.hbm, 146, rfl⟩
abbrev main_v130 : Ref sig .tc := ⟨.hbm, 147, rfl⟩
abbrev main_v131 : Ref sig .tc := ⟨.hbm, 148, rfl⟩
abbrev main_v132 : Ref sig .tc := ⟨.hbm, 149, rfl⟩
abbrev main_v133 : Ref sig .tc := ⟨.hbm, 150, rfl⟩
abbrev main_v134 : Ref sig .tc := ⟨.hbm, 151, rfl⟩
abbrev main_cst_8 : Ref sig .tc := ⟨.hbm, 152, rfl⟩
abbrev main_v135 : Ref sig .tc := ⟨.hbm, 153, rfl⟩
abbrev main_v136 : Ref sig .tc := ⟨.hbm, 154, rfl⟩
abbrev main_v137 : Ref sig .tc := ⟨.hbm, 155, rfl⟩
abbrev main_v138 : Ref sig .tc := ⟨.hbm, 156, rfl⟩
abbrev main_v139 : Ref sig .tc := ⟨.hbm, 157, rfl⟩
abbrev main_v140 : Ref sig .tc := ⟨.hbm, 158, rfl⟩
abbrev main_v141 : Ref sig .tc := ⟨.hbm, 159, rfl⟩
abbrev main_v142 : Ref sig .tc := ⟨.hbm, 160, rfl⟩
abbrev main_v143 : Ref sig .tc := ⟨.hbm, 161, rfl⟩
abbrev main_v144 : Ref sig .tc := ⟨.hbm, 162, rfl⟩
abbrev main_v145 : Ref sig .tc := ⟨.hbm, 163, rfl⟩
abbrev main_v146 : Ref sig .tc := ⟨.hbm, 164, rfl⟩
abbrev main_v147 : Ref sig .tc := ⟨.hbm, 165, rfl⟩
abbrev main_v148 : Ref sig .tc := ⟨.hbm, 166, rfl⟩
abbrev main_v149 : Ref sig .tc := ⟨.hbm, 167, rfl⟩
abbrev main_v150 : Ref sig .tc := ⟨.hbm, 168, rfl⟩
abbrev main_v151 : Ref sig .tc := ⟨.hbm, 169, rfl⟩
abbrev main_v152 : Ref sig .tc := ⟨.hbm, 170, rfl⟩
abbrev main_v153 : Ref sig .tc := ⟨.hbm, 171, rfl⟩
abbrev main_v154 : Ref sig .tc := ⟨.hbm, 172, rfl⟩
abbrev main_v155 : Ref sig .tc := ⟨.hbm, 173, rfl⟩
abbrev main_v156 : Ref sig .tc := ⟨.hbm, 174, rfl⟩
abbrev main_v157 : Ref sig .tc := ⟨.hbm, 175, rfl⟩
abbrev main_v158 : Ref sig .tc := ⟨.hbm, 176, rfl⟩
abbrev main_cst_9 : Ref sig .tc := ⟨.hbm, 177, rfl⟩
abbrev main_v159 : Ref sig .tc := ⟨.hbm, 178, rfl⟩
abbrev main_v160 : Ref sig .tc := ⟨.hbm, 179, rfl⟩
abbrev main_cst_10 : Ref sig .tc := ⟨.hbm, 180, rfl⟩
abbrev main_v161 : Ref sig .tc := ⟨.hbm, 181, rfl⟩
abbrev main_v162 : Ref sig .tc := ⟨.hbm, 182, rfl⟩
abbrev main_v163 : Ref sig .tc := ⟨.hbm, 183, rfl⟩
abbrev main_v164 : Ref sig .tc := ⟨.hbm, 184, rfl⟩
abbrev main_v165 : Ref sig .tc := ⟨.hbm, 185, rfl⟩
abbrev main_v166 : Ref sig .tc := ⟨.hbm, 186, rfl⟩
abbrev main_v167 : Ref sig .tc := ⟨.hbm, 187, rfl⟩
abbrev main_v168 : Ref sig .tc := ⟨.hbm, 188, rfl⟩
abbrev main_cst_11 : Ref sig .tc := ⟨.hbm, 189, rfl⟩
abbrev main_v169 : Ref sig .tc := ⟨.hbm, 190, rfl⟩
abbrev main_v170 : Ref sig .tc := ⟨.hbm, 191, rfl⟩
abbrev main_cst_12 : Ref sig .tc := ⟨.hbm, 192, rfl⟩
abbrev main_v171 : Ref sig .tc := ⟨.hbm, 193, rfl⟩
abbrev main_v172 : Ref sig .tc := ⟨.hbm, 194, rfl⟩
abbrev main_v173 : Ref sig .tc := ⟨.hbm, 195, rfl⟩
abbrev main_v174 : Ref sig .tc := ⟨.hbm, 196, rfl⟩
abbrev main_v175 : Ref sig .tc := ⟨.hbm, 197, rfl⟩
abbrev main_v176 : Ref sig .tc := ⟨.hbm, 198, rfl⟩
abbrev main_v177 : Ref sig .tc := ⟨.hbm, 199, rfl⟩
abbrev main_v178 : Ref sig .tc := ⟨.hbm, 200, rfl⟩
abbrev main_v179 : Ref sig .tc := ⟨.hbm, 201, rfl⟩
abbrev main_cst_13 : Ref sig .tc := ⟨.hbm, 202, rfl⟩
abbrev main_v180 : Ref sig .tc := ⟨.hbm, 203, rfl⟩
abbrev main_v181 : Ref sig .tc := ⟨.hbm, 204, rfl⟩
abbrev main_v182 : Ref sig .tc := ⟨.hbm, 205, rfl⟩
abbrev main_v183 : Ref sig .tc := ⟨.hbm, 206, rfl⟩
abbrev main_v184 : Ref sig .tc := ⟨.hbm, 207, rfl⟩
abbrev main_v185 : Ref sig .tc := ⟨.hbm, 208, rfl⟩
abbrev main_v186 : Ref sig .tc := ⟨.hbm, 209, rfl⟩
abbrev main_v187 : Ref sig .tc := ⟨.hbm, 210, rfl⟩
abbrev main_v188 : Ref sig .tc := ⟨.hbm, 211, rfl⟩
abbrev main_v189 : Ref sig .tc := ⟨.hbm, 212, rfl⟩
abbrev main_v190 : Ref sig .tc := ⟨.hbm, 213, rfl⟩
abbrev main_v191 : Ref sig .tc := ⟨.hbm, 214, rfl⟩
abbrev main_v192 : Ref sig .tc := ⟨.hbm, 215, rfl⟩
abbrev main_v193 : Ref sig .tc := ⟨.hbm, 216, rfl⟩
abbrev main_v194 : Ref sig .tc := ⟨.hbm, 217, rfl⟩
abbrev main_v195 : Ref sig .tc := ⟨.hbm, 218, rfl⟩
abbrev main_v196 : Ref sig .tc := ⟨.hbm, 219, rfl⟩
abbrev main_v197 : Ref sig .tc := ⟨.hbm, 220, rfl⟩
abbrev main_v198 : Ref sig .tc := ⟨.hbm, 221, rfl⟩
abbrev main_v199 : Ref sig .tc := ⟨.hbm, 222, rfl⟩
abbrev main_v200 : Ref sig .tc := ⟨.hbm, 223, rfl⟩
abbrev main_v201 : Ref sig .tc := ⟨.hbm, 224, rfl⟩
abbrev main_v202 : Ref sig .tc := ⟨.hbm, 225, rfl⟩
abbrev main_v203 : Ref sig .tc := ⟨.hbm, 226, rfl⟩
abbrev main_cst_14 : Ref sig .tc := ⟨.hbm, 227, rfl⟩
abbrev main_v204 : Ref sig .tc := ⟨.hbm, 228, rfl⟩
abbrev main_v205 : Ref sig .tc := ⟨.hbm, 229, rfl⟩
abbrev main_cst_15 : Ref sig .tc := ⟨.hbm, 230, rfl⟩
abbrev main_v206 : Ref sig .tc := ⟨.hbm, 231, rfl⟩
abbrev main_v207 : Ref sig .tc := ⟨.hbm, 232, rfl⟩
abbrev main_v208 : Ref sig .tc := ⟨.hbm, 233, rfl⟩
abbrev main_v209 : Ref sig .tc := ⟨.hbm, 234, rfl⟩
abbrev main_v210 : Ref sig .tc := ⟨.hbm, 235, rfl⟩
abbrev main_v211 : Ref sig .tc := ⟨.hbm, 236, rfl⟩
abbrev main_v212 : Ref sig .tc := ⟨.hbm, 237, rfl⟩
abbrev main_v213 : Ref sig .tc := ⟨.hbm, 238, rfl⟩
abbrev main_cst_16 : Ref sig .tc := ⟨.hbm, 239, rfl⟩
abbrev main_v214 : Ref sig .tc := ⟨.hbm, 240, rfl⟩
abbrev main_v215 : Ref sig .tc := ⟨.hbm, 241, rfl⟩
abbrev main_cst_17 : Ref sig .tc := ⟨.hbm, 242, rfl⟩
abbrev main_v216 : Ref sig .tc := ⟨.hbm, 243, rfl⟩
abbrev main_v217 : Ref sig .tc := ⟨.hbm, 244, rfl⟩
abbrev main_v218 : Ref sig .tc := ⟨.hbm, 245, rfl⟩
abbrev main_v219 : Ref sig .tc := ⟨.hbm, 246, rfl⟩
abbrev main_v220 : Ref sig .tc := ⟨.hbm, 247, rfl⟩
abbrev main_v221 : Ref sig .tc := ⟨.hbm, 248, rfl⟩
abbrev main_v222 : Ref sig .tc := ⟨.hbm, 249, rfl⟩
abbrev main_v223 : Ref sig .tc := ⟨.hbm, 250, rfl⟩
abbrev main_v224 : Ref sig .tc := ⟨.hbm, 251, rfl⟩
abbrev main_cst_18 : Ref sig .tc := ⟨.hbm, 252, rfl⟩
abbrev main_v225 : Ref sig .tc := ⟨.hbm, 253, rfl⟩
abbrev main_v226 : Ref sig .tc := ⟨.hbm, 254, rfl⟩
abbrev main_v227 : Ref sig .tc := ⟨.hbm, 255, rfl⟩
abbrev main_v228 : Ref sig .tc := ⟨.hbm, 256, rfl⟩
abbrev main_v229 : Ref sig .tc := ⟨.hbm, 257, rfl⟩
abbrev main_v230 : Ref sig .tc := ⟨.hbm, 258, rfl⟩
abbrev main_v231 : Ref sig .tc := ⟨.hbm, 259, rfl⟩
abbrev main_v232 : Ref sig .tc := ⟨.hbm, 260, rfl⟩
abbrev main_v233 : Ref sig .tc := ⟨.hbm, 261, rfl⟩
abbrev main_v234 : Ref sig .tc := ⟨.hbm, 262, rfl⟩
abbrev main_v235 : Ref sig .tc := ⟨.hbm, 263, rfl⟩
abbrev main_v236 : Ref sig .tc := ⟨.hbm, 264, rfl⟩
abbrev main_v237 : Ref sig .tc := ⟨.hbm, 265, rfl⟩
abbrev main_v238 : Ref sig .tc := ⟨.hbm, 266, rfl⟩
abbrev main_v239 : Ref sig .tc := ⟨.hbm, 267, rfl⟩
abbrev main_v240 : Ref sig .tc := ⟨.hbm, 268, rfl⟩
abbrev main_v241 : Ref sig .tc := ⟨.hbm, 269, rfl⟩
abbrev main_v242 : Ref sig .tc := ⟨.hbm, 270, rfl⟩
abbrev main_v243 : Ref sig .tc := ⟨.hbm, 271, rfl⟩
abbrev main_v244 : Ref sig .tc := ⟨.hbm, 272, rfl⟩
abbrev main_v245 : Ref sig .tc := ⟨.hbm, 273, rfl⟩
abbrev main_v246 : Ref sig .tc := ⟨.hbm, 274, rfl⟩
abbrev main_v247 : Ref sig .tc := ⟨.hbm, 275, rfl⟩
abbrev main_v248 : Ref sig .tc := ⟨.hbm, 276, rfl⟩
abbrev main_cst_19 : Ref sig .tc := ⟨.hbm, 277, rfl⟩
abbrev main_v249 : Ref sig .tc := ⟨.hbm, 278, rfl⟩
abbrev main_v250 : Ref sig .tc := ⟨.hbm, 279, rfl⟩
abbrev main_cst_20 : Ref sig .tc := ⟨.hbm, 280, rfl⟩
abbrev main_v251 : Ref sig .tc := ⟨.hbm, 281, rfl⟩
abbrev main_v252 : Ref sig .tc := ⟨.hbm, 282, rfl⟩
abbrev main_v253 : Ref sig .tc := ⟨.hbm, 283, rfl⟩
abbrev main_v254 : Ref sig .tc := ⟨.hbm, 284, rfl⟩
abbrev main_v255 : Ref sig .tc := ⟨.hbm, 285, rfl⟩
abbrev main_v256 : Ref sig .tc := ⟨.hbm, 286, rfl⟩
abbrev main_v257 : Ref sig .tc := ⟨.hbm, 287, rfl⟩
abbrev main_v258 : Ref sig .tc := ⟨.hbm, 288, rfl⟩
abbrev main_cst_21 : Ref sig .tc := ⟨.hbm, 289, rfl⟩
abbrev main_v259 : Ref sig .tc := ⟨.hbm, 290, rfl⟩
abbrev main_v260 : Ref sig .tc := ⟨.hbm, 291, rfl⟩
abbrev main_cst_22 : Ref sig .tc := ⟨.hbm, 292, rfl⟩
abbrev main_v261 : Ref sig .tc := ⟨.hbm, 293, rfl⟩
abbrev main_v262 : Ref sig .tc := ⟨.hbm, 294, rfl⟩
abbrev main_v263 : Ref sig .tc := ⟨.hbm, 295, rfl⟩
abbrev main_v264 : Ref sig .tc := ⟨.hbm, 296, rfl⟩
abbrev main_v265 : Ref sig .tc := ⟨.hbm, 297, rfl⟩
abbrev main_v266 : Ref sig .tc := ⟨.hbm, 298, rfl⟩
abbrev main_v267 : Ref sig .tc := ⟨.hbm, 299, rfl⟩
abbrev main_v268 : Ref sig .tc := ⟨.hbm, 300, rfl⟩
abbrev main_v269 : Ref sig .tc := ⟨.hbm, 301, rfl⟩
abbrev main_cst_23 : Ref sig .tc := ⟨.hbm, 302, rfl⟩
abbrev main_v270 : Ref sig .tc := ⟨.hbm, 303, rfl⟩
abbrev main_v271 : Ref sig .tc := ⟨.hbm, 304, rfl⟩
abbrev main_v272 : Ref sig .tc := ⟨.hbm, 305, rfl⟩
abbrev main_v273 : Ref sig .tc := ⟨.hbm, 306, rfl⟩
abbrev main_v274 : Ref sig .tc := ⟨.hbm, 307, rfl⟩
abbrev main_v275 : Ref sig .tc := ⟨.hbm, 308, rfl⟩
abbrev main_v276 : Ref sig .tc := ⟨.hbm, 309, rfl⟩
abbrev main_v277 : Ref sig .tc := ⟨.hbm, 310, rfl⟩
abbrev main_v278 : Ref sig .tc := ⟨.hbm, 311, rfl⟩
abbrev main_v279 : Ref sig .tc := ⟨.hbm, 312, rfl⟩
abbrev main_v280 : Ref sig .tc := ⟨.hbm, 313, rfl⟩
abbrev main_v281 : Ref sig .tc := ⟨.hbm, 314, rfl⟩
abbrev main_v282 : Ref sig .tc := ⟨.hbm, 315, rfl⟩
abbrev main_v283 : Ref sig .tc := ⟨.hbm, 316, rfl⟩
abbrev main_v284 : Ref sig .tc := ⟨.hbm, 317, rfl⟩
abbrev main_v285 : Ref sig .tc := ⟨.hbm, 318, rfl⟩
abbrev main_v286 : Ref sig .tc := ⟨.hbm, 319, rfl⟩
abbrev main_v287 : Ref sig .tc := ⟨.hbm, 320, rfl⟩
abbrev main_v288 : Ref sig .tc := ⟨.hbm, 321, rfl⟩
abbrev main_v289 : Ref sig .tc := ⟨.hbm, 322, rfl⟩
abbrev main_v290 : Ref sig .tc := ⟨.hbm, 323, rfl⟩
abbrev main_v291 : Ref sig .tc := ⟨.hbm, 324, rfl⟩
abbrev main_v292 : Ref sig .tc := ⟨.hbm, 325, rfl⟩
abbrev main_v293 : Ref sig .tc := ⟨.hbm, 326, rfl⟩
abbrev main_cst_24 : Ref sig .tc := ⟨.hbm, 327, rfl⟩
abbrev main_v294 : Ref sig .tc := ⟨.hbm, 328, rfl⟩
abbrev main_v295 : Ref sig .tc := ⟨.hbm, 329, rfl⟩
abbrev main_cst_25 : Ref sig .tc := ⟨.hbm, 330, rfl⟩
abbrev main_v296 : Ref sig .tc := ⟨.hbm, 331, rfl⟩
abbrev main_v297 : Ref sig .tc := ⟨.hbm, 332, rfl⟩
abbrev main_v298 : Ref sig .tc := ⟨.hbm, 333, rfl⟩
abbrev main_v299 : Ref sig .tc := ⟨.hbm, 334, rfl⟩
abbrev main_v300 : Ref sig .tc := ⟨.hbm, 335, rfl⟩
abbrev main_v301 : Ref sig .tc := ⟨.hbm, 336, rfl⟩
abbrev main_v302 : Ref sig .tc := ⟨.hbm, 337, rfl⟩
abbrev main_v303 : Ref sig .tc := ⟨.hbm, 338, rfl⟩
abbrev main_cst_26 : Ref sig .tc := ⟨.hbm, 339, rfl⟩
abbrev main_v304 : Ref sig .tc := ⟨.hbm, 340, rfl⟩
abbrev main_v305 : Ref sig .tc := ⟨.hbm, 341, rfl⟩
abbrev main_cst_27 : Ref sig .tc := ⟨.hbm, 342, rfl⟩
abbrev main_v306 : Ref sig .tc := ⟨.hbm, 343, rfl⟩
abbrev main_v307 : Ref sig .tc := ⟨.hbm, 344, rfl⟩
abbrev main_v308 : Ref sig .tc := ⟨.hbm, 345, rfl⟩
abbrev main_v309 : Ref sig .tc := ⟨.hbm, 346, rfl⟩
abbrev main_v310 : Ref sig .tc := ⟨.hbm, 347, rfl⟩
abbrev main_v311 : Ref sig .tc := ⟨.hbm, 348, rfl⟩
abbrev main_v312 : Ref sig .tc := ⟨.hbm, 349, rfl⟩
abbrev main_v313 : Ref sig .tc := ⟨.hbm, 350, rfl⟩
abbrev main_v314 : Ref sig .tc := ⟨.hbm, 351, rfl⟩
abbrev main_cst_28 : Ref sig .tc := ⟨.hbm, 352, rfl⟩
abbrev main_v315 : Ref sig .tc := ⟨.hbm, 353, rfl⟩
abbrev main_v316 : Ref sig .tc := ⟨.hbm, 354, rfl⟩
abbrev main_v317 : Ref sig .tc := ⟨.hbm, 355, rfl⟩
abbrev main_v318 : Ref sig .tc := ⟨.hbm, 356, rfl⟩
abbrev main_v319 : Ref sig .tc := ⟨.hbm, 357, rfl⟩
abbrev main_v320 : Ref sig .tc := ⟨.hbm, 358, rfl⟩
abbrev main_v321 : Ref sig .tc := ⟨.hbm, 359, rfl⟩
abbrev main_v322 : Ref sig .tc := ⟨.hbm, 360, rfl⟩
abbrev main_v323 : Ref sig .tc := ⟨.hbm, 361, rfl⟩
abbrev main_v324 : Ref sig .tc := ⟨.hbm, 362, rfl⟩
abbrev main_v325 : Ref sig .tc := ⟨.hbm, 363, rfl⟩
abbrev main_v326 : Ref sig .tc := ⟨.hbm, 364, rfl⟩
abbrev main_v327 : Ref sig .tc := ⟨.hbm, 365, rfl⟩
abbrev main_v328 : Ref sig .tc := ⟨.hbm, 366, rfl⟩
abbrev main_v329 : Ref sig .tc := ⟨.hbm, 367, rfl⟩
abbrev main_v330 : Ref sig .tc := ⟨.hbm, 368, rfl⟩
abbrev main_v331 : Ref sig .tc := ⟨.hbm, 369, rfl⟩
abbrev main_v332 : Ref sig .tc := ⟨.hbm, 370, rfl⟩
abbrev main_v333 : Ref sig .tc := ⟨.hbm, 371, rfl⟩
abbrev main_v334 : Ref sig .tc := ⟨.hbm, 372, rfl⟩
abbrev main_v335 : Ref sig .tc := ⟨.hbm, 373, rfl⟩
abbrev main_v336 : Ref sig .tc := ⟨.hbm, 374, rfl⟩
abbrev main_v337 : Ref sig .tc := ⟨.hbm, 375, rfl⟩
abbrev main_v338 : Ref sig .tc := ⟨.hbm, 376, rfl⟩
abbrev main_cst_29 : Ref sig .tc := ⟨.hbm, 377, rfl⟩
abbrev main_v339 : Ref sig .tc := ⟨.hbm, 378, rfl⟩
abbrev main_v340 : Ref sig .tc := ⟨.hbm, 379, rfl⟩
abbrev main_cst_30 : Ref sig .tc := ⟨.hbm, 380, rfl⟩
abbrev main_v341 : Ref sig .tc := ⟨.hbm, 381, rfl⟩
abbrev main_v342 : Ref sig .tc := ⟨.hbm, 382, rfl⟩
abbrev main_v343 : Ref sig .tc := ⟨.hbm, 383, rfl⟩
abbrev main_v344 : Ref sig .tc := ⟨.hbm, 384, rfl⟩
abbrev main_v345 : Ref sig .tc := ⟨.hbm, 385, rfl⟩
abbrev main_v346 : Ref sig .tc := ⟨.hbm, 386, rfl⟩
abbrev main_v347 : Ref sig .tc := ⟨.hbm, 387, rfl⟩
abbrev main_v348 : Ref sig .tc := ⟨.hbm, 388, rfl⟩
abbrev main_cst_31 : Ref sig .tc := ⟨.hbm, 389, rfl⟩
abbrev main_v349 : Ref sig .tc := ⟨.hbm, 390, rfl⟩
abbrev main_v350 : Ref sig .tc := ⟨.hbm, 391, rfl⟩
abbrev main_cst_32 : Ref sig .tc := ⟨.hbm, 392, rfl⟩
abbrev main_v351 : Ref sig .tc := ⟨.hbm, 393, rfl⟩
abbrev main_v352 : Ref sig .tc := ⟨.hbm, 394, rfl⟩
abbrev main_v353 : Ref sig .tc := ⟨.hbm, 395, rfl⟩
abbrev main_v354 : Ref sig .tc := ⟨.hbm, 396, rfl⟩
abbrev main_v355 : Ref sig .tc := ⟨.hbm, 397, rfl⟩
abbrev main_v356 : Ref sig .tc := ⟨.hbm, 398, rfl⟩
abbrev main_v357 : Ref sig .tc := ⟨.hbm, 399, rfl⟩
abbrev main_v358 : Ref sig .tc := ⟨.hbm, 400, rfl⟩
abbrev main_v359 : Ref sig .tc := ⟨.hbm, 401, rfl⟩
abbrev main_cst_33 : Ref sig .tc := ⟨.hbm, 402, rfl⟩
abbrev main_v360 : Ref sig .tc := ⟨.hbm, 403, rfl⟩
abbrev main_v361 : Ref sig .tc := ⟨.hbm, 404, rfl⟩
abbrev main_v362 : Ref sig .tc := ⟨.hbm, 405, rfl⟩
abbrev main_v363 : Ref sig .tc := ⟨.hbm, 406, rfl⟩
abbrev main_v364 : Ref sig .tc := ⟨.hbm, 407, rfl⟩
abbrev main_v365 : Ref sig .tc := ⟨.hbm, 408, rfl⟩
abbrev main_v366 : Ref sig .tc := ⟨.hbm, 409, rfl⟩
abbrev main_v367 : Ref sig .tc := ⟨.hbm, 410, rfl⟩
abbrev main_v368 : Ref sig .tc := ⟨.hbm, 411, rfl⟩
abbrev main_v369 : Ref sig .tc := ⟨.hbm, 412, rfl⟩
abbrev main_v370 : Ref sig .tc := ⟨.hbm, 413, rfl⟩
abbrev main_v371 : Ref sig .tc := ⟨.hbm, 414, rfl⟩
abbrev main_v372 : Ref sig .tc := ⟨.hbm, 415, rfl⟩
abbrev main_v373 : Ref sig .tc := ⟨.hbm, 416, rfl⟩
abbrev main_v374 : Ref sig .tc := ⟨.hbm, 417, rfl⟩
abbrev main_v375 : Ref sig .tc := ⟨.hbm, 418, rfl⟩
abbrev main_v376 : Ref sig .tc := ⟨.hbm, 419, rfl⟩
abbrev main_v377 : Ref sig .tc := ⟨.hbm, 420, rfl⟩
abbrev main_v378 : Ref sig .tc := ⟨.hbm, 421, rfl⟩
abbrev main_v379 : Ref sig .tc := ⟨.hbm, 422, rfl⟩
abbrev main_v380 : Ref sig .tc := ⟨.hbm, 423, rfl⟩
abbrev main_v381 : Ref sig .tc := ⟨.hbm, 424, rfl⟩
abbrev main_v382 : Ref sig .tc := ⟨.hbm, 425, rfl⟩
abbrev main_v383 : Ref sig .tc := ⟨.hbm, 426, rfl⟩
abbrev main_cst_34 : Ref sig .tc := ⟨.hbm, 427, rfl⟩
abbrev main_v384 : Ref sig .tc := ⟨.hbm, 428, rfl⟩
abbrev main_v385 : Ref sig .tc := ⟨.hbm, 429, rfl⟩
abbrev main_cst_35 : Ref sig .tc := ⟨.hbm, 430, rfl⟩
abbrev main_v386 : Ref sig .tc := ⟨.hbm, 431, rfl⟩
abbrev main_v387 : Ref sig .tc := ⟨.hbm, 432, rfl⟩
abbrev main_v388 : Ref sig .tc := ⟨.hbm, 433, rfl⟩
abbrev main_v389 : Ref sig .tc := ⟨.hbm, 434, rfl⟩
abbrev main_v390 : Ref sig .tc := ⟨.hbm, 435, rfl⟩
abbrev main_v391 : Ref sig .tc := ⟨.hbm, 436, rfl⟩
abbrev main_v392 : Ref sig .tc := ⟨.hbm, 437, rfl⟩
abbrev main_v393 : Ref sig .tc := ⟨.hbm, 438, rfl⟩
abbrev main_cst_36 : Ref sig .tc := ⟨.hbm, 439, rfl⟩
abbrev main_v394 : Ref sig .tc := ⟨.hbm, 440, rfl⟩
abbrev main_v395 : Ref sig .tc := ⟨.hbm, 441, rfl⟩
abbrev main_cst_37 : Ref sig .tc := ⟨.hbm, 442, rfl⟩
abbrev main_v396 : Ref sig .tc := ⟨.hbm, 443, rfl⟩
abbrev main_v397 : Ref sig .tc := ⟨.hbm, 444, rfl⟩
abbrev main_v398 : Ref sig .tc := ⟨.hbm, 445, rfl⟩
abbrev main_v399 : Ref sig .tc := ⟨.hbm, 446, rfl⟩
abbrev main_v400 : Ref sig .tc := ⟨.hbm, 447, rfl⟩
abbrev main_v401 : Ref sig .tc := ⟨.hbm, 448, rfl⟩
abbrev main_v402 : Ref sig .tc := ⟨.hbm, 449, rfl⟩
abbrev main_v403 : Ref sig .tc := ⟨.hbm, 450, rfl⟩
abbrev main_v404 : Ref sig .tc := ⟨.hbm, 451, rfl⟩
abbrev main_cst_38 : Ref sig .tc := ⟨.hbm, 452, rfl⟩
abbrev main_v405 : Ref sig .tc := ⟨.hbm, 453, rfl⟩
abbrev main_v406 : Ref sig .tc := ⟨.hbm, 454, rfl⟩
abbrev main_v407 : Ref sig .tc := ⟨.hbm, 455, rfl⟩
abbrev main_v408 : Ref sig .tc := ⟨.hbm, 456, rfl⟩
abbrev main_v409 : Ref sig .tc := ⟨.hbm, 457, rfl⟩
abbrev main_v410 : Ref sig .tc := ⟨.hbm, 458, rfl⟩
abbrev main_v411 : Ref sig .tc := ⟨.hbm, 459, rfl⟩
abbrev main_v412 : Ref sig .tc := ⟨.hbm, 460, rfl⟩
abbrev main_v413 : Ref sig .tc := ⟨.hbm, 461, rfl⟩
abbrev main_v414 : Ref sig .tc := ⟨.hbm, 462, rfl⟩
abbrev main_v415 : Ref sig .tc := ⟨.hbm, 463, rfl⟩
abbrev main_v416 : Ref sig .tc := ⟨.hbm, 464, rfl⟩
abbrev main_v417 : Ref sig .tc := ⟨.hbm, 465, rfl⟩
abbrev main_v418 : Ref sig .tc := ⟨.hbm, 466, rfl⟩
abbrev main_v419 : Ref sig .tc := ⟨.hbm, 467, rfl⟩
abbrev main_v420 : Ref sig .tc := ⟨.hbm, 468, rfl⟩
abbrev main_v421 : Ref sig .tc := ⟨.hbm, 469, rfl⟩
abbrev main_v422 : Ref sig .tc := ⟨.hbm, 470, rfl⟩
abbrev main_v423 : Ref sig .tc := ⟨.hbm, 471, rfl⟩
abbrev main_v424 : Ref sig .tc := ⟨.hbm, 472, rfl⟩
abbrev main_v425 : Ref sig .tc := ⟨.hbm, 473, rfl⟩
abbrev main_v426 : Ref sig .tc := ⟨.hbm, 474, rfl⟩
abbrev main_v427 : Ref sig .tc := ⟨.hbm, 475, rfl⟩
abbrev main_v428 : Ref sig .tc := ⟨.hbm, 476, rfl⟩
abbrev main_cst_39 : Ref sig .tc := ⟨.hbm, 477, rfl⟩
abbrev main_v429 : Ref sig .tc := ⟨.hbm, 478, rfl⟩
abbrev main_v430 : Ref sig .tc := ⟨.hbm, 479, rfl⟩
abbrev main_cst_40 : Ref sig .tc := ⟨.hbm, 480, rfl⟩
abbrev main_v431 : Ref sig .tc := ⟨.hbm, 481, rfl⟩
abbrev main_v432 : Ref sig .tc := ⟨.hbm, 482, rfl⟩
abbrev main_v433 : Ref sig .tc := ⟨.hbm, 483, rfl⟩
abbrev main_v434 : Ref sig .tc := ⟨.hbm, 484, rfl⟩
abbrev main_v435 : Ref sig .tc := ⟨.hbm, 485, rfl⟩
abbrev main_v436 : Ref sig .tc := ⟨.hbm, 486, rfl⟩
abbrev main_v437 : Ref sig .tc := ⟨.hbm, 487, rfl⟩
abbrev main_v438 : Ref sig .tc := ⟨.hbm, 488, rfl⟩
abbrev main_cst_41 : Ref sig .tc := ⟨.hbm, 489, rfl⟩
abbrev main_v439 : Ref sig .tc := ⟨.hbm, 490, rfl⟩
abbrev main_v440 : Ref sig .tc := ⟨.hbm, 491, rfl⟩
abbrev main_cst_42 : Ref sig .tc := ⟨.hbm, 492, rfl⟩
abbrev main_v441 : Ref sig .tc := ⟨.hbm, 493, rfl⟩
abbrev main_v442 : Ref sig .tc := ⟨.hbm, 494, rfl⟩
abbrev main_v443 : Ref sig .tc := ⟨.hbm, 495, rfl⟩
abbrev main_v444 : Ref sig .tc := ⟨.hbm, 496, rfl⟩
abbrev main_v445 : Ref sig .tc := ⟨.hbm, 497, rfl⟩
abbrev main_v446 : Ref sig .tc := ⟨.hbm, 498, rfl⟩
abbrev main_v447 : Ref sig .tc := ⟨.hbm, 499, rfl⟩
abbrev main_v448 : Ref sig .tc := ⟨.hbm, 500, rfl⟩
abbrev main_v449 : Ref sig .tc := ⟨.hbm, 501, rfl⟩
abbrev main_cst_43 : Ref sig .tc := ⟨.hbm, 502, rfl⟩
abbrev main_v450 : Ref sig .tc := ⟨.hbm, 503, rfl⟩
abbrev main_v451 : Ref sig .tc := ⟨.hbm, 504, rfl⟩
abbrev main_v452 : Ref sig .tc := ⟨.hbm, 505, rfl⟩
abbrev main_v453 : Ref sig .tc := ⟨.hbm, 506, rfl⟩
abbrev main_v454 : Ref sig .tc := ⟨.hbm, 507, rfl⟩
abbrev main_v455 : Ref sig .tc := ⟨.hbm, 508, rfl⟩
abbrev main_v456 : Ref sig .tc := ⟨.hbm, 509, rfl⟩
abbrev main_v457 : Ref sig .tc := ⟨.hbm, 510, rfl⟩
abbrev main_v458 : Ref sig .tc := ⟨.hbm, 511, rfl⟩
abbrev main_v459 : Ref sig .tc := ⟨.hbm, 512, rfl⟩
abbrev main_v460 : Ref sig .tc := ⟨.hbm, 513, rfl⟩
abbrev main_v461 : Ref sig .tc := ⟨.hbm, 514, rfl⟩
abbrev main_v462 : Ref sig .tc := ⟨.hbm, 515, rfl⟩
abbrev main_v463 : Ref sig .tc := ⟨.hbm, 516, rfl⟩
abbrev main_v464 : Ref sig .tc := ⟨.hbm, 517, rfl⟩
abbrev main_v465 : Ref sig .tc := ⟨.hbm, 518, rfl⟩
abbrev main_v466 : Ref sig .tc := ⟨.hbm, 519, rfl⟩
abbrev main_v467 : Ref sig .tc := ⟨.hbm, 520, rfl⟩
abbrev main_v468 : Ref sig .tc := ⟨.hbm, 521, rfl⟩
abbrev main_v469 : Ref sig .tc := ⟨.hbm, 522, rfl⟩
abbrev main_v470 : Ref sig .tc := ⟨.hbm, 523, rfl⟩
abbrev main_v471 : Ref sig .tc := ⟨.hbm, 524, rfl⟩
abbrev main_v472 : Ref sig .tc := ⟨.hbm, 525, rfl⟩
abbrev main_v473 : Ref sig .tc := ⟨.hbm, 526, rfl⟩
abbrev main_cst_44 : Ref sig .tc := ⟨.hbm, 527, rfl⟩
abbrev main_v474 : Ref sig .tc := ⟨.hbm, 528, rfl⟩
abbrev main_v475 : Ref sig .tc := ⟨.hbm, 529, rfl⟩
abbrev main_cst_45 : Ref sig .tc := ⟨.hbm, 530, rfl⟩
abbrev main_v476 : Ref sig .tc := ⟨.hbm, 531, rfl⟩
abbrev main_v477 : Ref sig .tc := ⟨.hbm, 532, rfl⟩
abbrev main_v478 : Ref sig .tc := ⟨.hbm, 533, rfl⟩
abbrev main_v479 : Ref sig .tc := ⟨.hbm, 534, rfl⟩
abbrev main_v480 : Ref sig .tc := ⟨.hbm, 535, rfl⟩
abbrev main_v481 : Ref sig .tc := ⟨.hbm, 536, rfl⟩
abbrev main_v482 : Ref sig .tc := ⟨.hbm, 537, rfl⟩
abbrev main_v483 : Ref sig .tc := ⟨.hbm, 538, rfl⟩
abbrev main_cst_46 : Ref sig .tc := ⟨.hbm, 539, rfl⟩
abbrev main_v484 : Ref sig .tc := ⟨.hbm, 540, rfl⟩
abbrev main_v485 : Ref sig .tc := ⟨.hbm, 541, rfl⟩
abbrev main_cst_47 : Ref sig .tc := ⟨.hbm, 542, rfl⟩
abbrev main_v486 : Ref sig .tc := ⟨.hbm, 543, rfl⟩
abbrev main_v487 : Ref sig .tc := ⟨.hbm, 544, rfl⟩
abbrev main_v488 : Ref sig .tc := ⟨.hbm, 545, rfl⟩
abbrev main_v489 : Ref sig .tc := ⟨.hbm, 546, rfl⟩
abbrev main_v490 : Ref sig .tc := ⟨.hbm, 547, rfl⟩
abbrev main_v491 : Ref sig .tc := ⟨.hbm, 548, rfl⟩
abbrev main_v492 : Ref sig .tc := ⟨.hbm, 549, rfl⟩
abbrev main_v493 : Ref sig .tc := ⟨.hbm, 550, rfl⟩
abbrev main_v494 : Ref sig .tc := ⟨.hbm, 551, rfl⟩
abbrev main_cst_48 : Ref sig .tc := ⟨.hbm, 552, rfl⟩
abbrev main_v495 : Ref sig .tc := ⟨.hbm, 553, rfl⟩
abbrev main_v496 : Ref sig .tc := ⟨.hbm, 554, rfl⟩
abbrev main_v497 : Ref sig .tc := ⟨.hbm, 555, rfl⟩
abbrev main_v498 : Ref sig .tc := ⟨.hbm, 556, rfl⟩
abbrev main_v499 : Ref sig .tc := ⟨.hbm, 557, rfl⟩
abbrev main_v500 : Ref sig .tc := ⟨.hbm, 558, rfl⟩
abbrev main_v501 : Ref sig .tc := ⟨.hbm, 559, rfl⟩
abbrev main_v502 : Ref sig .tc := ⟨.hbm, 560, rfl⟩
abbrev main_v503 : Ref sig .tc := ⟨.hbm, 561, rfl⟩
abbrev main_v504 : Ref sig .tc := ⟨.hbm, 562, rfl⟩
abbrev main_v505 : Ref sig .tc := ⟨.hbm, 563, rfl⟩
abbrev main_v506 : Ref sig .tc := ⟨.hbm, 564, rfl⟩
abbrev main_v507 : Ref sig .tc := ⟨.hbm, 565, rfl⟩
abbrev main_v508 : Ref sig .tc := ⟨.hbm, 566, rfl⟩
abbrev main_v509 : Ref sig .tc := ⟨.hbm, 567, rfl⟩
abbrev main_v510 : Ref sig .tc := ⟨.hbm, 568, rfl⟩
abbrev main_v511 : Ref sig .tc := ⟨.hbm, 569, rfl⟩
abbrev main_v512 : Ref sig .tc := ⟨.hbm, 570, rfl⟩
abbrev main_v513 : Ref sig .tc := ⟨.hbm, 571, rfl⟩
abbrev main_v514 : Ref sig .tc := ⟨.hbm, 572, rfl⟩
abbrev main_v515 : Ref sig .tc := ⟨.hbm, 573, rfl⟩
abbrev main_v516 : Ref sig .tc := ⟨.hbm, 574, rfl⟩
abbrev main_v517 : Ref sig .tc := ⟨.hbm, 575, rfl⟩
abbrev main_v518 : Ref sig .tc := ⟨.hbm, 576, rfl⟩
abbrev main_cst_49 : Ref sig .tc := ⟨.hbm, 577, rfl⟩
abbrev main_v519 : Ref sig .tc := ⟨.hbm, 578, rfl⟩
abbrev main_v520 : Ref sig .tc := ⟨.hbm, 579, rfl⟩
abbrev main_cst_50 : Ref sig .tc := ⟨.hbm, 580, rfl⟩
abbrev main_v521 : Ref sig .tc := ⟨.hbm, 581, rfl⟩
abbrev main_v522 : Ref sig .tc := ⟨.hbm, 582, rfl⟩
abbrev main_v523 : Ref sig .tc := ⟨.hbm, 583, rfl⟩
abbrev main_v524 : Ref sig .tc := ⟨.hbm, 584, rfl⟩
abbrev main_v525 : Ref sig .tc := ⟨.hbm, 585, rfl⟩
abbrev main_v526 : Ref sig .tc := ⟨.hbm, 586, rfl⟩
abbrev main_v527 : Ref sig .tc := ⟨.hbm, 587, rfl⟩
abbrev main_v528 : Ref sig .tc := ⟨.hbm, 588, rfl⟩
abbrev main_cst_51 : Ref sig .tc := ⟨.hbm, 589, rfl⟩
abbrev main_v529 : Ref sig .tc := ⟨.hbm, 590, rfl⟩
abbrev main_v530 : Ref sig .tc := ⟨.hbm, 591, rfl⟩
abbrev main_cst_52 : Ref sig .tc := ⟨.hbm, 592, rfl⟩
abbrev main_v531 : Ref sig .tc := ⟨.hbm, 593, rfl⟩
abbrev main_v532 : Ref sig .tc := ⟨.hbm, 594, rfl⟩
abbrev main_v533 : Ref sig .tc := ⟨.hbm, 595, rfl⟩
abbrev main_v534 : Ref sig .tc := ⟨.hbm, 596, rfl⟩
abbrev main_v535 : Ref sig .tc := ⟨.hbm, 597, rfl⟩
abbrev main_v536 : Ref sig .tc := ⟨.hbm, 598, rfl⟩
abbrev main_v537 : Ref sig .tc := ⟨.hbm, 599, rfl⟩
abbrev main_v538 : Ref sig .tc := ⟨.hbm, 600, rfl⟩
abbrev main_v539 : Ref sig .tc := ⟨.hbm, 601, rfl⟩
abbrev main_cst_53 : Ref sig .tc := ⟨.hbm, 602, rfl⟩
abbrev main_v540 : Ref sig .tc := ⟨.hbm, 603, rfl⟩
abbrev main_v541 : Ref sig .tc := ⟨.hbm, 604, rfl⟩
abbrev main_v542 : Ref sig .tc := ⟨.hbm, 605, rfl⟩
abbrev main_v543 : Ref sig .tc := ⟨.hbm, 606, rfl⟩
abbrev main_v544 : Ref sig .tc := ⟨.hbm, 607, rfl⟩
abbrev main_v545 : Ref sig .tc := ⟨.hbm, 608, rfl⟩
abbrev main_v546 : Ref sig .tc := ⟨.hbm, 609, rfl⟩
abbrev main_v547 : Ref sig .tc := ⟨.hbm, 610, rfl⟩
abbrev main_v548 : Ref sig .tc := ⟨.hbm, 611, rfl⟩
abbrev main_v549 : Ref sig .tc := ⟨.hbm, 612, rfl⟩
abbrev main_v550 : Ref sig .tc := ⟨.hbm, 613, rfl⟩
abbrev main_v551 : Ref sig .tc := ⟨.hbm, 614, rfl⟩
abbrev main_v552 : Ref sig .tc := ⟨.hbm, 615, rfl⟩
abbrev main_v553 : Ref sig .tc := ⟨.hbm, 616, rfl⟩
abbrev main_v554 : Ref sig .tc := ⟨.hbm, 617, rfl⟩
abbrev main_v555 : Ref sig .tc := ⟨.hbm, 618, rfl⟩
abbrev main_v556 : Ref sig .tc := ⟨.hbm, 619, rfl⟩
abbrev main_v557 : Ref sig .tc := ⟨.hbm, 620, rfl⟩
abbrev main_v558 : Ref sig .tc := ⟨.hbm, 621, rfl⟩
abbrev main_v559 : Ref sig .tc := ⟨.hbm, 622, rfl⟩
abbrev main_v560 : Ref sig .tc := ⟨.hbm, 623, rfl⟩
abbrev main_v561 : Ref sig .tc := ⟨.hbm, 624, rfl⟩
abbrev main_v562 : Ref sig .tc := ⟨.hbm, 625, rfl⟩
abbrev main_v563 : Ref sig .tc := ⟨.hbm, 626, rfl⟩
abbrev main_cst_54 : Ref sig .tc := ⟨.hbm, 627, rfl⟩
abbrev main_v564 : Ref sig .tc := ⟨.hbm, 628, rfl⟩
abbrev main_v565 : Ref sig .tc := ⟨.hbm, 629, rfl⟩
abbrev main_cst_55 : Ref sig .tc := ⟨.hbm, 630, rfl⟩
abbrev main_v566 : Ref sig .tc := ⟨.hbm, 631, rfl⟩
abbrev main_v567 : Ref sig .tc := ⟨.hbm, 632, rfl⟩
abbrev main_v568 : Ref sig .tc := ⟨.hbm, 633, rfl⟩
abbrev main_v569 : Ref sig .tc := ⟨.hbm, 634, rfl⟩
abbrev main_v570 : Ref sig .tc := ⟨.hbm, 635, rfl⟩
abbrev main_v571 : Ref sig .tc := ⟨.hbm, 636, rfl⟩
abbrev main_v572 : Ref sig .tc := ⟨.hbm, 637, rfl⟩
abbrev main_v573 : Ref sig .tc := ⟨.hbm, 638, rfl⟩
abbrev main_cst_56 : Ref sig .tc := ⟨.hbm, 639, rfl⟩
abbrev main_v574 : Ref sig .tc := ⟨.hbm, 640, rfl⟩
abbrev main_v575 : Ref sig .tc := ⟨.hbm, 641, rfl⟩
abbrev main_cst_57 : Ref sig .tc := ⟨.hbm, 642, rfl⟩
abbrev main_v576 : Ref sig .tc := ⟨.hbm, 643, rfl⟩
abbrev main_v577 : Ref sig .tc := ⟨.hbm, 644, rfl⟩
abbrev main_v578 : Ref sig .tc := ⟨.hbm, 645, rfl⟩
abbrev main_v579 : Ref sig .tc := ⟨.hbm, 646, rfl⟩
abbrev main_v580 : Ref sig .tc := ⟨.hbm, 647, rfl⟩
abbrev main_v581 : Ref sig .tc := ⟨.hbm, 648, rfl⟩
abbrev main_v582 : Ref sig .tc := ⟨.hbm, 649, rfl⟩
abbrev main_v583 : Ref sig .tc := ⟨.hbm, 650, rfl⟩
abbrev main_v584 : Ref sig .tc := ⟨.hbm, 651, rfl⟩
abbrev main_cst_58 : Ref sig .tc := ⟨.hbm, 652, rfl⟩
abbrev main_v585 : Ref sig .tc := ⟨.hbm, 653, rfl⟩
abbrev main_v586 : Ref sig .tc := ⟨.hbm, 654, rfl⟩
abbrev main_v587 : Ref sig .tc := ⟨.hbm, 655, rfl⟩
abbrev main_v588 : Ref sig .tc := ⟨.hbm, 656, rfl⟩
abbrev main_v589 : Ref sig .tc := ⟨.hbm, 657, rfl⟩
abbrev main_v590 : Ref sig .tc := ⟨.hbm, 658, rfl⟩
abbrev main_v591 : Ref sig .tc := ⟨.hbm, 659, rfl⟩
abbrev main_v592 : Ref sig .tc := ⟨.hbm, 660, rfl⟩
abbrev main_v593 : Ref sig .tc := ⟨.hbm, 661, rfl⟩
abbrev main_v594 : Ref sig .tc := ⟨.hbm, 662, rfl⟩
abbrev main_v595 : Ref sig .tc := ⟨.hbm, 663, rfl⟩
abbrev main_v596 : Ref sig .tc := ⟨.hbm, 664, rfl⟩
abbrev main_v597 : Ref sig .tc := ⟨.hbm, 665, rfl⟩
abbrev main_v598 : Ref sig .tc := ⟨.hbm, 666, rfl⟩
abbrev main_v599 : Ref sig .tc := ⟨.hbm, 667, rfl⟩
abbrev main_v600 : Ref sig .tc := ⟨.hbm, 668, rfl⟩
abbrev main_v601 : Ref sig .tc := ⟨.hbm, 669, rfl⟩
abbrev main_v602 : Ref sig .tc := ⟨.hbm, 670, rfl⟩
abbrev main_v603 : Ref sig .tc := ⟨.hbm, 671, rfl⟩
abbrev main_v604 : Ref sig .tc := ⟨.hbm, 672, rfl⟩
abbrev main_v605 : Ref sig .tc := ⟨.hbm, 673, rfl⟩
abbrev main_v606 : Ref sig .tc := ⟨.hbm, 674, rfl⟩
abbrev main_v607 : Ref sig .tc := ⟨.hbm, 675, rfl⟩
abbrev main_v608 : Ref sig .tc := ⟨.hbm, 676, rfl⟩
abbrev main_cst_59 : Ref sig .tc := ⟨.hbm, 677, rfl⟩
abbrev main_v609 : Ref sig .tc := ⟨.hbm, 678, rfl⟩
abbrev main_v610 : Ref sig .tc := ⟨.hbm, 679, rfl⟩
abbrev main_cst_60 : Ref sig .tc := ⟨.hbm, 680, rfl⟩
abbrev main_v611 : Ref sig .tc := ⟨.hbm, 681, rfl⟩
abbrev main_v612 : Ref sig .tc := ⟨.hbm, 682, rfl⟩
abbrev main_v613 : Ref sig .tc := ⟨.hbm, 683, rfl⟩
abbrev main_v614 : Ref sig .tc := ⟨.hbm, 684, rfl⟩
abbrev main_v615 : Ref sig .tc := ⟨.hbm, 685, rfl⟩
abbrev main_v616 : Ref sig .tc := ⟨.hbm, 686, rfl⟩
abbrev main_v617 : Ref sig .tc := ⟨.hbm, 687, rfl⟩
abbrev main_v618 : Ref sig .tc := ⟨.hbm, 688, rfl⟩
abbrev main_cst_61 : Ref sig .tc := ⟨.hbm, 689, rfl⟩
abbrev main_v619 : Ref sig .tc := ⟨.hbm, 690, rfl⟩
abbrev main_v620 : Ref sig .tc := ⟨.hbm, 691, rfl⟩
abbrev main_cst_62 : Ref sig .tc := ⟨.hbm, 692, rfl⟩
abbrev main_v621 : Ref sig .tc := ⟨.hbm, 693, rfl⟩
abbrev main_v622 : Ref sig .tc := ⟨.hbm, 694, rfl⟩
abbrev main_v623 : Ref sig .tc := ⟨.hbm, 695, rfl⟩
abbrev main_v624 : Ref sig .tc := ⟨.hbm, 696, rfl⟩
abbrev main_v625 : Ref sig .tc := ⟨.hbm, 697, rfl⟩
abbrev main_v626 : Ref sig .tc := ⟨.hbm, 698, rfl⟩
abbrev main_v627 : Ref sig .tc := ⟨.hbm, 699, rfl⟩
abbrev main_v628 : Ref sig .tc := ⟨.hbm, 700, rfl⟩
abbrev main_v629 : Ref sig .tc := ⟨.hbm, 701, rfl⟩
abbrev main_cst_63 : Ref sig .tc := ⟨.hbm, 702, rfl⟩
abbrev main_v630 : Ref sig .tc := ⟨.hbm, 703, rfl⟩
abbrev main_v631 : Ref sig .tc := ⟨.hbm, 704, rfl⟩
abbrev main_v632 : Ref sig .tc := ⟨.hbm, 705, rfl⟩
abbrev main_v633 : Ref sig .tc := ⟨.hbm, 706, rfl⟩
abbrev main_v634 : Ref sig .tc := ⟨.hbm, 707, rfl⟩
abbrev main_v635 : Ref sig .tc := ⟨.hbm, 708, rfl⟩
abbrev main_v636 : Ref sig .tc := ⟨.hbm, 709, rfl⟩
abbrev main_v637 : Ref sig .tc := ⟨.hbm, 710, rfl⟩
abbrev main_v638 : Ref sig .tc := ⟨.hbm, 711, rfl⟩
abbrev main_v639 : Ref sig .tc := ⟨.hbm, 712, rfl⟩
abbrev main_v640 : Ref sig .tc := ⟨.hbm, 713, rfl⟩
abbrev main_v641 : Ref sig .tc := ⟨.hbm, 714, rfl⟩
abbrev main_v642 : Ref sig .tc := ⟨.hbm, 715, rfl⟩
abbrev main_v643 : Ref sig .tc := ⟨.hbm, 716, rfl⟩
abbrev main_v644 : Ref sig .tc := ⟨.hbm, 717, rfl⟩
abbrev main_v645 : Ref sig .tc := ⟨.hbm, 718, rfl⟩
abbrev main_v646 : Ref sig .tc := ⟨.hbm, 719, rfl⟩
abbrev main_v647 : Ref sig .tc := ⟨.hbm, 720, rfl⟩
abbrev main_v648 : Ref sig .tc := ⟨.hbm, 721, rfl⟩
abbrev main_v649 : Ref sig .tc := ⟨.hbm, 722, rfl⟩
abbrev main_v650 : Ref sig .tc := ⟨.hbm, 723, rfl⟩
abbrev main_v651 : Ref sig .tc := ⟨.hbm, 724, rfl⟩
abbrev main_v652 : Ref sig .tc := ⟨.hbm, 725, rfl⟩
abbrev main_v653 : Ref sig .tc := ⟨.hbm, 726, rfl⟩
abbrev main_cst_64 : Ref sig .tc := ⟨.hbm, 727, rfl⟩
abbrev main_v654 : Ref sig .tc := ⟨.hbm, 728, rfl⟩
abbrev main_v655 : Ref sig .tc := ⟨.hbm, 729, rfl⟩
abbrev main_cst_65 : Ref sig .tc := ⟨.hbm, 730, rfl⟩
abbrev main_v656 : Ref sig .tc := ⟨.hbm, 731, rfl⟩
abbrev main_v657 : Ref sig .tc := ⟨.hbm, 732, rfl⟩
abbrev main_v658 : Ref sig .tc := ⟨.hbm, 733, rfl⟩
abbrev main_v659 : Ref sig .tc := ⟨.hbm, 734, rfl⟩
abbrev main_v660 : Ref sig .tc := ⟨.hbm, 735, rfl⟩
abbrev main_v661 : Ref sig .tc := ⟨.hbm, 736, rfl⟩
abbrev main_v662 : Ref sig .tc := ⟨.hbm, 737, rfl⟩
abbrev main_v663 : Ref sig .tc := ⟨.hbm, 738, rfl⟩
abbrev main_cst_66 : Ref sig .tc := ⟨.hbm, 739, rfl⟩
abbrev main_v664 : Ref sig .tc := ⟨.hbm, 740, rfl⟩
abbrev main_v665 : Ref sig .tc := ⟨.hbm, 741, rfl⟩
abbrev main_cst_67 : Ref sig .tc := ⟨.hbm, 742, rfl⟩
abbrev main_v666 : Ref sig .tc := ⟨.hbm, 743, rfl⟩
abbrev main_v667 : Ref sig .tc := ⟨.hbm, 744, rfl⟩
abbrev main_v668 : Ref sig .tc := ⟨.hbm, 745, rfl⟩
abbrev main_v669 : Ref sig .tc := ⟨.hbm, 746, rfl⟩
abbrev main_v670 : Ref sig .tc := ⟨.hbm, 747, rfl⟩
abbrev main_v671 : Ref sig .tc := ⟨.hbm, 748, rfl⟩
abbrev main_v672 : Ref sig .tc := ⟨.hbm, 749, rfl⟩
abbrev main_v673 : Ref sig .tc := ⟨.hbm, 750, rfl⟩
abbrev main_v674 : Ref sig .tc := ⟨.hbm, 751, rfl⟩
abbrev main_cst_68 : Ref sig .tc := ⟨.hbm, 752, rfl⟩
abbrev main_v675 : Ref sig .tc := ⟨.hbm, 753, rfl⟩
abbrev main_v676 : Ref sig .tc := ⟨.hbm, 754, rfl⟩
abbrev main_v677 : Ref sig .tc := ⟨.hbm, 755, rfl⟩
abbrev main_v678 : Ref sig .tc := ⟨.hbm, 756, rfl⟩
abbrev main_v679 : Ref sig .tc := ⟨.hbm, 757, rfl⟩
abbrev main_v680 : Ref sig .tc := ⟨.hbm, 758, rfl⟩
abbrev main_v681 : Ref sig .tc := ⟨.hbm, 759, rfl⟩
abbrev main_v682 : Ref sig .tc := ⟨.hbm, 760, rfl⟩
abbrev main_v683 : Ref sig .tc := ⟨.hbm, 761, rfl⟩
abbrev main_v684 : Ref sig .tc := ⟨.hbm, 762, rfl⟩
abbrev main_v685 : Ref sig .tc := ⟨.hbm, 763, rfl⟩
abbrev main_v686 : Ref sig .tc := ⟨.hbm, 764, rfl⟩
abbrev main_v687 : Ref sig .tc := ⟨.hbm, 765, rfl⟩
abbrev main_v688 : Ref sig .tc := ⟨.hbm, 766, rfl⟩
abbrev main_v689 : Ref sig .tc := ⟨.hbm, 767, rfl⟩
abbrev main_v690 : Ref sig .tc := ⟨.hbm, 768, rfl⟩
abbrev main_v691 : Ref sig .tc := ⟨.hbm, 769, rfl⟩
abbrev main_v692 : Ref sig .tc := ⟨.hbm, 770, rfl⟩
abbrev main_v693 : Ref sig .tc := ⟨.hbm, 771, rfl⟩
abbrev main_v694 : Ref sig .tc := ⟨.hbm, 772, rfl⟩
abbrev main_v695 : Ref sig .tc := ⟨.hbm, 773, rfl⟩
abbrev main_v696 : Ref sig .tc := ⟨.hbm, 774, rfl⟩
abbrev main_v697 : Ref sig .tc := ⟨.hbm, 775, rfl⟩
abbrev main_v698 : Ref sig .tc := ⟨.hbm, 776, rfl⟩
abbrev main_cst_69 : Ref sig .tc := ⟨.hbm, 777, rfl⟩
abbrev main_v699 : Ref sig .tc := ⟨.hbm, 778, rfl⟩
abbrev main_v700 : Ref sig .tc := ⟨.hbm, 779, rfl⟩
abbrev main_cst_70 : Ref sig .tc := ⟨.hbm, 780, rfl⟩
abbrev main_v701 : Ref sig .tc := ⟨.hbm, 781, rfl⟩
abbrev main_v702 : Ref sig .tc := ⟨.hbm, 782, rfl⟩
abbrev main_v703 : Ref sig .tc := ⟨.hbm, 783, rfl⟩
abbrev main_v704 : Ref sig .tc := ⟨.hbm, 784, rfl⟩
abbrev main_v705 : Ref sig .tc := ⟨.hbm, 785, rfl⟩
abbrev main_v706 : Ref sig .tc := ⟨.hbm, 786, rfl⟩
abbrev main_v707 : Ref sig .tc := ⟨.hbm, 787, rfl⟩
abbrev main_v708 : Ref sig .tc := ⟨.hbm, 788, rfl⟩
abbrev main_cst_71 : Ref sig .tc := ⟨.hbm, 789, rfl⟩
abbrev main_v709 : Ref sig .tc := ⟨.hbm, 790, rfl⟩
abbrev main_v710 : Ref sig .tc := ⟨.hbm, 791, rfl⟩
abbrev main_cst_72 : Ref sig .tc := ⟨.hbm, 792, rfl⟩
abbrev main_v711 : Ref sig .tc := ⟨.hbm, 793, rfl⟩
abbrev main_v712 : Ref sig .tc := ⟨.hbm, 794, rfl⟩
abbrev main_v713 : Ref sig .tc := ⟨.hbm, 795, rfl⟩
abbrev main_v714 : Ref sig .tc := ⟨.hbm, 796, rfl⟩
abbrev main_v715 : Ref sig .tc := ⟨.hbm, 797, rfl⟩
abbrev main_v716 : Ref sig .tc := ⟨.hbm, 798, rfl⟩
abbrev main_v717 : Ref sig .tc := ⟨.hbm, 799, rfl⟩
abbrev main_v718 : Ref sig .tc := ⟨.hbm, 800, rfl⟩
abbrev main_v719 : Ref sig .tc := ⟨.hbm, 801, rfl⟩
abbrev main_cst_73 : Ref sig .tc := ⟨.hbm, 802, rfl⟩
abbrev main_v720 : Ref sig .tc := ⟨.hbm, 803, rfl⟩
abbrev main_v721 : Ref sig .tc := ⟨.hbm, 804, rfl⟩
abbrev main_v722 : Ref sig .tc := ⟨.hbm, 805, rfl⟩
abbrev main_v723 : Ref sig .tc := ⟨.hbm, 806, rfl⟩
abbrev main_v724 : Ref sig .tc := ⟨.hbm, 807, rfl⟩
abbrev main_v725 : Ref sig .tc := ⟨.hbm, 808, rfl⟩
abbrev main_v726 : Ref sig .tc := ⟨.hbm, 809, rfl⟩
abbrev main_v727 : Ref sig .tc := ⟨.hbm, 810, rfl⟩
abbrev main_v728 : Ref sig .tc := ⟨.hbm, 811, rfl⟩
abbrev main_v729 : Ref sig .tc := ⟨.hbm, 812, rfl⟩
abbrev main_v730 : Ref sig .tc := ⟨.hbm, 813, rfl⟩
abbrev main_v731 : Ref sig .tc := ⟨.hbm, 814, rfl⟩
abbrev main_v732 : Ref sig .tc := ⟨.hbm, 815, rfl⟩
abbrev main_v733 : Ref sig .tc := ⟨.hbm, 816, rfl⟩
abbrev main_v734 : Ref sig .tc := ⟨.hbm, 817, rfl⟩
abbrev main_v735 : Ref sig .tc := ⟨.hbm, 818, rfl⟩
abbrev main_v736 : Ref sig .tc := ⟨.hbm, 819, rfl⟩
abbrev main_v737 : Ref sig .tc := ⟨.hbm, 820, rfl⟩
abbrev main_v738 : Ref sig .tc := ⟨.hbm, 821, rfl⟩
abbrev main_v739 : Ref sig .tc := ⟨.hbm, 822, rfl⟩
abbrev main_v740 : Ref sig .tc := ⟨.hbm, 823, rfl⟩
abbrev main_v741 : Ref sig .tc := ⟨.hbm, 824, rfl⟩
abbrev main_v742 : Ref sig .tc := ⟨.hbm, 825, rfl⟩
abbrev main_v743 : Ref sig .tc := ⟨.hbm, 826, rfl⟩
abbrev main_cst_74 : Ref sig .tc := ⟨.hbm, 827, rfl⟩
abbrev main_v744 : Ref sig .tc := ⟨.hbm, 828, rfl⟩
abbrev main_v745 : Ref sig .tc := ⟨.hbm, 829, rfl⟩
abbrev main_cst_75 : Ref sig .tc := ⟨.hbm, 830, rfl⟩
abbrev main_v746 : Ref sig .tc := ⟨.hbm, 831, rfl⟩
abbrev main_v747 : Ref sig .tc := ⟨.hbm, 832, rfl⟩
abbrev main_v748 : Ref sig .tc := ⟨.hbm, 833, rfl⟩
abbrev main_v749 : Ref sig .tc := ⟨.hbm, 834, rfl⟩
abbrev main_v750 : Ref sig .tc := ⟨.hbm, 835, rfl⟩
abbrev main_v751 : Ref sig .tc := ⟨.hbm, 836, rfl⟩
abbrev main_v752 : Ref sig .tc := ⟨.hbm, 837, rfl⟩
abbrev main_v753 : Ref sig .tc := ⟨.hbm, 838, rfl⟩
abbrev main_cst_76 : Ref sig .tc := ⟨.hbm, 839, rfl⟩
abbrev main_v754 : Ref sig .tc := ⟨.hbm, 840, rfl⟩
abbrev main_v755 : Ref sig .tc := ⟨.hbm, 841, rfl⟩
abbrev main_cst_77 : Ref sig .tc := ⟨.hbm, 842, rfl⟩
abbrev main_v756 : Ref sig .tc := ⟨.hbm, 843, rfl⟩
abbrev main_v757 : Ref sig .tc := ⟨.hbm, 844, rfl⟩
abbrev main_v758 : Ref sig .tc := ⟨.hbm, 845, rfl⟩
abbrev main_v759 : Ref sig .tc := ⟨.hbm, 846, rfl⟩
abbrev main_v760 : Ref sig .tc := ⟨.hbm, 847, rfl⟩
abbrev main_v761 : Ref sig .tc := ⟨.hbm, 848, rfl⟩
abbrev main_v762 : Ref sig .tc := ⟨.hbm, 849, rfl⟩
abbrev main_v763 : Ref sig .tc := ⟨.hbm, 850, rfl⟩
abbrev main_v764 : Ref sig .tc := ⟨.hbm, 851, rfl⟩
abbrev main_cst_78 : Ref sig .tc := ⟨.hbm, 852, rfl⟩
abbrev main_v765 : Ref sig .tc := ⟨.hbm, 853, rfl⟩
abbrev main_v766 : Ref sig .tc := ⟨.hbm, 854, rfl⟩
abbrev main_v767 : Ref sig .tc := ⟨.hbm, 855, rfl⟩
abbrev main_v768 : Ref sig .tc := ⟨.hbm, 856, rfl⟩
abbrev main_v769 : Ref sig .tc := ⟨.hbm, 857, rfl⟩
abbrev main_v770 : Ref sig .tc := ⟨.hbm, 858, rfl⟩
abbrev main_v771 : Ref sig .tc := ⟨.hbm, 859, rfl⟩
abbrev main_v772 : Ref sig .tc := ⟨.hbm, 860, rfl⟩
abbrev main_v773 : Ref sig .tc := ⟨.hbm, 861, rfl⟩
abbrev main_v774 : Ref sig .tc := ⟨.hbm, 862, rfl⟩
abbrev main_v775 : Ref sig .tc := ⟨.hbm, 863, rfl⟩
abbrev main_v776 : Ref sig .tc := ⟨.hbm, 864, rfl⟩
abbrev main_v777 : Ref sig .tc := ⟨.hbm, 865, rfl⟩
abbrev main_v778 : Ref sig .tc := ⟨.hbm, 866, rfl⟩
abbrev main_v779 : Ref sig .tc := ⟨.hbm, 867, rfl⟩
abbrev main_v780 : Ref sig .tc := ⟨.hbm, 868, rfl⟩
abbrev main_v781 : Ref sig .tc := ⟨.hbm, 869, rfl⟩
abbrev main_v782 : Ref sig .tc := ⟨.hbm, 870, rfl⟩
abbrev main_v783 : Ref sig .tc := ⟨.hbm, 871, rfl⟩
abbrev main_v784 : Ref sig .tc := ⟨.hbm, 872, rfl⟩
abbrev main_v785 : Ref sig .tc := ⟨.hbm, 873, rfl⟩
abbrev main_v786 : Ref sig .tc := ⟨.hbm, 874, rfl⟩
abbrev main_v787 : Ref sig .tc := ⟨.hbm, 875, rfl⟩
abbrev main_v788 : Ref sig .tc := ⟨.hbm, 876, rfl⟩
abbrev main_cst_79 : Ref sig .tc := ⟨.hbm, 877, rfl⟩
abbrev main_v789 : Ref sig .tc := ⟨.hbm, 878, rfl⟩
abbrev main_v790 : Ref sig .tc := ⟨.hbm, 879, rfl⟩
abbrev main_cst_80 : Ref sig .tc := ⟨.hbm, 880, rfl⟩
abbrev main_v791 : Ref sig .tc := ⟨.hbm, 881, rfl⟩
abbrev main_v792 : Ref sig .tc := ⟨.hbm, 882, rfl⟩
abbrev main_v793 : Ref sig .tc := ⟨.hbm, 883, rfl⟩
abbrev main_v794 : Ref sig .tc := ⟨.hbm, 884, rfl⟩
abbrev main_v795 : Ref sig .tc := ⟨.hbm, 885, rfl⟩
abbrev main_v796 : Ref sig .tc := ⟨.hbm, 886, rfl⟩
abbrev main_v797 : Ref sig .tc := ⟨.hbm, 887, rfl⟩
abbrev main_v798 : Ref sig .tc := ⟨.hbm, 888, rfl⟩
abbrev main_cst_81 : Ref sig .tc := ⟨.hbm, 889, rfl⟩
abbrev main_v799 : Ref sig .tc := ⟨.hbm, 890, rfl⟩
abbrev main_v800 : Ref sig .tc := ⟨.hbm, 891, rfl⟩
abbrev main_cst_82 : Ref sig .tc := ⟨.hbm, 892, rfl⟩
abbrev main_v801 : Ref sig .tc := ⟨.hbm, 893, rfl⟩
abbrev main_v802 : Ref sig .tc := ⟨.hbm, 894, rfl⟩
abbrev main_v803 : Ref sig .tc := ⟨.hbm, 895, rfl⟩
abbrev main_v804 : Ref sig .tc := ⟨.hbm, 896, rfl⟩
abbrev main_v805 : Ref sig .tc := ⟨.hbm, 897, rfl⟩
abbrev main_v806 : Ref sig .tc := ⟨.hbm, 898, rfl⟩
abbrev main_v807 : Ref sig .tc := ⟨.hbm, 899, rfl⟩
abbrev main_v808 : Ref sig .tc := ⟨.hbm, 900, rfl⟩
abbrev main_v809 : Ref sig .tc := ⟨.hbm, 901, rfl⟩
abbrev main_cst_83 : Ref sig .tc := ⟨.hbm, 902, rfl⟩
abbrev main_v810 : Ref sig .tc := ⟨.hbm, 903, rfl⟩
abbrev main_v811 : Ref sig .tc := ⟨.hbm, 904, rfl⟩
abbrev main_v812 : Ref sig .tc := ⟨.hbm, 905, rfl⟩
abbrev main_v813 : Ref sig .tc := ⟨.hbm, 906, rfl⟩
abbrev main_v814 : Ref sig .tc := ⟨.hbm, 907, rfl⟩
abbrev main_v815 : Ref sig .tc := ⟨.hbm, 908, rfl⟩
abbrev main_v816 : Ref sig .tc := ⟨.hbm, 909, rfl⟩
abbrev main_v817 : Ref sig .tc := ⟨.hbm, 910, rfl⟩
abbrev main_v818 : Ref sig .tc := ⟨.hbm, 911, rfl⟩
abbrev main_v819 : Ref sig .tc := ⟨.hbm, 912, rfl⟩
abbrev main_v820 : Ref sig .tc := ⟨.hbm, 913, rfl⟩
abbrev main_v821 : Ref sig .tc := ⟨.hbm, 914, rfl⟩
abbrev main_v822 : Ref sig .tc := ⟨.hbm, 915, rfl⟩
abbrev main_v823 : Ref sig .tc := ⟨.hbm, 916, rfl⟩
abbrev main_v824 : Ref sig .tc := ⟨.hbm, 917, rfl⟩
abbrev main_v825 : Ref sig .tc := ⟨.hbm, 918, rfl⟩
abbrev main_v826 : Ref sig .tc := ⟨.hbm, 919, rfl⟩
abbrev main_v827 : Ref sig .tc := ⟨.hbm, 920, rfl⟩
abbrev main_v828 : Ref sig .tc := ⟨.hbm, 921, rfl⟩
abbrev main_v829 : Ref sig .tc := ⟨.hbm, 922, rfl⟩
abbrev main_v830 : Ref sig .tc := ⟨.hbm, 923, rfl⟩
abbrev main_v831 : Ref sig .tc := ⟨.hbm, 924, rfl⟩
abbrev main_v832 : Ref sig .tc := ⟨.hbm, 925, rfl⟩
abbrev main_v833 : Ref sig .tc := ⟨.hbm, 926, rfl⟩
abbrev main_cst_84 : Ref sig .tc := ⟨.hbm, 927, rfl⟩
abbrev main_v834 : Ref sig .tc := ⟨.hbm, 928, rfl⟩
abbrev main_v835 : Ref sig .tc := ⟨.hbm, 929, rfl⟩
abbrev main_cst_85 : Ref sig .tc := ⟨.hbm, 930, rfl⟩
abbrev main_v836 : Ref sig .tc := ⟨.hbm, 931, rfl⟩
abbrev main_v837 : Ref sig .tc := ⟨.hbm, 932, rfl⟩
abbrev main_v838 : Ref sig .tc := ⟨.hbm, 933, rfl⟩
abbrev main_v839 : Ref sig .tc := ⟨.hbm, 934, rfl⟩
abbrev main_v840 : Ref sig .tc := ⟨.hbm, 935, rfl⟩
abbrev main_v841 : Ref sig .tc := ⟨.hbm, 936, rfl⟩
abbrev main_v842 : Ref sig .tc := ⟨.hbm, 937, rfl⟩
abbrev main_v843 : Ref sig .tc := ⟨.hbm, 938, rfl⟩
abbrev main_cst_86 : Ref sig .tc := ⟨.hbm, 939, rfl⟩
abbrev main_v844 : Ref sig .tc := ⟨.hbm, 940, rfl⟩
abbrev main_v845 : Ref sig .tc := ⟨.hbm, 941, rfl⟩
abbrev main_cst_87 : Ref sig .tc := ⟨.hbm, 942, rfl⟩
abbrev main_v846 : Ref sig .tc := ⟨.hbm, 943, rfl⟩
abbrev main_v847 : Ref sig .tc := ⟨.hbm, 944, rfl⟩
abbrev main_v848 : Ref sig .tc := ⟨.hbm, 945, rfl⟩
abbrev main_v849 : Ref sig .tc := ⟨.hbm, 946, rfl⟩
abbrev main_v850 : Ref sig .tc := ⟨.hbm, 947, rfl⟩
abbrev main_v851 : Ref sig .tc := ⟨.hbm, 948, rfl⟩
abbrev main_v852 : Ref sig .tc := ⟨.hbm, 949, rfl⟩
abbrev main_v853 : Ref sig .tc := ⟨.hbm, 950, rfl⟩
abbrev main_v854 : Ref sig .tc := ⟨.hbm, 951, rfl⟩
abbrev main_cst_88 : Ref sig .tc := ⟨.hbm, 952, rfl⟩
abbrev main_v855 : Ref sig .tc := ⟨.hbm, 953, rfl⟩
abbrev main_v856 : Ref sig .tc := ⟨.hbm, 954, rfl⟩
abbrev main_v857 : Ref sig .tc := ⟨.hbm, 955, rfl⟩
abbrev main_v858 : Ref sig .tc := ⟨.hbm, 956, rfl⟩
abbrev main_v859 : Ref sig .tc := ⟨.hbm, 957, rfl⟩
abbrev main_v860 : Ref sig .tc := ⟨.hbm, 958, rfl⟩
abbrev main_v861 : Ref sig .tc := ⟨.hbm, 959, rfl⟩
abbrev main_v862 : Ref sig .tc := ⟨.hbm, 960, rfl⟩
abbrev main_v863 : Ref sig .tc := ⟨.hbm, 961, rfl⟩
abbrev main_v864 : Ref sig .tc := ⟨.hbm, 962, rfl⟩
abbrev main_v865 : Ref sig .tc := ⟨.hbm, 963, rfl⟩
abbrev main_v866 : Ref sig .tc := ⟨.hbm, 964, rfl⟩
abbrev main_v867 : Ref sig .tc := ⟨.hbm, 965, rfl⟩
abbrev main_v868 : Ref sig .tc := ⟨.hbm, 966, rfl⟩
abbrev main_v869 : Ref sig .tc := ⟨.hbm, 967, rfl⟩
abbrev main_v870 : Ref sig .tc := ⟨.hbm, 968, rfl⟩
abbrev main_v871 : Ref sig .tc := ⟨.hbm, 969, rfl⟩
abbrev main_v872 : Ref sig .tc := ⟨.hbm, 970, rfl⟩
abbrev main_v873 : Ref sig .tc := ⟨.hbm, 971, rfl⟩
abbrev main_v874 : Ref sig .tc := ⟨.hbm, 972, rfl⟩
abbrev main_v875 : Ref sig .tc := ⟨.hbm, 973, rfl⟩
abbrev main_v876 : Ref sig .tc := ⟨.hbm, 974, rfl⟩
abbrev main_v877 : Ref sig .tc := ⟨.hbm, 975, rfl⟩
abbrev main_v878 : Ref sig .tc := ⟨.hbm, 976, rfl⟩
abbrev main_cst_89 : Ref sig .tc := ⟨.hbm, 977, rfl⟩
abbrev main_v879 : Ref sig .tc := ⟨.hbm, 978, rfl⟩
abbrev main_v880 : Ref sig .tc := ⟨.hbm, 979, rfl⟩
abbrev main_cst_90 : Ref sig .tc := ⟨.hbm, 980, rfl⟩
abbrev main_v881 : Ref sig .tc := ⟨.hbm, 981, rfl⟩
abbrev main_v882 : Ref sig .tc := ⟨.hbm, 982, rfl⟩
abbrev main_v883 : Ref sig .tc := ⟨.hbm, 983, rfl⟩
abbrev main_v884 : Ref sig .tc := ⟨.hbm, 984, rfl⟩
abbrev main_v885 : Ref sig .tc := ⟨.hbm, 985, rfl⟩
abbrev main_v886 : Ref sig .tc := ⟨.hbm, 986, rfl⟩
abbrev main_v887 : Ref sig .tc := ⟨.hbm, 987, rfl⟩
abbrev main_v888 : Ref sig .tc := ⟨.hbm, 988, rfl⟩
abbrev main_cst_91 : Ref sig .tc := ⟨.hbm, 989, rfl⟩
abbrev main_v889 : Ref sig .tc := ⟨.hbm, 990, rfl⟩
abbrev main_v890 : Ref sig .tc := ⟨.hbm, 991, rfl⟩
abbrev main_cst_92 : Ref sig .tc := ⟨.hbm, 992, rfl⟩
abbrev main_v891 : Ref sig .tc := ⟨.hbm, 993, rfl⟩
abbrev main_v892 : Ref sig .tc := ⟨.hbm, 994, rfl⟩
abbrev main_v893 : Ref sig .tc := ⟨.hbm, 995, rfl⟩
abbrev main_v894 : Ref sig .tc := ⟨.hbm, 996, rfl⟩
abbrev main_v895 : Ref sig .tc := ⟨.hbm, 997, rfl⟩
abbrev main_v896 : Ref sig .tc := ⟨.hbm, 998, rfl⟩
abbrev main_v897 : Ref sig .tc := ⟨.hbm, 999, rfl⟩
abbrev main_v898 : Ref sig .tc := ⟨.hbm, 1000, rfl⟩
abbrev main_v899 : Ref sig .tc := ⟨.hbm, 1001, rfl⟩
abbrev main_cst_93 : Ref sig .tc := ⟨.hbm, 1002, rfl⟩
abbrev main_v900 : Ref sig .tc := ⟨.hbm, 1003, rfl⟩
abbrev main_v901 : Ref sig .tc := ⟨.hbm, 1004, rfl⟩
abbrev main_v902 : Ref sig .tc := ⟨.hbm, 1005, rfl⟩
abbrev main_v903 : Ref sig .tc := ⟨.hbm, 1006, rfl⟩
abbrev main_v904 : Ref sig .tc := ⟨.hbm, 1007, rfl⟩
abbrev main_v905 : Ref sig .tc := ⟨.hbm, 1008, rfl⟩
abbrev main_v906 : Ref sig .tc := ⟨.hbm, 1009, rfl⟩
abbrev main_v907 : Ref sig .tc := ⟨.hbm, 1010, rfl⟩
abbrev main_v908 : Ref sig .tc := ⟨.hbm, 1011, rfl⟩
abbrev main_v909 : Ref sig .tc := ⟨.hbm, 1012, rfl⟩
abbrev main_v910 : Ref sig .tc := ⟨.hbm, 1013, rfl⟩
abbrev main_v911 : Ref sig .tc := ⟨.hbm, 1014, rfl⟩
abbrev main_v912 : Ref sig .tc := ⟨.hbm, 1015, rfl⟩
abbrev main_v913 : Ref sig .tc := ⟨.hbm, 1016, rfl⟩
abbrev main_v914 : Ref sig .tc := ⟨.hbm, 1017, rfl⟩
abbrev main_v915 : Ref sig .tc := ⟨.hbm, 1018, rfl⟩
abbrev main_v916 : Ref sig .tc := ⟨.hbm, 1019, rfl⟩
abbrev main_v917 : Ref sig .tc := ⟨.hbm, 1020, rfl⟩
abbrev main_v918 : Ref sig .tc := ⟨.hbm, 1021, rfl⟩
abbrev main_v919 : Ref sig .tc := ⟨.hbm, 1022, rfl⟩
abbrev main_v920 : Ref sig .tc := ⟨.hbm, 1023, rfl⟩
abbrev main_v921 : Ref sig .tc := ⟨.hbm, 1024, rfl⟩
abbrev main_v922 : Ref sig .tc := ⟨.hbm, 1025, rfl⟩
abbrev main_v923 : Ref sig .tc := ⟨.hbm, 1026, rfl⟩
abbrev main_cst_94 : Ref sig .tc := ⟨.hbm, 1027, rfl⟩
abbrev main_v924 : Ref sig .tc := ⟨.hbm, 1028, rfl⟩
abbrev main_v925 : Ref sig .tc := ⟨.hbm, 1029, rfl⟩
abbrev main_cst_95 : Ref sig .tc := ⟨.hbm, 1030, rfl⟩
abbrev main_v926 : Ref sig .tc := ⟨.hbm, 1031, rfl⟩
abbrev main_v927 : Ref sig .tc := ⟨.hbm, 1032, rfl⟩
abbrev main_v928 : Ref sig .tc := ⟨.hbm, 1033, rfl⟩
abbrev main_v929 : Ref sig .tc := ⟨.hbm, 1034, rfl⟩
abbrev main_v930 : Ref sig .tc := ⟨.hbm, 1035, rfl⟩
abbrev main_v931 : Ref sig .tc := ⟨.hbm, 1036, rfl⟩
abbrev main_v932 : Ref sig .tc := ⟨.hbm, 1037, rfl⟩
abbrev main_v933 : Ref sig .tc := ⟨.hbm, 1038, rfl⟩
abbrev main_cst_96 : Ref sig .tc := ⟨.hbm, 1039, rfl⟩
abbrev main_v934 : Ref sig .tc := ⟨.hbm, 1040, rfl⟩
abbrev main_v935 : Ref sig .tc := ⟨.hbm, 1041, rfl⟩
abbrev main_cst_97 : Ref sig .tc := ⟨.hbm, 1042, rfl⟩
abbrev main_v936 : Ref sig .tc := ⟨.hbm, 1043, rfl⟩
abbrev main_v937 : Ref sig .tc := ⟨.hbm, 1044, rfl⟩
abbrev main_v938 : Ref sig .tc := ⟨.hbm, 1045, rfl⟩
abbrev main_v939 : Ref sig .tc := ⟨.hbm, 1046, rfl⟩
abbrev main_v940 : Ref sig .tc := ⟨.hbm, 1047, rfl⟩
abbrev main_v941 : Ref sig .tc := ⟨.hbm, 1048, rfl⟩
abbrev main_v942 : Ref sig .tc := ⟨.hbm, 1049, rfl⟩
abbrev main_v943 : Ref sig .tc := ⟨.hbm, 1050, rfl⟩
abbrev main_v944 : Ref sig .tc := ⟨.hbm, 1051, rfl⟩
abbrev main_cst_98 : Ref sig .tc := ⟨.hbm, 1052, rfl⟩
abbrev main_v945 : Ref sig .tc := ⟨.hbm, 1053, rfl⟩
abbrev main_v946 : Ref sig .tc := ⟨.hbm, 1054, rfl⟩
abbrev main_v947 : Ref sig .tc := ⟨.hbm, 1055, rfl⟩
abbrev main_v948 : Ref sig .tc := ⟨.hbm, 1056, rfl⟩
abbrev main_v949 : Ref sig .tc := ⟨.hbm, 1057, rfl⟩
abbrev main_v950 : Ref sig .tc := ⟨.hbm, 1058, rfl⟩
abbrev main_v951 : Ref sig .tc := ⟨.hbm, 1059, rfl⟩
abbrev main_v952 : Ref sig .tc := ⟨.hbm, 1060, rfl⟩
abbrev main_v953 : Ref sig .tc := ⟨.hbm, 1061, rfl⟩
abbrev main_v954 : Ref sig .tc := ⟨.hbm, 1062, rfl⟩
abbrev main_v955 : Ref sig .tc := ⟨.hbm, 1063, rfl⟩
abbrev main_v956 : Ref sig .tc := ⟨.hbm, 1064, rfl⟩
abbrev main_v957 : Ref sig .tc := ⟨.hbm, 1065, rfl⟩
abbrev main_v958 : Ref sig .tc := ⟨.hbm, 1066, rfl⟩
abbrev main_v959 : Ref sig .tc := ⟨.hbm, 1067, rfl⟩
abbrev main_v960 : Ref sig .tc := ⟨.hbm, 1068, rfl⟩
abbrev main_v961 : Ref sig .tc := ⟨.hbm, 1069, rfl⟩
abbrev main_v962 : Ref sig .tc := ⟨.hbm, 1070, rfl⟩
abbrev main_v963 : Ref sig .tc := ⟨.hbm, 1071, rfl⟩
abbrev main_v964 : Ref sig .tc := ⟨.hbm, 1072, rfl⟩
abbrev main_v965 : Ref sig .tc := ⟨.hbm, 1073, rfl⟩
abbrev main_v966 : Ref sig .tc := ⟨.hbm, 1074, rfl⟩
abbrev main_v967 : Ref sig .tc := ⟨.hbm, 1075, rfl⟩
abbrev main_v968 : Ref sig .tc := ⟨.hbm, 1076, rfl⟩
abbrev main_cst_99 : Ref sig .tc := ⟨.hbm, 1077, rfl⟩
abbrev main_v969 : Ref sig .tc := ⟨.hbm, 1078, rfl⟩
abbrev main_v970 : Ref sig .tc := ⟨.hbm, 1079, rfl⟩
abbrev main_cst_100 : Ref sig .tc := ⟨.hbm, 1080, rfl⟩
abbrev main_v971 : Ref sig .tc := ⟨.hbm, 1081, rfl⟩
abbrev main_v972 : Ref sig .tc := ⟨.hbm, 1082, rfl⟩
abbrev main_v973 : Ref sig .tc := ⟨.hbm, 1083, rfl⟩
abbrev main_v974 : Ref sig .tc := ⟨.hbm, 1084, rfl⟩
abbrev main_v975 : Ref sig .tc := ⟨.hbm, 1085, rfl⟩
abbrev main_v976 : Ref sig .tc := ⟨.hbm, 1086, rfl⟩
abbrev main_v977 : Ref sig .tc := ⟨.hbm, 1087, rfl⟩
abbrev main_v978 : Ref sig .tc := ⟨.hbm, 1088, rfl⟩
abbrev main_cst_101 : Ref sig .tc := ⟨.hbm, 1089, rfl⟩
abbrev main_v979 : Ref sig .tc := ⟨.hbm, 1090, rfl⟩
abbrev main_v980 : Ref sig .tc := ⟨.hbm, 1091, rfl⟩
abbrev main_cst_102 : Ref sig .tc := ⟨.hbm, 1092, rfl⟩
abbrev main_v981 : Ref sig .tc := ⟨.hbm, 1093, rfl⟩
abbrev main_v982 : Ref sig .tc := ⟨.hbm, 1094, rfl⟩
abbrev main_v983 : Ref sig .tc := ⟨.hbm, 1095, rfl⟩
abbrev main_v984 : Ref sig .tc := ⟨.hbm, 1096, rfl⟩
abbrev main_v985 : Ref sig .tc := ⟨.hbm, 1097, rfl⟩
abbrev main_v986 : Ref sig .tc := ⟨.hbm, 1098, rfl⟩
abbrev main_v987 : Ref sig .tc := ⟨.hbm, 1099, rfl⟩
abbrev main_v988 : Ref sig .tc := ⟨.hbm, 1100, rfl⟩
abbrev main_v989 : Ref sig .tc := ⟨.hbm, 1101, rfl⟩
abbrev main_cst_103 : Ref sig .tc := ⟨.hbm, 1102, rfl⟩
abbrev main_v990 : Ref sig .tc := ⟨.hbm, 1103, rfl⟩
abbrev main_v991 : Ref sig .tc := ⟨.hbm, 1104, rfl⟩
abbrev main_v992 : Ref sig .tc := ⟨.hbm, 1105, rfl⟩
abbrev main_v993 : Ref sig .tc := ⟨.hbm, 1106, rfl⟩
abbrev main_v994 : Ref sig .tc := ⟨.hbm, 1107, rfl⟩
abbrev main_v995 : Ref sig .tc := ⟨.hbm, 1108, rfl⟩
abbrev main_v996 : Ref sig .tc := ⟨.hbm, 1109, rfl⟩
abbrev main_v997 : Ref sig .tc := ⟨.hbm, 1110, rfl⟩
abbrev main_v998 : Ref sig .tc := ⟨.hbm, 1111, rfl⟩
abbrev main_v999 : Ref sig .tc := ⟨.hbm, 1112, rfl⟩
abbrev main_v1000 : Ref sig .tc := ⟨.hbm, 1113, rfl⟩
abbrev main_v1001 : Ref sig .tc := ⟨.hbm, 1114, rfl⟩
abbrev main_v1002 : Ref sig .tc := ⟨.hbm, 1115, rfl⟩
abbrev main_v1003 : Ref sig .tc := ⟨.hbm, 1116, rfl⟩
abbrev main_v1004 : Ref sig .tc := ⟨.hbm, 1117, rfl⟩
abbrev main_v1005 : Ref sig .tc := ⟨.hbm, 1118, rfl⟩
abbrev main_v1006 : Ref sig .tc := ⟨.hbm, 1119, rfl⟩
abbrev main_v1007 : Ref sig .tc := ⟨.hbm, 1120, rfl⟩
abbrev main_v1008 : Ref sig .tc := ⟨.hbm, 1121, rfl⟩
abbrev main_v1009 : Ref sig .tc := ⟨.hbm, 1122, rfl⟩
abbrev main_v1010 : Ref sig .tc := ⟨.hbm, 1123, rfl⟩
abbrev main_v1011 : Ref sig .tc := ⟨.hbm, 1124, rfl⟩
abbrev main_v1012 : Ref sig .tc := ⟨.hbm, 1125, rfl⟩
abbrev main_v1013 : Ref sig .tc := ⟨.hbm, 1126, rfl⟩
abbrev main_cst_104 : Ref sig .tc := ⟨.hbm, 1127, rfl⟩
abbrev main_v1014 : Ref sig .tc := ⟨.hbm, 1128, rfl⟩
abbrev main_v1015 : Ref sig .tc := ⟨.hbm, 1129, rfl⟩
abbrev main_cst_105 : Ref sig .tc := ⟨.hbm, 1130, rfl⟩
abbrev main_v1016 : Ref sig .tc := ⟨.hbm, 1131, rfl⟩
abbrev main_v1017 : Ref sig .tc := ⟨.hbm, 1132, rfl⟩
abbrev main_v1018 : Ref sig .tc := ⟨.hbm, 1133, rfl⟩
abbrev main_v1019 : Ref sig .tc := ⟨.hbm, 1134, rfl⟩
abbrev main_v1020 : Ref sig .tc := ⟨.hbm, 1135, rfl⟩
abbrev main_v1021 : Ref sig .tc := ⟨.hbm, 1136, rfl⟩
abbrev main_v1022 : Ref sig .tc := ⟨.hbm, 1137, rfl⟩
abbrev main_v1023 : Ref sig .tc := ⟨.hbm, 1138, rfl⟩
abbrev main_cst_106 : Ref sig .tc := ⟨.hbm, 1139, rfl⟩
abbrev main_v1024 : Ref sig .tc := ⟨.hbm, 1140, rfl⟩
abbrev main_v1025 : Ref sig .tc := ⟨.hbm, 1141, rfl⟩
abbrev main_cst_107 : Ref sig .tc := ⟨.hbm, 1142, rfl⟩
abbrev main_v1026 : Ref sig .tc := ⟨.hbm, 1143, rfl⟩
abbrev main_v1027 : Ref sig .tc := ⟨.hbm, 1144, rfl⟩
abbrev main_v1028 : Ref sig .tc := ⟨.hbm, 1145, rfl⟩
abbrev main_v1029 : Ref sig .tc := ⟨.hbm, 1146, rfl⟩
abbrev main_v1030 : Ref sig .tc := ⟨.hbm, 1147, rfl⟩
abbrev main_v1031 : Ref sig .tc := ⟨.hbm, 1148, rfl⟩
abbrev main_v1032 : Ref sig .tc := ⟨.hbm, 1149, rfl⟩
abbrev main_v1033 : Ref sig .tc := ⟨.hbm, 1150, rfl⟩
abbrev main_v1034 : Ref sig .tc := ⟨.hbm, 1151, rfl⟩
abbrev main_cst_108 : Ref sig .tc := ⟨.hbm, 1152, rfl⟩
abbrev main_v1035 : Ref sig .tc := ⟨.hbm, 1153, rfl⟩
abbrev main_v1036 : Ref sig .tc := ⟨.hbm, 1154, rfl⟩
abbrev main_v1037 : Ref sig .tc := ⟨.hbm, 1155, rfl⟩
abbrev main_v1038 : Ref sig .tc := ⟨.hbm, 1156, rfl⟩
abbrev main_v1039 : Ref sig .tc := ⟨.hbm, 1157, rfl⟩
abbrev main_v1040 : Ref sig .tc := ⟨.hbm, 1158, rfl⟩
abbrev main_v1041 : Ref sig .tc := ⟨.hbm, 1159, rfl⟩
abbrev main_v1042 : Ref sig .tc := ⟨.hbm, 1160, rfl⟩
abbrev main_v1043 : Ref sig .tc := ⟨.hbm, 1161, rfl⟩
abbrev main_v1044 : Ref sig .tc := ⟨.hbm, 1162, rfl⟩
abbrev main_v1045 : Ref sig .tc := ⟨.hbm, 1163, rfl⟩
abbrev main_v1046 : Ref sig .tc := ⟨.hbm, 1164, rfl⟩
abbrev main_v1047 : Ref sig .tc := ⟨.hbm, 1165, rfl⟩
abbrev main_v1048 : Ref sig .tc := ⟨.hbm, 1166, rfl⟩
abbrev main_v1049 : Ref sig .tc := ⟨.hbm, 1167, rfl⟩
abbrev main_v1050 : Ref sig .tc := ⟨.hbm, 1168, rfl⟩
abbrev main_v1051 : Ref sig .tc := ⟨.hbm, 1169, rfl⟩
abbrev main_v1052 : Ref sig .tc := ⟨.hbm, 1170, rfl⟩
abbrev main_v1053 : Ref sig .tc := ⟨.hbm, 1171, rfl⟩
abbrev main_v1054 : Ref sig .tc := ⟨.hbm, 1172, rfl⟩
abbrev main_v1055 : Ref sig .tc := ⟨.hbm, 1173, rfl⟩
abbrev main_v1056 : Ref sig .tc := ⟨.hbm, 1174, rfl⟩
abbrev main_v1057 : Ref sig .tc := ⟨.hbm, 1175, rfl⟩
abbrev main_v1058 : Ref sig .tc := ⟨.hbm, 1176, rfl⟩
abbrev main_cst_109 : Ref sig .tc := ⟨.hbm, 1177, rfl⟩
abbrev main_v1059 : Ref sig .tc := ⟨.hbm, 1178, rfl⟩
abbrev main_v1060 : Ref sig .tc := ⟨.hbm, 1179, rfl⟩
abbrev main_cst_110 : Ref sig .tc := ⟨.hbm, 1180, rfl⟩
abbrev main_v1061 : Ref sig .tc := ⟨.hbm, 1181, rfl⟩
abbrev main_v1062 : Ref sig .tc := ⟨.hbm, 1182, rfl⟩
abbrev main_v1063 : Ref sig .tc := ⟨.hbm, 1183, rfl⟩
abbrev main_v1064 : Ref sig .tc := ⟨.hbm, 1184, rfl⟩
abbrev main_v1065 : Ref sig .tc := ⟨.hbm, 1185, rfl⟩
abbrev main_v1066 : Ref sig .tc := ⟨.hbm, 1186, rfl⟩
abbrev main_v1067 : Ref sig .tc := ⟨.hbm, 1187, rfl⟩
abbrev main_v1068 : Ref sig .tc := ⟨.hbm, 1188, rfl⟩
abbrev main_cst_111 : Ref sig .tc := ⟨.hbm, 1189, rfl⟩
abbrev main_v1069 : Ref sig .tc := ⟨.hbm, 1190, rfl⟩
abbrev main_v1070 : Ref sig .tc := ⟨.hbm, 1191, rfl⟩
abbrev main_cst_112 : Ref sig .tc := ⟨.hbm, 1192, rfl⟩
abbrev main_v1071 : Ref sig .tc := ⟨.hbm, 1193, rfl⟩
abbrev main_v1072 : Ref sig .tc := ⟨.hbm, 1194, rfl⟩
abbrev main_v1073 : Ref sig .tc := ⟨.hbm, 1195, rfl⟩
abbrev main_v1074 : Ref sig .tc := ⟨.hbm, 1196, rfl⟩
abbrev main_v1075 : Ref sig .tc := ⟨.hbm, 1197, rfl⟩
abbrev main_v1076 : Ref sig .tc := ⟨.hbm, 1198, rfl⟩
abbrev main_v1077 : Ref sig .tc := ⟨.hbm, 1199, rfl⟩
abbrev main_v1078 : Ref sig .tc := ⟨.hbm, 1200, rfl⟩
abbrev main_v1079 : Ref sig .tc := ⟨.hbm, 1201, rfl⟩
abbrev main_cst_113 : Ref sig .tc := ⟨.hbm, 1202, rfl⟩
abbrev main_v1080 : Ref sig .tc := ⟨.hbm, 1203, rfl⟩
abbrev main_v1081 : Ref sig .tc := ⟨.hbm, 1204, rfl⟩
abbrev main_v1082 : Ref sig .tc := ⟨.hbm, 1205, rfl⟩
abbrev main_v1083 : Ref sig .tc := ⟨.hbm, 1206, rfl⟩
abbrev main_v1084 : Ref sig .tc := ⟨.hbm, 1207, rfl⟩
abbrev main_v1085 : Ref sig .tc := ⟨.hbm, 1208, rfl⟩
abbrev main_v1086 : Ref sig .tc := ⟨.hbm, 1209, rfl⟩
abbrev main_v1087 : Ref sig .tc := ⟨.hbm, 1210, rfl⟩
abbrev main_v1088 : Ref sig .tc := ⟨.hbm, 1211, rfl⟩
abbrev main_v1089 : Ref sig .tc := ⟨.hbm, 1212, rfl⟩
abbrev main_v1090 : Ref sig .tc := ⟨.hbm, 1213, rfl⟩
abbrev main_v1091 : Ref sig .tc := ⟨.hbm, 1214, rfl⟩
abbrev main_v1092 : Ref sig .tc := ⟨.hbm, 1215, rfl⟩
abbrev main_v1093 : Ref sig .tc := ⟨.hbm, 1216, rfl⟩
abbrev main_v1094 : Ref sig .tc := ⟨.hbm, 1217, rfl⟩
abbrev main_v1095 : Ref sig .tc := ⟨.hbm, 1218, rfl⟩
abbrev main_v1096 : Ref sig .tc := ⟨.hbm, 1219, rfl⟩
abbrev main_v1097 : Ref sig .tc := ⟨.hbm, 1220, rfl⟩
abbrev main_v1098 : Ref sig .tc := ⟨.hbm, 1221, rfl⟩
abbrev main_v1099 : Ref sig .tc := ⟨.hbm, 1222, rfl⟩
abbrev main_v1100 : Ref sig .tc := ⟨.hbm, 1223, rfl⟩
abbrev main_v1101 : Ref sig .tc := ⟨.hbm, 1224, rfl⟩
abbrev main_v1102 : Ref sig .tc := ⟨.hbm, 1225, rfl⟩
abbrev main_v1103 : Ref sig .tc := ⟨.hbm, 1226, rfl⟩
abbrev main_cst_114 : Ref sig .tc := ⟨.hbm, 1227, rfl⟩
abbrev main_v1104 : Ref sig .tc := ⟨.hbm, 1228, rfl⟩
abbrev main_v1105 : Ref sig .tc := ⟨.hbm, 1229, rfl⟩
abbrev main_cst_115 : Ref sig .tc := ⟨.hbm, 1230, rfl⟩
abbrev main_v1106 : Ref sig .tc := ⟨.hbm, 1231, rfl⟩
abbrev main_v1107 : Ref sig .tc := ⟨.hbm, 1232, rfl⟩
abbrev main_v1108 : Ref sig .tc := ⟨.hbm, 1233, rfl⟩
abbrev main_v1109 : Ref sig .tc := ⟨.hbm, 1234, rfl⟩
abbrev main_v1110 : Ref sig .tc := ⟨.hbm, 1235, rfl⟩
abbrev main_v1111 : Ref sig .tc := ⟨.hbm, 1236, rfl⟩
abbrev main_v1112 : Ref sig .tc := ⟨.hbm, 1237, rfl⟩
abbrev main_v1113 : Ref sig .tc := ⟨.hbm, 1238, rfl⟩
abbrev main_cst_116 : Ref sig .tc := ⟨.hbm, 1239, rfl⟩
abbrev main_v1114 : Ref sig .tc := ⟨.hbm, 1240, rfl⟩
abbrev main_v1115 : Ref sig .tc := ⟨.hbm, 1241, rfl⟩
abbrev main_cst_117 : Ref sig .tc := ⟨.hbm, 1242, rfl⟩
abbrev main_v1116 : Ref sig .tc := ⟨.hbm, 1243, rfl⟩
abbrev main_v1117 : Ref sig .tc := ⟨.hbm, 1244, rfl⟩
abbrev main_v1118 : Ref sig .tc := ⟨.hbm, 1245, rfl⟩
abbrev main_v1119 : Ref sig .tc := ⟨.hbm, 1246, rfl⟩
abbrev main_v1120 : Ref sig .tc := ⟨.hbm, 1247, rfl⟩
abbrev main_v1121 : Ref sig .tc := ⟨.hbm, 1248, rfl⟩
abbrev main_v1122 : Ref sig .tc := ⟨.hbm, 1249, rfl⟩
abbrev main_v1123 : Ref sig .tc := ⟨.hbm, 1250, rfl⟩
abbrev main_v1124 : Ref sig .tc := ⟨.hbm, 1251, rfl⟩
abbrev main_cst_118 : Ref sig .tc := ⟨.hbm, 1252, rfl⟩
abbrev main_v1125 : Ref sig .tc := ⟨.hbm, 1253, rfl⟩
abbrev main_v1126 : Ref sig .tc := ⟨.hbm, 1254, rfl⟩
abbrev main_v1127 : Ref sig .tc := ⟨.hbm, 1255, rfl⟩
abbrev main_v1128 : Ref sig .tc := ⟨.hbm, 1256, rfl⟩
abbrev main_v1129 : Ref sig .tc := ⟨.hbm, 1257, rfl⟩
abbrev main_v1130 : Ref sig .tc := ⟨.hbm, 1258, rfl⟩
abbrev main_v1131 : Ref sig .tc := ⟨.hbm, 1259, rfl⟩
abbrev main_v1132 : Ref sig .tc := ⟨.hbm, 1260, rfl⟩
abbrev main_v1133 : Ref sig .tc := ⟨.hbm, 1261, rfl⟩
abbrev main_v1134 : Ref sig .tc := ⟨.hbm, 1262, rfl⟩
abbrev main_v1135 : Ref sig .tc := ⟨.hbm, 1263, rfl⟩
abbrev main_v1136 : Ref sig .tc := ⟨.hbm, 1264, rfl⟩
abbrev main_v1137 : Ref sig .tc := ⟨.hbm, 1265, rfl⟩
abbrev main_v1138 : Ref sig .tc := ⟨.hbm, 1266, rfl⟩
abbrev main_v1139 : Ref sig .tc := ⟨.hbm, 1267, rfl⟩
abbrev main_v1140 : Ref sig .tc := ⟨.hbm, 1268, rfl⟩
abbrev main_v1141 : Ref sig .tc := ⟨.hbm, 1269, rfl⟩
abbrev main_v1142 : Ref sig .tc := ⟨.hbm, 1270, rfl⟩
abbrev main_v1143 : Ref sig .tc := ⟨.hbm, 1271, rfl⟩
abbrev main_v1144 : Ref sig .tc := ⟨.hbm, 1272, rfl⟩
abbrev main_v1145 : Ref sig .tc := ⟨.hbm, 1273, rfl⟩
abbrev main_v1146 : Ref sig .tc := ⟨.hbm, 1274, rfl⟩
abbrev main_v1147 : Ref sig .tc := ⟨.hbm, 1275, rfl⟩
abbrev main_v1148 : Ref sig .tc := ⟨.hbm, 1276, rfl⟩
abbrev main_v1149 : Ref sig .tc := ⟨.hbm, 1277, rfl⟩
abbrev main_v1150 : Ref sig .tc := ⟨.hbm, 1278, rfl⟩
abbrev main_v1151 : Ref sig .tc := ⟨.hbm, 1279, rfl⟩
abbrev main_v1152 : Ref sig .tc := ⟨.hbm, 1280, rfl⟩
abbrev main_v1153 : Ref sig .tc := ⟨.hbm, 1281, rfl⟩
abbrev main_v1154 : Ref sig .tc := ⟨.hbm, 1282, rfl⟩
abbrev main_v1155 : Ref sig .tc := ⟨.hbm, 1283, rfl⟩
abbrev main_v1156 : Ref sig .tc := ⟨.hbm, 1284, rfl⟩

abbrev nD : Nat := 1
abbrev τ : Topo := Topo.v7x

variable {F : FTy → Type} [FloatOps F]

class Facts₀ : Prop where
  slices_S32768x24x32_S32768x1x32_0_0_0 : S32768x24x32.Slices ![0, 0, 0] S32768x1x32
  shapeCasts_S32768x1x32_S32768x32 : S32768x1x32.ShapeCasts S32768x32
  slices_S32768x24x32_S32768x1x32_0_1_0 : S32768x24x32.Slices ![0, 1, 0] S32768x1x32
  slices_S32768x24x32_S32768x1x32_0_2_0 : S32768x24x32.Slices ![0, 2, 0] S32768x1x32
  slices_S32768x24x32_S32768x1x32_0_3_0 : S32768x24x32.Slices ![0, 3, 0] S32768x1x32
  slices_S32768x24x32_S32768x1x32_0_4_0 : S32768x24x32.Slices ![0, 4, 0] S32768x1x32
  slices_S32768x24x32_S32768x1x32_0_5_0 : S32768x24x32.Slices ![0, 5, 0] S32768x1x32
  slices_S32768x24x32_S32768x1x32_0_6_0 : S32768x24x32.Slices ![0, 6, 0] S32768x1x32
  slices_S32768x24x32_S32768x1x32_0_7_0 : S32768x24x32.Slices ![0, 7, 0] S32768x1x32
  slices_S32768x24x32_S32768x1x32_0_8_0 : S32768x24x32.Slices ![0, 8, 0] S32768x1x32
  slices_S32768x24x32_S32768x1x32_0_9_0 : S32768x24x32.Slices ![0, 9, 0] S32768x1x32
  slices_S32768x24x32_S32768x1x32_0_10_0 : S32768x24x32.Slices ![0, 10, 0] S32768x1x32
  slices_S32768x24x32_S32768x1x32_0_11_0 : S32768x24x32.Slices ![0, 11, 0] S32768x1x32
  slices_S32768x24x32_S32768x1x32_0_12_0 : S32768x24x32.Slices ![0, 12, 0] S32768x1x32
  slices_S32768x24x32_S32768x1x32_0_13_0 : S32768x24x32.Slices ![0, 13, 0] S32768x1x32
  slices_S32768x24x32_S32768x1x32_0_14_0 : S32768x24x32.Slices ![0, 14, 0] S32768x1x32
  slices_S32768x24x32_S32768x1x32_0_15_0 : S32768x24x32.Slices ![0, 15, 0] S32768x1x32
  slices_S32768x24x32_S32768x1x32_0_16_0 : S32768x24x32.Slices ![0, 16, 0] S32768x1x32
  slices_S32768x24x32_S32768x1x32_0_17_0 : S32768x24x32.Slices ![0, 17, 0] S32768x1x32
  slices_S32768x24x32_S32768x1x32_0_18_0 : S32768x24x32.Slices ![0, 18, 0] S32768x1x32
  slices_S32768x24x32_S32768x1x32_0_19_0 : S32768x24x32.Slices ![0, 19, 0] S32768x1x32
  slices_S32768x24x32_S32768x1x32_0_20_0 : S32768x24x32.Slices ![0, 20, 0] S32768x1x32
  slices_S32768x24x32_S32768x1x32_0_21_0 : S32768x24x32.Slices ![0, 21, 0] S32768x1x32
  slices_S32768x24x32_S32768x1x32_0_22_0 : S32768x24x32.Slices ![0, 22, 0] S32768x1x32
  slices_S32768x24x32_S32768x1x32_0_23_0 : S32768x24x32.Slices ![0, 23, 0] S32768x1x32
  slices_S24x480x32_S1x480x32_0_0_0 : S24x480x32.Slices ![0, 0, 0] S1x480x32
  shapeCasts_S1x480x32_S480x32 : S1x480x32.ShapeCasts S480x32
  slices_S24x32_S1x32_0_0 : S24x32.Slices ![0, 0] S1x32
  shapeCasts_S1x32_S32 : S1x32.ShapeCasts S32
  concatenates_S32768x32_S32768x448_S32768x480_d1 : Shape.Concatenates [S32768x32, S32768x448] S32768x480 1
  bcast_S32_S1x32_1 : S32.BroadcastsInDim S1x32 (![1] : Fin 1 → Fin S1x32.rank)
  bcast_S1x32_S32768x32_0_1 : S1x32.BroadcastsInDim S32768x32 (![0, 1] : Fin 2 → Fin S32768x32.rank)
  bcast_S_S32768x32 : S_.BroadcastsInDim S32768x32 (![] : Fin 0 → Fin S32768x32.rank)
  slices_S24x480x32_S1x480x32_1_0_0 : S24x480x32.Slices ![1, 0, 0] S1x480x32
  slices_S24x32_S1x32_1_0 : S24x32.Slices ![1, 0] S1x32
  slices_S24x480x32_S1x480x32_2_0_0 : S24x480x32.Slices ![2, 0, 0] S1x480x32
  slices_S24x32_S1x32_2_0 : S24x32.Slices ![2, 0] S1x32
  slices_S24x480x32_S1x480x32_3_0_0 : S24x480x32.Slices ![3, 0, 0] S1x480x32
  slices_S24x32_S1x32_3_0 : S24x32.Slices ![3, 0] S1x32
  slices_S24x480x32_S1x480x32_4_0_0 : S24x480x32.Slices ![4, 0, 0] S1x480x32
  slices_S24x32_S1x32_4_0 : S24x32.Slices ![4, 0] S1x32
  slices_S24x480x32_S1x480x32_5_0_0 : S24x480x32.Slices ![5, 0, 0] S1x480x32
  slices_S24x32_S1x32_5_0 : S24x32.Slices ![5, 0] S1x32
  slices_S24x480x32_S1x480x32_6_0_0 : S24x480x32.Slices ![6, 0, 0] S1x480x32
  slices_S24x32_S1x32_6_0 : S24x32.Slices ![6, 0] S1x32
  slices_S24x480x32_S1x480x32_7_0_0 : S24x480x32.Slices ![7, 0, 0] S1x480x32
  slices_S24x32_S1x32_7_0 : S24x32.Slices ![7, 0] S1x32
  slices_S24x480x32_S1x480x32_8_0_0 : S24x480x32.Slices ![8, 0, 0] S1x480x32
  slices_S24x32_S1x32_8_0 : S24x32.Slices ![8, 0] S1x32
  slices_S24x480x32_S1x480x32_9_0_0 : S24x480x32.Slices ![9, 0, 0] S1x480x32
  slices_S24x32_S1x32_9_0 : S24x32.Slices ![9, 0] S1x32
  slices_S24x480x32_S1x480x32_10_0_0 : S24x480x32.Slices ![10, 0, 0] S1x480x32
  slices_S24x32_S1x32_10_0 : S24x32.Slices ![10, 0] S1x32
  slices_S24x480x32_S1x480x32_11_0_0 : S24x480x32.Slices ![11, 0, 0] S1x480x32
  slices_S24x32_S1x32_11_0 : S24x32.Slices ![11, 0] S1x32
  slices_S24x480x32_S1x480x32_12_0_0 : S24x480x32.Slices ![12, 0, 0] S1x480x32
  slices_S24x32_S1x32_12_0 : S24x32.Slices ![12, 0] S1x32
  slices_S24x480x32_S1x480x32_13_0_0 : S24x480x32.Slices ![13, 0, 0] S1x480x32
  slices_S24x32_S1x32_13_0 : S24x32.Slices ![13, 0] S1x32
  slices_S24x480x32_S1x480x32_14_0_0 : S24x480x32.Slices ![14, 0, 0] S1x480x32
  slices_S24x32_S1x32_14_0 : S24x32.Slices ![14, 0] S1x32
  slices_S24x480x32_S1x480x32_15_0_0 : S24x480x32.Slices ![15, 0, 0] S1x480x32
  slices_S24x32_S1x32_15_0 : S24x32.Slices ![15, 0] S1x32
  slices_S24x480x32_S1x480x32_16_0_0 : S24x480x32.Slices ![16, 0, 0] S1x480x32
  slices_S24x32_S1x32_16_0 : S24x32.Slices ![16, 0] S1x32
  slices_S24x480x32_S1x480x32_17_0_0 : S24x480x32.Slices ![17, 0, 0] S1x480x32
  slices_S24x32_S1x32_17_0 : S24x32.Slices ![17, 0] S1x32
  slices_S24x480x32_S1x480x32_18_0_0 : S24x480x32.Slices ![18, 0, 0] S1x480x32
  slices_S24x32_S1x32_18_0 : S24x32.Slices ![18, 0] S1x32
  slices_S24x480x32_S1x480x32_19_0_0 : S24x480x32.Slices ![19, 0, 0] S1x480x32
  slices_S24x32_S1x32_19_0 : S24x32.Slices ![19, 0] S1x32
  slices_S24x480x32_S1x480x32_20_0_0 : S24x480x32.Slices ![20, 0, 0] S1x480x32
  slices_S24x32_S1x32_20_0 : S24x32.Slices ![20, 0] S1x32
  slices_S24x480x32_S1x480x32_21_0_0 : S24x480x32.Slices ![21, 0, 0] S1x480x32
  slices_S24x32_S1x32_21_0 : S24x32.Slices ![21, 0] S1x32
  slices_S24x480x32_S1x480x32_22_0_0 : S24x480x32.Slices ![22, 0, 0] S1x480x32
  slices_S24x32_S1x32_22_0 : S24x32.Slices ![22, 0] S1x32
  slices_S24x480x32_S1x480x32_23_0_0 : S24x480x32.Slices ![23, 0, 0] S1x480x32
  slices_S24x32_S1x32_23_0 : S24x32.Slices ![23, 0] S1x32
  bcast_S32768x32_S32768x1x32_0_2 : S32768x32.BroadcastsInDim S32768x1x32 (![0, 2] : Fin 2 → Fin S32768x1x32.rank)
  concatenates_S32768x1x32_S32768x1x32_S32768x1x32_S32768x1x32_S32768x1x32_S32768x1x32_S32768x1x32_S32768x1x32_S32768x1x32_S32768x1x32_S32768x1x32_S32768x1x32_S32768x1x32_S32768x1x32_S32768x1x32_S32768x1x32_S32768x16x32_d1 : Shape.Concatenates [S32768x1x32, S32768x1x32, S32768x1x32, S32768x1x32, S32768x1x32, S32768x1x32, S32768x1x32, S32768x1x32, S32768x1x32, S32768x1x32, S32768x1x32, S32768x1x32, S32768x1x32, S32768x1x32, S32768x1x32, S32768x1x32] S32768x16x32 1
  concatenates_S32768x1x32_S32768x1x32_S32768x1x32_S32768x1x32_S32768x1x32_S32768x1x32_S32768x1x32_S32768x1x32_S32768x8x32_d1 : Shape.Concatenates [S32768x1x32, S32768x1x32, S32768x1x32, S32768x1x32, S32768x1x32, S32768x1x32, S32768x1x32, S32768x1x32] S32768x8x32 1
  concatenates_S32768x16x32_S32768x8x32_S32768x24x32_d1 : Shape.Concatenates [S32768x16x32, S32768x8x32] S32768x24x32 1
  dot_S32768x480_S480x32_S32768x32_1_0_0_1_n_n_wf : DotDims.WF S32768x480 S480x32 S32768x32 [1] [0] [0] [1] [] []

variable [Facts₀]

def dot_S32768x480_S480x32_S32768x32_1_0_0_1_n_n : DotDims S32768x480 S480x32 S32768x32 where
  lhsContracting := [1]
  rhsContracting := [0]
  lhsNonContracting := [0]
  rhsNonContracting := [1]
  lhsBatch := []
  rhsBatch := []
  wf := dot_S32768x480_S480x32_S32768x32_1_0_0_1_n_n_wf

class Facts : Prop extends Facts₀ where

variable [Facts]
-- ==== Proof.LibLeadingLoad.lean ====
/-
  One entry of the leading axis of a rank-3 array, picked out by a load.

  An array of shape [n, a, b] is a stack of n matrices. Loading the unit-stride rectangle of sizes [1, a, b] at offsets
  (g, 0, 0) reads the g-th matrix of the stack: the loaded value at (0, i, j) is the array at (g, i, j), because a
  unit-stride rectangle places its coordinate x on an axis at offset + 1 · x.
-/
import Idealize.ShloMosaic.Lib.Pipeline.Value
import Idealize.ShloMosaic.Lib.ValueIdx

namespace Idealize.ShloMosaic.ValueIdx

open Idealize.ShloMosaic

/-- The [1, a, b] rectangle at offsets (g, 0, 0) of an [n, a, b] array, loaded and read at (0, i, j), is the array at
    (g, i, j). -/
theorem ld_lead3_apply {Val : EltTy → Type} {e : EltTy} {n a b : ℕ} (X : (⟨3, ![n, a, b]⟩ : Shape).Idx → Val e)
    (g : ℕ) (hg : g < n)
    (inb : ∀ ax, (![g, 0, 0] : Fin 3 → ℕ) ax + (⟨3, ![1, a, b]⟩ : Shape).size ax ≤ (⟨3, ![n, a, b]⟩ : Shape).size ax)
    (i : Fin a) (j : Fin b) :
    View.ld X (Rect.unit (s := ⟨3, ![n, a, b]⟩) ![g, 0, 0] (⟨3, ![1, a, b]⟩ : Shape).size inb) (ix3 (0 : Fin 1) i j)
      = X (ix3 ⟨g, hg⟩ i j) := by
  show X _ = X _
  congr 1
  funext ax
  apply Fin.ext
  match ax with
  | ⟨0, _⟩ => show g + 1 * 0 = g; omega
  | ⟨1, _⟩ => show 0 + 1 * i.val = i.val; omega
  | ⟨2, _⟩ => show 0 + 1 * j.val = j.val; omega

end Idealize.ShloMosaic.ValueIdx
-- ==== Proof.LibPlainMatmul.lean ====
/-
  The product of an m × k matrix by a k × n matrix, accumulated into zero, read at an entry.

  The matrix unit's product with the left operand contracted on its second axis and the right on its first, started
  from an accumulator of zeros, has at entry (a, b) the sum over the k contracted coordinates c of A(a, c) · B(c, b).
  The general statement sums over the indices of a one-axis "contraction shape"; that index set is carried onto the
  k coordinates, and the two operand indices it names are (a, c) and (c, b).
-/
import Idealize.ShloMosaic.PureOps.Ideal.Laws
import Idealize.ShloMosaic.Lib.ValueIdx

open scoped BigOperators

namespace Idealize.ShloMosaic.ValueIdx

open Idealize.ShloMosaic

/-- `A · B` into a zero accumulator, at the exact extended reals, read at `(a, b)`: `∑ c, A (a, c) * B (c, b)`. -/
theorem matmul_plain_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Idealize.ShloMosaic.ValueIdx
-- ==== Proof.LibPlainDotGeneral.lean ====
/-
  The host's product of an m × k matrix by a k × n matrix, read at an entry.

  A `dot_general` with the left operand contracted on its second axis and the right on its first has, at the exact
  extended reals, at entry (a, b) the sum over the k contracted coordinates c of A(a, c) · B(c, b). The general
  statement sums over the indices of a one-axis "contraction shape"; that index set is carried onto the k coordinates,
  and the two operand indices it names are (a, c) and (c, b).
-/
import Idealize.ShloMosaic.PureOps.Ideal.Laws
import Idealize.ShloMosaic.Lib.ValueIdx

open scoped BigOperators

namespace Idealize.ShloMosaic.ValueIdx

open Idealize.ShloMosaic

/-- The host's `A · B`, at the exact extended reals, read at `(a, b)`: `∑ c, A (a, c) * B (c, b)`. -/
theorem dotGeneral_plain_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (⟨[1], [0], [0], [1], [], [], w⟩ : DotDims ⟨2, ![m, k]⟩ ⟨2, ![k, n]⟩ ⟨2, ![m, n]⟩) prec A B (ix2 a b)
      = ∑ c : Fin k, A (ix2 a c) * B (ix2 c b) := by
  show FloatOps.dotGeneral _ prec .single A B (ix2 a b) = _
  rw [Ideal.dotGeneral_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Idealize.ShloMosaic.ValueIdx
-- ==== Proof.LibMatrixProduct.lean ====
/-
  The product of two matrices over the extended reals, entry by entry, and the two machine forms of it.

  For an m × k array A and a k × n array B, `mm A B` has at entry (a, b) the sum over the k contracted
  coordinates c of A(a, c) · B(c, b). Both the host's `dot_general` (left operand contracted on its second axis, right
  operand on its first) and the matrix unit's product into an accumulator of zeros are this array: at the exact
  extended reals a product is a plain finite sum, whatever the order it is taken in and whatever float format the
  operands were narrowed to on the way in.
-/
import Idealize.ShloMosaic.PureOps.Ideal.Laws
import Idealize.ShloMosaic.Lib.ValueIdx
import proofs.«153635_j72524817760644_2_alg».proof.Proof.LibPlainMatmul
import proofs.«153635_j72524817760644_2_alg».proof.Proof.LibPlainDotGeneral

noncomputable section

open scoped BigOperators

namespace Cert.MatrixProduct

open Idealize.ShloMosaic Idealize.ShloMosaic.ValueIdx

/-- The matrix product, entry by entry: `(A · B)(a, b) = ∑ c, A(a, c) · B(c, b)`. -/
def mm {m k n : ℕ} (A : (⟨2, ![m, k]⟩ : Shape).Idx → EReal) (B : (⟨2, ![k, n]⟩ : Shape).Idx → EReal) :
    (⟨2, ![m, n]⟩ : Shape).Idx → EReal :=
  fun i => ∑ c : Fin k, A (ix2 (i 0) c) * B (ix2 c (i 1))

/-- The product read at an entry given by its coordinates. -/
theorem mm_apply {m k n : ℕ} (A : (⟨2, ![m, k]⟩ : Shape).Idx → EReal) (B : (⟨2, ![k, n]⟩ : Shape).Idx → EReal)
    (a : Fin m) (b : Fin n) : mm A B (ix2 a b) = ∑ c : Fin k, A (ix2 a c) * B (ix2 c b) := rfl

/-- A product read through a block of rows. If `x0` holds, at row `j 0`, row `i 0` of A, and `x1` holds, at
    column `j 1`, column `i 1` of B, then entry `j` of `x0 · x1` is entry `i` of `A · B`: an entry of a product
    depends on one row of the left factor and one column of the right factor only. -/
theorem mm_of_row_col {M K N R Q : ℕ} (A : (⟨2, ![M, K]⟩ : Shape).Idx → EReal) (B : (⟨2, ![K, N]⟩ : Shape).Idx → EReal)
    (x0 : (⟨2, ![R, K]⟩ : Shape).Idx → EReal) (x1 : (⟨2, ![K, Q]⟩ : Shape).Idx → EReal)
    (j : (⟨2, ![R, Q]⟩ : Shape).Idx) (i : (⟨2, ![M, N]⟩ : Shape).Idx)
    (h0 : ∀ c : Fin K, x0 (ix2 (j 0) c) = A (ix2 (i 0) c))
    (h1 : ∀ c : Fin K, x1 (ix2 c (j 1)) = B (ix2 c (i 1))) :
    mm x0 x1 j = mm A B i := by
  show ∑ c : Fin K, x0 (ix2 (j 0) c) * x1 (ix2 c (j 1)) = ∑ c : Fin K, A (ix2 (i 0) c) * B (ix2 c (i 1))
  exact Finset.sum_congr rfl fun c _ => by rw [h0 c, h1 c]

/-- The host's `dot_general` of an m × k by a k × n matrix is the matrix product. -/
theorem dotGeneral_eq_mm {m k n : ℕ}
    (w : DotDims.WF ⟨2, ![m, k]⟩ ⟨2, ![k, n]⟩ ⟨2, ![m, n]⟩ [1] [0] [0] [1] [] [])
    (prec : Option ContractPrecision) (A : FVec Ideal ⟨2, ![m, k]⟩ .f32) (B : FVec Ideal ⟨2, ![k, n]⟩ .f32) :
    Host.dotGeneral (⟨[1], [0], [0], [1], [], [], w⟩ : DotDims ⟨2, ![m, k]⟩ ⟨2, ![k, n]⟩ ⟨2, ![m, n]⟩) prec A B = mm A B := by
  funext i
  obtain ⟨a, b, rfl⟩ : ∃ (a : Fin m) (b : Fin n), i = ix2 a b := ⟨i 0, i 1, eq_ix2 i⟩
  exact dotGeneral_plain_apply w prec A B a b

/-- The matrix unit's product of an m × k by a k × n matrix into an accumulator of zeros is the matrix product,
    whatever float formats the two operands are held in. -/
theorem matmul_zero_eq_mm {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) = mm A B := by
  funext i
  obtain ⟨a, b, rfl⟩ : ∃ (a : Fin m) (b : Fin n), i = ix2 a b := ⟨i 0, i 1, eq_ix2 i⟩
  exact matmul_plain_zero_apply w prec A B a b

end Cert.MatrixProduct

end
-- ==== Proof.LibLayerForms.lean ====
/-
  The whole-array forms of the three dense stages, over the extended reals, and the fact that makes them computable
  block by block: each entry depends on one row of the row-indexed operands only.

  * `scaledProduct X W D`: entry (r, q) is (Σ_k X(r, k) · W(k, q)) · D(r, 0) — a matrix product whose row r is scaled by
    the r-th entry of a one-column array.
  * `activated A D B`: entry (r, k) is max(A(r, k) · D(r, 0) + B(0, k), 0) — scale each row, add a row vector, take the
    positive part. The zero is kept as the float word both programs write.
  * `biasedProduct X W B`: entry (r, q) is Σ_k X(r, k) · W(k, q) + B(0, q).
-/
import proofs.«153635_j72524817760644_2_alg».proof.Proof.LibMatrixProduct

noncomputable section

namespace Cert.Gcn

open Idealize.ShloMosaic Idealize.ShloMosaic.ValueIdx Cert.MatrixProduct

/-- A matrix product with each row scaled by that row's entry of a one-column array. -/
def scaledProduct {M K N : ℕ} (X : (⟨2, ![M, K]⟩ : Shape).Idx → EReal) (W : (⟨2, ![K, N]⟩ : Shape).Idx → EReal)
    (D : (⟨2, ![M, 1]⟩ : Shape).Idx → EReal) : (⟨2, ![M, N]⟩ : Shape).Idx → EReal :=
  fun i => mm X W i * D (ix2 (i 0) (0 : Fin 1))

/-- Each row scaled by its entry of a one-column array, a row vector added, the positive part taken. -/
def activated {M K : ℕ} (A : (⟨2, ![M, K]⟩ : Shape).Idx → EReal) (D : (⟨2, ![M, 1]⟩ : Shape).Idx → EReal)
    (B : (⟨2, ![1, K]⟩ : Shape).Idx → EReal) : (⟨2, ![M, K]⟩ : Shape).Idx → EReal :=
  fun i => max (A i * D (ix2 (i 0) (0 : Fin 1)) + B (ix2 (0 : Fin 1) (i 1))) (Ideal.ofBits .f32 0x00000000#32)

/-- A matrix product plus a row vector. -/
def biasedProduct {M K N : ℕ} (X : (⟨2, ![M, K]⟩ : Shape).Idx → EReal) (W : (⟨2, ![K, N]⟩ : Shape).Idx → EReal)
    (B : (⟨2, ![1, N]⟩ : Shape).Idx → EReal) : (⟨2, ![M, N]⟩ : Shape).Idx → EReal :=
  fun i => mm X W i + B (ix2 (0 : Fin 1) (i 1))

/-- Row `p` of the activation of a block is row `r` of the activation of the whole arrays, when row `p` of the block is
    row `r` of the array, its factor is that row's factor, and the row vectors agree. -/
theorem activated_row {M R K : ℕ} (A : (⟨2, ![M, K]⟩ : Shape).Idx → EReal) (D : (⟨2, ![M, 1]⟩ : Shape).Idx → EReal)
    (B : (⟨2, ![1, K]⟩ : Shape).Idx → EReal) (x0 : (⟨2, ![R, K]⟩ : Shape).Idx → EReal) (x1 : (⟨2, ![R, 1]⟩ : Shape).Idx → EReal)
    (x2 : (⟨2, ![1, K]⟩ : Shape).Idx → EReal) (p : Fin R) (r : Fin M)
    (h0 : ∀ k : Fin K, x0 (ix2 p k) = A (ix2 r k)) (h1 : x1 (ix2 p (0 : Fin 1)) = D (ix2 r (0 : Fin 1)))
    (h2 : ∀ k : Fin K, x2 (ix2 (0 : Fin 1) k) = B (ix2 (0 : Fin 1) k)) (k : Fin K) :
    activated x0 x1 x2 (ix2 p k) = activated A D B (ix2 r k) := by
  show max (x0 (ix2 p k) * x1 (ix2 p (0 : Fin 1)) + x2 (ix2 (0 : Fin 1) k)) _
    = max (A (ix2 r k) * D (ix2 r (0 : Fin 1)) + B (ix2 (0 : Fin 1) k)) _
  rw [h0 k, h1, h2 k]

/-- Entry `(p, q)` of a block's product, scaled by the block's factor of row `p`, is entry `(r, q)` of the whole scaled
    product, when row `p` of the block is row `r`, the right factors agree on column `q`, and the factors agree. -/
theorem scaledProduct_row {M R K N : ℕ} (X : (⟨2, ![M, K]⟩ : Shape).Idx → EReal) (W : (⟨2, ![K, N]⟩ : Shape).Idx → EReal)
    (D : (⟨2, ![M, 1]⟩ : Shape).Idx → EReal) (x0 : (⟨2, ![R, K]⟩ : Shape).Idx → EReal) (x1 : (⟨2, ![K, N]⟩ : Shape).Idx → EReal)
    (x2 : (⟨2, ![R, 1]⟩ : Shape).Idx → EReal) (p : Fin R) (q : Fin N) (r : Fin M)
    (h0 : ∀ k : Fin K, x0 (ix2 p k) = X (ix2 r k)) (h1 : ∀ k : Fin K, x1 (ix2 k q) = W (ix2 k q))
    (h2 : x2 (ix2 p (0 : Fin 1)) = D (ix2 r (0 : Fin 1))) :
    mm x0 x1 (ix2 p q) * x2 (ix2 p (0 : Fin 1)) = scaledProduct X W D (ix2 r q) := by
  show _ = mm X W (ix2 r q) * D (ix2 r (0 : Fin 1))
  rw [h2]
  exact congrArg (· * D (ix2 r (0 : Fin 1))) (mm_of_row_col X W x0 x1 (ix2 p q) (ix2 r q) h0 h1)

/-- Entry `(p, q)` of a block's product plus a row vector is entry `(r, q)` of the whole biased product. -/
theorem biasedProduct_row {M R K N : ℕ} (X : (⟨2, ![M, K]⟩ : Shape).Idx → EReal) (W : (⟨2, ![K, N]⟩ : Shape).Idx → EReal)
    (B : (⟨2, ![1, N]⟩ : Shape).Idx → EReal) (x0 : (⟨2, ![R, K]⟩ : Shape).Idx → EReal) (x1 : (⟨2, ![K, N]⟩ : Shape).Idx → EReal)
    (x2 : (⟨2, ![1, N]⟩ : Shape).Idx → EReal) (p : Fin R) (q : Fin N) (r : Fin M)
    (h0 : ∀ k : Fin K, x0 (ix2 p k) = X (ix2 r k)) (h1 : ∀ k : Fin K, x1 (ix2 k q) = W (ix2 k q))
    (h2 : x2 (ix2 (0 : Fin 1) q) = B (ix2 (0 : Fin 1) q)) :
    mm x0 x1 (ix2 p q) + x2 (ix2 (0 : Fin 1) q) = biasedProduct X W B (ix2 r q) := by
  show _ = mm X W (ix2 r q) + B (ix2 (0 : Fin 1) q)
  rw [h2]
  exact congrArg (· + B (ix2 (0 : Fin 1) q)) (mm_of_row_col X W x0 x1 (ix2 p q) (ix2 r q) h0 h1)

end Cert.Gcn

end
-- ==== Proof.LibBiasedBlock.lean ====
/-
  One dense layer — a matrix product plus a row vector — in its three machine spellings.

  With X an M × K array, W a K × N array and b a vector of length N, the layer's value is the array whose entry (r, q) is
  Σ_k X(r, k) · W(k, q) + b(q). Over the extended reals three spellings of it are that one array:
    * the matrix unit's form on a block of rows: both operands narrowed to a shorter float format (the identity on
      the extended reals), multiplied into an accumulator of zeros, and a 1 × N row broadcast down the rows added;
    * the host's form: a `dot_general` plus the 1 × N row repeated M times;
    * the vector b written as a 1 × N row either by a reshape or by a broadcast along a new leading axis: the same row.
-/
import proofs.«153635_j72524817760644_2_alg».proof.Proof.LibLayerForms
import Idealize.ShloMosaic.Lib.ValueLayout
import Idealize.ShloMosaic.Lib.Pipeline.Value
import Idealize.ShloMosaic.Lib.ValueIdx

noncomputable section

namespace Cert.Gcn

open Idealize.ShloMosaic Idealize.ShloMosaic.ValueIdx Cert.MatrixProduct

/-- A vector of length `n` laid out as the one row of a 1 × n array. -/
def rowOf {n : ℕ} (b : (⟨1, ![n]⟩ : Shape).Idx → EReal) : (⟨2, ![1, n]⟩ : Shape).Idx → EReal :=
  fun i => b (ix1 (i 1))

/-- The matrix unit's layer on a block: operands narrowed to bf16, multiplied into zeros, plus the broadcast row. -/
theorem block_linear {R K N : ℕ}
    (w : DotDims.WF ⟨2, ![R, K]⟩ ⟨2, ![K, N]⟩ ⟨2, ![R, N]⟩ [1] [0] [0] [1] [] [])
    (hb : FTy.bits .bf16 < FTy.bits .f32)
    (h0 : (⟨2, ![R, K]⟩ : Shape).ShapeCasts ⟨2, ![R, K]⟩) (h2 : (⟨2, ![1, N]⟩ : Shape).ShapeCasts ⟨2, ![1, N]⟩)
    (hbc : (⟨2, ![1, N]⟩ : Shape).Broadcasts ⟨2, ![R, N]⟩)
    (x0 : FVec Ideal ⟨2, ![R, K]⟩ .f32) (x1 : FVec Ideal ⟨2, ![K, N]⟩ .f32) (x2 : FVec Ideal ⟨2, ![1, N]⟩ .f32) :
    addf (matmul (⟨[1], [0], [0], [1], [], [], w⟩ : DotDims ⟨2, ![R, K]⟩ ⟨2, ![K, N]⟩ ⟨2, ![R, N]⟩) none
          (truncf .bf16 (shapeCast ⟨2, ![R, K]⟩ x0 h0) hb) (truncf .bf16 x1 hb)
          (constant (F := Ideal) ⟨2, ![R, N]⟩ .f32 0x00000000#32))
        (broadcastTo ⟨2, ![R, N]⟩ (shapeCast ⟨2, ![1, N]⟩ x2 h2) hbc)
      = biasedProduct x0 x1 x2 := by
  funext j
  obtain ⟨p, q, rfl⟩ : ∃ (p : Fin R) (q : Fin N), j = ix2 p q := ⟨j 0, j 1, eq_ix2 j⟩
  rw [addf_apply, matmul_zero_eq_mm, shapeCast_self, shapeCast_self, broadcastTo_1b_ab_apply]
  rfl

/-- The host's layer: a `dot_general` plus a 1 × N row repeated down the M rows. -/
theorem host_linear {M K N : ℕ}
    (w : DotDims.WF ⟨2, ![M, K]⟩ ⟨2, ![K, N]⟩ ⟨2, ![M, N]⟩ [1] [0] [0] [1] [] [])
    (h2 : (⟨2, ![1, N]⟩ : Shape).BroadcastsInDim ⟨2, ![M, N]⟩ (![0, 1] : Fin 2 → Fin 2))
    (A : FVec Ideal ⟨2, ![M, K]⟩ .f32) (W : FVec Ideal ⟨2, ![K, N]⟩ .f32) (B : FVec Ideal ⟨2, ![1, N]⟩ .f32) :
    addf (Host.dotGeneral (⟨[1], [0], [0], [1], [], [], w⟩ : DotDims ⟨2, ![M, K]⟩ ⟨2, ![K, N]⟩ ⟨2, ![M, N]⟩) none A W)
        (broadcastInDim ⟨2, ![M, N]⟩ (![0, 1] : Fin 2 → Fin 2) h2 B)
      = biasedProduct A W B := by
  funext j
  obtain ⟨p, q, rfl⟩ : ∃ (p : Fin M) (q : Fin N), j = ix2 p q := ⟨j 0, j 1, eq_ix2 j⟩
  rw [addf_apply, dotGeneral_eq_mm]
  refine congrArg (mm A W (ix2 p q) + ·) ?_
  refine broadcastInDim_apply _ h2 B (ix2 p q) (ix2 (0 : Fin 1) q) (fun ax => ?_)
  match ax with
  | ⟨0, _⟩ => show 0 = if (1 : ℕ) = 1 then 0 else p.val; rw [if_pos rfl]
  | ⟨1, _⟩ =>
    show q.val = if N = 1 then 0 else q.val
    split
    · have := q.isLt; omega
    · rfl

/-- A vector broadcast along a new leading axis is its one row. -/
theorem bcast_row_eq_rowOf {n : ℕ} (b : (⟨1, ![n]⟩ : Shape).Idx → EReal)
    (h1 : (⟨1, ![n]⟩ : Shape).BroadcastsInDim ⟨2, ![1, n]⟩ (![1] : Fin 1 → Fin 2)) :
    broadcastInDim ⟨2, ![1, n]⟩ (![1] : Fin 1 → Fin 2) h1 b = rowOf b := by
  funext j
  obtain ⟨u, a, rfl⟩ : ∃ (u : Fin 1) (a : Fin n), j = ix2 u a := ⟨j 0, j 1, eq_ix2 j⟩
  refine broadcastInDim_apply _ h1 b (ix2 u a) (ix1 a) (fun ax => ?_)
  match ax with
  | ⟨0, _⟩ =>
    show a.val = if n = 1 then 0 else a.val
    split
    · have := a.isLt; omega
    · rfl

/-- A vector reshaped to 1 × n is its one row. -/
theorem cast_row_eq_rowOf {n : ℕ} (b : (⟨1, ![n]⟩ : Shape).Idx → EReal)
    (h : (⟨1, ![n]⟩ : Shape).ShapeCasts ⟨2, ![1, n]⟩) :
    shapeCast ⟨2, ![1, n]⟩ b h = rowOf b := by
  funext j
  obtain ⟨u, a, rfl⟩ : ∃ (u : Fin 1) (a : Fin n), j = ix2 u a := ⟨j 0, j 1, eq_ix2 j⟩
  exact shapeCast_a_1a_apply b h u a

end Cert.Gcn

end
-- ==== Proof.LibStackedLayers.lean ====
/-
  A stack of n matrices [n, a, b] and a stack of n bias vectors [n, b]: the g-th matrix and the g-th bias row, and the
  machine forms that pick them out.

  A kernel picks the g-th matrix by loading the unit-stride rectangle of sizes [1, a, b] at offsets (g, 0, 0) and
  dropping the leading unit axis by a shape cast; a host program picks it by a slice [g:g+1, 0:a, 0:b] followed by a
  reshape. Both read the stack at (g, i, j). The same for the g-th row of an [n, b] array, which the kernel loads as a
  [1, b] row and the host slices, reshapes to a vector, and lays out as a row again.
-/
import Idealize.ShloMosaic.Lib.Pipeline.Value
import Idealize.ShloMosaic.Lib.ValueIdx
import Idealize.ShloMosaic.Lib.ValueLayout
import proofs.«153635_j72524817760644_2_alg».proof.Proof.LibLeadingLoad
import proofs.«153635_j72524817760644_2_alg».proof.Proof.LibBiasedBlock

noncomputable section

namespace Cert.Stack

open Idealize.ShloMosaic Idealize.ShloMosaic.ValueIdx Cert.Gcn

variable {α : Type}

/-- The g-th matrix of a stack. -/
def layer {n a b : ℕ} (g : Fin n) (W : (⟨3, ![n, a, b]⟩ : Shape).Idx → α) : (⟨2, ![a, b]⟩ : Shape).Idx → α :=
  fun i => W (ix3 g (i 0) (i 1))

/-- The g-th row of an [n, b] array, as a one-row array. -/
def biasRow {n b : ℕ} (g : Fin n) (B : (⟨2, ![n, b]⟩ : Shape).Idx → α) : (⟨2, ![1, b]⟩ : Shape).Idx → α :=
  fun i => B (ix2 g (i 1))

/-- The [1, b] rectangle at offsets (g, 0) of an [n, b] array, loaded and read at (0, j), is the array at (g, j). -/
theorem ld_lead2_apply {Val : EltTy → Type} {e : EltTy} {n b : ℕ} (X : (⟨2, ![n, b]⟩ : Shape).Idx → Val e)
    (g : ℕ) (hg : g < n)
    (inb : ∀ ax, (![g, 0] : Fin 2 → ℕ) ax + (⟨2, ![1, b]⟩ : Shape).size ax ≤ (⟨2, ![n, b]⟩ : Shape).size ax)
    (u : Fin 1) (j : Fin b) :
    View.ld X (Rect.unit (s := ⟨2, ![n, b]⟩) ![g, 0] (⟨2, ![1, b]⟩ : Shape).size inb) (ix2 u j) = X (ix2 ⟨g, hg⟩ j) := by
  have hu : u.val = 0 := by omega
  show X _ = X _
  congr 1
  funext ax
  apply Fin.ext
  match ax with
  | ⟨0, _⟩ => show g + 1 * u.val = g; omega
  | ⟨1, _⟩ => show 0 + 1 * j.val = j.val; omega

/-- The kernel's form of the g-th matrix: load the [1, a, b] rectangle at (g, 0, 0), drop the unit axis. -/
theorem ld_layer {Val : EltTy → Type} {e : EltTy} {n a b : ℕ} (W : (⟨3, ![n, a, b]⟩ : Shape).Idx → Val e) (g : ℕ) (hg : g < n)
    (inb : ∀ ax, (![g, 0, 0] : Fin 3 → ℕ) ax + (⟨3, ![1, a, b]⟩ : Shape).size ax ≤ (⟨3, ![n, a, b]⟩ : Shape).size ax)
    (h : (⟨3, ![1, a, b]⟩ : Shape).ShapeCasts ⟨2, ![a, b]⟩) :
    shapeCast ⟨2, ![a, b]⟩ (View.ld W (Rect.unit (s := ⟨3, ![n, a, b]⟩) ![g, 0, 0] (⟨3, ![1, a, b]⟩ : Shape).size inb)) h
      = layer ⟨g, hg⟩ W := by
  funext i
  obtain ⟨p, q, rfl⟩ : ∃ (p : Fin a) (q : Fin b), i = ix2 p q := ⟨i 0, i 1, eq_ix2 i⟩
  rw [shapeCast_1ab_ab_apply, ld_lead3_apply W g hg inb p q]
  rfl

/-- The kernel's form of the g-th bias row: load the [1, b] rectangle at (g, 0). -/
theorem ld_biasRow {Val : EltTy → Type} {e : EltTy} {n b : ℕ} (B : (⟨2, ![n, b]⟩ : Shape).Idx → Val e) (g : ℕ) (hg : g < n)
    (inb : ∀ ax, (![g, 0] : Fin 2 → ℕ) ax + (⟨2, ![1, b]⟩ : Shape).size ax ≤ (⟨2, ![n, b]⟩ : Shape).size ax) :
    View.ld B (Rect.unit (s := ⟨2, ![n, b]⟩) ![g, 0] (⟨2, ![1, b]⟩ : Shape).size inb) = biasRow ⟨g, hg⟩ B := by
  funext i
  obtain ⟨u, q, rfl⟩ : ∃ (u : Fin 1) (q : Fin b), i = ix2 u q := ⟨i 0, i 1, eq_ix2 i⟩
  rw [ld_lead2_apply B g hg inb u q]
  rfl

/-- The host's form of the g-th matrix: slice [g:g+1, 0:a, 0:b], reshape to [a, b]. -/
theorem slice_layer {n a b : ℕ} (W : (⟨3, ![n, a, b]⟩ : Shape).Idx → α) (g : ℕ) (hg : g < n)
    (hs : (⟨3, ![n, a, b]⟩ : Shape).Slices ![g, 0, 0] ⟨3, ![1, a, b]⟩)
    (h : (⟨3, ![1, a, b]⟩ : Shape).ShapeCasts ⟨2, ![a, b]⟩) :
    shapeCast ⟨2, ![a, b]⟩ (extractStridedSlice ⟨3, ![1, a, b]⟩ ![g, 0, 0] W hs) h = layer ⟨g, hg⟩ W := by
  funext i
  obtain ⟨p, q, rfl⟩ : ∃ (p : Fin a) (q : Fin b), i = ix2 p q := ⟨i 0, i 1, eq_ix2 i⟩
  rw [shapeCast_1ab_ab_apply]
  refine extractStridedSlice_apply _ W hs _ (ix3 ⟨g, hg⟩ p q) (fun ax => ?_)
  match ax with
  | ⟨0, _⟩ => show g = g + 0; omega
  | ⟨1, _⟩ => show p.val = 0 + p.val; omega
  | ⟨2, _⟩ => show q.val = 0 + q.val; omega

/-- The host's form of the g-th bias row: slice [g:g+1, 0:b], reshape to a vector, laid out as a row. -/
theorem slice_biasRow {n b : ℕ} (B : (⟨2, ![n, b]⟩ : Shape).Idx → EReal) (g : ℕ) (hg : g < n)
    (hs : (⟨2, ![n, b]⟩ : Shape).Slices ![g, 0] ⟨2, ![1, b]⟩)
    (h : (⟨2, ![1, b]⟩ : Shape).ShapeCasts ⟨1, ![b]⟩) :
    rowOf (shapeCast ⟨1, ![b]⟩ (extractStridedSlice ⟨2, ![1, b]⟩ ![g, 0] B hs) h) = biasRow ⟨g, hg⟩ B := by
  funext i
  obtain ⟨u, q, rfl⟩ : ∃ (u : Fin 1) (q : Fin b), i = ix2 u q := ⟨i 0, i 1, eq_ix2 i⟩
  show shapeCast ⟨1, ![b]⟩ (extractStridedSlice ⟨2, ![1, b]⟩ ![g, 0] B hs) h (ix1 q) = B (ix2 ⟨g, hg⟩ q)
  rw [shapeCast_1a_a_apply]
  refine extractStridedSlice_apply _ B hs _ (ix2 ⟨g, hg⟩ q) (fun ax => ?_)
  match ax with
  | ⟨0, _⟩ => show g = g + 0; omega
  | ⟨1, _⟩ => show q.val = 0 + q.val; omega

end Cert.Stack

end
-- ==== Proof.LibConcatRead.lean ====
/-
  A concatenation read at an index given by coordinates.
  For two matrices joined side by side (along the columns) or one above the other (along the rows), for two vectors
  joined end to end, and for three matrices joined side by side: an index whose joined coordinate falls in a piece reads
  that piece at the same coordinates, the joined coordinate less the extents of the pieces before it.
-/
import Idealize.ShloMosaic.Lib.Pipeline.Value
import Idealize.ShloMosaic.Lib.ValueIdx

namespace Idealize.ShloMosaic.ValueIdx

open Idealize.ShloMosaic

variable {α : Type}

/-- Two matrices side by side, read in the LEFT one: column `q' = q`. -/
theorem concat_cols_left {a n1 n2 n : ℕ} (X : (⟨2, ![a, n1]⟩ : Shape).Idx → α) (Y : (⟨2, ![a, n2]⟩ : Shape).Idx → α)
    (h : Shape.Concatenates [⟨2, ![a, n1]⟩, ⟨2, ![a, n2]⟩] ⟨2, ![a, n]⟩ 1) (p : Fin a) (q : Fin n1) (q' : Fin n)
    (hq : q'.val = q.val) :
    concatenate ⟨2, ![a, n]⟩ 1 [⟨⟨2, ![a, n1]⟩, X⟩, ⟨⟨2, ![a, n2]⟩, Y⟩] h (ix2 p q') = X (ix2 p q) :=
  concatenate_pair_apply_left 1 X Y h (ix2 p q') rfl (ix2 p q) (fun b => by
    match b with
    | ⟨0, _⟩ => rfl
    | ⟨1, _⟩ => exact hq.symm)

/-- Two matrices side by side, read in the RIGHT one: column `q' = n1 + q`. -/
theorem concat_cols_right {a n1 n2 n : ℕ} (X : (⟨2, ![a, n1]⟩ : Shape).Idx → α) (Y : (⟨2, ![a, n2]⟩ : Shape).Idx → α)
    (h : Shape.Concatenates [⟨2, ![a, n1]⟩, ⟨2, ![a, n2]⟩] ⟨2, ![a, n]⟩ 1) (p : Fin a) (q : Fin n2) (q' : Fin n)
    (hq : q'.val = n1 + q.val) :
    concatenate ⟨2, ![a, n]⟩ 1 [⟨⟨2, ![a, n1]⟩, X⟩, ⟨⟨2, ![a, n2]⟩, Y⟩] h (ix2 p q') = Y (ix2 p q) :=
  concatenate_pair_apply_right 1 X Y h (ix2 p q') rfl rfl (ix2 p q) (fun b hb => by
    match b, hb with
    | ⟨0, _⟩, _ => rfl
    | ⟨1, _⟩, hb => exact absurd rfl hb) (by show q.val + n1 = q'.val; omega)

/-- Two matrices one above the other, read in the TOP one: row `p' = p`. -/
theorem concat_rows_top {a1 a2 a n : ℕ} (X : (⟨2, ![a1, n]⟩ : Shape).Idx → α) (Y : (⟨2, ![a2, n]⟩ : Shape).Idx → α)
    (h : Shape.Concatenates [⟨2, ![a1, n]⟩, ⟨2, ![a2, n]⟩] ⟨2, ![a, n]⟩ 0) (p : Fin a1) (p' : Fin a) (q : Fin n)
    (hp : p'.val = p.val) :
    concatenate ⟨2, ![a, n]⟩ 0 [⟨⟨2, ![a1, n]⟩, X⟩, ⟨⟨2, ![a2, n]⟩, Y⟩] h (ix2 p' q) = X (ix2 p q) :=
  concatenate_pair_apply_left 0 X Y h (ix2 p' q) rfl (ix2 p q) (fun b => by
    match b with
    | ⟨0, _⟩ => exact hp.symm
    | ⟨1, _⟩ => rfl)

/-- Two matrices one above the other, read in the BOTTOM one: row `p' = a1 + p`. -/
theorem concat_rows_bottom {a1 a2 a n : ℕ} (X : (⟨2, ![a1, n]⟩ : Shape).Idx → α) (Y : (⟨2, ![a2, n]⟩ : Shape).Idx → α)
    (h : Shape.Concatenates [⟨2, ![a1, n]⟩, ⟨2, ![a2, n]⟩] ⟨2, ![a, n]⟩ 0) (p : Fin a2) (p' : Fin a) (q : Fin n)
    (hp : p'.val = a1 + p.val) :
    concatenate ⟨2, ![a, n]⟩ 0 [⟨⟨2, ![a1, n]⟩, X⟩, ⟨⟨2, ![a2, n]⟩, Y⟩] h (ix2 p' q) = Y (ix2 p q) :=
  concatenate_pair_apply_right 0 X Y h (ix2 p' q) rfl rfl (ix2 p q) (fun b hb => by
    match b, hb with
    | ⟨0, _⟩, hb => exact absurd rfl hb
    | ⟨1, _⟩, _ => rfl) (by show p.val + a1 = p'.val; omega)

/-- Two vectors end to end, read in the FIRST: position `q' = q`. -/
theorem concat_vec_first {n1 n2 n : ℕ} (x : (⟨1, ![n1]⟩ : Shape).Idx → α) (y : (⟨1, ![n2]⟩ : Shape).Idx → α)
    (h : Shape.Concatenates [⟨1, ![n1]⟩, ⟨1, ![n2]⟩] ⟨1, ![n]⟩ 0) (q : Fin n1) (q' : Fin n) (hq : q'.val = q.val) :
    concatenate ⟨1, ![n]⟩ 0 [⟨⟨1, ![n1]⟩, x⟩, ⟨⟨1, ![n2]⟩, y⟩] h (ix1 q') = x (ix1 q) :=
  concatenate_pair_apply_left 0 x y h (ix1 q') rfl (ix1 q) (fun b => by
    match b with
    | ⟨0, _⟩ => exact hq.symm)

/-- Two vectors end to end, read in the SECOND: position `q' = n1 + q`. -/
theorem concat_vec_second {n1 n2 n : ℕ} (x : (⟨1, ![n1]⟩ : Shape).Idx → α) (y : (⟨1, ![n2]⟩ : Shape).Idx → α)
    (h : Shape.Concatenates [⟨1, ![n1]⟩, ⟨1, ![n2]⟩] ⟨1, ![n]⟩ 0) (q : Fin n2) (q' : Fin n) (hq : q'.val = n1 + q.val) :
    concatenate ⟨1, ![n]⟩ 0 [⟨⟨1, ![n1]⟩, x⟩, ⟨⟨1, ![n2]⟩, y⟩] h (ix1 q') = y (ix1 q) :=
  concatenate_pair_apply_right 0 x y h (ix1 q') rfl rfl (ix1 q) (fun b hb => by
    match b, hb with
    | ⟨0, _⟩, hb => exact absurd rfl hb) (by show q.val + n1 = q'.val; omega)

/-- Three matrices side by side, read in the FIRST: column `q' = q`. -/
theorem concat3_cols_first {a n0 n1 n2 n : ℕ} (X0 : (⟨2, ![a, n0]⟩ : Shape).Idx → α) (X1 : (⟨2, ![a, n1]⟩ : Shape).Idx → α)
    (X2 : (⟨2, ![a, n2]⟩ : Shape).Idx → α)
    (h : Shape.Concatenates [⟨2, ![a, n0]⟩, ⟨2, ![a, n1]⟩, ⟨2, ![a, n2]⟩] ⟨2, ![a, n]⟩ 1) (p : Fin a) (q : Fin n0) (q' : Fin n)
    (hq : q'.val = q.val) :
    concatenate ⟨2, ![a, n]⟩ 1 [⟨⟨2, ![a, n0]⟩, X0⟩, ⟨⟨2, ![a, n1]⟩, X1⟩, ⟨⟨2, ![a, n2]⟩, X2⟩] h (ix2 p q') = X0 (ix2 p q) :=
  concatenate_apply_piece 1 [⟨⟨2, ![a, n0]⟩, X0⟩, ⟨⟨2, ![a, n1]⟩, X1⟩, ⟨⟨2, ![a, n2]⟩, X2⟩] h (ix2 p q') 0 (by simp) _ X0 rfl rfl
    0 rfl (ix2 p q) (fun b hb => by
      match b, hb with
      | ⟨0, _⟩, _ => rfl
      | ⟨1, _⟩, hb => exact absurd rfl hb) (by show 0 + q.val = q'.val; omega)

/-- Three matrices side by side, read in the SECOND: column `q' = n0 + q`. -/
theorem concat3_cols_second {a n0 n1 n2 n : ℕ} (X0 : (⟨2, ![a, n0]⟩ : Shape).Idx → α) (X1 : (⟨2, ![a, n1]⟩ : Shape).Idx → α)
    (X2 : (⟨2, ![a, n2]⟩ : Shape).Idx → α)
    (h : Shape.Concatenates [⟨2, ![a, n0]⟩, ⟨2, ![a, n1]⟩, ⟨2, ![a, n2]⟩] ⟨2, ![a, n]⟩ 1) (p : Fin a) (q : Fin n1) (q' : Fin n)
    (hq : q'.val = n0 + q.val) :
    concatenate ⟨2, ![a, n]⟩ 1 [⟨⟨2, ![a, n0]⟩, X0⟩, ⟨⟨2, ![a, n1]⟩, X1⟩, ⟨⟨2, ![a, n2]⟩, X2⟩] h (ix2 p q') = X1 (ix2 p q) :=
  concatenate_apply_piece 1 [⟨⟨2, ![a, n0]⟩, X0⟩, ⟨⟨2, ![a, n1]⟩, X1⟩, ⟨⟨2, ![a, n2]⟩, X2⟩] h (ix2 p q') 1 (by simp) _ X1 rfl rfl
    n0 (by simp) (ix2 p q) (fun b hb => by
      match b, hb with
      | ⟨0, _⟩, _ => rfl
      | ⟨1, _⟩, hb => exact absurd rfl hb) (by show n0 + q.val = q'.val; omega)

/-- Three matrices side by side, read in the THIRD: column `q' = n0 + n1 + q`. -/
theorem concat3_cols_third {a n0 n1 n2 n : ℕ} (X0 : (⟨2, ![a, n0]⟩ : Shape).Idx → α) (X1 : (⟨2, ![a, n1]⟩ : Shape).Idx → α)
    (X2 : (⟨2, ![a, n2]⟩ : Shape).Idx → α)
    (h : Shape.Concatenates [⟨2, ![a, n0]⟩, ⟨2, ![a, n1]⟩, ⟨2, ![a, n2]⟩] ⟨2, ![a, n]⟩ 1) (p : Fin a) (q : Fin n2) (q' : Fin n)
    (hq : q'.val = n0 + n1 + q.val) :
    concatenate ⟨2, ![a, n]⟩ 1 [⟨⟨2, ![a, n0]⟩, X0⟩, ⟨⟨2, ![a, n1]⟩, X1⟩, ⟨⟨2, ![a, n2]⟩, X2⟩] h (ix2 p q') = X2 (ix2 p q) :=
  concatenate_apply_piece 1 [⟨⟨2, ![a, n0]⟩, X0⟩, ⟨⟨2, ![a, n1]⟩, X1⟩, ⟨⟨2, ![a, n2]⟩, X2⟩] h (ix2 p q') 2 (by simp) _ X2 rfl rfl
    (n0 + n1) (by simp) (ix2 p q) (fun b hb => by
      match b, hb with
      | ⟨0, _⟩, _ => rfl
      | ⟨1, _⟩, hb => exact absurd rfl hb) (by show n0 + n1 + q.val = q'.val; omega)

end Idealize.ShloMosaic.ValueIdx
-- ==== Proof.GruCell.lean ====
/-
  One gated recurrent cell applied to every row of a batch, as one whole-array function over the extended reals.

  For a batch of M rows, h an M × 32 array of hidden states and x an M × 448 array of inputs, write [h | x] for the
  M × 480 array whose row r is row r of h followed by row r of x. With a 480 × 32 matrix W and a 1 × 32 row b a gate is
      gate h x W b = σ([h | x] · W + b),      σ(t) = 1 / (1 + e^(-t)),
  and the cell with update gate z, reset gate r and candidate q is
      z = gate h x Wz bz,   r = gate h x Wr br,   q = tanh([r ⊙ h | x] · Wq + bq),   cell = (1 - z) ⊙ h + z ⊙ q.
  Every entry of the result in row r depends on row r of h and of x only, which is what lets a kernel compute the cell
  on blocks of rows.
-/
import proofs.«153635_j72524817760644_2_alg».proof.Proof.LibStackedLayers
import proofs.«153635_j72524817760644_2_alg».proof.Proof.LibConcatRead
import Idealize.ShloMosaic.Lib.IdealHost

noncomputable section

namespace PoseGru

open Idealize.ShloMosaic Idealize.ShloMosaic.ValueIdx Cert.MatrixProduct Cert.Gcn

/-- An m × n array of extended reals. -/
abbrev Mat (m n : ℕ) : Type := (⟨2, ![m, n]⟩ : Shape).Idx → EReal

/-- Row r of h followed by row r of x. -/
def joined {M : ℕ} (h : Mat M 32) (x : Mat M 448) : Mat M 480 := fun i =>
  if hl : (i 1).val < 32 then h (ix2 (i 0) ⟨(i 1).val, hl⟩)
  else x (ix2 (i 0) ⟨(i 1).val - 32, by have : (i 1).val < 480 := (i 1).isLt; omega⟩)

theorem joined_left {M : ℕ} (h : Mat M 32) (x : Mat M 448) (p : Fin M) (q : Fin 480) (hq : q.val < 32) :
    joined h x (ix2 p q) = h (ix2 p ⟨q.val, hq⟩) := by
  show (if hl : q.val < 32 then _ else _) = _
  rw [dif_pos hq]; rfl

theorem joined_right {M : ℕ} (h : Mat M 32) (x : Mat M 448) (p : Fin M) (q : Fin 480) (hq : ¬ q.val < 32) :
    joined h x (ix2 p q) = x (ix2 p ⟨q.val - 32, by have := q.isLt; omega⟩) := by
  show (if hl : q.val < 32 then _ else _) = _
  rw [dif_neg hq]; rfl

/-- The two arrays laid side by side by a concatenation along the columns are the joined array. -/
theorem concat_eq_joined {M : ℕ} (h : Mat M 32) (x : Mat M 448)
    (hc : Shape.Concatenates [⟨2, ![M, 32]⟩, ⟨2, ![M, 448]⟩] ⟨2, ![M, 480]⟩ 1) :
    concatenate ⟨2, ![M, 480]⟩ 1 [⟨⟨2, ![M, 32]⟩, h⟩, ⟨⟨2, ![M, 448]⟩, x⟩] hc = joined h x := by
  funext i
  obtain ⟨p, q, rfl⟩ : ∃ (p : Fin M) (q : Fin 480), i = ix2 p q := ⟨i 0, i 1, eq_ix2 i⟩
  by_cases hq : q.val < 32
  · rw [joined_left h x p q hq]
    exact concat_cols_left h x hc p ⟨q.val, hq⟩ q rfl
  · rw [joined_right h x p q hq]
    exact concat_cols_right h x hc p ⟨q.val - 32, by have := q.isLt; omega⟩ q (by show q.val = 32 + (q.val - 32); omega)

/-- Row p of the joined array of a block is row r of the joined array of the whole batch when the rows of both parts
    agree. -/
theorem joined_row {M R : ℕ} (h : Mat M 32) (x : Mat M 448) (h' : Mat R 32) (x' : Mat R 448) (p : Fin R) (r : Fin M)
    (hh : ∀ l : Fin 32, h' (ix2 p l) = h (ix2 r l)) (hx : ∀ k : Fin 448, x' (ix2 p k) = x (ix2 r k)) (c : Fin 480) :
    joined h' x' (ix2 p c) = joined h x (ix2 r c) := by
  by_cases hq : c.val < 32
  · rw [joined_left h' x' p c hq, joined_left h x r c hq]; exact hh _
  · rw [joined_right h' x' p c hq, joined_right h x r c hq]; exact hx _

/-- A gate: the logistic function of [h | x] · W + b, entry by entry. -/
def gate {M : ℕ} (h : Mat M 32) (x : Mat M 448) (W : Mat 480 32) (b : Mat 1 32) : Mat M 32 :=
  fun i => Ideal.logistic (biasedProduct (joined h x) W b i)

/-- The cell: (1 - z) ⊙ h + z ⊙ tanh([r ⊙ h | x] · Wq + bq) with z and r the update and reset gates. -/
def cell {M : ℕ} (h : Mat M 32) (x : Mat M 448) (Wz : Mat 480 32) (bz : Mat 1 32) (Wr : Mat 480 32) (br : Mat 1 32)
    (Wq : Mat 480 32) (bq : Mat 1 32) : Mat M 32 :=
  fun i => ((1 : EReal) - gate h x Wz bz i) * h i
    + gate h x Wz bz i * Ideal.tanh (biasedProduct (joined (fun j => gate h x Wr br j * h j) x) Wq bq i)

/-- A gate's row p on a block is its row r on the whole batch when the block's row p is the batch's row r. -/
theorem gate_row {M R : ℕ} (h : Mat M 32) (x : Mat M 448) (h' : Mat R 32) (x' : Mat R 448) (W : Mat 480 32) (b : Mat 1 32)
    (p : Fin R) (r : Fin M)
    (hh : ∀ l : Fin 32, h' (ix2 p l) = h (ix2 r l)) (hx : ∀ k : Fin 448, x' (ix2 p k) = x (ix2 r k)) (l : Fin 32) :
    gate h' x' W b (ix2 p l) = gate h x W b (ix2 r l) :=
  congrArg Ideal.logistic
    (biasedProduct_row (joined h x) W b (joined h' x') W b p l r (joined_row h x h' x' p r hh hx) (fun _ => rfl) rfl)

/-- The cell's row p on a block is its row r on the whole batch when the block's row p is the batch's row r. -/
theorem cell_row {M R : ℕ} (h : Mat M 32) (x : Mat M 448) (h' : Mat R 32) (x' : Mat R 448)
    (Wz : Mat 480 32) (bz : Mat 1 32) (Wr : Mat 480 32) (br : Mat 1 32) (Wq : Mat 480 32) (bq : Mat 1 32)
    (p : Fin R) (r : Fin M)
    (hh : ∀ l : Fin 32, h' (ix2 p l) = h (ix2 r l)) (hx : ∀ k : Fin 448, x' (ix2 p k) = x (ix2 r k)) (l : Fin 32) :
    cell h' x' Wz bz Wr br Wq bq (ix2 p l) = cell h x Wz bz Wr br Wq bq (ix2 r l) := by
  have hrh : ∀ l : Fin 32, (fun j => gate h' x' Wr br j * h' j) (ix2 p l) = (fun j => gate h x Wr br j * h j) (ix2 r l) :=
    fun l => by
      show gate h' x' Wr br (ix2 p l) * h' (ix2 p l) = gate h x Wr br (ix2 r l) * h (ix2 r l)
      rw [gate_row h x h' x' Wr br p r hh hx l, hh l]
  show ((1 : EReal) - gate h' x' Wz bz (ix2 p l)) * h' (ix2 p l)
      + gate h' x' Wz bz (ix2 p l) * Ideal.tanh (biasedProduct (joined (fun j => gate h' x' Wr br j * h' j) x') Wq bq (ix2 p l))
    = ((1 : EReal) - gate h x Wz bz (ix2 r l)) * h (ix2 r l)
      + gate h x Wz bz (ix2 r l) * Ideal.tanh (biasedProduct (joined (fun j => gate h x Wr br j * h j) x) Wq bq (ix2 r l))
  rw [gate_row h x h' x' Wz bz p r hh hx l, hh l]
  refine congrArg (fun t => ((1 : EReal) - gate h x Wz bz (ix2 r l)) * h (ix2 r l) + gate h x Wz bz (ix2 r l) * Ideal.tanh t) ?_
  exact biasedProduct_row (joined (fun j => gate h x Wr br j * h j) x) Wq bq
    (joined (fun j => gate h' x' Wr br j * h' j) x') Wq bq p l r
    (joined_row _ x _ x' p r hrh hx) (fun _ => rfl) rfl

end PoseGru

end
-- ==== Proof.LibFlattenCasts.lean ====
import Idealize.ShloMosaic.Lib.Pipeline.Value
import Idealize.ShloMosaic.Lib.ValueIdx

/-!
# Shape casts that merge, split or drop axes, read at an index given by coordinates

A rank-3 array `[a, b, c]` viewed as the matrix `[a·b, c]` (its two leading axes merged) and back, an `[a, 1, b]`
array viewed as the matrix `[a, b]` (its middle unit axis dropped), and a vector `[a]` viewed as `[1, 1, a]`: each
reads the operand at the index with the same row-major position. These are the forms a batched matrix product
`x.reshape(a·b, c) @ w`, reshaped back, and a bias `v[None, None, :]` are spelt with.
-/

namespace Idealize.ShloMosaic.ValueIdx

open Idealize.ShloMosaic

variable {α : Type}

/-- An `[a, b, c]` array cast to `[n, c]` reads, at `(R, j)` with `R = p·b + r`, the operand at `(p, r, j)`: both sit at
    row-major position `(p·b + r)·c + j`. -/
theorem shapeCast_abc_nc_apply {a b c n : ℕ} (x : (⟨3, ![a, b, c]⟩ : Shape).Idx → α)
    (h : (⟨3, ![a, b, c]⟩ : Shape).ShapeCasts ⟨2, ![n, c]⟩) (p : Fin a) (r : Fin b) (j : Fin c) (R : Fin n)
    (hR : R.val = p.val * b + r.val) :
    shapeCast ⟨2, ![n, c]⟩ x h (ix2 R j) = x (ix3 p r j) :=
  shapeCast_apply x h _ _ (by
    rw [Shape.rowMajor_val_three, Shape.rowMajor_val_two]
    show (p.val * b + r.val) * c + j.val = R.val * c + j.val
    rw [hR])

/-- An `[n, c]` matrix cast to `[a, b, c]` reads, at `(p, r, j)`, the operand at `(R, j)` with `R = p·b + r`. -/
theorem shapeCast_nc_abc_apply {a b c n : ℕ} (x : (⟨2, ![n, c]⟩ : Shape).Idx → α)
    (h : (⟨2, ![n, c]⟩ : Shape).ShapeCasts ⟨3, ![a, b, c]⟩) (p : Fin a) (r : Fin b) (j : Fin c) (R : Fin n)
    (hR : R.val = p.val * b + r.val) :
    shapeCast ⟨3, ![a, b, c]⟩ x h (ix3 p r j) = x (ix2 R j) :=
  shapeCast_apply x h _ _ (by
    rw [Shape.rowMajor_val_three, Shape.rowMajor_val_two]
    show R.val * c + j.val = (p.val * b + r.val) * c + j.val
    rw [hR])

/-- An `[a, 1, b]` array cast to `[a, b]` reads, at `(i, j)`, the operand at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- A vector `[a]` cast to `[1, 1, a]` reads, at `(u, w, j)`, the operand at `j`. -/
theorem shapeCast_a_11a_apply {a : ℕ} (x : (⟨1, ![a]⟩ : Shape).Idx → α)
    (h : (⟨1, ![a]⟩ : Shape).ShapeCasts ⟨3, ![1, 1, a]⟩) (u w : Fin 1) (j : Fin a) :
    shapeCast ⟨3, ![1, 1, a]⟩ x h (ix3 u w j) = x (ix1 j) :=
  shapeCast_apply x h _ _ (by
    have hu : u.val = 0 := by omega
    have hw : w.val = 0 := by omega
    rw [Shape.rowMajor_val_three, Shape.rowMajor_val_one]
    show j.val = (u.val * 1 + w.val) * a + j.val
    rw [hu, hw]
    simp)

end Idealize.ShloMosaic.ValueIdx
-- ==== Proof.LibUnitAxes3.lean ====
import Idealize.ShloMosaic.Lib.Pipeline.Value
import Idealize.ShloMosaic.Lib.ValueIdx

/-!
# Rank-3 arrays with unit axes, read at an index given by coordinates

A matrix `[a, b]` viewed as `[a, 1, b]` (a middle unit axis inserted), a row `[1, b]` viewed as `[1, 1, b]`, and the
three broadcasts of a rank-3 array with one or two unit axes to the full `[a, b, c]`: each reads, at `(i, j, k)`,
the operand at the index that keeps the coordinates on the operand's proper axes and is `0` on its unit axes.
These are the forms an outer sum `s[:, None, :] + p[None, :, :] + bias[None, :, :]` is spelt with.
-/

namespace Idealize.ShloMosaic.ValueIdx

open Idealize.ShloMosaic

variable {α : Type}

/-- An `[a, b]` array cast to `[a, 1, b]` reads, at `(i, u, j)`, the operand at `(i, j)`, whatever the unit
    coordinate `u`: both sit at row-major position `i · b + j`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- A `[1, b]` row cast to `[1, 1, b]` reads, at `(u, w, j)`, the operand at `(0, j)`. -/
theorem shapeCast_1b_11b_apply {b : ℕ} (x : (⟨2, ![1, b]⟩ : Shape).Idx → α)
    (h : (⟨2, ![1, b]⟩ : Shape).ShapeCasts ⟨3, ![1, 1, b]⟩) (u w : Fin 1) (j : Fin b) :
    shapeCast ⟨3, ![1, 1, b]⟩ x h (ix3 u w j) = x (ix2 (0 : Fin 1) j) :=
  shapeCast_apply x h _ _ (by
    have hu : u.val = 0 := by omega
    have hw : w.val = 0 := by omega
    rw [Shape.rowMajor_val_three, Shape.rowMajor_val_two]
    show 0 * b + j.val = (u.val * 1 + w.val) * b + j.val
    rw [hu, hw])

/-- An `[a, 1, c]` array broadcast to `[a, b, c]` reads, at `(i, j, k)`, the operand at `(i, 0, k)`: every `j` sees
    the same slab. -/
theorem broadcastTo_a1c_abc_apply {a b c : ℕ} (x : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ x h (ix3 i j k) = x (ix3 i (0 : Fin 1) k) := by
  refine broadcastTo_apply x h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A `[1, b, c]` array broadcast to `[a, b, c]` reads, at `(i, j, k)`, the operand at `(0, j, k)`: every `i` sees
    the same matrix. -/
theorem broadcastTo_1bc_abc_apply {a b c : ℕ} (x : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ x h (ix3 i j k) = x (ix3 (0 : Fin 1) j k) := by
  refine broadcastTo_apply x h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- A `[1, 1, c]` row broadcast to `[a, b, c]` reads, at `(i, j, k)`, the operand at `(0, 0, k)`. -/
theorem broadcastTo_11c_abc_apply {a b c : ℕ} (x : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ x h (ix3 i j k) = x (ix3 (0 : Fin 1) (0 : Fin 1) k) := by
  refine broadcastTo_apply x h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

end Idealize.ShloMosaic.ValueIdx
-- ==== Proof.KernelCell.lean ====
/-
  One joint's step of the kernel body, as a function of the values it loads, and what it computes over the extended
  reals.

  The body, for every joint, loads a 512 × 1 × 32 column of the state buffer (the parent's column), the joint's three
  1 × 480 × 32 weight matrices and three 1 × 32 bias rows, and stores the 512 × 1 × 32 column `kStep` of them. The
  operands of the three matrix products are narrowed to a shorter float format first — the identity on the extended
  reals — and each product is accumulated into zeros, so `kStep` is the gated cell of `GruCell` on the 512 rows
  of the block (`kStep_eq`).
-/
import proofs.«153635_j72524817760644_2_alg».proof.Proof.Gen.KernelIdeal
import proofs.«153635_j72524817760644_2_alg».proof.Proof.GruCell
import proofs.«153635_j72524817760644_2_alg».proof.Proof.LibFlattenCasts
import proofs.«153635_j72524817760644_2_alg».proof.Proof.LibUnitAxes3
import Idealize.ShloMosaic.Lib.ValueLayout
import Idealize.ShloMosaic.Lib.IdealHost

noncomputable section

namespace PoseGru

open Cert.KernelIdeal Cert.KernelIdeal.Gen Idealize.ShloMosaic Idealize.ShloMosaic.ValueIdx Cert.MatrixProduct Cert.Gcn

/-- The column a joint's step stores, from the column, input block, weights and biases it loads: the printed
    operations in their printed order. -/
def kStep {F : FTy → Type} [FloatOps F] (h6 : Vec F S512x1x32 .f32) (x4 : Vec F S512x448 .f32)
    (wz : Vec F S1x480x32 .f32) (bz : Vec F S1x32 .f32) (wr : Vec F S1x480x32 .f32) (br : Vec F S1x32 .f32)
    (wq : Vec F S1x480x32 .f32) (bq : Vec F S1x32 .f32) : FVec F S512x1x32 .f32 :=
  have v5 : FVec F S512x448 .bf16 := truncf .bf16 x4 bitsLt_bf16_f32
  have v7 : FVec F S512x32 .f32 := shapeCast S512x32 h6 shapeCasts_S512x1x32_S512x32
  have v9 : FVec F S512x480 .bf16 := concatenate S512x480 1 [⟨S512x32, truncf .bf16 v7 bitsLt_bf16_f32⟩, ⟨S512x448, v5⟩] concatenates_S512x32_S512x448_S512x480_d1
  have v12 : FVec F S480x32 .bf16 := truncf .bf16 (shapeCast S480x32 wz shapeCasts_S1x480x32_S480x32) bitsLt_bf16_f32
  have v15 : FVec F S480x32 .bf16 := truncf .bf16 (shapeCast S480x32 wr shapeCasts_S1x480x32_S480x32) bitsLt_bf16_f32
  have v18 : FVec F S480x32 .bf16 := truncf .bf16 (shapeCast S480x32 wq shapeCasts_S1x480x32_S480x32) bitsLt_bf16_f32
  have v25 : FVec F S512x32 .f32 := logistic (addf (matmul dot_S512x480_S480x32_S512x32_1_0_0_1_n_n none v9 v12 (constant S512x32 .f32 0x00000000#32))
    (broadcastTo S512x32 (shapeCast S1x32 (shapeCast S32 bz shapeCasts_S1x32_S32) shapeCasts_S32_S1x32) broadcasts_S1x32_S512x32))
  have v32 : FVec F S512x32 .f32 := logistic (addf (matmul dot_S512x480_S480x32_S512x32_1_0_0_1_n_n none v9 v15 (constant S512x32 .f32 0x00000000#32))
    (broadcastTo S512x32 (shapeCast S1x32 (shapeCast S32 br shapeCasts_S1x32_S32) shapeCasts_S32_S1x32) broadcasts_S1x32_S512x32))
  have v35 : FVec F S512x480 .bf16 := concatenate S512x480 1 [⟨S512x32, truncf .bf16 (mulf v32 v7) bitsLt_bf16_f32⟩, ⟨S512x448, v5⟩] concatenates_S512x32_S512x448_S512x480_d1
  have v42 : FVec F S512x32 .f32 := tanh (addf (matmul dot_S512x480_S480x32_S512x32_1_0_0_1_n_n none v35 v18 (constant S512x32 .f32 0x00000000#32))
    (broadcastTo S512x32 (shapeCast S1x32 (shapeCast S32 bq shapeCasts_S1x32_S32) shapeCasts_S32_S1x32) broadcasts_S1x32_S512x32))
  have v47 : FVec F S512x32 .f32 := addf (mulf (subf (broadcast S512x32 (Scalar.ofBits .f32 0x3F800000#32)) v25) v7) (mulf v25 v42)
  shapeCast S512x1x32 v47 shapeCasts_S512x32_S512x1x32

/-- The loaded column with its unit axis dropped, as a 512 × 32 array. -/
def squeezed (h6 : Vec Ideal S512x1x32 .f32) : Mat 512 32 := fun i => h6 (ix3 (i 0) (0 : Fin 1) (i 1))

theorem shapeCast_squeezed (h6 : Vec Ideal S512x1x32 .f32) :
    shapeCast S512x32 h6 shapeCasts_S512x1x32_S512x32 = squeezed h6 := by
  funext i
  obtain ⟨p, q, rfl⟩ : ∃ (p : Fin 512) (q : Fin 32), i = ix2 p q := ⟨i 0, i 1, eq_ix2 i⟩
  exact shapeCast_a1b_ab_apply h6 shapeCasts_S512x1x32_S512x32 p q

/-- A bias row reshaped to a vector and back is the row. -/
theorem row_roundtrip (b : Vec Ideal S1x32 .f32) :
    shapeCast S1x32 (shapeCast S32 b shapeCasts_S1x32_S32) shapeCasts_S32_S1x32 = b := by
  funext i
  obtain ⟨u, q, rfl⟩ : ∃ (u : Fin 1) (q : Fin 32), i = ix2 u q := ⟨i 0, i 1, eq_ix2 i⟩
  have hu : u = 0 := Fin.ext (by omega)
  subst hu
  rw [shapeCast_a_1a_apply, shapeCast_1a_a_apply]

/-- A product into zeros plus a bias row broadcast down the rows, on the extended reals. -/
theorem linear_eq (a : FVec Ideal S512x480 .bf16) (w : Vec Ideal S1x480x32 .f32) (b : Vec Ideal S1x32 .f32) :
    addf (matmul dot_S512x480_S480x32_S512x32_1_0_0_1_n_n none a
          (truncf .bf16 (shapeCast S480x32 w shapeCasts_S1x480x32_S480x32) bitsLt_bf16_f32) (constant S512x32 .f32 0x00000000#32))
        (broadcastTo S512x32 (shapeCast S1x32 (shapeCast S32 b shapeCasts_S1x32_S32) shapeCasts_S32_S1x32) broadcasts_S1x32_S512x32)
      = biasedProduct (a : Mat 512 480) (shapeCast S480x32 w shapeCasts_S1x480x32_S480x32) b := by
  have hd : (dot_S512x480_S480x32_S512x32_1_0_0_1_n_n : DotDims S512x480 S480x32 S512x32)
      = ⟨[1], [0], [0], [1], [], [], dot_S512x480_S480x32_S512x32_1_0_0_1_n_n_wf⟩ := rfl
  funext j
  obtain ⟨p, q, rfl⟩ : ∃ (p : Fin 512) (q : Fin 32), j = ix2 p q := ⟨j 0, j 1, eq_ix2 j⟩
  rw [addf_apply, hd, matmul_zero_eq_mm, row_roundtrip, broadcastTo_1b_ab_apply]
  rfl

/-- The step is the gated cell on the block's 512 rows. -/
theorem kStep_eq (h6 : Vec Ideal S512x1x32 .f32) (x4 : Vec Ideal S512x448 .f32)
    (wz : Vec Ideal S1x480x32 .f32) (bz : Vec Ideal S1x32 .f32) (wr : Vec Ideal S1x480x32 .f32) (br : Vec Ideal S1x32 .f32)
    (wq : Vec Ideal S1x480x32 .f32) (bq : Vec Ideal S1x32 .f32) (r : Fin 512) (u : Fin 1) (l : Fin 32) :
    kStep (F := Ideal) h6 x4 wz bz wr br wq bq (ix3 r u l)
      = cell (squeezed h6) x4 (shapeCast S480x32 wz shapeCasts_S1x480x32_S480x32) bz
          (shapeCast S480x32 wr shapeCasts_S1x480x32_S480x32) br
          (shapeCast S480x32 wq shapeCasts_S1x480x32_S480x32) bq (ix2 r l) := by
  unfold kStep
  rw [shapeCast_ab_a1b_apply]
  have hcat : ∀ a : Mat 512 32,
      concatenate S512x480 1 [⟨S512x32, truncf (F := Ideal) .bf16 (a : FVec Ideal S512x32 .f32) bitsLt_bf16_f32⟩,
        ⟨S512x448, truncf (F := Ideal) .bf16 x4 bitsLt_bf16_f32⟩] concatenates_S512x32_S512x448_S512x480_d1
        = joined a x4 := fun a => concat_eq_joined a x4 concatenates_S512x32_S512x448_S512x480_d1
  rw [shapeCast_squeezed, hcat, linear_eq, linear_eq, hcat, linear_eq]
  show (Ideal.ofBits .f32 0x3F800000#32 - Ideal.logistic (biasedProduct (joined (squeezed h6) x4) _ bz (ix2 r l))) * squeezed h6 (ix2 r l)
      + Ideal.logistic (biasedProduct (joined (squeezed h6) x4) _ bz (ix2 r l))
        * Ideal.tanh (biasedProduct (joined (fun j => Ideal.logistic (biasedProduct (joined (squeezed h6) x4) _ br j) * squeezed h6 j) x4) _ bq (ix2 r l))
    = _
  rw [Ideal.ofBits_one_f32]
  rfl

end PoseGru

end
-- ==== Proof.GruTree.lean ====
/-
  The cell run over a tree of 24 joints, as one whole-array function.

  The joints are numbered 0 … 23; joint 0 is the root and every other joint j has a parent `par j < j`. With A the
  M × 24 × 32 array of initial hidden states (column j is joint j's state), x the shared M × 448 input and, for each
  joint, its own three weight matrices and bias rows (the j-th layers of three 24 × 480 × 32 stacks and the j-th rows of
  three 24 × 32 arrays), the new state of joint j is
      H 0 = cell₀(column 0 of A),      H j = cell_j(H (par j))   for j > 0,
  the cell of joint j applied to its parent's NEW state (the root to its own old state). The result G is the array whose
  column j is H j.

  A program that keeps the states in one M × 24 × 32 buffer and overwrites column j at step j computes G: after k steps
  the buffer holds H j in the columns j < k and A in the others (`step_inv`). And row r of G depends on row r of A and of
  x only (`G_row`), so G may be computed on blocks of rows.
-/
import proofs.«153635_j72524817760644_2_alg».proof.Proof.GruCell

noncomputable section

namespace PoseGru

open Idealize.ShloMosaic Idealize.ShloMosaic.ValueIdx Cert.Stack

/-- An M × 24 × 32 array: one 32-vector per row and joint. -/
abbrev Cube (m : ℕ) : Type := (⟨3, ![m, 24, 32]⟩ : Shape).Idx → EReal
/-- A stack of 24 weight matrices. -/
abbrev Wts : Type := (⟨3, ![24, 480, 32]⟩ : Shape).Idx → EReal
/-- A stack of 24 bias vectors. -/
abbrev Bias : Type := (⟨2, ![24, 32]⟩ : Shape).Idx → EReal

/-- The parent of each joint, in the order of the joints (the root's entry is not used). -/
def parents : List ℕ := [0, 0, 0, 0, 1, 2, 3, 4, 5, 6, 7, 8, 9, 9, 9, 12, 13, 14, 16, 17, 18, 19, 20, 21]

/-- The parent of joint j (0 for the root and for any number past the last joint). -/
def par (j : ℕ) : ℕ := parents.getD j 0

/-- A joint other than the root has a parent of smaller number. -/
theorem par_lt (j : ℕ) (h : j ≠ 0) : par j < j := by
  rcases Nat.lt_or_ge j 24 with hj | hj
  · interval_cases j
    · exact absurd rfl h
    all_goals decide
  · have e : par j = 0 := by
      unfold par
      rw [List.getD_eq_getElem?_getD, List.getElem?_eq_none (show parents.length ≤ j from hj)]
      rfl
    omega

/-- The parent as a joint. -/
def parF (j : Fin 24) : Fin 24 :=
  ⟨par j.val, by
    by_cases h : j.val = 0
    · rw [h]; show (0 : ℕ) < 24; omega
    · have := par_lt j.val h; have := j.isLt; omega⟩

/-- Column j of an M × 24 × 32 array, as an M × 32 array. -/
def col {M : ℕ} (A : Cube M) (j : Fin 24) : Mat M 32 := fun i => A (ix3 (i 0) j (i 1))

section

variable {M : ℕ} (A : Cube M) (x : Mat M 448) (Wz : Wts) (bz : Bias) (Wr : Wts) (br : Bias) (Wq : Wts) (bq : Bias)

/-- Joint j's cell: the cell with the j-th layers of the weight stacks and the j-th bias rows. -/
def jcell (j : Fin 24) (h : Mat M 32) : Mat M 32 :=
  cell h x (layer j Wz) (biasRow j bz) (layer j Wr) (biasRow j br) (layer j Wq) (biasRow j bq)

/-- The new state of joint j: its cell applied to its parent's new state, the root's to its own old state. -/
def H : Fin 24 → Mat M 32
  | j => jcell x Wz bz Wr br Wq bq j (if h : j.val = 0 then col A j else H (parF j))
termination_by j => j.val
decreasing_by exact par_lt j.val h

theorem H_eq (j : Fin 24) :
    H A x Wz bz Wr br Wq bq j
      = jcell x Wz bz Wr br Wq bq j (if _h : j.val = 0 then col A j else H A x Wz bz Wr br Wq bq (parF j)) := by
  rw [H]

theorem H_root (j : Fin 24) (h : j.val = 0) :
    H A x Wz bz Wr br Wq bq j = jcell x Wz bz Wr br Wq bq j (col A j) := by
  rw [H_eq, dif_pos h]

theorem H_child (j : Fin 24) (h : j.val ≠ 0) :
    H A x Wz bz Wr br Wq bq j = jcell x Wz bz Wr br Wq bq j (H A x Wz bz Wr br Wq bq (parF j)) := by
  rw [H_eq, dif_neg h]

/-- The result: column j is the new state of joint j. -/
def G : Cube M := fun i => H A x Wz bz Wr br Wq bq (i 1) (ix2 (i 0) (i 2))

/-- The buffer after k steps: the new states in the columns below k, the old ones in the others. -/
def partialRun (k : ℕ) : Cube M := fun i =>
  if (i 1).val < k then H A x Wz bz Wr br Wq bq (i 1) (ix2 (i 0) (i 2)) else A i

/-- One step on a buffer B: column j is overwritten with joint j's cell of column p of B. -/
def stepArr (j p : Fin 24) (B : Cube M) : Cube M := fun i =>
  if (i 1).val = j.val then jcell x Wz bz Wr br Wq bq j (col B p) (ix2 (i 0) (i 2)) else B i

theorem col_apply (B : Cube M) (p : Fin 24) (r : Fin M) (l : Fin 32) : col B p (ix2 r l) = B (ix3 r p l) := rfl

theorem partialRun_lt (k : ℕ) (r : Fin M) (c : Fin 24) (l : Fin 32) (h : c.val < k) :
    partialRun A x Wz bz Wr br Wq bq k (ix3 r c l) = H A x Wz bz Wr br Wq bq c (ix2 r l) := by
  show (if c.val < k then H A x Wz bz Wr br Wq bq c (ix2 r l) else A (ix3 r c l)) = _
  exact if_pos h

theorem partialRun_ge (k : ℕ) (r : Fin M) (c : Fin 24) (l : Fin 32) (h : ¬ c.val < k) :
    partialRun A x Wz bz Wr br Wq bq k (ix3 r c l) = A (ix3 r c l) := by
  show (if c.val < k then H A x Wz bz Wr br Wq bq c (ix2 r l) else A (ix3 r c l)) = _
  exact if_neg h

theorem partialRun_zero : partialRun A x Wz bz Wr br Wq bq 0 = A := by
  funext i
  obtain ⟨r, c, l, rfl⟩ : ∃ (r : Fin M) (c : Fin 24) (l : Fin 32), i = ix3 r c l := ⟨i 0, i 1, i 2, eq_ix3 i⟩
  exact partialRun_ge A x Wz bz Wr br Wq bq 0 r c l (by omega)

theorem partialRun_all : partialRun A x Wz bz Wr br Wq bq 24 = G A x Wz bz Wr br Wq bq := by
  funext i
  obtain ⟨r, c, l, rfl⟩ : ∃ (r : Fin M) (c : Fin 24) (l : Fin 32), i = ix3 r c l := ⟨i 0, i 1, i 2, eq_ix3 i⟩
  exact partialRun_lt A x Wz bz Wr br Wq bq 24 r c l c.isLt

/-- Step k, reading the parent's column, takes the buffer after k steps to the buffer after k + 1 steps. -/
theorem step_inv (k : ℕ) (hk : k < 24) :
    stepArr x Wz bz Wr br Wq bq ⟨k, hk⟩ (parF ⟨k, hk⟩) (partialRun A x Wz bz Wr br Wq bq k)
      = partialRun A x Wz bz Wr br Wq bq (k + 1) := by
  funext i
  obtain ⟨r, c, l, rfl⟩ : ∃ (r : Fin M) (c : Fin 24) (l : Fin 32), i = ix3 r c l := ⟨i 0, i 1, i 2, eq_ix3 i⟩
  show (if c.val = k then jcell x Wz bz Wr br Wq bq ⟨k, hk⟩
          (col (partialRun A x Wz bz Wr br Wq bq k) (parF ⟨k, hk⟩)) (ix2 r l)
        else partialRun A x Wz bz Wr br Wq bq k (ix3 r c l))
      = partialRun A x Wz bz Wr br Wq bq (k + 1) (ix3 r c l)
  by_cases hc : c.val = k
  · rw [if_pos hc]
    obtain rfl : c = ⟨k, hk⟩ := Fin.ext hc
    rw [partialRun_lt A x Wz bz Wr br Wq bq (k + 1) r ⟨k, hk⟩ l (Nat.lt_succ_self k)]
    by_cases h0 : k = 0
    · subst h0
      rw [H_root A x Wz bz Wr br Wq bq ⟨0, hk⟩ rfl]
      refine congrArg (fun s => jcell x Wz bz Wr br Wq bq ⟨0, hk⟩ s (ix2 r l)) ?_
      funext i'
      obtain ⟨r', l', rfl⟩ : ∃ (r' : Fin M) (l' : Fin 32), i' = ix2 r' l' := ⟨i' 0, i' 1, eq_ix2 i'⟩
      rw [col_apply, col_apply, partialRun_ge A x Wz bz Wr br Wq bq 0 r' _ l' (by omega)]
      rfl
    · rw [H_child A x Wz bz Wr br Wq bq ⟨k, hk⟩ h0]
      refine congrArg (fun s => jcell x Wz bz Wr br Wq bq ⟨k, hk⟩ s (ix2 r l)) ?_
      funext i'
      obtain ⟨r', l', rfl⟩ : ∃ (r' : Fin M) (l' : Fin 32), i' = ix2 r' l' := ⟨i' 0, i' 1, eq_ix2 i'⟩
      rw [col_apply]
      exact partialRun_lt A x Wz bz Wr br Wq bq k r' (parF ⟨k, hk⟩) l' (par_lt k h0)
  · rw [if_neg hc]
    by_cases hlt : c.val < k
    · rw [partialRun_lt A x Wz bz Wr br Wq bq k r c l hlt, partialRun_lt A x Wz bz Wr br Wq bq (k + 1) r c l (by omega)]
    · rw [partialRun_ge A x Wz bz Wr br Wq bq k r c l hlt, partialRun_ge A x Wz bz Wr br Wq bq (k + 1) r c l (by omega)]

end

/-- Row p of a block's new states is row r of the whole batch's, when row p of the block's old states and inputs is
    row r of the batch's. -/
theorem H_row {M R : ℕ} (A : Cube M) (x : Mat M 448) (A' : Cube R) (x' : Mat R 448)
    (Wz : Wts) (bz : Bias) (Wr : Wts) (br : Bias) (Wq : Wts) (bq : Bias) (p : Fin R) (r : Fin M)
    (hA : ∀ (j : Fin 24) (l : Fin 32), A' (ix3 p j l) = A (ix3 r j l)) (hx : ∀ k : Fin 448, x' (ix2 p k) = x (ix2 r k)) :
    ∀ (n : ℕ) (j : Fin 24), j.val ≤ n → ∀ l : Fin 32,
      H A' x' Wz bz Wr br Wq bq j (ix2 p l) = H A x Wz bz Wr br Wq bq j (ix2 r l) := by
  intro n
  induction n with
  | zero =>
    intro j hj l
    have h0 : j.val = 0 := by omega
    rw [H_root A' x' Wz bz Wr br Wq bq j h0, H_root A x Wz bz Wr br Wq bq j h0]
    exact cell_row (col A j) x (col A' j) x' _ _ _ _ _ _ p r (fun l => hA j l) hx l
  | succ n ih =>
    intro j hj l
    by_cases h0 : j.val = 0
    · rw [H_root A' x' Wz bz Wr br Wq bq j h0, H_root A x Wz bz Wr br Wq bq j h0]
      exact cell_row (col A j) x (col A' j) x' _ _ _ _ _ _ p r (fun l => hA j l) hx l
    · rw [H_child A' x' Wz bz Wr br Wq bq j h0, H_child A x Wz bz Wr br Wq bq j h0]
      have hp : (parF j).val ≤ n := by
        have := par_lt j.val h0
        show par j.val ≤ n
        omega
      exact cell_row _ x _ x' _ _ _ _ _ _ p r (fun l => ih (parF j) hp l) hx l

/-- Row p of a block's result is row r of the whole batch's. -/
theorem G_row {M R : ℕ} (A : Cube M) (x : Mat M 448) (A' : Cube R) (x' : Mat R 448)
    (Wz : Wts) (bz : Bias) (Wr : Wts) (br : Bias) (Wq : Wts) (bq : Bias) (p : Fin R) (r : Fin M)
    (hA : ∀ (j : Fin 24) (l : Fin 32), A' (ix3 p j l) = A (ix3 r j l)) (hx : ∀ k : Fin 448, x' (ix2 p k) = x (ix2 r k))
    (j : Fin 24) (l : Fin 32) :
    G A' x' Wz bz Wr br Wq bq (ix3 p j l) = G A x Wz bz Wr br Wq bq (ix3 r j l) :=
  H_row A x A' x' Wz bz Wr br Wq bq p r hA hx j.val j (Nat.le_refl _) l

end PoseGru

end
-- ==== Proof.KernelPieces.lean ====
/-
  What the kernel body leaves in its output block: the tree of cells on the block's 512 rows.

  The body first copies its 512 × 24 × 32 block of hidden states into a scratch buffer, then, joint by joint, loads one
  column of the buffer (the joint's parent's), computes the joint's cell of it (`kStep`) and overwrites the joint's own
  column, and at the end copies the buffer out. The run of the body records the buffer's contents as the list of these
  stores, last first. Read as an array, the list after the store of joint j is one step (`stepArr`) on the list
  before it (`canon_step`), so after k joints the buffer holds the new states of the joints below k and the old
  states of the others (`scratch_k`), and at the end the result `G` of the block (`body_out`).
-/
import proofs.«153635_j72524817760644_2_alg».proof.Proof.Gen.KernelIdeal.Frame
import proofs.«153635_j72524817760644_2_alg».proof.Proof.KernelCell
import proofs.«153635_j72524817760644_2_alg».proof.Proof.GruTree
import Idealize.ShloMosaic.Lib.Pipeline.Value
import Idealize.ShloMosaic.Lib.Pipeline.FrameBody

set_option maxRecDepth 16384

noncomputable section

namespace PoseGru

open Cert.KernelIdeal Cert.KernelIdeal.Gen Idealize.ShloMosaic Idealize.ShloMosaic.ValueIdx Idealize.ShloMosaic.TcCoe
open Idealize.SL.Sem Cert.Stack

/-- The offsets of a rectangle that starts at the origin of a rank-3 array. -/
theorem origin3 : (![0, 0, 0] : Fin 3 → ℕ) = fun _ => 0 := by
  funext a
  match a with
  | ⟨0, _⟩ => rfl
  | ⟨1, _⟩ => rfl
  | ⟨2, _⟩ => rfl

theorem origin2 : (![0, 0] : Fin 2 → ℕ) = fun _ => 0 := by
  funext a
  match a with
  | ⟨0, _⟩ => rfl
  | ⟨1, _⟩ => rfl

/-- A load of the whole input block reads the block. -/
theorem loaded_input (arg : Memref sig .tc .vmem S512x448 .f32) (harg : arg.IsWhole) (x : Vec Ideal S512x448 .f32) :
    View.readAt (Elt Ideal) arg.view
      (Rect.unit (s := S512x448) ![0, 0] S512x448.size inb_S512x448_S512x448_0_0).toLoadRect (harg.unread x) = x := by
  rw [View.readAt_eq_ld, harg.read_unread, View.ld_unit_zero origin2]

/-- A load of the g-th matrix of a stack, its unit axis dropped, is the stack's g-th layer. -/
theorem loaded_layer (arg : Memref sig .tc .vmem S24x480x32 .f32) (harg : arg.IsWhole) (W : Vec Ideal S24x480x32 .f32)
    (g : ℕ) (hg : g < 24)
    (inb : ∀ a, (![g, 0, 0] : Fin 3 → ℕ) a + S1x480x32.size a ≤ S24x480x32.size a) :
    shapeCast S480x32 (View.readAt (Elt Ideal) arg.view
        (Rect.unit (s := S24x480x32) ![g, 0, 0] S1x480x32.size inb).toLoadRect (harg.unread W)) shapeCasts_S1x480x32_S480x32
      = layer ⟨g, hg⟩ (W : Wts) := by
  rw [View.readAt_eq_ld, harg.read_unread]
  exact ld_layer W g hg inb _

/-- A load of the g-th row of a stack of bias vectors is that row. -/
theorem loaded_row (arg : Memref sig .tc .vmem S24x32 .f32) (harg : arg.IsWhole) (B : Vec Ideal S24x32 .f32)
    (g : ℕ) (hg : g < 24) (inb : ∀ a, (![g, 0] : Fin 2 → ℕ) a + S1x32.size a ≤ S24x32.size a) :
    View.readAt (Elt Ideal) arg.view (Rect.unit (s := S24x32) ![g, 0] S1x32.size inb).toLoadRect (harg.unread B)
      = biasRow ⟨g, hg⟩ (B : Bias) := by
  rw [View.readAt_eq_ld, harg.read_unread]
  exact ld_biasRow B g hg inb

/-- The store of joint j's step, on top of a list L of earlier stores, read as an array: column j is joint j's cell of
    column p of the array L reads as, every other column is as in L. -/
theorem canon_step (v : View sig .tc .vmem S512x24x32 .f32) (L : List (View.Piece (Elt Ideal) S512x24x32 .f32))
    (j p : ℕ) (hj : j < 24) (hp : p < 24)
    (inbj : ∀ a, (![0, j, 0] : Fin 3 → ℕ) a + S512x1x32.size a ≤ S512x24x32.size a)
    (inbp : ∀ a, (![0, p, 0] : Fin 3 → ℕ) a + S512x1x32.size a ≤ S512x24x32.size a)
    (xl xb : Vec Ideal S512x448 .f32)
    (wz : Vec Ideal S1x480x32 .f32) (bz : Vec Ideal S1x32 .f32) (wr : Vec Ideal S1x480x32 .f32) (br : Vec Ideal S1x32 .f32)
    (wq : Vec Ideal S1x480x32 .f32) (bq : Vec Ideal S1x32 .f32)
    (Wz : Wts) (Bz : Bias) (Wr : Wts) (Br : Bias) (Wq : Wts) (Bq : Bias)
    (e0 : xl = xb)
    (e1 : shapeCast S480x32 wz shapeCasts_S1x480x32_S480x32 = layer ⟨j, hj⟩ Wz) (e2 : bz = biasRow ⟨j, hj⟩ Bz)
    (e3 : shapeCast S480x32 wr shapeCasts_S1x480x32_S480x32 = layer ⟨j, hj⟩ Wr) (e4 : br = biasRow ⟨j, hj⟩ Br)
    (e5 : shapeCast S480x32 wq shapeCasts_S1x480x32_S480x32 = layer ⟨j, hj⟩ Wq) (e6 : bq = biasRow ⟨j, hj⟩ Bq) :
    View.canon ((⟨Rect.unit (s := S512x24x32) ![0, j, 0] S512x1x32.size inbj,
        kStep (v.readCov L (Rect.unit (s := S512x24x32) ![0, p, 0] S512x1x32.size inbp).toLoadRect)
          xl wz bz wr br wq bq⟩ : View.Piece (Elt Ideal) S512x24x32 .f32) :: L)
      = stepArr (xb : Mat 512 448) Wz Bz Wr Br Wq Bq ⟨j, hj⟩ ⟨p, hp⟩ (View.canon L : Cube 512) := by
  subst e0
  funext i
  obtain ⟨r, c, l, rfl⟩ : ∃ (r : Fin 512) (c : Fin 24) (l : Fin 32), i = ix3 r c l := ⟨i 0, i 1, i 2, eq_ix3 i⟩
  show _ = (if c.val = j then jcell (xl : Mat 512 448) Wz Bz Wr Br Wq Bq ⟨j, hj⟩ (col (View.canon L : Cube 512) ⟨p, hp⟩) (ix2 r l)
    else View.canon L (ix3 r c l))
  by_cases hc : c.val = j
  · rw [if_pos hc]
    have hemb : (Rect.unit (s := S512x24x32) ![0, j, 0] S512x1x32.size inbj).emb (ix3 r (0 : Fin 1) l) = ix3 r c l := by
      funext ax
      apply Fin.ext
      match ax with
      | ⟨0, _⟩ => show 0 + 1 * r.val = r.val; omega
      | ⟨1, _⟩ => show j + 1 * 0 = c.val; omega
      | ⟨2, _⟩ => show 0 + 1 * l.val = l.val; omega
    have hpay := View.canon_cons_emb (Rect.unit (s := S512x24x32) ![0, j, 0] S512x1x32.size inbj)
      (kStep (v.readCov L (Rect.unit (s := S512x24x32) ![0, p, 0] S512x1x32.size inbp).toLoadRect) xl wz bz wr br wq bq)
      L (ix3 r (0 : Fin 1) l)
    rw [hemb] at hpay
    rw [hpay, kStep_eq, e1, e2, e3, e4, e5, e6]
    have hsrc : squeezed (v.readCov L (Rect.unit (s := S512x24x32) ![0, p, 0] S512x1x32.size inbp).toLoadRect)
        = col (View.canon L : Cube 512) ⟨p, hp⟩ := by
      funext i'
      obtain ⟨r', l', rfl⟩ : ∃ (r' : Fin 512) (l' : Fin 32), i' = ix2 r' l' := ⟨i' 0, i' 1, eq_ix2 i'⟩
      rw [View.readCov_eq_canon']
      show View.canon L _ = View.canon L (ix3 r' ⟨p, hp⟩ l')
      congr 1
      funext ax
      apply Fin.ext
      match ax with
      | ⟨0, _⟩ => show 0 + 1 * r'.val = r'.val; omega
      | ⟨1, _⟩ => show p + 1 * 0 = p; omega
      | ⟨2, _⟩ => show 0 + 1 * l'.val = l'.val; omega
    rw [hsrc]
    rfl
  · rw [if_neg hc]
    refine View.canon_cons_of_not_mem _ L ?_
    show ix3 r c l ∉ (Rect.unit (s := S512x24x32) ![0, j, 0] S512x1x32.size inbj).set
    rw [Rect.mem_set_unit]
    intro h
    obtain ⟨h1, h2⟩ := h (1 : Fin 3)
    have h1' : j ≤ c.val := h1
    have h2' : c.val < j + 1 := h2
    omega

section

variable (c : Dev nD) (i : grid0.Coords)
  (arg1 : Memref sig .tc .vmem S512x24x32 .f32) (harg1 : arg1.IsWhole) (arg2 : Memref sig .tc .vmem S512x448 .f32) (harg2 : arg2.IsWhole)
  (arg3 : Memref sig .tc .vmem S24x480x32 .f32) (harg3 : arg3.IsWhole) (arg4 : Memref sig .tc .vmem S24x32 .f32) (harg4 : arg4.IsWhole)
  (arg5 : Memref sig .tc .vmem S24x480x32 .f32) (harg5 : arg5.IsWhole) (arg6 : Memref sig .tc .vmem S24x32 .f32) (harg6 : arg6.IsWhole)
  (arg7 : Memref sig .tc .vmem S24x480x32 .f32) (harg7 : arg7.IsWhole) (arg8 : Memref sig .tc .vmem S24x32 .f32) (harg8 : arg8.IsWhole)
  (arg9 : Memref sig .tc .vmem S512x24x32 .f32) (harg9 : arg9.IsWhole) (arg10 : Memref sig .tc .vmem S512x24x32 .f32) (harg10 : arg10.IsWhole)
  (x0 : Vec Ideal S512x24x32 .f32) (x1 : Vec Ideal S512x448 .f32) (x2 : Vec Ideal S24x480x32 .f32) (x3 : Vec Ideal S24x32 .f32)
  (x4 : Vec Ideal S24x480x32 .f32) (x5 : Vec Ideal S24x32 .f32) (x6 : Vec Ideal S24x480x32 .f32) (x7 : Vec Ideal S24x32 .f32)

/-! ### The list of stores after each joint, in the vocabulary of `kStep` -/

theorem pieces_2 :
    (@kernelRun0_A.sl.HS0_2 Ideal inferInstance c arg1 harg1 arg2 harg2 arg3 harg3 arg4 harg4 arg5 harg5 arg6 harg6 arg7 harg7 arg8 harg8 arg10 x0 x1 x2 x3 x4 x5 x6 x7)
      = (⟨Rect.unit (s := S512x24x32) ![0, 0, 0] S512x1x32.size inb_S512x24x32_S512x1x32_0_0_0,
          kStep (arg10.view.readCov (@kernelRun0_A.sl.HS0_1 Ideal c arg1 harg1 x0)
              (Rect.unit (s := S512x24x32) ![0, 0, 0] S512x1x32.size inb_S512x24x32_S512x1x32_0_0_0).toLoadRect)
            (View.readAt (Elt Ideal) arg2.view (Rect.unit (s := S512x448) ![0, 0] S512x448.size inb_S512x448_S512x448_0_0).toLoadRect (harg2.unread x1))
            (View.readAt (Elt Ideal) arg3.view (Rect.unit (s := S24x480x32) ![0, 0, 0] S1x480x32.size inb_S24x480x32_S1x480x32_0_0_0).toLoadRect (harg3.unread x2))
            (View.readAt (Elt Ideal) arg4.view (Rect.unit (s := S24x32) ![0, 0] S1x32.size inb_S24x32_S1x32_0_0).toLoadRect (harg4.unread x3))
            (View.readAt (Elt Ideal) arg5.view (Rect.unit (s := S24x480x32) ![0, 0, 0] S1x480x32.size inb_S24x480x32_S1x480x32_0_0_0).toLoadRect (harg5.unread x4))
            (View.readAt (Elt Ideal) arg6.view (Rect.unit (s := S24x32) ![0, 0] S1x32.size inb_S24x32_S1x32_0_0).toLoadRect (harg6.unread x5))
            (View.readAt (Elt Ideal) arg7.view (Rect.unit (s := S24x480x32) ![0, 0, 0] S1x480x32.size inb_S24x480x32_S1x480x32_0_0_0).toLoadRect (harg7.unread x6))
            (View.readAt (Elt Ideal) arg8.view (Rect.unit (s := S24x32) ![0, 0] S1x32.size inb_S24x32_S1x32_0_0).toLoadRect (harg8.unread x7))⟩ : View.Piece (Elt Ideal) S512x24x32 .f32)
        :: (@kernelRun0_A.sl.HS0_1 Ideal c arg1 harg1 x0) := rfl

theorem pieces_3 :
    (@kernelRun0_A.sl.HS0_3 Ideal inferInstance c arg1 harg1 arg2 harg2 arg3 harg3 arg4 harg4 arg5 harg5 arg6 harg6 arg7 harg7 arg8 harg8 arg10 x0 x1 x2 x3 x4 x5 x6 x7)
      = (⟨Rect.unit (s := S512x24x32) ![0, 1, 0] S512x1x32.size inb_S512x24x32_S512x1x32_0_1_0,
          kStep (arg10.view.readCov (@kernelRun0_A.sl.HS0_2 Ideal inferInstance c arg1 harg1 arg2 harg2 arg3 harg3 arg4 harg4 arg5 harg5 arg6 harg6 arg7 harg7 arg8 harg8 arg10 x0 x1 x2 x3 x4 x5 x6 x7)
              (Rect.unit (s := S512x24x32) ![0, 0, 0] S512x1x32.size inb_S512x24x32_S512x1x32_0_0_0).toLoadRect)
            (View.readAt (Elt Ideal) arg2.view (Rect.unit (s := S512x448) ![0, 0] S512x448.size inb_S512x448_S512x448_0_0).toLoadRect (harg2.unread x1))
            (View.readAt (Elt Ideal) arg3.view (Rect.unit (s := S24x480x32) ![1, 0, 0] S1x480x32.size inb_S24x480x32_S1x480x32_1_0_0).toLoadRect (harg3.unread x2))
            (View.readAt (Elt Ideal) arg4.view (Rect.unit (s := S24x32) ![1, 0] S1x32.size inb_S24x32_S1x32_1_0).toLoadRect (harg4.unread x3))
            (View.readAt (Elt Ideal) arg5.view (Rect.unit (s := S24x480x32) ![1, 0, 0] S1x480x32.size inb_S24x480x32_S1x480x32_1_0_0).toLoadRect (harg5.unread x4))
            (View.readAt (Elt Ideal) arg6.view (Rect.unit (s := S24x32) ![1, 0] S1x32.size inb_S24x32_S1x32_1_0).toLoadRect (harg6.unread x5))
            (View.readAt (Elt Ideal) arg7.view (Rect.unit (s := S24x480x32) ![1, 0, 0] S1x480x32.size inb_S24x480x32_S1x480x32_1_0_0).toLoadRect (harg7.unread x6))
            (View.readAt (Elt Ideal) arg8.view (Rect.unit (s := S24x32) ![1, 0] S1x32.size inb_S24x32_S1x32_1_0).toLoadRect (harg8.unread x7))⟩ : View.Piece (Elt Ideal) S512x24x32 .f32)
        :: (@kernelRun0_A.sl.HS0_2 Ideal inferInstance c arg1 harg1 arg2 harg2 arg3 harg3 arg4 harg4 arg5 harg5 arg6 harg6 arg7 harg7 arg8 harg8 arg10 x0 x1 x2 x3 x4 x5 x6 x7) := rfl

theorem pieces_4 :
    (@kernelRun0_A.sl.HS0_4 Ideal inferInstance c arg1 harg1 arg2 harg2 arg3 harg3 arg4 harg4 arg5 harg5 arg6 harg6 arg7 harg7 arg8 harg8 arg10 x0 x1 x2 x3 x4 x5 x6 x7)
      = (⟨Rect.unit (s := S512x24x32) ![0, 2, 0] S512x1x32.size inb_S512x24x32_S512x1x32_0_2_0,
          kStep (arg10.view.readCov (@kernelRun0_A.sl.HS0_3 Ideal inferInstance c arg1 harg1 arg2 harg2 arg3 harg3 arg4 harg4 arg5 harg5 arg6 harg6 arg7 harg7 arg8 harg8 arg10 x0 x1 x2 x3 x4 x5 x6 x7)
              (Rect.unit (s := S512x24x32) ![0, 0, 0] S512x1x32.size inb_S512x24x32_S512x1x32_0_0_0).toLoadRect)
            (View.readAt (Elt Ideal) arg2.view (Rect.unit (s := S512x448) ![0, 0] S512x448.size inb_S512x448_S512x448_0_0).toLoadRect (harg2.unread x1))
            (View.readAt (Elt Ideal) arg3.view (Rect.unit (s := S24x480x32) ![2, 0, 0] S1x480x32.size inb_S24x480x32_S1x480x32_2_0_0).toLoadRect (harg3.unread x2))
            (View.readAt (Elt Ideal) arg4.view (Rect.unit (s := S24x32) ![2, 0] S1x32.size inb_S24x32_S1x32_2_0).toLoadRect (harg4.unread x3))
            (View.readAt (Elt Ideal) arg5.view (Rect.unit (s := S24x480x32) ![2, 0, 0] S1x480x32.size inb_S24x480x32_S1x480x32_2_0_0).toLoadRect (harg5.unread x4))
            (View.readAt (Elt Ideal) arg6.view (Rect.unit (s := S24x32) ![2, 0] S1x32.size inb_S24x32_S1x32_2_0).toLoadRect (harg6.unread x5))
            (View.readAt (Elt Ideal) arg7.view (Rect.unit (s := S24x480x32) ![2, 0, 0] S1x480x32.size inb_S24x480x32_S1x480x32_2_0_0).toLoadRect (harg7.unread x6))
            (View.readAt (Elt Ideal) arg8.view (Rect.unit (s := S24x32) ![2, 0] S1x32.size inb_S24x32_S1x32_2_0).toLoadRect (harg8.unread x7))⟩ : View.Piece (Elt Ideal) S512x24x32 .f32)
        :: (@kernelRun0_A.sl.HS0_3 Ideal inferInstance c arg1 harg1 arg2 harg2 arg3 harg3 arg4 harg4 arg5 harg5 arg6 harg6 arg7 harg7 arg8 harg8 arg10 x0 x1 x2 x3 x4 x5 x6 x7) := rfl

theorem pieces_5 :
    (@kernelRun0_A.sl.HS0_5 Ideal inferInstance c arg1 harg1 arg2 harg2 arg3 harg3 arg4 harg4 arg5 harg5 arg6 harg6 arg7 harg7 arg8 harg8 arg10 x0 x1 x2 x3 x4 x5 x6 x7)
      = (⟨Rect.unit (s := S512x24x32) ![0, 3, 0] S512x1x32.size inb_S512x24x32_S512x1x32_0_3_0,
          kStep (arg10.view.readCov (@kernelRun0_A.sl.HS0_4 Ideal inferInstance c arg1 harg1 arg2 harg2 arg3 harg3 arg4 harg4 arg5 harg5 arg6 harg6 arg7 harg7 arg8 harg8 arg10 x0 x1 x2 x3 x4 x5 x6 x7)
              (Rect.unit (s := S512x24x32) ![0, 0, 0] S512x1x32.size inb_S512x24x32_S512x1x32_0_0_0).toLoadRect)
            (View.readAt (Elt Ideal) arg2.view (Rect.unit (s := S512x448) ![0, 0] S512x448.size inb_S512x448_S512x448_0_0).toLoadRect (harg2.unread x1))
            (View.readAt (Elt Ideal) arg3.view (Rect.unit (s := S24x480x32) ![3, 0, 0] S1x480x32.size inb_S24x480x32_S1x480x32_3_0_0).toLoadRect (harg3.unread x2))
            (View.readAt (Elt Ideal) arg4.view (Rect.unit (s := S24x32) ![3, 0] S1x32.size inb_S24x32_S1x32_3_0).toLoadRect (harg4.unread x3))
            (View.readAt (Elt Ideal) arg5.view (Rect.unit (s := S24x480x32) ![3, 0, 0] S1x480x32.size inb_S24x480x32_S1x480x32_3_0_0).toLoadRect (harg5.unread x4))
            (View.readAt (Elt Ideal) arg6.view (Rect.unit (s := S24x32) ![3, 0] S1x32.size inb_S24x32_S1x32_3_0).toLoadRect (harg6.unread x5))
            (View.readAt (Elt Ideal) arg7.view (Rect.unit (s := S24x480x32) ![3, 0, 0] S1x480x32.size inb_S24x480x32_S1x480x32_3_0_0).toLoadRect (harg7.unread x6))
            (View.readAt (Elt Ideal) arg8.view (Rect.unit (s := S24x32) ![3, 0] S1x32.size inb_S24x32_S1x32_3_0).toLoadRect (harg8.unread x7))⟩ : View.Piece (Elt Ideal) S512x24x32 .f32)
        :: (@kernelRun0_A.sl.HS0_4 Ideal inferInstance c arg1 harg1 arg2 harg2 arg3 harg3 arg4 harg4 arg5 harg5 arg6 harg6 arg7 harg7 arg8 harg8 arg10 x0 x1 x2 x3 x4 x5 x6 x7) := rfl

theorem pieces_6 :
    (@kernelRun0_A.sl.HS0_6 Ideal inferInstance c arg1 harg1 arg2 harg2 arg3 harg3 arg4 harg4 arg5 harg5 arg6 harg6 arg7 harg7 arg8 harg8 arg10 x0 x1 x2 x3 x4 x5 x6 x7)
      = (⟨Rect.unit (s := S512x24x32) ![0, 4, 0] S512x1x32.size inb_S512x24x32_S512x1x32_0_4_0,
          kStep (arg10.view.readCov (@kernelRun0_A.sl.HS0_5 Ideal inferInstance c arg1 harg1 arg2 harg2 arg3 harg3 arg4 harg4 arg5 harg5 arg6 harg6 arg7 harg7 arg8 harg8 arg10 x0 x1 x2 x3 x4 x5 x6 x7)
              (Rect.unit (s := S512x24x32) ![0, 1, 0] S512x1x32.size inb_S512x24x32_S512x1x32_0_1_0).toLoadRect)
            (View.readAt (Elt Ideal) arg2.view (Rect.unit (s := S512x448) ![0, 0] S512x448.size inb_S512x448_S512x448_0_0).toLoadRect (harg2.unread x1))
            (View.readAt (Elt Ideal) arg3.view (Rect.unit (s := S24x480x32) ![4, 0, 0] S1x480x32.size inb_S24x480x32_S1x480x32_4_0_0).toLoadRect (harg3.unread x2))
            (View.readAt (Elt Ideal) arg4.view (Rect.unit (s := S24x32) ![4, 0] S1x32.size inb_S24x32_S1x32_4_0).toLoadRect (harg4.unread x3))
            (View.readAt (Elt Ideal) arg5.view (Rect.unit (s := S24x480x32) ![4, 0, 0] S1x480x32.size inb_S24x480x32_S1x480x32_4_0_0).toLoadRect (harg5.unread x4))
            (View.readAt (Elt Ideal) arg6.view (Rect.unit (s := S24x32) ![4, 0] S1x32.size inb_S24x32_S1x32_4_0).toLoadRect (harg6.unread x5))
            (View.readAt (Elt Ideal) arg7.view (Rect.unit (s := S24x480x32) ![4, 0, 0] S1x480x32.size inb_S24x480x32_S1x480x32_4_0_0).toLoadRect (harg7.unread x6))
            (View.readAt (Elt Ideal) arg8.view (Rect.unit (s := S24x32) ![4, 0] S1x32.size inb_S24x32_S1x32_4_0).toLoadRect (harg8.unread x7))⟩ : View.Piece (Elt Ideal) S512x24x32 .f32)
        :: (@kernelRun0_A.sl.HS0_5 Ideal inferInstance c arg1 harg1 arg2 harg2 arg3 harg3 arg4 harg4 arg5 harg5 arg6 harg6 arg7 harg7 arg8 harg8 arg10 x0 x1 x2 x3 x4 x5 x6 x7) := rfl

theorem pieces_7 :
    (@kernelRun0_A.sl.HS0_7 Ideal inferInstance c arg1 harg1 arg2 harg2 arg3 harg3 arg4 harg4 arg5 harg5 arg6 harg6 arg7 harg7 arg8 harg8 arg10 x0 x1 x2 x3 x4 x5 x6 x7)
      = (⟨Rect.unit (s := S512x24x32) ![0, 5, 0] S512x1x32.size inb_S512x24x32_S512x1x32_0_5_0,
          kStep (arg10.view.readCov (@kernelRun0_A.sl.HS0_6 Ideal inferInstance c arg1 harg1 arg2 harg2 arg3 harg3 arg4 harg4 arg5 harg5 arg6 harg6 arg7 harg7 arg8 harg8 arg10 x0 x1 x2 x3 x4 x5 x6 x7)
              (Rect.unit (s := S512x24x32) ![0, 2, 0] S512x1x32.size inb_S512x24x32_S512x1x32_0_2_0).toLoadRect)
            (View.readAt (Elt Ideal) arg2.view (Rect.unit (s := S512x448) ![0, 0] S512x448.size inb_S512x448_S512x448_0_0).toLoadRect (harg2.unread x1))
            (View.readAt (Elt Ideal) arg3.view (Rect.unit (s := S24x480x32) ![5, 0, 0] S1x480x32.size inb_S24x480x32_S1x480x32_5_0_0).toLoadRect (harg3.unread x2))
            (View.readAt (Elt Ideal) arg4.view (Rect.unit (s := S24x32) ![5, 0] S1x32.size inb_S24x32_S1x32_5_0).toLoadRect (harg4.unread x3))
            (View.readAt (Elt Ideal) arg5.view (Rect.unit (s := S24x480x32) ![5, 0, 0] S1x480x32.size inb_S24x480x32_S1x480x32_5_0_0).toLoadRect (harg5.unread x4))
            (View.readAt (Elt Ideal) arg6.view (Rect.unit (s := S24x32) ![5, 0] S1x32.size inb_S24x32_S1x32_5_0).toLoadRect (harg6.unread x5))
            (View.readAt (Elt Ideal) arg7.view (Rect.unit (s := S24x480x32) ![5, 0, 0] S1x480x32.size inb_S24x480x32_S1x480x32_5_0_0).toLoadRect (harg7.unread x6))
            (View.readAt (Elt Ideal) arg8.view (Rect.unit (s := S24x32) ![5, 0] S1x32.size inb_S24x32_S1x32_5_0).toLoadRect (harg8.unread x7))⟩ : View.Piece (Elt Ideal) S512x24x32 .f32)
        :: (@kernelRun0_A.sl.HS0_6 Ideal inferInstance c arg1 harg1 arg2 harg2 arg3 harg3 arg4 harg4 arg5 harg5 arg6 harg6 arg7 harg7 arg8 harg8 arg10 x0 x1 x2 x3 x4 x5 x6 x7) := rfl

theorem pieces_8 :
    (@kernelRun0_A.sl.HS0_8 Ideal inferInstance c arg1 harg1 arg2 harg2 arg3 harg3 arg4 harg4 arg5 harg5 arg6 harg6 arg7 harg7 arg8 harg8 arg10 x0 x1 x2 x3 x4 x5 x6 x7)
      = (⟨Rect.unit (s := S512x24x32) ![0, 6, 0] S512x1x32.size inb_S512x24x32_S512x1x32_0_6_0,
          kStep (arg10.view.readCov (@kernelRun0_A.sl.HS0_7 Ideal inferInstance c arg1 harg1 arg2 harg2 arg3 harg3 arg4 harg4 arg5 harg5 arg6 harg6 arg7 harg7 arg8 harg8 arg10 x0 x1 x2 x3 x4 x5 x6 x7)
              (Rect.unit (s := S512x24x32) ![0, 3, 0] S512x1x32.size inb_S512x24x32_S512x1x32_0_3_0).toLoadRect)
            (View.readAt (Elt Ideal) arg2.view (Rect.unit (s := S512x448) ![0, 0] S512x448.size inb_S512x448_S512x448_0_0).toLoadRect (harg2.unread x1))
            (View.readAt (Elt Ideal) arg3.view (Rect.unit (s := S24x480x32) ![6, 0, 0] S1x480x32.size inb_S24x480x32_S1x480x32_6_0_0).toLoadRect (harg3.unread x2))
            (View.readAt (Elt Ideal) arg4.view (Rect.unit (s := S24x32) ![6, 0] S1x32.size inb_S24x32_S1x32_6_0).toLoadRect (harg4.unread x3))
            (View.readAt (Elt Ideal) arg5.view (Rect.unit (s := S24x480x32) ![6, 0, 0] S1x480x32.size inb_S24x480x32_S1x480x32_6_0_0).toLoadRect (harg5.unread x4))
            (View.readAt (Elt Ideal) arg6.view (Rect.unit (s := S24x32) ![6, 0] S1x32.size inb_S24x32_S1x32_6_0).toLoadRect (harg6.unread x5))
            (View.readAt (Elt Ideal) arg7.view (Rect.unit (s := S24x480x32) ![6, 0, 0] S1x480x32.size inb_S24x480x32_S1x480x32_6_0_0).toLoadRect (harg7.unread x6))
            (View.readAt (Elt Ideal) arg8.view (Rect.unit (s := S24x32) ![6, 0] S1x32.size inb_S24x32_S1x32_6_0).toLoadRect (harg8.unread x7))⟩ : View.Piece (Elt Ideal) S512x24x32 .f32)
        :: (@kernelRun0_A.sl.HS0_7 Ideal inferInstance c arg1 harg1 arg2 harg2 arg3 harg3 arg4 harg4 arg5 harg5 arg6 harg6 arg7 harg7 arg8 harg8 arg10 x0 x1 x2 x3 x4 x5 x6 x7) := rfl

theorem pieces_9 :
    (@kernelRun0_A.sl.HS0_9 Ideal inferInstance c arg1 harg1 arg2 harg2 arg3 harg3 arg4 harg4 arg5 harg5 arg6 harg6 arg7 harg7 arg8 harg8 arg10 x0 x1 x2 x3 x4 x5 x6 x7)
      = (⟨Rect.unit (s := S512x24x32) ![0, 7, 0] S512x1x32.size inb_S512x24x32_S512x1x32_0_7_0,
          kStep (arg10.view.readCov (@kernelRun0_A.sl.HS0_8 Ideal inferInstance c arg1 harg1 arg2 harg2 arg3 harg3 arg4 harg4 arg5 harg5 arg6 harg6 arg7 harg7 arg8 harg8 arg10 x0 x1 x2 x3 x4 x5 x6 x7)
              (Rect.unit (s := S512x24x32) ![0, 4, 0] S512x1x32.size inb_S512x24x32_S512x1x32_0_4_0).toLoadRect)
            (View.readAt (Elt Ideal) arg2.view (Rect.unit (s := S512x448) ![0, 0] S512x448.size inb_S512x448_S512x448_0_0).toLoadRect (harg2.unread x1))
            (View.readAt (Elt Ideal) arg3.view (Rect.unit (s := S24x480x32) ![7, 0, 0] S1x480x32.size inb_S24x480x32_S1x480x32_7_0_0).toLoadRect (harg3.unread x2))
            (View.readAt (Elt Ideal) arg4.view (Rect.unit (s := S24x32) ![7, 0] S1x32.size inb_S24x32_S1x32_7_0).toLoadRect (harg4.unread x3))
            (View.readAt (Elt Ideal) arg5.view (Rect.unit (s := S24x480x32) ![7, 0, 0] S1x480x32.size inb_S24x480x32_S1x480x32_7_0_0).toLoadRect (harg5.unread x4))
            (View.readAt (Elt Ideal) arg6.view (Rect.unit (s := S24x32) ![7, 0] S1x32.size inb_S24x32_S1x32_7_0).toLoadRect (harg6.unread x5))
            (View.readAt (Elt Ideal) arg7.view (Rect.unit (s := S24x480x32) ![7, 0, 0] S1x480x32.size inb_S24x480x32_S1x480x32_7_0_0).toLoadRect (harg7.unread x6))
            (View.readAt (Elt Ideal) arg8.view (Rect.unit (s := S24x32) ![7, 0] S1x32.size inb_S24x32_S1x32_7_0).toLoadRect (harg8.unread x7))⟩ : View.Piece (Elt Ideal) S512x24x32 .f32)
        :: (@kernelRun0_A.sl.HS0_8 Ideal inferInstance c arg1 harg1 arg2 harg2 arg3 harg3 arg4 harg4 arg5 harg5 arg6 harg6 arg7 harg7 arg8 harg8 arg10 x0 x1 x2 x3 x4 x5 x6 x7) := rfl

theorem pieces_10 :
    (@kernelRun0_A.sl.HS0_10 Ideal inferInstance c arg1 harg1 arg2 harg2 arg3 harg3 arg4 harg4 arg5 harg5 arg6 harg6 arg7 harg7 arg8 harg8 arg10 x0 x1 x2 x3 x4 x5 x6 x7)
      = (⟨Rect.unit (s := S512x24x32) ![0, 8, 0] S512x1x32.size inb_S512x24x32_S512x1x32_0_8_0,
          kStep (arg10.view.readCov (@kernelRun0_A.sl.HS0_9 Ideal inferInstance c arg1 harg1 arg2 harg2 arg3 harg3 arg4 harg4 arg5 harg5 arg6 harg6 arg7 harg7 arg8 harg8 arg10 x0 x1 x2 x3 x4 x5 x6 x7)
              (Rect.unit (s := S512x24x32) ![0, 5, 0] S512x1x32.size inb_S512x24x32_S512x1x32_0_5_0).toLoadRect)
            (View.readAt (Elt Ideal) arg2.view (Rect.unit (s := S512x448) ![0, 0] S512x448.size inb_S512x448_S512x448_0_0).toLoadRect (harg2.unread x1))
            (View.readAt (Elt Ideal) arg3.view (Rect.unit (s := S24x480x32) ![8, 0, 0] S1x480x32.size inb_S24x480x32_S1x480x32_8_0_0).toLoadRect (harg3.unread x2))
            (View.readAt (Elt Ideal) arg4.view (Rect.unit (s := S24x32) ![8, 0] S1x32.size inb_S24x32_S1x32_8_0).toLoadRect (harg4.unread x3))
            (View.readAt (Elt Ideal) arg5.view (Rect.unit (s := S24x480x32) ![8, 0, 0] S1x480x32.size inb_S24x480x32_S1x480x32_8_0_0).toLoadRect (harg5.unread x4))
            (View.readAt (Elt Ideal) arg6.view (Rect.unit (s := S24x32) ![8, 0] S1x32.size inb_S24x32_S1x32_8_0).toLoadRect (harg6.unread x5))
            (View.readAt (Elt Ideal) arg7.view (Rect.unit (s := S24x480x32) ![8, 0, 0] S1x480x32.size inb_S24x480x32_S1x480x32_8_0_0).toLoadRect (harg7.unread x6))
            (View.readAt (Elt Ideal) arg8.view (Rect.unit (s := S24x32) ![8, 0] S1x32.size inb_S24x32_S1x32_8_0).toLoadRect (harg8.unread x7))⟩ : View.Piece (Elt Ideal) S512x24x32 .f32)
        :: (@kernelRun0_A.sl.HS0_9 Ideal inferInstance c arg1 harg1 arg2 harg2 arg3 harg3 arg4 harg4 arg5 harg5 arg6 harg6 arg7 harg7 arg8 harg8 arg10 x0 x1 x2 x3 x4 x5 x6 x7) := rfl

theorem pieces_11 :
    (@kernelRun0_A.sl.HS0_11 Ideal inferInstance c arg1 harg1 arg2 harg2 arg3 harg3 arg4 harg4 arg5 harg5 arg6 harg6 arg7 harg7 arg8 harg8 arg10 x0 x1 x2 x3 x4 x5 x6 x7)
      = (⟨Rect.unit (s := S512x24x32) ![0, 9, 0] S512x1x32.size inb_S512x24x32_S512x1x32_0_9_0,
          kStep (arg10.view.readCov (@kernelRun0_A.sl.HS0_10 Ideal inferInstance c arg1 harg1 arg2 harg2 arg3 harg3 arg4 harg4 arg5 harg5 arg6 harg6 arg7 harg7 arg8 harg8 arg10 x0 x1 x2 x3 x4 x5 x6 x7)
              (Rect.unit (s := S512x24x32) ![0, 6, 0] S512x1x32.size inb_S512x24x32_S512x1x32_0_6_0).toLoadRect)
            (View.readAt (Elt Ideal) arg2.view (Rect.unit (s := S512x448) ![0, 0] S512x448.size inb_S512x448_S512x448_0_0).toLoadRect (harg2.unread x1))
            (View.readAt (Elt Ideal) arg3.view (Rect.unit (s := S24x480x32) ![9, 0, 0] S1x480x32.size inb_S24x480x32_S1x480x32_9_0_0).toLoadRect (harg3.unread x2))
            (View.readAt (Elt Ideal) arg4.view (Rect.unit (s := S24x32) ![9, 0] S1x32.size inb_S24x32_S1x32_9_0).toLoadRect (harg4.unread x3))
            (View.readAt (Elt Ideal) arg5.view (Rect.unit (s := S24x480x32) ![9, 0, 0] S1x480x32.size inb_S24x480x32_S1x480x32_9_0_0).toLoadRect (harg5.unread x4))
            (View.readAt (Elt Ideal) arg6.view (Rect.unit (s := S24x32) ![9, 0] S1x32.size inb_S24x32_S1x32_9_0).toLoadRect (harg6.unread x5))
            (View.readAt (Elt Ideal) arg7.view (Rect.unit (s := S24x480x32) ![9, 0, 0] S1x480x32.size inb_S24x480x32_S1x480x32_9_0_0).toLoadRect (harg7.unread x6))
            (View.readAt (Elt Ideal) arg8.view (Rect.unit (s := S24x32) ![9, 0] S1x32.size inb_S24x32_S1x32_9_0).toLoadRect (harg8.unread x7))⟩ : View.Piece (Elt Ideal) S512x24x32 .f32)
        :: (@kernelRun0_A.sl.HS0_10 Ideal inferInstance c arg1 harg1 arg2 harg2 arg3 harg3 arg4 harg4 arg5 harg5 arg6 harg6 arg7 harg7 arg8 harg8 arg10 x0 x1 x2 x3 x4 x5 x6 x7) := rfl

theorem pieces_12 :
    (@kernelRun0_A.sl.HS0_12 Ideal inferInstance c arg1 harg1 arg2 harg2 arg3 harg3 arg4 harg4 arg5 harg5 arg6 harg6 arg7 harg7 arg8 harg8 arg10 x0 x1 x2 x3 x4 x5 x6 x7)
      = (⟨Rect.unit (s := S512x24x32) ![0, 10, 0] S512x1x32.size inb_S512x24x32_S512x1x32_0_10_0,
          kStep (arg10.view.readCov (@kernelRun0_A.sl.HS0_11 Ideal inferInstance c arg1 harg1 arg2 harg2 arg3 harg3 arg4 harg4 arg5 harg5 arg6 harg6 arg7 harg7 arg8 harg8 arg10 x0 x1 x2 x3 x4 x5 x6 x7)
              (Rect.unit (s := S512x24x32) ![0, 7, 0] S512x1x32.size inb_S512x24x32_S512x1x32_0_7_0).toLoadRect)
            (View.readAt (Elt Ideal) arg2.view (Rect.unit (s := S512x448) ![0, 0] S512x448.size inb_S512x448_S512x448_0_0).toLoadRect (harg2.unread x1))
            (View.readAt (Elt Ideal) arg3.view (Rect.unit (s := S24x480x32) ![10, 0, 0] S1x480x32.size inb_S24x480x32_S1x480x32_10_0_0).toLoadRect (harg3.unread x2))
            (View.readAt (Elt Ideal) arg4.view (Rect.unit (s := S24x32) ![10, 0] S1x32.size inb_S24x32_S1x32_10_0).toLoadRect (harg4.unread x3))
            (View.readAt (Elt Ideal) arg5.view (Rect.unit (s := S24x480x32) ![10, 0, 0] S1x480x32.size inb_S24x480x32_S1x480x32_10_0_0).toLoadRect (harg5.unread x4))
            (View.readAt (Elt Ideal) arg6.view (Rect.unit (s := S24x32) ![10, 0] S1x32.size inb_S24x32_S1x32_10_0).toLoadRect (harg6.unread x5))
            (View.readAt (Elt Ideal) arg7.view (Rect.unit (s := S24x480x32) ![10, 0, 0] S1x480x32.size inb_S24x480x32_S1x480x32_10_0_0).toLoadRect (harg7.unread x6))
            (View.readAt (Elt Ideal) arg8.view (Rect.unit (s := S24x32) ![10, 0] S1x32.size inb_S24x32_S1x32_10_0).toLoadRect (harg8.unread x7))⟩ : View.Piece (Elt Ideal) S512x24x32 .f32)
        :: (@kernelRun0_A.sl.HS0_11 Ideal inferInstance c arg1 harg1 arg2 harg2 arg3 harg3 arg4 harg4 arg5 harg5 arg6 harg6 arg7 harg7 arg8 harg8 arg10 x0 x1 x2 x3 x4 x5 x6 x7) := rfl

theorem pieces_13 :
    (@kernelRun0_A.sl.HS0_13 Ideal inferInstance c arg1 harg1 arg2 harg2 arg3 harg3 arg4 harg4 arg5 harg5 arg6 harg6 arg7 harg7 arg8 harg8 arg10 x0 x1 x2 x3 x4 x5 x6 x7)
      = (⟨Rect.unit (s := S512x24x32) ![0, 11, 0] S512x1x32.size inb_S512x24x32_S512x1x32_0_11_0,
          kStep (arg10.view.readCov (@kernelRun0_A.sl.HS0_12 Ideal inferInstance c arg1 harg1 arg2 harg2 arg3 harg3 arg4 harg4 arg5 harg5 arg6 harg6 arg7 harg7 arg8 harg8 arg10 x0 x1 x2 x3 x4 x5 x6 x7)
              (Rect.unit (s := S512x24x32) ![0, 8, 0] S512x1x32.size inb_S512x24x32_S512x1x32_0_8_0).toLoadRect)
            (View.readAt (Elt Ideal) arg2.view (Rect.unit (s := S512x448) ![0, 0] S512x448.size inb_S512x448_S512x448_0_0).toLoadRect (harg2.unread x1))
            (View.readAt (Elt Ideal) arg3.view (Rect.unit (s := S24x480x32) ![11, 0, 0] S1x480x32.size inb_S24x480x32_S1x480x32_11_0_0).toLoadRect (harg3.unread x2))
            (View.readAt (Elt Ideal) arg4.view (Rect.unit (s := S24x32) ![11, 0] S1x32.size inb_S24x32_S1x32_11_0).toLoadRect (harg4.unread x3))
            (View.readAt (Elt Ideal) arg5.view (Rect.unit (s := S24x480x32) ![11, 0, 0] S1x480x32.size inb_S24x480x32_S1x480x32_11_0_0).toLoadRect (harg5.unread x4))
            (View.readAt (Elt Ideal) arg6.view (Rect.unit (s := S24x32) ![11, 0] S1x32.size inb_S24x32_S1x32_11_0).toLoadRect (harg6.unread x5))
            (View.readAt (Elt Ideal) arg7.view (Rect.unit (s := S24x480x32) ![11, 0, 0] S1x480x32.size inb_S24x480x32_S1x480x32_11_0_0).toLoadRect (harg7.unread x6))
            (View.readAt (Elt Ideal) arg8.view (Rect.unit (s := S24x32) ![11, 0] S1x32.size inb_S24x32_S1x32_11_0).toLoadRect (harg8.unread x7))⟩ : View.Piece (Elt Ideal) S512x24x32 .f32)
        :: (@kernelRun0_A.sl.HS0_12 Ideal inferInstance c arg1 harg1 arg2 harg2 arg3 harg3 arg4 harg4 arg5 harg5 arg6 harg6 arg7 harg7 arg8 harg8 arg10 x0 x1 x2 x3 x4 x5 x6 x7) := rfl

theorem pieces_14 :
    (@kernelRun0_A.sl.HS0_14 Ideal inferInstance c arg1 harg1 arg2 harg2 arg3 harg3 arg4 harg4 arg5 harg5 arg6 harg6 arg7 harg7 arg8 harg8 arg10 x0 x1 x2 x3 x4 x5 x6 x7)
      = (⟨Rect.unit (s := S512x24x32) ![0, 12, 0] S512x1x32.size inb_S512x24x32_S512x1x32_0_12_0,
          kStep (arg10.view.readCov (@kernelRun0_A.sl.HS0_13 Ideal inferInstance c arg1 harg1 arg2 harg2 arg3 harg3 arg4 harg4 arg5 harg5 arg6 harg6 arg7 harg7 arg8 harg8 arg10 x0 x1 x2 x3 x4 x5 x6 x7)
              (Rect.unit (s := S512x24x32) ![0, 9, 0] S512x1x32.size inb_S512x24x32_S512x1x32_0_9_0).toLoadRect)
            (View.readAt (Elt Ideal) arg2.view (Rect.unit (s := S512x448) ![0, 0] S512x448.size inb_S512x448_S512x448_0_0).toLoadRect (harg2.unread x1))
            (View.readAt (Elt Ideal) arg3.view (Rect.unit (s := S24x480x32) ![12, 0, 0] S1x480x32.size inb_S24x480x32_S1x480x32_12_0_0).toLoadRect (harg3.unread x2))
            (View.readAt (Elt Ideal) arg4.view (Rect.unit (s := S24x32) ![12, 0] S1x32.size inb_S24x32_S1x32_12_0).toLoadRect (harg4.unread x3))
            (View.readAt (Elt Ideal) arg5.view (Rect.unit (s := S24x480x32) ![12, 0, 0] S1x480x32.size inb_S24x480x32_S1x480x32_12_0_0).toLoadRect (harg5.unread x4))
            (View.readAt (Elt Ideal) arg6.view (Rect.unit (s := S24x32) ![12, 0] S1x32.size inb_S24x32_S1x32_12_0).toLoadRect (harg6.unread x5))
            (View.readAt (Elt Ideal) arg7.view (Rect.unit (s := S24x480x32) ![12, 0, 0] S1x480x32.size inb_S24x480x32_S1x480x32_12_0_0).toLoadRect (harg7.unread x6))
            (View.readAt (Elt Ideal) arg8.view (Rect.unit (s := S24x32) ![12, 0] S1x32.size inb_S24x32_S1x32_12_0).toLoadRect (harg8.unread x7))⟩ : View.Piece (Elt Ideal) S512x24x32 .f32)
        :: (@kernelRun0_A.sl.HS0_13 Ideal inferInstance c arg1 harg1 arg2 harg2 arg3 harg3 arg4 harg4 arg5 harg5 arg6 harg6 arg7 harg7 arg8 harg8 arg10 x0 x1 x2 x3 x4 x5 x6 x7) := rfl

theorem pieces_15 :
    (@kernelRun0_A.sl.HS0_15 Ideal inferInstance c arg1 harg1 arg2 harg2 arg3 harg3 arg4 harg4 arg5 harg5 arg6 harg6 arg7 harg7 arg8 harg8 arg10 x0 x1 x2 x3 x4 x5 x6 x7)
      = (⟨Rect.unit (s := S512x24x32) ![0, 13, 0] S512x1x32.size inb_S512x24x32_S512x1x32_0_13_0,
          kStep (arg10.view.readCov (@kernelRun0_A.sl.HS0_14 Ideal inferInstance c arg1 harg1 arg2 harg2 arg3 harg3 arg4 harg4 arg5 harg5 arg6 harg6 arg7 harg7 arg8 harg8 arg10 x0 x1 x2 x3 x4 x5 x6 x7)
              (Rect.unit (s := S512x24x32) ![0, 9, 0] S512x1x32.size inb_S512x24x32_S512x1x32_0_9_0).toLoadRect)
            (View.readAt (Elt Ideal) arg2.view (Rect.unit (s := S512x448) ![0, 0] S512x448.size inb_S512x448_S512x448_0_0).toLoadRect (harg2.unread x1))
            (View.readAt (Elt Ideal) arg3.view (Rect.unit (s := S24x480x32) ![13, 0, 0] S1x480x32.size inb_S24x480x32_S1x480x32_13_0_0).toLoadRect (harg3.unread x2))
            (View.readAt (Elt Ideal) arg4.view (Rect.unit (s := S24x32) ![13, 0] S1x32.size inb_S24x32_S1x32_13_0).toLoadRect (harg4.unread x3))
            (View.readAt (Elt Ideal) arg5.view (Rect.unit (s := S24x480x32) ![13, 0, 0] S1x480x32.size inb_S24x480x32_S1x480x32_13_0_0).toLoadRect (harg5.unread x4))
            (View.readAt (Elt Ideal) arg6.view (Rect.unit (s := S24x32) ![13, 0] S1x32.size inb_S24x32_S1x32_13_0).toLoadRect (harg6.unread x5))
            (View.readAt (Elt Ideal) arg7.view (Rect.unit (s := S24x480x32) ![13, 0, 0] S1x480x32.size inb_S24x480x32_S1x480x32_13_0_0).toLoadRect (harg7.unread x6))
            (View.readAt (Elt Ideal) arg8.view (Rect.unit (s := S24x32) ![13, 0] S1x32.size inb_S24x32_S1x32_13_0).toLoadRect (harg8.unread x7))⟩ : View.Piece (Elt Ideal) S512x24x32 .f32)
        :: (@kernelRun0_A.sl.HS0_14 Ideal inferInstance c arg1 harg1 arg2 harg2 arg3 harg3 arg4 harg4 arg5 harg5 arg6 harg6 arg7 harg7 arg8 harg8 arg10 x0 x1 x2 x3 x4 x5 x6 x7) := rfl

theorem pieces_16 :
    (@kernelRun0_A.sl.HS0_16 Ideal inferInstance c arg1 harg1 arg2 harg2 arg3 harg3 arg4 harg4 arg5 harg5 arg6 harg6 arg7 harg7 arg8 harg8 arg10 x0 x1 x2 x3 x4 x5 x6 x7)
      = (⟨Rect.unit (s := S512x24x32) ![0, 14, 0] S512x1x32.size inb_S512x24x32_S512x1x32_0_14_0,
          kStep (arg10.view.readCov (@kernelRun0_A.sl.HS0_15 Ideal inferInstance c arg1 harg1 arg2 harg2 arg3 harg3 arg4 harg4 arg5 harg5 arg6 harg6 arg7 harg7 arg8 harg8 arg10 x0 x1 x2 x3 x4 x5 x6 x7)
              (Rect.unit (s := S512x24x32) ![0, 9, 0] S512x1x32.size inb_S512x24x32_S512x1x32_0_9_0).toLoadRect)
            (View.readAt (Elt Ideal) arg2.view (Rect.unit (s := S512x448) ![0, 0] S512x448.size inb_S512x448_S512x448_0_0).toLoadRect (harg2.unread x1))
            (View.readAt (Elt Ideal) arg3.view (Rect.unit (s := S24x480x32) ![14, 0, 0] S1x480x32.size inb_S24x480x32_S1x480x32_14_0_0).toLoadRect (harg3.unread x2))
            (View.readAt (Elt Ideal) arg4.view (Rect.unit (s := S24x32) ![14, 0] S1x32.size inb_S24x32_S1x32_14_0).toLoadRect (harg4.unread x3))
            (View.readAt (Elt Ideal) arg5.view (Rect.unit (s := S24x480x32) ![14, 0, 0] S1x480x32.size inb_S24x480x32_S1x480x32_14_0_0).toLoadRect (harg5.unread x4))
            (View.readAt (Elt Ideal) arg6.view (Rect.unit (s := S24x32) ![14, 0] S1x32.size inb_S24x32_S1x32_14_0).toLoadRect (harg6.unread x5))
            (View.readAt (Elt Ideal) arg7.view (Rect.unit (s := S24x480x32) ![14, 0, 0] S1x480x32.size inb_S24x480x32_S1x480x32_14_0_0).toLoadRect (harg7.unread x6))
            (View.readAt (Elt Ideal) arg8.view (Rect.unit (s := S24x32) ![14, 0] S1x32.size inb_S24x32_S1x32_14_0).toLoadRect (harg8.unread x7))⟩ : View.Piece (Elt Ideal) S512x24x32 .f32)
        :: (@kernelRun0_A.sl.HS0_15 Ideal inferInstance c arg1 harg1 arg2 harg2 arg3 harg3 arg4 harg4 arg5 harg5 arg6 harg6 arg7 harg7 arg8 harg8 arg10 x0 x1 x2 x3 x4 x5 x6 x7) := rfl

theorem pieces_17 :
    (@kernelRun0_A.sl.HS0_17 Ideal inferInstance c arg1 harg1 arg2 harg2 arg3 harg3 arg4 harg4 arg5 harg5 arg6 harg6 arg7 harg7 arg8 harg8 arg10 x0 x1 x2 x3 x4 x5 x6 x7)
      = (⟨Rect.unit (s := S512x24x32) ![0, 15, 0] S512x1x32.size inb_S512x24x32_S512x1x32_0_15_0,
          kStep (arg10.view.readCov (@kernelRun0_A.sl.HS0_16 Ideal inferInstance c arg1 harg1 arg2 harg2 arg3 harg3 arg4 harg4 arg5 harg5 arg6 harg6 arg7 harg7 arg8 harg8 arg10 x0 x1 x2 x3 x4 x5 x6 x7)
              (Rect.unit (s := S512x24x32) ![0, 12, 0] S512x1x32.size inb_S512x24x32_S512x1x32_0_12_0).toLoadRect)
            (View.readAt (Elt Ideal) arg2.view (Rect.unit (s := S512x448) ![0, 0] S512x448.size inb_S512x448_S512x448_0_0).toLoadRect (harg2.unread x1))
            (View.readAt (Elt Ideal) arg3.view (Rect.unit (s := S24x480x32) ![15, 0, 0] S1x480x32.size inb_S24x480x32_S1x480x32_15_0_0).toLoadRect (harg3.unread x2))
            (View.readAt (Elt Ideal) arg4.view (Rect.unit (s := S24x32) ![15, 0] S1x32.size inb_S24x32_S1x32_15_0).toLoadRect (harg4.unread x3))
            (View.readAt (Elt Ideal) arg5.view (Rect.unit (s := S24x480x32) ![15, 0, 0] S1x480x32.size inb_S24x480x32_S1x480x32_15_0_0).toLoadRect (harg5.unread x4))
            (View.readAt (Elt Ideal) arg6.view (Rect.unit (s := S24x32) ![15, 0] S1x32.size inb_S24x32_S1x32_15_0).toLoadRect (harg6.unread x5))
            (View.readAt (Elt Ideal) arg7.view (Rect.unit (s := S24x480x32) ![15, 0, 0] S1x480x32.size inb_S24x480x32_S1x480x32_15_0_0).toLoadRect (harg7.unread x6))
            (View.readAt (Elt Ideal) arg8.view (Rect.unit (s := S24x32) ![15, 0] S1x32.size inb_S24x32_S1x32_15_0).toLoadRect (harg8.unread x7))⟩ : View.Piece (Elt Ideal) S512x24x32 .f32)
        :: (@kernelRun0_A.sl.HS0_16 Ideal inferInstance c arg1 harg1 arg2 harg2 arg3 harg3 arg4 harg4 arg5 harg5 arg6 harg6 arg7 harg7 arg8 harg8 arg10 x0 x1 x2 x3 x4 x5 x6 x7) := rfl

theorem pieces_18 :
    (@kernelRun0_A.sl.HS0_18 Ideal inferInstance c arg1 harg1 arg2 harg2 arg3 harg3 arg4 harg4 arg5 harg5 arg6 harg6 arg7 harg7 arg8 harg8 arg10 x0 x1 x2 x3 x4 x5 x6 x7)
      = (⟨Rect.unit (s := S512x24x32) ![0, 16, 0] S512x1x32.size inb_S512x24x32_S512x1x32_0_16_0,
          kStep (arg10.view.readCov (@kernelRun0_A.sl.HS0_17 Ideal inferInstance c arg1 harg1 arg2 harg2 arg3 harg3 arg4 harg4 arg5 harg5 arg6 harg6 arg7 harg7 arg8 harg8 arg10 x0 x1 x2 x3 x4 x5 x6 x7)
              (Rect.unit (s := S512x24x32) ![0, 13, 0] S512x1x32.size inb_S512x24x32_S512x1x32_0_13_0).toLoadRect)
            (View.readAt (Elt Ideal) arg2.view (Rect.unit (s := S512x448) ![0, 0] S512x448.size inb_S512x448_S512x448_0_0).toLoadRect (harg2.unread x1))
            (View.readAt (Elt Ideal) arg3.view (Rect.unit (s := S24x480x32) ![16, 0, 0] S1x480x32.size inb_S24x480x32_S1x480x32_16_0_0).toLoadRect (harg3.unread x2))
            (View.readAt (Elt Ideal) arg4.view (Rect.unit (s := S24x32) ![16, 0] S1x32.size inb_S24x32_S1x32_16_0).toLoadRect (harg4.unread x3))
            (View.readAt (Elt Ideal) arg5.view (Rect.unit (s := S24x480x32) ![16, 0, 0] S1x480x32.size inb_S24x480x32_S1x480x32_16_0_0).toLoadRect (harg5.unread x4))
            (View.readAt (Elt Ideal) arg6.view (Rect.unit (s := S24x32) ![16, 0] S1x32.size inb_S24x32_S1x32_16_0).toLoadRect (harg6.unread x5))
            (View.readAt (Elt Ideal) arg7.view (Rect.unit (s := S24x480x32) ![16, 0, 0] S1x480x32.size inb_S24x480x32_S1x480x32_16_0_0).toLoadRect (harg7.unread x6))
            (View.readAt (Elt Ideal) arg8.view (Rect.unit (s := S24x32) ![16, 0] S1x32.size inb_S24x32_S1x32_16_0).toLoadRect (harg8.unread x7))⟩ : View.Piece (Elt Ideal) S512x24x32 .f32)
        :: (@kernelRun0_A.sl.HS0_17 Ideal inferInstance c arg1 harg1 arg2 harg2 arg3 harg3 arg4 harg4 arg5 harg5 arg6 harg6 arg7 harg7 arg8 harg8 arg10 x0 x1 x2 x3 x4 x5 x6 x7) := rfl

theorem pieces_19 :
    (@kernelRun0_A.sl.HS0_19 Ideal inferInstance c arg1 harg1 arg2 harg2 arg3 harg3 arg4 harg4 arg5 harg5 arg6 harg6 arg7 harg7 arg8 harg8 arg10 x0 x1 x2 x3 x4 x5 x6 x7)
      = (⟨Rect.unit (s := S512x24x32) ![0, 17, 0] S512x1x32.size inb_S512x24x32_S512x1x32_0_17_0,
          kStep (arg10.view.readCov (@kernelRun0_A.sl.HS0_18 Ideal inferInstance c arg1 harg1 arg2 harg2 arg3 harg3 arg4 harg4 arg5 harg5 arg6 harg6 arg7 harg7 arg8 harg8 arg10 x0 x1 x2 x3 x4 x5 x6 x7)
              (Rect.unit (s := S512x24x32) ![0, 14, 0] S512x1x32.size inb_S512x24x32_S512x1x32_0_14_0).toLoadRect)
            (View.readAt (Elt Ideal) arg2.view (Rect.unit (s := S512x448) ![0, 0] S512x448.size inb_S512x448_S512x448_0_0).toLoadRect (harg2.unread x1))
            (View.readAt (Elt Ideal) arg3.view (Rect.unit (s := S24x480x32) ![17, 0, 0] S1x480x32.size inb_S24x480x32_S1x480x32_17_0_0).toLoadRect (harg3.unread x2))
            (View.readAt (Elt Ideal) arg4.view (Rect.unit (s := S24x32) ![17, 0] S1x32.size inb_S24x32_S1x32_17_0).toLoadRect (harg4.unread x3))
            (View.readAt (Elt Ideal) arg5.view (Rect.unit (s := S24x480x32) ![17, 0, 0] S1x480x32.size inb_S24x480x32_S1x480x32_17_0_0).toLoadRect (harg5.unread x4))
            (View.readAt (Elt Ideal) arg6.view (Rect.unit (s := S24x32) ![17, 0] S1x32.size inb_S24x32_S1x32_17_0).toLoadRect (harg6.unread x5))
            (View.readAt (Elt Ideal) arg7.view (Rect.unit (s := S24x480x32) ![17, 0, 0] S1x480x32.size inb_S24x480x32_S1x480x32_17_0_0).toLoadRect (harg7.unread x6))
            (View.readAt (Elt Ideal) arg8.view (Rect.unit (s := S24x32) ![17, 0] S1x32.size inb_S24x32_S1x32_17_0).toLoadRect (harg8.unread x7))⟩ : View.Piece (Elt Ideal) S512x24x32 .f32)
        :: (@kernelRun0_A.sl.HS0_18 Ideal inferInstance c arg1 harg1 arg2 harg2 arg3 harg3 arg4 harg4 arg5 harg5 arg6 harg6 arg7 harg7 arg8 harg8 arg10 x0 x1 x2 x3 x4 x5 x6 x7) := rfl

theorem pieces_20 :
    (@kernelRun0_A.sl.HS0_20 Ideal inferInstance c arg1 harg1 arg2 harg2 arg3 harg3 arg4 harg4 arg5 harg5 arg6 harg6 arg7 harg7 arg8 harg8 arg10 x0 x1 x2 x3 x4 x5 x6 x7)
      = (⟨Rect.unit (s := S512x24x32) ![0, 18, 0] S512x1x32.size inb_S512x24x32_S512x1x32_0_18_0,
          kStep (arg10.view.readCov (@kernelRun0_A.sl.HS0_19 Ideal inferInstance c arg1 harg1 arg2 harg2 arg3 harg3 arg4 harg4 arg5 harg5 arg6 harg6 arg7 harg7 arg8 harg8 arg10 x0 x1 x2 x3 x4 x5 x6 x7)
              (Rect.unit (s := S512x24x32) ![0, 16, 0] S512x1x32.size inb_S512x24x32_S512x1x32_0_16_0).toLoadRect)
            (View.readAt (Elt Ideal) arg2.view (Rect.unit (s := S512x448) ![0, 0] S512x448.size inb_S512x448_S512x448_0_0).toLoadRect (harg2.unread x1))
            (View.readAt (Elt Ideal) arg3.view (Rect.unit (s := S24x480x32) ![18, 0, 0] S1x480x32.size inb_S24x480x32_S1x480x32_18_0_0).toLoadRect (harg3.unread x2))
            (View.readAt (Elt Ideal) arg4.view (Rect.unit (s := S24x32) ![18, 0] S1x32.size inb_S24x32_S1x32_18_0).toLoadRect (harg4.unread x3))
            (View.readAt (Elt Ideal) arg5.view (Rect.unit (s := S24x480x32) ![18, 0, 0] S1x480x32.size inb_S24x480x32_S1x480x32_18_0_0).toLoadRect (harg5.unread x4))
            (View.readAt (Elt Ideal) arg6.view (Rect.unit (s := S24x32) ![18, 0] S1x32.size inb_S24x32_S1x32_18_0).toLoadRect (harg6.unread x5))
            (View.readAt (Elt Ideal) arg7.view (Rect.unit (s := S24x480x32) ![18, 0, 0] S1x480x32.size inb_S24x480x32_S1x480x32_18_0_0).toLoadRect (harg7.unread x6))
            (View.readAt (Elt Ideal) arg8.view (Rect.unit (s := S24x32) ![18, 0] S1x32.size inb_S24x32_S1x32_18_0).toLoadRect (harg8.unread x7))⟩ : View.Piece (Elt Ideal) S512x24x32 .f32)
        :: (@kernelRun0_A.sl.HS0_19 Ideal inferInstance c arg1 harg1 arg2 harg2 arg3 harg3 arg4 harg4 arg5 harg5 arg6 harg6 arg7 harg7 arg8 harg8 arg10 x0 x1 x2 x3 x4 x5 x6 x7) := rfl

theorem pieces_21 :
    (@kernelRun0_A.sl.HS0_21 Ideal inferInstance c arg1 harg1 arg2 harg2 arg3 harg3 arg4 harg4 arg5 harg5 arg6 harg6 arg7 harg7 arg8 harg8 arg10 x0 x1 x2 x3 x4 x5 x6 x7)
      = (⟨Rect.unit (s := S512x24x32) ![0, 19, 0] S512x1x32.size inb_S512x24x32_S512x1x32_0_19_0,
          kStep (arg10.view.readCov (@kernelRun0_A.sl.HS0_20 Ideal inferInstance c arg1 harg1 arg2 harg2 arg3 harg3 arg4 harg4 arg5 harg5 arg6 harg6 arg7 harg7 arg8 harg8 arg10 x0 x1 x2 x3 x4 x5 x6 x7)
              (Rect.unit (s := S512x24x32) ![0, 17, 0] S512x1x32.size inb_S512x24x32_S512x1x32_0_17_0).toLoadRect)
            (View.readAt (Elt Ideal) arg2.view (Rect.unit (s := S512x448) ![0, 0] S512x448.size inb_S512x448_S512x448_0_0).toLoadRect (harg2.unread x1))
            (View.readAt (Elt Ideal) arg3.view (Rect.unit (s := S24x480x32) ![19, 0, 0] S1x480x32.size inb_S24x480x32_S1x480x32_19_0_0).toLoadRect (harg3.unread x2))
            (View.readAt (Elt Ideal) arg4.view (Rect.unit (s := S24x32) ![19, 0] S1x32.size inb_S24x32_S1x32_19_0).toLoadRect (harg4.unread x3))
            (View.readAt (Elt Ideal) arg5.view (Rect.unit (s := S24x480x32) ![19, 0, 0] S1x480x32.size inb_S24x480x32_S1x480x32_19_0_0).toLoadRect (harg5.unread x4))
            (View.readAt (Elt Ideal) arg6.view (Rect.unit (s := S24x32) ![19, 0] S1x32.size inb_S24x32_S1x32_19_0).toLoadRect (harg6.unread x5))
            (View.readAt (Elt Ideal) arg7.view (Rect.unit (s := S24x480x32) ![19, 0, 0] S1x480x32.size inb_S24x480x32_S1x480x32_19_0_0).toLoadRect (harg7.unread x6))
            (View.readAt (Elt Ideal) arg8.view (Rect.unit (s := S24x32) ![19, 0] S1x32.size inb_S24x32_S1x32_19_0).toLoadRect (harg8.unread x7))⟩ : View.Piece (Elt Ideal) S512x24x32 .f32)
        :: (@kernelRun0_A.sl.HS0_20 Ideal inferInstance c arg1 harg1 arg2 harg2 arg3 harg3 arg4 harg4 arg5 harg5 arg6 harg6 arg7 harg7 arg8 harg8 arg10 x0 x1 x2 x3 x4 x5 x6 x7) := rfl

theorem pieces_22 :
    (@kernelRun0_A.sl.HS0_22 Ideal inferInstance c arg1 harg1 arg2 harg2 arg3 harg3 arg4 harg4 arg5 harg5 arg6 harg6 arg7 harg7 arg8 harg8 arg10 x0 x1 x2 x3 x4 x5 x6 x7)
      = (⟨Rect.unit (s := S512x24x32) ![0, 20, 0] S512x1x32.size inb_S512x24x32_S512x1x32_0_20_0,
          kStep (arg10.view.readCov (@kernelRun0_A.sl.HS0_21 Ideal inferInstance c arg1 harg1 arg2 harg2 arg3 harg3 arg4 harg4 arg5 harg5 arg6 harg6 arg7 harg7 arg8 harg8 arg10 x0 x1 x2 x3 x4 x5 x6 x7)
              (Rect.unit (s := S512x24x32) ![0, 18, 0] S512x1x32.size inb_S512x24x32_S512x1x32_0_18_0).toLoadRect)
            (View.readAt (Elt Ideal) arg2.view (Rect.unit (s := S512x448) ![0, 0] S512x448.size inb_S512x448_S512x448_0_0).toLoadRect (harg2.unread x1))
            (View.readAt (Elt Ideal) arg3.view (Rect.unit (s := S24x480x32) ![20, 0, 0] S1x480x32.size inb_S24x480x32_S1x480x32_20_0_0).toLoadRect (harg3.unread x2))
            (View.readAt (Elt Ideal) arg4.view (Rect.unit (s := S24x32) ![20, 0] S1x32.size inb_S24x32_S1x32_20_0).toLoadRect (harg4.unread x3))
            (View.readAt (Elt Ideal) arg5.view (Rect.unit (s := S24x480x32) ![20, 0, 0] S1x480x32.size inb_S24x480x32_S1x480x32_20_0_0).toLoadRect (harg5.unread x4))
            (View.readAt (Elt Ideal) arg6.view (Rect.unit (s := S24x32) ![20, 0] S1x32.size inb_S24x32_S1x32_20_0).toLoadRect (harg6.unread x5))
            (View.readAt (Elt Ideal) arg7.view (Rect.unit (s := S24x480x32) ![20, 0, 0] S1x480x32.size inb_S24x480x32_S1x480x32_20_0_0).toLoadRect (harg7.unread x6))
            (View.readAt (Elt Ideal) arg8.view (Rect.unit (s := S24x32) ![20, 0] S1x32.size inb_S24x32_S1x32_20_0).toLoadRect (harg8.unread x7))⟩ : View.Piece (Elt Ideal) S512x24x32 .f32)
        :: (@kernelRun0_A.sl.HS0_21 Ideal inferInstance c arg1 harg1 arg2 harg2 arg3 harg3 arg4 harg4 arg5 harg5 arg6 harg6 arg7 harg7 arg8 harg8 arg10 x0 x1 x2 x3 x4 x5 x6 x7) := rfl

theorem pieces_23 :
    (@kernelRun0_A.sl.HS0_23 Ideal inferInstance c arg1 harg1 arg2 harg2 arg3 harg3 arg4 harg4 arg5 harg5 arg6 harg6 arg7 harg7 arg8 harg8 arg10 x0 x1 x2 x3 x4 x5 x6 x7)
      = (⟨Rect.unit (s := S512x24x32) ![0, 21, 0] S512x1x32.size inb_S512x24x32_S512x1x32_0_21_0,
          kStep (arg10.view.readCov (@kernelRun0_A.sl.HS0_22 Ideal inferInstance c arg1 harg1 arg2 harg2 arg3 harg3 arg4 harg4 arg5 harg5 arg6 harg6 arg7 harg7 arg8 harg8 arg10 x0 x1 x2 x3 x4 x5 x6 x7)
              (Rect.unit (s := S512x24x32) ![0, 19, 0] S512x1x32.size inb_S512x24x32_S512x1x32_0_19_0).toLoadRect)
            (View.readAt (Elt Ideal) arg2.view (Rect.unit (s := S512x448) ![0, 0] S512x448.size inb_S512x448_S512x448_0_0).toLoadRect (harg2.unread x1))
            (View.readAt (Elt Ideal) arg3.view (Rect.unit (s := S24x480x32) ![21, 0, 0] S1x480x32.size inb_S24x480x32_S1x480x32_21_0_0).toLoadRect (harg3.unread x2))
            (View.readAt (Elt Ideal) arg4.view (Rect.unit (s := S24x32) ![21, 0] S1x32.size inb_S24x32_S1x32_21_0).toLoadRect (harg4.unread x3))
            (View.readAt (Elt Ideal) arg5.view (Rect.unit (s := S24x480x32) ![21, 0, 0] S1x480x32.size inb_S24x480x32_S1x480x32_21_0_0).toLoadRect (harg5.unread x4))
            (View.readAt (Elt Ideal) arg6.view (Rect.unit (s := S24x32) ![21, 0] S1x32.size inb_S24x32_S1x32_21_0).toLoadRect (harg6.unread x5))
            (View.readAt (Elt Ideal) arg7.view (Rect.unit (s := S24x480x32) ![21, 0, 0] S1x480x32.size inb_S24x480x32_S1x480x32_21_0_0).toLoadRect (harg7.unread x6))
            (View.readAt (Elt Ideal) arg8.view (Rect.unit (s := S24x32) ![21, 0] S1x32.size inb_S24x32_S1x32_21_0).toLoadRect (harg8.unread x7))⟩ : View.Piece (Elt Ideal) S512x24x32 .f32)
        :: (@kernelRun0_A.sl.HS0_22 Ideal inferInstance c arg1 harg1 arg2 harg2 arg3 harg3 arg4 harg4 arg5 harg5 arg6 harg6 arg7 harg7 arg8 harg8 arg10 x0 x1 x2 x3 x4 x5 x6 x7) := rfl

theorem pieces_24 :
    (@kernelRun0_A.sl.HS0_24 Ideal inferInstance c arg1 harg1 arg2 harg2 arg3 harg3 arg4 harg4 arg5 harg5 arg6 harg6 arg7 harg7 arg8 harg8 arg10 x0 x1 x2 x3 x4 x5 x6 x7)
      = (⟨Rect.unit (s := S512x24x32) ![0, 22, 0] S512x1x32.size inb_S512x24x32_S512x1x32_0_22_0,
          kStep (arg10.view.readCov (@kernelRun0_A.sl.HS0_23 Ideal inferInstance c arg1 harg1 arg2 harg2 arg3 harg3 arg4 harg4 arg5 harg5 arg6 harg6 arg7 harg7 arg8 harg8 arg10 x0 x1 x2 x3 x4 x5 x6 x7)
              (Rect.unit (s := S512x24x32) ![0, 20, 0] S512x1x32.size inb_S512x24x32_S512x1x32_0_20_0).toLoadRect)
            (View.readAt (Elt Ideal) arg2.view (Rect.unit (s := S512x448) ![0, 0] S512x448.size inb_S512x448_S512x448_0_0).toLoadRect (harg2.unread x1))
            (View.readAt (Elt Ideal) arg3.view (Rect.unit (s := S24x480x32) ![22, 0, 0] S1x480x32.size inb_S24x480x32_S1x480x32_22_0_0).toLoadRect (harg3.unread x2))
            (View.readAt (Elt Ideal) arg4.view (Rect.unit (s := S24x32) ![22, 0] S1x32.size inb_S24x32_S1x32_22_0).toLoadRect (harg4.unread x3))
            (View.readAt (Elt Ideal) arg5.view (Rect.unit (s := S24x480x32) ![22, 0, 0] S1x480x32.size inb_S24x480x32_S1x480x32_22_0_0).toLoadRect (harg5.unread x4))
            (View.readAt (Elt Ideal) arg6.view (Rect.unit (s := S24x32) ![22, 0] S1x32.size inb_S24x32_S1x32_22_0).toLoadRect (harg6.unread x5))
            (View.readAt (Elt Ideal) arg7.view (Rect.unit (s := S24x480x32) ![22, 0, 0] S1x480x32.size inb_S24x480x32_S1x480x32_22_0_0).toLoadRect (harg7.unread x6))
            (View.readAt (Elt Ideal) arg8.view (Rect.unit (s := S24x32) ![22, 0] S1x32.size inb_S24x32_S1x32_22_0).toLoadRect (harg8.unread x7))⟩ : View.Piece (Elt Ideal) S512x24x32 .f32)
        :: (@kernelRun0_A.sl.HS0_23 Ideal inferInstance c arg1 harg1 arg2 harg2 arg3 harg3 arg4 harg4 arg5 harg5 arg6 harg6 arg7 harg7 arg8 harg8 arg10 x0 x1 x2 x3 x4 x5 x6 x7) := rfl

theorem pieces_25 :
    (@kernelRun0_A.sl.HS0_25 Ideal inferInstance c arg1 harg1 arg2 harg2 arg3 harg3 arg4 harg4 arg5 harg5 arg6 harg6 arg7 harg7 arg8 harg8 arg10 x0 x1 x2 x3 x4 x5 x6 x7)
      = (⟨Rect.unit (s := S512x24x32) ![0, 23, 0] S512x1x32.size inb_S512x24x32_S512x1x32_0_23_0,
          kStep (arg10.view.readCov (@kernelRun0_A.sl.HS0_24 Ideal inferInstance c arg1 harg1 arg2 harg2 arg3 harg3 arg4 harg4 arg5 harg5 arg6 harg6 arg7 harg7 arg8 harg8 arg10 x0 x1 x2 x3 x4 x5 x6 x7)
              (Rect.unit (s := S512x24x32) ![0, 21, 0] S512x1x32.size inb_S512x24x32_S512x1x32_0_21_0).toLoadRect)
            (View.readAt (Elt Ideal) arg2.view (Rect.unit (s := S512x448) ![0, 0] S512x448.size inb_S512x448_S512x448_0_0).toLoadRect (harg2.unread x1))
            (View.readAt (Elt Ideal) arg3.view (Rect.unit (s := S24x480x32) ![23, 0, 0] S1x480x32.size inb_S24x480x32_S1x480x32_23_0_0).toLoadRect (harg3.unread x2))
            (View.readAt (Elt Ideal) arg4.view (Rect.unit (s := S24x32) ![23, 0] S1x32.size inb_S24x32_S1x32_23_0).toLoadRect (harg4.unread x3))
            (View.readAt (Elt Ideal) arg5.view (Rect.unit (s := S24x480x32) ![23, 0, 0] S1x480x32.size inb_S24x480x32_S1x480x32_23_0_0).toLoadRect (harg5.unread x4))
            (View.readAt (Elt Ideal) arg6.view (Rect.unit (s := S24x32) ![23, 0] S1x32.size inb_S24x32_S1x32_23_0).toLoadRect (harg6.unread x5))
            (View.readAt (Elt Ideal) arg7.view (Rect.unit (s := S24x480x32) ![23, 0, 0] S1x480x32.size inb_S24x480x32_S1x480x32_23_0_0).toLoadRect (harg7.unread x6))
            (View.readAt (Elt Ideal) arg8.view (Rect.unit (s := S24x32) ![23, 0] S1x32.size inb_S24x32_S1x32_23_0).toLoadRect (harg8.unread x7))⟩ : View.Piece (Elt Ideal) S512x24x32 .f32)
        :: (@kernelRun0_A.sl.HS0_24 Ideal inferInstance c arg1 harg1 arg2 harg2 arg3 harg3 arg4 harg4 arg5 harg5 arg6 harg6 arg7 harg7 arg8 harg8 arg10 x0 x1 x2 x3 x4 x5 x6 x7) := rfl

/-! ### The buffer after each joint -/

/-- After the copy-in the buffer holds the block of old states. -/
theorem scratch_0 :
    View.canon (@kernelRun0_A.sl.HS0_1 Ideal c arg1 harg1 x0) = partialRun (x0 : Cube 512) x1 x2 x3 x4 x5 x6 x7 0 := by
  rw [partialRun_zero]
  show View.canon [(⟨Rect.unit (s := S512x24x32) ![0, 0, 0] S512x24x32.size inb_S512x24x32_S512x24x32_0_0_0,
      shapeCast S512x24x32 (View.readAt (Elt Ideal) arg1.view
        (Rect.unit (s := S512x24x32) ![0, 0, 0] S512x24x32.size inb_S512x24x32_S512x24x32_0_0_0).toLoadRect (harg1.unread x0))
        shapeCasts_S512x24x32_S512x24x32⟩ : View.Piece (Elt Ideal) S512x24x32 .f32)] = x0
  rw [View.canon_unit_zero origin3]
  refine (shapeCast_self (s := S512x24x32) _ _).trans ?_
  rw [View.readAt_eq_ld, harg1.read_unread, View.ld_unit_zero origin3]

theorem scratch_1 :
    View.canon (@kernelRun0_A.sl.HS0_2 Ideal inferInstance c arg1 harg1 arg2 harg2 arg3 harg3 arg4 harg4 arg5 harg5 arg6 harg6 arg7 harg7 arg8 harg8 arg10 x0 x1 x2 x3 x4 x5 x6 x7) = partialRun (x0 : Cube 512) x1 x2 x3 x4 x5 x6 x7 1 := by
  rw [pieces_2 c arg1 harg1 arg2 harg2 arg3 harg3 arg4 harg4 arg5 harg5 arg6 harg6 arg7 harg7 arg8 harg8 arg10 x0 x1 x2 x3 x4 x5 x6 x7,
    canon_step arg10.view _ 0 0 (by omega) (by omega) _ _ _ x1 _ _ _ _ _ _ x2 x3 x4 x5 x6 x7
      (loaded_input arg2 harg2 x1)
      (loaded_layer arg3 harg3 x2 0 (by omega) _) (loaded_row arg4 harg4 x3 0 (by omega) _)
      (loaded_layer arg5 harg5 x4 0 (by omega) _) (loaded_row arg6 harg6 x5 0 (by omega) _)
      (loaded_layer arg7 harg7 x6 0 (by omega) _) (loaded_row arg8 harg8 x7 0 (by omega) _),
    scratch_0 c arg1 harg1 x0 x1 x2 x3 x4 x5 x6 x7]
  exact step_inv (x0 : Cube 512) x1 x2 x3 x4 x5 x6 x7 0 (by omega)

theorem scratch_2 :
    View.canon (@kernelRun0_A.sl.HS0_3 Ideal inferInstance c arg1 harg1 arg2 harg2 arg3 harg3 arg4 harg4 arg5 harg5 arg6 harg6 arg7 harg7 arg8 harg8 arg10 x0 x1 x2 x3 x4 x5 x6 x7) = partialRun (x0 : Cube 512) x1 x2 x3 x4 x5 x6 x7 2 := by
  rw [pieces_3 c arg1 harg1 arg2 harg2 arg3 harg3 arg4 harg4 arg5 harg5 arg6 harg6 arg7 harg7 arg8 harg8 arg10 x0 x1 x2 x3 x4 x5 x6 x7,
    canon_step arg10.view _ 1 0 (by omega) (by omega) _ _ _ x1 _ _ _ _ _ _ x2 x3 x4 x5 x6 x7
      (loaded_input arg2 harg2 x1)
      (loaded_layer arg3 harg3 x2 1 (by omega) _) (loaded_row arg4 harg4 x3 1 (by omega) _)
      (loaded_layer arg5 harg5 x4 1 (by omega) _) (loaded_row arg6 harg6 x5 1 (by omega) _)
      (loaded_layer arg7 harg7 x6 1 (by omega) _) (loaded_row arg8 harg8 x7 1 (by omega) _),
    scratch_1 c arg1 harg1 arg2 harg2 arg3 harg3 arg4 harg4 arg5 harg5 arg6 harg6 arg7 harg7 arg8 harg8 arg10 x0 x1 x2 x3 x4 x5 x6 x7]
  exact step_inv (x0 : Cube 512) x1 x2 x3 x4 x5 x6 x7 1 (by omega)

theorem scratch_3 :
    View.canon (@kernelRun0_A.sl.HS0_4 Ideal inferInstance c arg1 harg1 arg2 harg2 arg3 harg3 arg4 harg4 arg5 harg5 arg6 harg6 arg7 harg7 arg8 harg8 arg10 x0 x1 x2 x3 x4 x5 x6 x7) = partialRun (x0 : Cube 512) x1 x2 x3 x4 x5 x6 x7 3 := by
  rw [pieces_4 c arg1 harg1 arg2 harg2 arg3 harg3 arg4 harg4 arg5 harg5 arg6 harg6 arg7 harg7 arg8 harg8 arg10 x0 x1 x2 x3 x4 x5 x6 x7,
    canon_step arg10.view _ 2 0 (by omega) (by omega) _ _ _ x1 _ _ _ _ _ _ x2 x3 x4 x5 x6 x7
      (loaded_input arg2 harg2 x1)
      (loaded_layer arg3 harg3 x2 2 (by omega) _) (loaded_row arg4 harg4 x3 2 (by omega) _)
      (loaded_layer arg5 harg5 x4 2 (by omega) _) (loaded_row arg6 harg6 x5 2 (by omega) _)
      (loaded_layer arg7 harg7 x6 2 (by omega) _) (loaded_row arg8 harg8 x7 2 (by omega) _),
    scratch_2 c arg1 harg1 arg2 harg2 arg3 harg3 arg4 harg4 arg5 harg5 arg6 harg6 arg7 harg7 arg8 harg8 arg10 x0 x1 x2 x3 x4 x5 x6 x7]
  exact step_inv (x0 : Cube 512) x1 x2 x3 x4 x5 x6 x7 2 (by omega)

theorem scratch_4 :
    View.canon (@kernelRun0_A.sl.HS0_5 Ideal inferInstance c arg1 harg1 arg2 harg2 arg3 harg3 arg4 harg4 arg5 harg5 arg6 harg6 arg7 harg7 arg8 harg8 arg10 x0 x1 x2 x3 x4 x5 x6 x7) = partialRun (x0 : Cube 512) x1 x2 x3 x4 x5 x6 x7 4 := by
  rw [pieces_5 c arg1 harg1 arg2 harg2 arg3 harg3 arg4 harg4 arg5 harg5 arg6 harg6 arg7 harg7 arg8 harg8 arg10 x0 x1 x2 x3 x4 x5 x6 x7,
    canon_step arg10.view _ 3 0 (by omega) (by omega) _ _ _ x1 _ _ _ _ _ _ x2 x3 x4 x5 x6 x7
      (loaded_input arg2 harg2 x1)
      (loaded_layer arg3 harg3 x2 3 (by omega) _) (loaded_row arg4 harg4 x3 3 (by omega) _)
      (loaded_layer arg5 harg5 x4 3 (by omega) _) (loaded_row arg6 harg6 x5 3 (by omega) _)
      (loaded_layer arg7 harg7 x6 3 (by omega) _) (loaded_row arg8 harg8 x7 3 (by omega) _),
    scratch_3 c arg1 harg1 arg2 harg2 arg3 harg3 arg4 harg4 arg5 harg5 arg6 harg6 arg7 harg7 arg8 harg8 arg10 x0 x1 x2 x3 x4 x5 x6 x7]
  exact step_inv (x0 : Cube 512) x1 x2 x3 x4 x5 x6 x7 3 (by omega)

theorem scratch_5 :
    View.canon (@kernelRun0_A.sl.HS0_6 Ideal inferInstance c arg1 harg1 arg2 harg2 arg3 harg3 arg4 harg4 arg5 harg5 arg6 harg6 arg7 harg7 arg8 harg8 arg10 x0 x1 x2 x3 x4 x5 x6 x7) = partialRun (x0 : Cube 512) x1 x2 x3 x4 x5 x6 x7 5 := by
  rw [pieces_6 c arg1 harg1 arg2 harg2 arg3 harg3 arg4 harg4 arg5 harg5 arg6 harg6 arg7 harg7 arg8 harg8 arg10 x0 x1 x2 x3 x4 x5 x6 x7,
    canon_step arg10.view _ 4 1 (by omega) (by omega) _ _ _ x1 _ _ _ _ _ _ x2 x3 x4 x5 x6 x7
      (loaded_input arg2 harg2 x1)
      (loaded_layer arg3 harg3 x2 4 (by omega) _) (loaded_row arg4 harg4 x3 4 (by omega) _)
      (loaded_layer arg5 harg5 x4 4 (by omega) _) (loaded_row arg6 harg6 x5 4 (by omega) _)
      (loaded_layer arg7 harg7 x6 4 (by omega) _) (loaded_row arg8 harg8 x7 4 (by omega) _),
    scratch_4 c arg1 harg1 arg2 harg2 arg3 harg3 arg4 harg4 arg5 harg5 arg6 harg6 arg7 harg7 arg8 harg8 arg10 x0 x1 x2 x3 x4 x5 x6 x7]
  exact step_inv (x0 : Cube 512) x1 x2 x3 x4 x5 x6 x7 4 (by omega)

theorem scratch_6 :
    View.canon (@kernelRun0_A.sl.HS0_7 Ideal inferInstance c arg1 harg1 arg2 harg2 arg3 harg3 arg4 harg4 arg5 harg5 arg6 harg6 arg7 harg7 arg8 harg8 arg10 x0 x1 x2 x3 x4 x5 x6 x7) = partialRun (x0 : Cube 512) x1 x2 x3 x4 x5 x6 x7 6 := by
  rw [pieces_7 c arg1 harg1 arg2 harg2 arg3 harg3 arg4 harg4 arg5 harg5 arg6 harg6 arg7 harg7 arg8 harg8 arg10 x0 x1 x2 x3 x4 x5 x6 x7,
    canon_step arg10.view _ 5 2 (by omega) (by omega) _ _ _ x1 _ _ _ _ _ _ x2 x3 x4 x5 x6 x7
      (loaded_input arg2 harg2 x1)
      (loaded_layer arg3 harg3 x2 5 (by omega) _) (loaded_row arg4 harg4 x3 5 (by omega) _)
      (loaded_layer arg5 harg5 x4 5 (by omega) _) (loaded_row arg6 harg6 x5 5 (by omega) _)
      (loaded_layer arg7 harg7 x6 5 (by omega) _) (loaded_row arg8 harg8 x7 5 (by omega) _),
    scratch_5 c arg1 harg1 arg2 harg2 arg3 harg3 arg4 harg4 arg5 harg5 arg6 harg6 arg7 harg7 arg8 harg8 arg10 x0 x1 x2 x3 x4 x5 x6 x7]
  exact step_inv (x0 : Cube 512) x1 x2 x3 x4 x5 x6 x7 5 (by omega)

theorem scratch_7 :
    View.canon (@kernelRun0_A.sl.HS0_8 Ideal inferInstance c arg1 harg1 arg2 harg2 arg3 harg3 arg4 harg4 arg5 harg5 arg6 harg6 arg7 harg7 arg8 harg8 arg10 x0 x1 x2 x3 x4 x5 x6 x7) = partialRun (x0 : Cube 512) x1 x2 x3 x4 x5 x6 x7 7 := by
  rw [pieces_8 c arg1 harg1 arg2 harg2 arg3 harg3 arg4 harg4 arg5 harg5 arg6 harg6 arg7 harg7 arg8 harg8 arg10 x0 x1 x2 x3 x4 x5 x6 x7,
    canon_step arg10.view _ 6 3 (by omega) (by omega) _ _ _ x1 _ _ _ _ _ _ x2 x3 x4 x5 x6 x7
      (loaded_input arg2 harg2 x1)
      (loaded_layer arg3 harg3 x2 6 (by omega) _) (loaded_row arg4 harg4 x3 6 (by omega) _)
      (loaded_layer arg5 harg5 x4 6 (by omega) _) (loaded_row arg6 harg6 x5 6 (by omega) _)
      (loaded_layer arg7 harg7 x6 6 (by omega) _) (loaded_row arg8 harg8 x7 6 (by omega) _),
    scratch_6 c arg1 harg1 arg2 harg2 arg3 harg3 arg4 harg4 arg5 harg5 arg6 harg6 arg7 harg7 arg8 harg8 arg10 x0 x1 x2 x3 x4 x5 x6 x7]
  exact step_inv (x0 : Cube 512) x1 x2 x3 x4 x5 x6 x7 6 (by omega)

theorem scratch_8 :
    View.canon (@kernelRun0_A.sl.HS0_9 Ideal inferInstance c arg1 harg1 arg2 harg2 arg3 harg3 arg4 harg4 arg5 harg5 arg6 harg6 arg7 harg7 arg8 harg8 arg10 x0 x1 x2 x3 x4 x5 x6 x7) = partialRun (x0 : Cube 512) x1 x2 x3 x4 x5 x6 x7 8 := by
  rw [pieces_9 c arg1 harg1 arg2 harg2 arg3 harg3 arg4 harg4 arg5 harg5 arg6 harg6 arg7 harg7 arg8 harg8 arg10 x0 x1 x2 x3 x4 x5 x6 x7,
    canon_step arg10.view _ 7 4 (by omega) (by omega) _ _ _ x1 _ _ _ _ _ _ x2 x3 x4 x5 x6 x7
      (loaded_input arg2 harg2 x1)
      (loaded_layer arg3 harg3 x2 7 (by omega) _) (loaded_row arg4 harg4 x3 7 (by omega) _)
      (loaded_layer arg5 harg5 x4 7 (by omega) _) (loaded_row arg6 harg6 x5 7 (by omega) _)
      (loaded_layer arg7 harg7 x6 7 (by omega) _) (loaded_row arg8 harg8 x7 7 (by omega) _),
    scratch_7 c arg1 harg1 arg2 harg2 arg3 harg3 arg4 harg4 arg5 harg5 arg6 harg6 arg7 harg7 arg8 harg8 arg10 x0 x1 x2 x3 x4 x5 x6 x7]
  exact step_inv (x0 : Cube 512) x1 x2 x3 x4 x5 x6 x7 7 (by omega)

theorem scratch_9 :
    View.canon (@kernelRun0_A.sl.HS0_10 Ideal inferInstance c arg1 harg1 arg2 harg2 arg3 harg3 arg4 harg4 arg5 harg5 arg6 harg6 arg7 harg7 arg8 harg8 arg10 x0 x1 x2 x3 x4 x5 x6 x7) = partialRun (x0 : Cube 512) x1 x2 x3 x4 x5 x6 x7 9 := by
  rw [pieces_10 c arg1 harg1 arg2 harg2 arg3 harg3 arg4 harg4 arg5 harg5 arg6 harg6 arg7 harg7 arg8 harg8 arg10 x0 x1 x2 x3 x4 x5 x6 x7,
    canon_step arg10.view _ 8 5 (by omega) (by omega) _ _ _ x1 _ _ _ _ _ _ x2 x3 x4 x5 x6 x7
      (loaded_input arg2 harg2 x1)
      (loaded_layer arg3 harg3 x2 8 (by omega) _) (loaded_row arg4 harg4 x3 8 (by omega) _)
      (loaded_layer arg5 harg5 x4 8 (by omega) _) (loaded_row arg6 harg6 x5 8 (by omega) _)
      (loaded_layer arg7 harg7 x6 8 (by omega) _) (loaded_row arg8 harg8 x7 8 (by omega) _),
    scratch_8 c arg1 harg1 arg2 harg2 arg3 harg3 arg4 harg4 arg5 harg5 arg6 harg6 arg7 harg7 arg8 harg8 arg10 x0 x1 x2 x3 x4 x5 x6 x7]
  exact step_inv (x0 : Cube 512) x1 x2 x3 x4 x5 x6 x7 8 (by omega)

theorem scratch_10 :
    View.canon (@kernelRun0_A.sl.HS0_11 Ideal inferInstance c arg1 harg1 arg2 harg2 arg3 harg3 arg4 harg4 arg5 harg5 arg6 harg6 arg7 harg7 arg8 harg8 arg10 x0 x1 x2 x3 x4 x5 x6 x7) = partialRun (x0 : Cube 512) x1 x2 x3 x4 x5 x6 x7 10 := by
  rw [pieces_11 c arg1 harg1 arg2 harg2 arg3 harg3 arg4 harg4 arg5 harg5 arg6 harg6 arg7 harg7 arg8 harg8 arg10 x0 x1 x2 x3 x4 x5 x6 x7,
    canon_step arg10.view _ 9 6 (by omega) (by omega) _ _ _ x1 _ _ _ _ _ _ x2 x3 x4 x5 x6 x7
      (loaded_input arg2 harg2 x1)
      (loaded_layer arg3 harg3 x2 9 (by omega) _) (loaded_row arg4 harg4 x3 9 (by omega) _)
      (loaded_layer arg5 harg5 x4 9 (by omega) _) (loaded_row arg6 harg6 x5 9 (by omega) _)
      (loaded_layer arg7 harg7 x6 9 (by omega) _) (loaded_row arg8 harg8 x7 9 (by omega) _),
    scratch_9 c arg1 harg1 arg2 harg2 arg3 harg3 arg4 harg4 arg5 harg5 arg6 harg6 arg7 harg7 arg8 harg8 arg10 x0 x1 x2 x3 x4 x5 x6 x7]
  exact step_inv (x0 : Cube 512) x1 x2 x3 x4 x5 x6 x7 9 (by omega)

theorem scratch_11 :
    View.canon (@kernelRun0_A.sl.HS0_12 Ideal inferInstance c arg1 harg1 arg2 harg2 arg3 harg3 arg4 harg4 arg5 harg5 arg6 harg6 arg7 harg7 arg8 harg8 arg10 x0 x1 x2 x3 x4 x5 x6 x7) = partialRun (x0 : Cube 512) x1 x2 x3 x4 x5 x6 x7 11 := by
  rw [pieces_12 c arg1 harg1 arg2 harg2 arg3 harg3 arg4 harg4 arg5 harg5 arg6 harg6 arg7 harg7 arg8 harg8 arg10 x0 x1 x2 x3 x4 x5 x6 x7,
    canon_step arg10.view _ 10 7 (by omega) (by omega) _ _ _ x1 _ _ _ _ _ _ x2 x3 x4 x5 x6 x7
      (loaded_input arg2 harg2 x1)
      (loaded_layer arg3 harg3 x2 10 (by omega) _) (loaded_row arg4 harg4 x3 10 (by omega) _)
      (loaded_layer arg5 harg5 x4 10 (by omega) _) (loaded_row arg6 harg6 x5 10 (by omega) _)
      (loaded_layer arg7 harg7 x6 10 (by omega) _) (loaded_row arg8 harg8 x7 10 (by omega) _),
    scratch_10 c arg1 harg1 arg2 harg2 arg3 harg3 arg4 harg4 arg5 harg5 arg6 harg6 arg7 harg7 arg8 harg8 arg10 x0 x1 x2 x3 x4 x5 x6 x7]
  exact step_inv (x0 : Cube 512) x1 x2 x3 x4 x5 x6 x7 10 (by omega)

theorem scratch_12 :
    View.canon (@kernelRun0_A.sl.HS0_13 Ideal inferInstance c arg1 harg1 arg2 harg2 arg3 harg3 arg4 harg4 arg5 harg5 arg6 harg6 arg7 harg7 arg8 harg8 arg10 x0 x1 x2 x3 x4 x5 x6 x7) = partialRun (x0 : Cube 512) x1 x2 x3 x4 x5 x6 x7 12 := by
  rw [pieces_13 c arg1 harg1 arg2 harg2 arg3 harg3 arg4 harg4 arg5 harg5 arg6 harg6 arg7 harg7 arg8 harg8 arg10 x0 x1 x2 x3 x4 x5 x6 x7,
    canon_step arg10.view _ 11 8 (by omega) (by omega) _ _ _ x1 _ _ _ _ _ _ x2 x3 x4 x5 x6 x7
      (loaded_input arg2 harg2 x1)
      (loaded_layer arg3 harg3 x2 11 (by omega) _) (loaded_row arg4 harg4 x3 11 (by omega) _)
      (loaded_layer arg5 harg5 x4 11 (by omega) _) (loaded_row arg6 harg6 x5 11 (by omega) _)
      (loaded_layer arg7 harg7 x6 11 (by omega) _) (loaded_row arg8 harg8 x7 11 (by omega) _),
    scratch_11 c arg1 harg1 arg2 harg2 arg3 harg3 arg4 harg4 arg5 harg5 arg6 harg6 arg7 harg7 arg8 harg8 arg10 x0 x1 x2 x3 x4 x5 x6 x7]
  exact step_inv (x0 : Cube 512) x1 x2 x3 x4 x5 x6 x7 11 (by omega)

theorem scratch_13 :
    View.canon (@kernelRun0_A.sl.HS0_14 Ideal inferInstance c arg1 harg1 arg2 harg2 arg3 harg3 arg4 harg4 arg5 harg5 arg6 harg6 arg7 harg7 arg8 harg8 arg10 x0 x1 x2 x3 x4 x5 x6 x7) = partialRun (x0 : Cube 512) x1 x2 x3 x4 x5 x6 x7 13 := by
  rw [pieces_14 c arg1 harg1 arg2 harg2 arg3 harg3 arg4 harg4 arg5 harg5 arg6 harg6 arg7 harg7 arg8 harg8 arg10 x0 x1 x2 x3 x4 x5 x6 x7,
    canon_step arg10.view _ 12 9 (by omega) (by omega) _ _ _ x1 _ _ _ _ _ _ x2 x3 x4 x5 x6 x7
      (loaded_input arg2 harg2 x1)
      (loaded_layer arg3 harg3 x2 12 (by omega) _) (loaded_row arg4 harg4 x3 12 (by omega) _)
      (loaded_layer arg5 harg5 x4 12 (by omega) _) (loaded_row arg6 harg6 x5 12 (by omega) _)
      (loaded_layer arg7 harg7 x6 12 (by omega) _) (loaded_row arg8 harg8 x7 12 (by omega) _),
    scratch_12 c arg1 harg1 arg2 harg2 arg3 harg3 arg4 harg4 arg5 harg5 arg6 harg6 arg7 harg7 arg8 harg8 arg10 x0 x1 x2 x3 x4 x5 x6 x7]
  exact step_inv (x0 : Cube 512) x1 x2 x3 x4 x5 x6 x7 12 (by omega)

theorem scratch_14 :
    View.canon (@kernelRun0_A.sl.HS0_15 Ideal inferInstance c arg1 harg1 arg2 harg2 arg3 harg3 arg4 harg4 arg5 harg5 arg6 harg6 arg7 harg7 arg8 harg8 arg10 x0 x1 x2 x3 x4 x5 x6 x7) = partialRun (x0 : Cube 512) x1 x2 x3 x4 x5 x6 x7 14 := by
  rw [pieces_15 c arg1 harg1 arg2 harg2 arg3 harg3 arg4 harg4 arg5 harg5 arg6 harg6 arg7 harg7 arg8 harg8 arg10 x0 x1 x2 x3 x4 x5 x6 x7,
    canon_step arg10.view _ 13 9 (by omega) (by omega) _ _ _ x1 _ _ _ _ _ _ x2 x3 x4 x5 x6 x7
      (loaded_input arg2 harg2 x1)
      (loaded_layer arg3 harg3 x2 13 (by omega) _) (loaded_row arg4 harg4 x3 13 (by omega) _)
      (loaded_layer arg5 harg5 x4 13 (by omega) _) (loaded_row arg6 harg6 x5 13 (by omega) _)
      (loaded_layer arg7 harg7 x6 13 (by omega) _) (loaded_row arg8 harg8 x7 13 (by omega) _),
    scratch_13 c arg1 harg1 arg2 harg2 arg3 harg3 arg4 harg4 arg5 harg5 arg6 harg6 arg7 harg7 arg8 harg8 arg10 x0 x1 x2 x3 x4 x5 x6 x7]
  exact step_inv (x0 : Cube 512) x1 x2 x3 x4 x5 x6 x7 13 (by omega)

theorem scratch_15 :
    View.canon (@kernelRun0_A.sl.HS0_16 Ideal inferInstance c arg1 harg1 arg2 harg2 arg3 harg3 arg4 harg4 arg5 harg5 arg6 harg6 arg7 harg7 arg8 harg8 arg10 x0 x1 x2 x3 x4 x5 x6 x7) = partialRun (x0 : Cube 512) x1 x2 x3 x4 x5 x6 x7 15 := by
  rw [pieces_16 c arg1 harg1 arg2 harg2 arg3 harg3 arg4 harg4 arg5 harg5 arg6 harg6 arg7 harg7 arg8 harg8 arg10 x0 x1 x2 x3 x4 x5 x6 x7,
    canon_step arg10.view _ 14 9 (by omega) (by omega) _ _ _ x1 _ _ _ _ _ _ x2 x3 x4 x5 x6 x7
      (loaded_input arg2 harg2 x1)
      (loaded_layer arg3 harg3 x2 14 (by omega) _) (loaded_row arg4 harg4 x3 14 (by omega) _)
      (loaded_layer arg5 harg5 x4 14 (by omega) _) (loaded_row arg6 harg6 x5 14 (by omega) _)
      (loaded_layer arg7 harg7 x6 14 (by omega) _) (loaded_row arg8 harg8 x7 14 (by omega) _),
    scratch_14 c arg1 harg1 arg2 harg2 arg3 harg3 arg4 harg4 arg5 harg5 arg6 harg6 arg7 harg7 arg8 harg8 arg10 x0 x1 x2 x3 x4 x5 x6 x7]
  exact step_inv (x0 : Cube 512) x1 x2 x3 x4 x5 x6 x7 14 (by omega)

theorem scratch_16 :
    View.canon (@kernelRun0_A.sl.HS0_17 Ideal inferInstance c arg1 harg1 arg2 harg2 arg3 harg3 arg4 harg4 arg5 harg5 arg6 harg6 arg7 harg7 arg8 harg8 arg10 x0 x1 x2 x3 x4 x5 x6 x7) = partialRun (x0 : Cube 512) x1 x2 x3 x4 x5 x6 x7 16 := by
  rw [pieces_17 c arg1 harg1 arg2 harg2 arg3 harg3 arg4 harg4 arg5 harg5 arg6 harg6 arg7 harg7 arg8 harg8 arg10 x0 x1 x2 x3 x4 x5 x6 x7,
    canon_step arg10.view _ 15 12 (by omega) (by omega) _ _ _ x1 _ _ _ _ _ _ x2 x3 x4 x5 x6 x7
      (loaded_input arg2 harg2 x1)
      (loaded_layer arg3 harg3 x2 15 (by omega) _) (loaded_row arg4 harg4 x3 15 (by omega) _)
      (loaded_layer arg5 harg5 x4 15 (by omega) _) (loaded_row arg6 harg6 x5 15 (by omega) _)
      (loaded_layer arg7 harg7 x6 15 (by omega) _) (loaded_row arg8 harg8 x7 15 (by omega) _),
    scratch_15 c arg1 harg1 arg2 harg2 arg3 harg3 arg4 harg4 arg5 harg5 arg6 harg6 arg7 harg7 arg8 harg8 arg10 x0 x1 x2 x3 x4 x5 x6 x7]
  exact step_inv (x0 : Cube 512) x1 x2 x3 x4 x5 x6 x7 15 (by omega)

theorem scratch_17 :
    View.canon (@kernelRun0_A.sl.HS0_18 Ideal inferInstance c arg1 harg1 arg2 harg2 arg3 harg3 arg4 harg4 arg5 harg5 arg6 harg6 arg7 harg7 arg8 harg8 arg10 x0 x1 x2 x3 x4 x5 x6 x7) = partialRun (x0 : Cube 512) x1 x2 x3 x4 x5 x6 x7 17 := by
  rw [pieces_18 c arg1 harg1 arg2 harg2 arg3 harg3 arg4 harg4 arg5 harg5 arg6 harg6 arg7 harg7 arg8 harg8 arg10 x0 x1 x2 x3 x4 x5 x6 x7,
    canon_step arg10.view _ 16 13 (by omega) (by omega) _ _ _ x1 _ _ _ _ _ _ x2 x3 x4 x5 x6 x7
      (loaded_input arg2 harg2 x1)
      (loaded_layer arg3 harg3 x2 16 (by omega) _) (loaded_row arg4 harg4 x3 16 (by omega) _)
      (loaded_layer arg5 harg5 x4 16 (by omega) _) (loaded_row arg6 harg6 x5 16 (by omega) _)
      (loaded_layer arg7 harg7 x6 16 (by omega) _) (loaded_row arg8 harg8 x7 16 (by omega) _),
    scratch_16 c arg1 harg1 arg2 harg2 arg3 harg3 arg4 harg4 arg5 harg5 arg6 harg6 arg7 harg7 arg8 harg8 arg10 x0 x1 x2 x3 x4 x5 x6 x7]
  exact step_inv (x0 : Cube 512) x1 x2 x3 x4 x5 x6 x7 16 (by omega)

theorem scratch_18 :
    View.canon (@kernelRun0_A.sl.HS0_19 Ideal inferInstance c arg1 harg1 arg2 harg2 arg3 harg3 arg4 harg4 arg5 harg5 arg6 harg6 arg7 harg7 arg8 harg8 arg10 x0 x1 x2 x3 x4 x5 x6 x7) = partialRun (x0 : Cube 512) x1 x2 x3 x4 x5 x6 x7 18 := by
  rw [pieces_19 c arg1 harg1 arg2 harg2 arg3 harg3 arg4 harg4 arg5 harg5 arg6 harg6 arg7 harg7 arg8 harg8 arg10 x0 x1 x2 x3 x4 x5 x6 x7,
    canon_step arg10.view _ 17 14 (by omega) (by omega) _ _ _ x1 _ _ _ _ _ _ x2 x3 x4 x5 x6 x7
      (loaded_input arg2 harg2 x1)
      (loaded_layer arg3 harg3 x2 17 (by omega) _) (loaded_row arg4 harg4 x3 17 (by omega) _)
      (loaded_layer arg5 harg5 x4 17 (by omega) _) (loaded_row arg6 harg6 x5 17 (by omega) _)
      (loaded_layer arg7 harg7 x6 17 (by omega) _) (loaded_row arg8 harg8 x7 17 (by omega) _),
    scratch_17 c arg1 harg1 arg2 harg2 arg3 harg3 arg4 harg4 arg5 harg5 arg6 harg6 arg7 harg7 arg8 harg8 arg10 x0 x1 x2 x3 x4 x5 x6 x7]
  exact step_inv (x0 : Cube 512) x1 x2 x3 x4 x5 x6 x7 17 (by omega)

theorem scratch_19 :
    View.canon (@kernelRun0_A.sl.HS0_20 Ideal inferInstance c arg1 harg1 arg2 harg2 arg3 harg3 arg4 harg4 arg5 harg5 arg6 harg6 arg7 harg7 arg8 harg8 arg10 x0 x1 x2 x3 x4 x5 x6 x7) = partialRun (x0 : Cube 512) x1 x2 x3 x4 x5 x6 x7 19 := by
  rw [pieces_20 c arg1 harg1 arg2 harg2 arg3 harg3 arg4 harg4 arg5 harg5 arg6 harg6 arg7 harg7 arg8 harg8 arg10 x0 x1 x2 x3 x4 x5 x6 x7,
    canon_step arg10.view _ 18 16 (by omega) (by omega) _ _ _ x1 _ _ _ _ _ _ x2 x3 x4 x5 x6 x7
      (loaded_input arg2 harg2 x1)
      (loaded_layer arg3 harg3 x2 18 (by omega) _) (loaded_row arg4 harg4 x3 18 (by omega) _)
      (loaded_layer arg5 harg5 x4 18 (by omega) _) (loaded_row arg6 harg6 x5 18 (by omega) _)
      (loaded_layer arg7 harg7 x6 18 (by omega) _) (loaded_row arg8 harg8 x7 18 (by omega) _),
    scratch_18 c arg1 harg1 arg2 harg2 arg3 harg3 arg4 harg4 arg5 harg5 arg6 harg6 arg7 harg7 arg8 harg8 arg10 x0 x1 x2 x3 x4 x5 x6 x7]
  exact step_inv (x0 : Cube 512) x1 x2 x3 x4 x5 x6 x7 18 (by omega)

theorem scratch_20 :
    View.canon (@kernelRun0_A.sl.HS0_21 Ideal inferInstance c arg1 harg1 arg2 harg2 arg3 harg3 arg4 harg4 arg5 harg5 arg6 harg6 arg7 harg7 arg8 harg8 arg10 x0 x1 x2 x3 x4 x5 x6 x7) = partialRun (x0 : Cube 512) x1 x2 x3 x4 x5 x6 x7 20 := by
  rw [pieces_21 c arg1 harg1 arg2 harg2 arg3 harg3 arg4 harg4 arg5 harg5 arg6 harg6 arg7 harg7 arg8 harg8 arg10 x0 x1 x2 x3 x4 x5 x6 x7,
    canon_step arg10.view _ 19 17 (by omega) (by omega) _ _ _ x1 _ _ _ _ _ _ x2 x3 x4 x5 x6 x7
      (loaded_input arg2 harg2 x1)
      (loaded_layer arg3 harg3 x2 19 (by omega) _) (loaded_row arg4 harg4 x3 19 (by omega) _)
      (loaded_layer arg5 harg5 x4 19 (by omega) _) (loaded_row arg6 harg6 x5 19 (by omega) _)
      (loaded_layer arg7 harg7 x6 19 (by omega) _) (loaded_row arg8 harg8 x7 19 (by omega) _),
    scratch_19 c arg1 harg1 arg2 harg2 arg3 harg3 arg4 harg4 arg5 harg5 arg6 harg6 arg7 harg7 arg8 harg8 arg10 x0 x1 x2 x3 x4 x5 x6 x7]
  exact step_inv (x0 : Cube 512) x1 x2 x3 x4 x5 x6 x7 19 (by omega)

theorem scratch_21 :
    View.canon (@kernelRun0_A.sl.HS0_22 Ideal inferInstance c arg1 harg1 arg2 harg2 arg3 harg3 arg4 harg4 arg5 harg5 arg6 harg6 arg7 harg7 arg8 harg8 arg10 x0 x1 x2 x3 x4 x5 x6 x7) = partialRun (x0 : Cube 512) x1 x2 x3 x4 x5 x6 x7 21 := by
  rw [pieces_22 c arg1 harg1 arg2 harg2 arg3 harg3 arg4 harg4 arg5 harg5 arg6 harg6 arg7 harg7 arg8 harg8 arg10 x0 x1 x2 x3 x4 x5 x6 x7,
    canon_step arg10.view _ 20 18 (by omega) (by omega) _ _ _ x1 _ _ _ _ _ _ x2 x3 x4 x5 x6 x7
      (loaded_input arg2 harg2 x1)
      (loaded_layer arg3 harg3 x2 20 (by omega) _) (loaded_row arg4 harg4 x3 20 (by omega) _)
      (loaded_layer arg5 harg5 x4 20 (by omega) _) (loaded_row arg6 harg6 x5 20 (by omega) _)
      (loaded_layer arg7 harg7 x6 20 (by omega) _) (loaded_row arg8 harg8 x7 20 (by omega) _),
    scratch_20 c arg1 harg1 arg2 harg2 arg3 harg3 arg4 harg4 arg5 harg5 arg6 harg6 arg7 harg7 arg8 harg8 arg10 x0 x1 x2 x3 x4 x5 x6 x7]
  exact step_inv (x0 : Cube 512) x1 x2 x3 x4 x5 x6 x7 20 (by omega)

theorem scratch_22 :
    View.canon (@kernelRun0_A.sl.HS0_23 Ideal inferInstance c arg1 harg1 arg2 harg2 arg3 harg3 arg4 harg4 arg5 harg5 arg6 harg6 arg7 harg7 arg8 harg8 arg10 x0 x1 x2 x3 x4 x5 x6 x7) = partialRun (x0 : Cube 512) x1 x2 x3 x4 x5 x6 x7 22 := by
  rw [pieces_23 c arg1 harg1 arg2 harg2 arg3 harg3 arg4 harg4 arg5 harg5 arg6 harg6 arg7 harg7 arg8 harg8 arg10 x0 x1 x2 x3 x4 x5 x6 x7,
    canon_step arg10.view _ 21 19 (by omega) (by omega) _ _ _ x1 _ _ _ _ _ _ x2 x3 x4 x5 x6 x7
      (loaded_input arg2 harg2 x1)
      (loaded_layer arg3 harg3 x2 21 (by omega) _) (loaded_row arg4 harg4 x3 21 (by omega) _)
      (loaded_layer arg5 harg5 x4 21 (by omega) _) (loaded_row arg6 harg6 x5 21 (by omega) _)
      (loaded_layer arg7 harg7 x6 21 (by omega) _) (loaded_row arg8 harg8 x7 21 (by omega) _),
    scratch_21 c arg1 harg1 arg2 harg2 arg3 harg3 arg4 harg4 arg5 harg5 arg6 harg6 arg7 harg7 arg8 harg8 arg10 x0 x1 x2 x3 x4 x5 x6 x7]
  exact step_inv (x0 : Cube 512) x1 x2 x3 x4 x5 x6 x7 21 (by omega)

theorem scratch_23 :
    View.canon (@kernelRun0_A.sl.HS0_24 Ideal inferInstance c arg1 harg1 arg2 harg2 arg3 harg3 arg4 harg4 arg5 harg5 arg6 harg6 arg7 harg7 arg8 harg8 arg10 x0 x1 x2 x3 x4 x5 x6 x7) = partialRun (x0 : Cube 512) x1 x2 x3 x4 x5 x6 x7 23 := by
  rw [pieces_24 c arg1 harg1 arg2 harg2 arg3 harg3 arg4 harg4 arg5 harg5 arg6 harg6 arg7 harg7 arg8 harg8 arg10 x0 x1 x2 x3 x4 x5 x6 x7,
    canon_step arg10.view _ 22 20 (by omega) (by omega) _ _ _ x1 _ _ _ _ _ _ x2 x3 x4 x5 x6 x7
      (loaded_input arg2 harg2 x1)
      (loaded_layer arg3 harg3 x2 22 (by omega) _) (loaded_row arg4 harg4 x3 22 (by omega) _)
      (loaded_layer arg5 harg5 x4 22 (by omega) _) (loaded_row arg6 harg6 x5 22 (by omega) _)
      (loaded_layer arg7 harg7 x6 22 (by omega) _) (loaded_row arg8 harg8 x7 22 (by omega) _),
    scratch_22 c arg1 harg1 arg2 harg2 arg3 harg3 arg4 harg4 arg5 harg5 arg6 harg6 arg7 harg7 arg8 harg8 arg10 x0 x1 x2 x3 x4 x5 x6 x7]
  exact step_inv (x0 : Cube 512) x1 x2 x3 x4 x5 x6 x7 22 (by omega)

theorem scratch_24 :
    View.canon (@kernelRun0_A.sl.HS0_25 Ideal inferInstance c arg1 harg1 arg2 harg2 arg3 harg3 arg4 harg4 arg5 harg5 arg6 harg6 arg7 harg7 arg8 harg8 arg10 x0 x1 x2 x3 x4 x5 x6 x7) = partialRun (x0 : Cube 512) x1 x2 x3 x4 x5 x6 x7 24 := by
  rw [pieces_25 c arg1 harg1 arg2 harg2 arg3 harg3 arg4 harg4 arg5 harg5 arg6 harg6 arg7 harg7 arg8 harg8 arg10 x0 x1 x2 x3 x4 x5 x6 x7,
    canon_step arg10.view _ 23 21 (by omega) (by omega) _ _ _ x1 _ _ _ _ _ _ x2 x3 x4 x5 x6 x7
      (loaded_input arg2 harg2 x1)
      (loaded_layer arg3 harg3 x2 23 (by omega) _) (loaded_row arg4 harg4 x3 23 (by omega) _)
      (loaded_layer arg5 harg5 x4 23 (by omega) _) (loaded_row arg6 harg6 x5 23 (by omega) _)
      (loaded_layer arg7 harg7 x6 23 (by omega) _) (loaded_row arg8 harg8 x7 23 (by omega) _),
    scratch_23 c arg1 harg1 arg2 harg2 arg3 harg3 arg4 harg4 arg5 harg5 arg6 harg6 arg7 harg7 arg8 harg8 arg10 x0 x1 x2 x3 x4 x5 x6 x7]
  exact step_inv (x0 : Cube 512) x1 x2 x3 x4 x5 x6 x7 23 (by omega)

/-- What the body leaves in the output block: the tree of cells on the block. -/
theorem body_out :
    out0_A_8 (F := Ideal) c i arg1 harg1 arg2 harg2 arg3 harg3 arg4 harg4 arg5 harg5 arg6 harg6 arg7 harg7 arg8 harg8
        arg9 harg9 arg10 harg10 x0 x1 x2 x3 x4 x5 x6 x7
      = G (x0 : Cube 512) x1 x2 x3 x4 x5 x6 x7 := by
  unfold out0_A_8
  rw [View.read_writes_junk_eq_canon]
  have hL : (kernelRun0_A (F := Ideal) c i arg1 harg1 arg2 harg2 arg3 harg3 arg4 harg4 arg5 harg5 arg6 harg6 arg7 harg7
        arg8 harg8 arg9 harg9 arg10 harg10 x0 x1 x2 x3 x4 x5 x6 x7).1
      = [(⟨Rect.unit (s := S512x24x32) ![0, 0, 0] S512x24x32.size inb_S512x24x32_S512x24x32_0_0_0,
          arg10.view.readCov (@kernelRun0_A.sl.HS0_25 Ideal inferInstance c arg1 harg1 arg2 harg2 arg3 harg3 arg4 harg4 arg5 harg5 arg6 harg6 arg7 harg7 arg8 harg8 arg10 x0 x1 x2 x3 x4 x5 x6 x7)
            (Rect.unit (s := S512x24x32) ![0, 0, 0] S512x24x32.size inb_S512x24x32_S512x24x32_0_0_0).toLoadRect⟩ :
          View.Piece (Elt Ideal) S512x24x32 .f32)] := rfl
  rw [hL, View.canon_unit_zero origin3, View.readCov_eq_canon']
  show View.ld (View.canon (@kernelRun0_A.sl.HS0_25 Ideal inferInstance c arg1 harg1 arg2 harg2 arg3 harg3 arg4 harg4 arg5 harg5 arg6 harg6 arg7 harg7 arg8 harg8 arg10 x0 x1 x2 x3 x4 x5 x6 x7))
    (Rect.unit (s := S512x24x32) ![0, 0, 0] S512x24x32.size inb_S512x24x32_S512x24x32_0_0_0) = _
  rw [View.ld_unit_zero origin3, scratch_24 c arg1 harg1 arg2 harg2 arg3 harg3 arg4 harg4 arg5 harg5 arg6 harg6 arg7 harg7 arg8 harg8 arg10 x0 x1 x2 x3 x4 x5 x6 x7, partialRun_all]

end

end PoseGru

end
-- ==== Proof.KernelValue.lean ====
/-
  The kernel's result array: the tree of cells on the whole batch.

  The batch of 32768 rows is cut into 64 blocks of 512 rows; grid point t stages rows 512·t … 512·t + 511 of the hidden
  states and of the input, and the whole weight and bias stacks, and writes its result back to the same rows. What it
  writes is the tree of cells on its block (`body_out`), whose row p is row 512·t + p of the tree of cells on the
  whole batch (`G_row`: a row of the result depends on the same row of the states and the input only). The 64 blocks
  cover the array, so after the run it holds `G` of the argument arrays.
-/
import proofs.«153635_j72524817760644_2_alg».proof.Proof.Gen.KernelIdeal.Value
import proofs.«153635_j72524817760644_2_alg».proof.Proof.KernelPieces

set_option maxRecDepth 16384

noncomputable section

namespace PoseGru

open Cert.KernelIdeal Cert.KernelIdeal.Gen Idealize.ShloMosaic Idealize.ShloMosaic.ValueIdx Idealize.ShloMosaic.TcCoe
open Idealize.SL.Sem
open Idealize.ShloMosaic.Pipeline (Dat)

variable (m : (ℓ : Loc nD τ sig) → Buf (Elt Ideal) ℓ) (ρ : Dev nD → PrngReg)

/-- The result as a function of the argument arrays as the region finds them. -/
def kernelG (c : Dev nD) : Cube 32768 :=
  G (V m c main_arg0 : Cube 32768) (V m c main_arg1) (V m c main_arg2) (V m c main_arg3) (V m c main_arg4)
    (V m c main_arg5) (V m c main_arg6) (V m c main_arg7)

/-- The printed index maps over the 64 grid points: the state, input and result windows move down the rows with the
    point, the weight and bias windows stay at the origin. -/
theorem index_maps : ∀ t : Fin cfg0.N,
    win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 3) = 0 ∧ win0_2.index t (1 : Fin 3) = 0 ∧ win0_2.index t (2 : Fin 3) = 0
    ∧ win0_3.index t (0 : Fin 2) = 0 ∧ win0_3.index t (1 : Fin 2) = 0
    ∧ win0_4.index t (0 : Fin 3) = 0 ∧ win0_4.index t (1 : Fin 3) = 0 ∧ win0_4.index t (2 : Fin 3) = 0
    ∧ win0_5.index t (0 : Fin 2) = 0 ∧ win0_5.index t (1 : Fin 2) = 0
    ∧ win0_6.index t (0 : Fin 3) = 0 ∧ win0_6.index t (1 : Fin 3) = 0 ∧ win0_6.index t (2 : Fin 3) = 0
    ∧ win0_7.index t (0 : Fin 2) = 0 ∧ win0_7.index t (1 : Fin 2) = 0
    ∧ win0_8.index t (0 : Fin 3) = t.val ∧ win0_8.index t (1 : Fin 3) = 0 ∧ win0_8.index t (2 : Fin 3) = 0 :=
  (by decide +kernel : ∀ t : Fin grid0.N, _)

/-- WHAT POINT t WRITES BACK is block t of the result. -/
theorem flushed_eq (c : Dev nD) (t : Fin cfg0.N) :
    (dats m 0 c).flushed 8 t = ((cfg0.win 8).blk t).view.read (Elt Ideal) (kernelG m c) := by
  have hb := body_out c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) (ms0_7 t) (hs0_7 t) (ms0_8 t) (hs0_8 t) scM0_0
    (Memref.isWhole_whole _) (iblk m c 0 t) (iblk m c 1 t) (iblk m c 2 t) (iblk m c 3 t) (iblk m c 4 t) (iblk m c 5 t)
    (iblk m c 6 t) (iblk m c 7 t)
  rw [Cert.KernelIdeal.Value.flushed8_A, hb]
  obtain ⟨a00, a01, a02, a10, a11, a20, a21, a22, a30, a31, a40, a41, a42, a50, a51, a60, a61, a62, a70, a71, a80, a81, a82⟩ :=
    index_maps t
  have e2 : (iblk m c 2 t : Wts) = V m c main_arg2 := by
    funext y
    show V m c main_arg2 (((cfg0.win 2).blk t).view.emb y) = V m c main_arg2 y
    congr 1; funext a; apply Fin.ext
    match a with
    | ⟨0, _⟩ => show win0_2.index t (0 : Fin 3) * 24 + 1 * (y 0).val = (y 0).val; omega
    | ⟨1, _⟩ => show win0_2.index t (1 : Fin 3) * 480 + 1 * (y 1).val = (y 1).val; omega
    | ⟨2, _⟩ => show win0_2.index t (2 : Fin 3) * 32 + 1 * (y 2).val = (y 2).val; omega
  have e4 : (iblk m c 4 t : Wts) = V m c main_arg4 := by
    funext y
    show V m c main_arg4 (((cfg0.win 4).blk t).view.emb y) = V m c main_arg4 y
    congr 1; funext a; apply Fin.ext
    match a with
    | ⟨0, _⟩ => show win0_4.index t (0 : Fin 3) * 24 + 1 * (y 0).val = (y 0).val; omega
    | ⟨1, _⟩ => show win0_4.index t (1 : Fin 3) * 480 + 1 * (y 1).val = (y 1).val; omega
    | ⟨2, _⟩ => show win0_4.index t (2 : Fin 3) * 32 + 1 * (y 2).val = (y 2).val; omega
  have e6 : (iblk m c 6 t : Wts) = V m c main_arg6 := by
    funext y
    show V m c main_arg6 (((cfg0.win 6).blk t).view.emb y) = V m c main_arg6 y
    congr 1; funext a; apply Fin.ext
    match a with
    | ⟨0, _⟩ => show win0_6.index t (0 : Fin 3) * 24 + 1 * (y 0).val = (y 0).val; omega
    | ⟨1, _⟩ => show win0_6.index t (1 : Fin 3) * 480 + 1 * (y 1).val = (y 1).val; omega
    | ⟨2, _⟩ => show win0_6.index t (2 : Fin 3) * 32 + 1 * (y 2).val = (y 2).val; omega
  have e3 : (iblk m c 3 t : Bias) = V m c main_arg3 := by
    funext y
    show V m c main_arg3 (((cfg0.win 3).blk t).view.emb y) = V m c main_arg3 y
    congr 1; funext a; apply Fin.ext
    match a with
    | ⟨0, _⟩ => show win0_3.index t (0 : Fin 2) * 24 + 1 * (y 0).val = (y 0).val; omega
    | ⟨1, _⟩ => show win0_3.index t (1 : Fin 2) * 32 + 1 * (y 1).val = (y 1).val; omega
  have e5 : (iblk m c 5 t : Bias) = V m c main_arg5 := by
    funext y
    show V m c main_arg5 (((cfg0.win 5).blk t).view.emb y) = V m c main_arg5 y
    congr 1; funext a; apply Fin.ext
    match a with
    | ⟨0, _⟩ => show win0_5.index t (0 : Fin 2) * 24 + 1 * (y 0).val = (y 0).val; omega
    | ⟨1, _⟩ => show win0_5.index t (1 : Fin 2) * 32 + 1 * (y 1).val = (y 1).val; omega
  have e7 : (iblk m c 7 t : Bias) = V m c main_arg7 := by
    funext y
    show V m c main_arg7 (((cfg0.win 7).blk t).view.emb y) = V m c main_arg7 y
    congr 1; funext a; apply Fin.ext
    match a with
    | ⟨0, _⟩ => show win0_7.index t (0 : Fin 2) * 24 + 1 * (y 0).val = (y 0).val; omega
    | ⟨1, _⟩ => show win0_7.index t (1 : Fin 2) * 32 + 1 * (y 1).val = (y 1).val; omega
  funext y
  obtain ⟨p, j, l, rfl⟩ : ∃ (p : Fin 512) (j : Fin 24) (l : Fin 32), y = ix3 p j l := ⟨y 0, y 1, y 2, eq_ix3 y⟩
  have ht : t.val < 64 := t.isLt
  have hr : t.val * 512 + p.val < 32768 := by have := p.isLt; omega
  show G (iblk m c 0 t : Cube 512) (iblk m c 1 t) (iblk m c 2 t) (iblk m c 3 t) (iblk m c 4 t) (iblk m c 5 t)
      (iblk m c 6 t) (iblk m c 7 t) (ix3 p j l)
    = kernelG m c (((cfg0.win 8).blk t).view.emb (ix3 p j l))
  have hemb : ((cfg0.win 8).blk t).view.emb (ix3 p j l) = ix3 (⟨t.val * 512 + p.val, hr⟩ : Fin 32768) j l := by
    funext a; apply Fin.ext
    match a with
    | ⟨0, _⟩ => show win0_8.index t (0 : Fin 3) * 512 + 1 * p.val = t.val * 512 + p.val; omega
    | ⟨1, _⟩ => show win0_8.index t (1 : Fin 3) * 24 + 1 * j.val = j.val; omega
    | ⟨2, _⟩ => show win0_8.index t (2 : Fin 3) * 32 + 1 * l.val = l.val; omega
  rw [hemb, e2, e3, e4, e5, e6, e7]
  refine G_row (V m c main_arg0 : Cube 32768) (V m c main_arg1) (iblk m c 0 t : Cube 512) (iblk m c 1 t)
    (V m c main_arg2) (V m c main_arg3) (V m c main_arg4) (V m c main_arg5) (V m c main_arg6) (V m c main_arg7)
    p ⟨t.val * 512 + p.val, hr⟩ (fun j' l' => ?_) (fun k => ?_) j l
  · show V m c main_arg0 (((cfg0.win 0).blk t).view.emb (ix3 p j' l')) = V m c main_arg0 (ix3 (⟨t.val * 512 + p.val, hr⟩ : Fin 32768) j' l')
    congr 1; funext a; apply Fin.ext
    match a with
    | ⟨0, _⟩ => show win0_0.index t (0 : Fin 3) * 512 + 1 * p.val = t.val * 512 + p.val; omega
    | ⟨1, _⟩ => show win0_0.index t (1 : Fin 3) * 24 + 1 * j'.val = j'.val; omega
    | ⟨2, _⟩ => show win0_0.index t (2 : Fin 3) * 32 + 1 * l'.val = l'.val; omega
  · show V m c main_arg1 (((cfg0.win 1).blk t).view.emb (ix2 p k)) = V m c main_arg1 (ix2 (⟨t.val * 512 + p.val, hr⟩ : Fin 32768) k)
    congr 1; funext a; apply Fin.ext
    match a with
    | ⟨0, _⟩ => show win0_1.index t (0 : Fin 2) * 512 + 1 * p.val = t.val * 512 + p.val; omega
    | ⟨1, _⟩ => show win0_1.index t (1 : Fin 2) * 448 + 1 * k.val = k.val; omega

/-- An index of the result array is in point t's block iff each coordinate is in the block's range on its axis. -/
theorem mem_blk (t : Fin cfg0.N) (i : S32768x24x32.Idx) :
    i ∈ ((cfg0.win 8).blk t).view.set ↔ ∀ a : Fin 3, win0_8.index t a * S512x24x32.size a ≤ (i a).val
      ∧ (i a).val < win0_8.index t a * S512x24x32.size a + S512x24x32.size a := by
  show i ∈ ((View.whole main_v0).slice (win0_8.rect t)).set ↔ _
  rw [View.set_slice_whole, Rect.mem_set_unit]
  exact Iff.rfl

/-- Every row lies in the block of the point its number over 512 names. -/
theorem cover (i : S32768x24x32.Idx) :
    ∃ t : Fin cfg0.N, (cfg0.win 8).flush t = true ∧ i ∈ ((cfg0.win 8).blk t).view.set := by
  have hi0 : (i 0).val < 32768 := (i 0).isLt
  have hi1 : (i 1).val < 24 := (i 1).isLt
  have hi2 : (i 2).val < 32 := (i 2).isLt
  have htl : (i 0).val / 512 < 64 := by omega
  refine ⟨(⟨(i 0).val / 512, htl⟩ : Fin cfg0.N), flush0_8 _, ?_⟩
  rw [mem_blk]
  obtain ⟨-, -, -, -, -, -, -, -, -, -, -, -, -, -, -, -, -, -, -, -, a80, a81, a82⟩ :=
    index_maps (⟨(i 0).val / 512, htl⟩ : Fin cfg0.N)
  have a80' : win0_8.index (⟨(i 0).val / 512, htl⟩ : Fin cfg0.N) (0 : Fin 3) = (i 0).val / 512 := a80
  intro a
  match a with
  | ⟨0, _⟩ =>
    show win0_8.index (⟨(i 0).val / 512, htl⟩ : Fin cfg0.N) (0 : Fin 3) * 512 ≤ (i 0).val
      ∧ (i 0).val < win0_8.index (⟨(i 0).val / 512, htl⟩ : Fin cfg0.N) (0 : Fin 3) * 512 + 512
    omega
  | ⟨1, _⟩ =>
    show win0_8.index (⟨(i 0).val / 512, htl⟩ : Fin cfg0.N) (1 : Fin 3) * 24 ≤ (i 1).val
      ∧ (i 1).val < win0_8.index (⟨(i 0).val / 512, htl⟩ : Fin cfg0.N) (1 : Fin 3) * 24 + 24
    omega
  | ⟨2, _⟩ =>
    show win0_8.index (⟨(i 0).val / 512, htl⟩ : Fin cfg0.N) (2 : Fin 3) * 32 ≤ (i 2).val
      ∧ (i 2).val < win0_8.index (⟨(i 0).val / 512, htl⟩ : Fin cfg0.N) (2 : Fin 3) * 32 + 32
    omega

/-- The result array after the run. -/
theorem final (c : Dev nD) : (dats m 0 c).arrAt 8 cfg0.N = kernelG m c :=
  (dats m 0 c).arrAt_eq_of_cover 8 (kernelG m c) (fun t _ => flushed_eq m c t) cover

/-- The run: the result array ends at the tree of cells of the argument arrays, the arguments unchanged. -/
theorem kernel_run : θ_run defs (onTc (τ := τ) (main (F := Ideal))) ⟨m, fun _ => 0, ρ⟩ fun r => ∀ c : Dev nD,
      r.2.mem ((c : Thread nD τ).loc main_v0)
        = G (m ((c : Thread nD τ).loc main_arg0) : Cube 32768) (m ((c : Thread nD τ).loc main_arg1))
            (m ((c : Thread nD τ).loc main_arg2)) (m ((c : Thread nD τ).loc main_arg3)) (m ((c : Thread nD τ).loc main_arg4))
            (m ((c : Thread nD τ).loc main_arg5)) (m ((c : Thread nD τ).loc main_arg6)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩)
    (Cert.KernelIdeal.Value.run_blocks m ρ)

end PoseGru

end
-- ==== Proof.RefCell.lean ====
/-
  One joint's step of the host program, as a function of the arrays it reads, and what it computes over the extended
  reals.

  For every joint the host program slices the joint's weight matrices and bias vectors out of their stacks, joins the
  parent's 32768 × 32 state with the 32768 × 448 input along the columns, and computes the gates with the logistic
  function spelt out as 1 / (1 + exp(-t)). `hostGate` and `hostNew` are those operations in their printed order;
  over the extended reals they are the gate and the cell of `GruCell` on the whole batch (`hostGate_eq`,
  `hostNew_eq`).
-/
import proofs.«153635_j72524817760644_2_alg».proof.Proof.Gen.ReferenceIdeal
import proofs.«153635_j72524817760644_2_alg».proof.Proof.GruTree
import Idealize.ShloMosaic.Lib.IdealHost

noncomputable section

namespace PoseGru

open Cert.ReferenceIdeal Cert.ReferenceIdeal.Gen Idealize.ShloMosaic Idealize.ShloMosaic.ValueIdx
open Cert.MatrixProduct Cert.Gcn Cert.Stack

/-- The constant one spread over a 32768 × 32 array, as the host program writes it. -/
abbrev hostOnes : FVec Ideal S32768x32 .f32 :=
  broadcastInDim S32768x32 ![] bcast_S_S32768x32 (constant S_ .f32 0x3F800000#32)

/-- A joint's linear stage in the host's spelling: the joined array times the g-th weight matrix plus the g-th bias. -/
abbrev hostLinear (HX : FVec Ideal S32768x480 .f32) (W : FVec Ideal S24x480x32 .f32) (B : FVec Ideal S24x32 .f32) (g : ℕ)
    (hs3 : S24x480x32.Slices ![g, 0, 0] S1x480x32) (hs2 : S24x32.Slices ![g, 0] S1x32) : FVec Ideal S32768x32 .f32 :=
  addf (Host.dotGeneral dot_S32768x480_S480x32_S32768x32_1_0_0_1_n_n none HX
      (shapeCast _ (extractStridedSlice S1x480x32 ![g, 0, 0] W hs3) shapeCasts_S1x480x32_S480x32))
    (broadcastInDim S32768x32 ![0, 1] bcast_S1x32_S32768x32_0_1 (broadcastInDim S1x32 ![1] bcast_S32_S1x32_1
      (shapeCast _ (extractStridedSlice S1x32 ![g, 0] B hs2) shapeCasts_S1x32_S32)))

/-- A gate in the host's spelling: 1 / (1 + exp(-(linear stage))). -/
abbrev hostGate (HX : FVec Ideal S32768x480 .f32) (W : FVec Ideal S24x480x32 .f32) (B : FVec Ideal S24x32 .f32) (g : ℕ)
    (hs3 : S24x480x32.Slices ![g, 0, 0] S1x480x32) (hs2 : S24x32.Slices ![g, 0] S1x32) : FVec Ideal S32768x32 .f32 :=
  Host.divf hostOnes (addf hostOnes (Host.exp (Host.negf (hostLinear HX W B g hs3 hs2))))

/-- A joint's new state in the host's spelling, from the parent's state H, the input X, the joined array HX and the
    update gate Z. -/
abbrev hostNew (H : FVec Ideal S32768x32 .f32) (X : FVec Ideal S32768x448 .f32) (HX : FVec Ideal S32768x480 .f32)
    (Z : FVec Ideal S32768x32 .f32) (Wr : FVec Ideal S24x480x32 .f32) (Br : FVec Ideal S24x32 .f32)
    (Wq : FVec Ideal S24x480x32 .f32) (Bq : FVec Ideal S24x32 .f32) (g : ℕ)
    (hs3 : S24x480x32.Slices ![g, 0, 0] S1x480x32) (hs2 : S24x32.Slices ![g, 0] S1x32) : FVec Ideal S32768x32 .f32 :=
  addf (mulf (subf hostOnes Z) H) (mulf Z (Host.tanh (hostLinear
    (concatenate S32768x480 1 [⟨S32768x32, mulf (hostGate HX Wr Br g hs3 hs2) H⟩, ⟨S32768x448, X⟩]
      concatenates_S32768x32_S32768x448_S32768x480_d1) Wq Bq g hs3 hs2)))

theorem hostOnes_apply (i : S32768x32.Idx) : hostOnes i = 1 := by
  show broadcastInDim S32768x32 ![] bcast_S_S32768x32 (constant (F := Ideal) S_ .f32 0x3F800000#32) i = 1
  rw [broadcastInDim_scalar_apply]
  exact Ideal.ofBits_one_f32

/-- The host's linear stage is the product with the g-th layer plus the g-th bias row. -/
theorem hostLinear_eq (HX : FVec Ideal S32768x480 .f32) (W : FVec Ideal S24x480x32 .f32) (B : FVec Ideal S24x32 .f32)
    (g : ℕ) (hg : g < 24) (hs3 : S24x480x32.Slices ![g, 0, 0] S1x480x32) (hs2 : S24x32.Slices ![g, 0] S1x32) :
    hostLinear HX W B g hs3 hs2 = biasedProduct (HX : Mat 32768 480) (layer ⟨g, hg⟩ (W : Wts)) (biasRow ⟨g, hg⟩ (B : Bias)) := by
  have hd : (dot_S32768x480_S480x32_S32768x32_1_0_0_1_n_n : DotDims S32768x480 S480x32 S32768x32)
      = ⟨[1], [0], [0], [1], [], [], dot_S32768x480_S480x32_S32768x32_1_0_0_1_n_n_wf⟩ := rfl
  show addf (Host.dotGeneral dot_S32768x480_S480x32_S32768x32_1_0_0_1_n_n none HX
      (shapeCast S480x32 (extractStridedSlice S1x480x32 ![g, 0, 0] W hs3) shapeCasts_S1x480x32_S480x32))
    (broadcastInDim S32768x32 ![0, 1] bcast_S1x32_S32768x32_0_1 (broadcastInDim S1x32 ![1] bcast_S32_S1x32_1
      (shapeCast S32 (extractStridedSlice S1x32 ![g, 0] B hs2) shapeCasts_S1x32_S32))) = _
  rw [slice_layer (W : Wts) g hg hs3 shapeCasts_S1x480x32_S480x32, bcast_row_eq_rowOf,
    slice_biasRow (B : Bias) g hg hs2 shapeCasts_S1x32_S32, hd]
  exact host_linear dot_S32768x480_S480x32_S32768x32_1_0_0_1_n_n_wf bcast_S1x32_S32768x32_0_1 HX _ _

/-- The host's gate is the gate of the cell. -/
theorem hostGate_eq (H : FVec Ideal S32768x32 .f32) (X : FVec Ideal S32768x448 .f32)
    (W : FVec Ideal S24x480x32 .f32) (B : FVec Ideal S24x32 .f32)
    (g : ℕ) (hg : g < 24) (hs3 : S24x480x32.Slices ![g, 0, 0] S1x480x32) (hs2 : S24x32.Slices ![g, 0] S1x32) :
    hostGate (concatenate S32768x480 1 [⟨S32768x32, H⟩, ⟨S32768x448, X⟩] concatenates_S32768x32_S32768x448_S32768x480_d1)
        W B g hs3 hs2
      = gate (H : Mat 32768 32) X (layer ⟨g, hg⟩ (W : Wts)) (biasRow ⟨g, hg⟩ (B : Bias)) := by
  funext i
  show Ideal.div (hostOnes i) (hostOnes i + Ideal.exp (-(hostLinear _ W B g hs3 hs2 i))) = _
  rw [hostOnes_apply, hostLinear_eq _ W B g hg hs3 hs2, concat_eq_joined (H : Mat 32768 32) X]
  rfl

/-- The host's new state is the joint's cell of the parent's state. -/
theorem hostNew_eq (H : FVec Ideal S32768x32 .f32) (X : FVec Ideal S32768x448 .f32) (HX : FVec Ideal S32768x480 .f32)
    (Z : FVec Ideal S32768x32 .f32) (Wz : FVec Ideal S24x480x32 .f32) (Bz : FVec Ideal S24x32 .f32)
    (Wr : FVec Ideal S24x480x32 .f32) (Br : FVec Ideal S24x32 .f32)
    (Wq : FVec Ideal S24x480x32 .f32) (Bq : FVec Ideal S24x32 .f32) (g : ℕ) (hg : g < 24)
    (hs3 : S24x480x32.Slices ![g, 0, 0] S1x480x32) (hs2 : S24x32.Slices ![g, 0] S1x32)
    (hHX : HX = concatenate S32768x480 1 [⟨S32768x32, H⟩, ⟨S32768x448, X⟩] concatenates_S32768x32_S32768x448_S32768x480_d1)
    (hZ : Z = hostGate HX Wz Bz g hs3 hs2) :
    hostNew H X HX Z Wr Br Wq Bq g hs3 hs2
      = jcell (X : Mat 32768 448) (Wz : Wts) (Bz : Bias) (Wr : Wts) (Br : Bias) (Wq : Wts) (Bq : Bias) ⟨g, hg⟩ (H : Mat 32768 32) := by
  subst hZ
  subst hHX
  funext i
  show (hostOnes i - hostGate _ Wz Bz g hs3 hs2 i) * H i
      + hostGate _ Wz Bz g hs3 hs2 i * Ideal.tanh (hostLinear _ Wq Bq g hs3 hs2 i) = _
  rw [hostOnes_apply, hostGate_eq H X Wz Bz g hg hs3 hs2, hostGate_eq H X Wr Br g hg hs3 hs2,
    hostLinear_eq _ Wq Bq g hg hs3 hs2]
  have hj : concatenate S32768x480 1 [⟨S32768x32, mulf (gate (H : Mat 32768 32) X (layer ⟨g, hg⟩ (Wr : Wts)) (biasRow ⟨g, hg⟩ (Br : Bias))) H⟩,
        ⟨S32768x448, X⟩] concatenates_S32768x32_S32768x448_S32768x480_d1
      = joined (fun j => gate (H : Mat 32768 32) X (layer ⟨g, hg⟩ (Wr : Wts)) (biasRow ⟨g, hg⟩ (Br : Bias)) j * H j) X :=
    concat_eq_joined _ X _
  rw [hj]
  rfl

end PoseGru

end
-- ==== Proof.LibMiddleStack.lean ====
/-
  Arrays stacked along a new middle axis, read at an index.

  A program that stacks N arrays of shape [a, c] into one of shape [a, N, c] gives each a unit middle axis (a broadcast
  along the outer and inner axes) and concatenates the [a, 1, c] pieces along the middle axis — possibly in several
  concatenations, of pieces of several extents. Entry (i, j, k) of the stack is entry (i, k) of the j-th array:
    * `expand_mid_apply`: an [a, c] array broadcast to [a, 1, c] along the axes [0, 2] reads, at (i, u, k), the array at
      (i, k);
    * `concat_mid_piece`: a concatenation of rank-3 pieces along the middle axis, read at (i, q', k) with q' inside the
      k-th piece — q' = (the extents of the pieces before it) + q —, reads that piece at (i, q, k).
-/
import Idealize.ShloMosaic.Lib.Pipeline.Value
import Idealize.ShloMosaic.Lib.ValueIdx

namespace Idealize.ShloMosaic.ValueIdx

open Idealize.ShloMosaic

variable {α : Type}

/-- An `[a, c]` array given a unit middle axis by a broadcast along the axes `[0, 2]` reads, at `(i, u, k)`, the array at
    `(i, k)`. -/
theorem expand_mid_apply {a c : ℕ} (x : (⟨2, ![a, c]⟩ : Shape).Idx → α)
    (h : (⟨2, ![a, c]⟩ : Shape).BroadcastsInDim ⟨3, ![a, 1, c]⟩ (![0, 2] : Fin 2 → Fin 3))
    (i : Fin a) (u : Fin 1) (k : Fin c) :
    broadcastInDim ⟨3, ![a, 1, c]⟩ (![0, 2] : Fin 2 → Fin 3) h x (ix3 i u k) = x (ix2 i k) := by
  refine broadcastInDim_apply _ h x (ix3 i u k) (ix2 i k) (fun ax => ?_)
  match ax with
  | ⟨0, _⟩ =>
    show i.val = if a = 1 then 0 else i.val
    split
    · have := i.isLt; omega
    · rfl
  | ⟨1, _⟩ =>
    show k.val = if c = 1 then 0 else k.val
    split
    · have := k.isLt; omega
    · rfl

/-- A concatenation of rank-3 pieces along the middle axis, read inside its `k`-th piece: with `pre` the sum of the
    middle extents of the pieces before it, index `(i, pre + q, l)` of the whole reads index `(i, q, l)` of the piece. -/
theorem concat_mid_piece {M K T c : ℕ} (xs : List ((s : Shape) × (s.Idx → α)))
    (h : Shape.Concatenates (xs.map (·.1)) ⟨3, ![M, T, c]⟩ 1) (k : ℕ) (hk : k < xs.length)
    (x₁ : (⟨3, ![M, K, c]⟩ : Shape).Idx → α) (hxk : xs[k] = ⟨⟨3, ![M, K, c]⟩, x₁⟩) (pre : ℕ)
    (hpre : (((xs.take k).map (·.1)).map fun s =>
      if h : s.rank = (⟨3, ![M, T, c]⟩ : Shape).rank then s.size ((1 : Fin 3).cast h.symm) else 0).sum = pre)
    (i : Fin M) (q : Fin K) (q' : Fin T) (hq : q'.val = pre + q.val) (l : Fin c) :
    concatenate ⟨3, ![M, T, c]⟩ 1 xs h (ix3 i q' l) = x₁ (ix3 i q l) :=
  concatenate_apply_piece 1 xs h (ix3 i q' l) k hk _ x₁ hxk rfl pre hpre (ix3 i q l)
    (fun ax hne => by
      match ax, hne with
      | ⟨0, _⟩, _ => rfl
      | ⟨1, _⟩, hne => exact absurd rfl hne
      | ⟨2, _⟩, _ => rfl)
    (by show pre + q.val = q'.val; omega)

end Idealize.ShloMosaic.ValueIdx
-- ==== Proof.RefTree.lean ====
/-
  The host program's result: the tree of cells on the whole batch.

  The host program computes the joints in order. For joint j it joins the NEW state of j's parent (for the root, column 0
  of the old states) with the input, computes the update gate, and from them the joint's new state: the joint's cell of
  its parent's new state (`hostNew_eq`), which is the new state `H j` of the tree (`ref_new_j`, in the order of the
  joints, each from its parent's). At the end it stacks the 24 new states along a new middle axis — sixteen of them, then
  eight, then the two stacks — which is the array `G` whose column j is `H j` (`ref_result`).
-/
import proofs.«153635_j72524817760644_2_alg».proof.Proof.RefRunPatched
import proofs.«153635_j72524817760644_2_alg».proof.Proof.RefCell
import proofs.«153635_j72524817760644_2_alg».proof.Proof.LibFlattenCasts
import proofs.«153635_j72524817760644_2_alg».proof.Proof.LibMiddleStack

set_option maxRecDepth 16384

noncomputable section

namespace PoseGru

open Cert.ReferenceIdeal Cert.ReferenceIdeal.Gen Cert.ReferenceIdeal.ValueP Idealize.ShloMosaic Idealize.ShloMosaic.ValueIdx
open Idealize.ShloMosaic.TcCoe Idealize.SL.Sem Idealize.ShloMosaic.StableHlo Cert.Stack

/-- The argument arrays as the host program's run finds them. -/
abbrev refA (V0 : Valuation τ sig (Elt Ideal)) : Cube 32768 := V0 (Proc.devRef .tc main_arg0)
abbrev refX (V0 : Valuation τ sig (Elt Ideal)) : Mat 32768 448 := V0 (Proc.devRef .tc main_arg1)
abbrev refWz (V0 : Valuation τ sig (Elt Ideal)) : Wts := V0 (Proc.devRef .tc main_arg2)
abbrev refBz (V0 : Valuation τ sig (Elt Ideal)) : Bias := V0 (Proc.devRef .tc main_arg3)
abbrev refWr (V0 : Valuation τ sig (Elt Ideal)) : Wts := V0 (Proc.devRef .tc main_arg4)
abbrev refBr (V0 : Valuation τ sig (Elt Ideal)) : Bias := V0 (Proc.devRef .tc main_arg5)
abbrev refWq (V0 : Valuation τ sig (Elt Ideal)) : Wts := V0 (Proc.devRef .tc main_arg6)
abbrev refBq (V0 : Valuation τ sig (Elt Ideal)) : Bias := V0 (Proc.devRef .tc main_arg7)

/-- The new state of joint j over the host program's argument arrays. -/
abbrev refH (V0 : Valuation τ sig (Elt Ideal)) (j : Fin 24) : Mat 32768 32 :=
  H (refA V0) (refX V0) (refWz V0) (refBz V0) (refWr V0) (refBr V0) (refWq V0) (refBq V0) j

variable (V0 : Valuation τ sig (Elt Ideal))

/-- The root's source: the slice of column 0 of the old states, its unit axis dropped. -/
theorem ref_root : res_main_v49 V0 = col (refA V0) ⟨0, by omega⟩ := by
  funext i
  obtain ⟨b, l, rfl⟩ : ∃ (b : Fin 32768) (l : Fin 32), i = ix2 b l := ⟨i 0, i 1, eq_ix2 i⟩
  show shapeCast S32768x32 (extractStridedSlice S32768x1x32 ![0, 0, 0] (refA V0) slices_S32768x24x32_S32768x1x32_0_0_0)
      shapeCasts_S32768x1x32_S32768x32 (ix2 b l) = refA V0 (ix3 b ⟨0, by omega⟩ l)
  rw [shapeCast_a1b_ab_apply]
  refine extractStridedSlice_apply _ (refA V0) slices_S32768x24x32_S32768x1x32_0_0_0 _ (ix3 b ⟨0, by omega⟩ l) (fun ax => ?_)
  match ax with
  | ⟨0, _⟩ => show b.val = 0 + b.val; omega
  | ⟨1, _⟩ => show (0 : ℕ) = 0 + 0; omega
  | ⟨2, _⟩ => show l.val = 0 + l.val; omega

/-! ### Each joint's new state, from its parent's -/

theorem ref_new_0 : res_main_v94 V0 = refH V0 ⟨0, by omega⟩ :=
  (hostNew_eq (res_main_v49 V0) (refX V0) (res_main_v62 V0) (res_main_v72 V0) (refWz V0) (refBz V0) (refWr V0) (refBr V0) (refWq V0) (refBq V0)
    0 (by omega) slices_S24x480x32_S1x480x32_0_0_0 slices_S24x32_S1x32_0_0 rfl rfl).trans
    (by rw [ref_root V0]; exact (H_root (refA V0) (refX V0) (refWz V0) (refBz V0) (refWr V0) (refBr V0) (refWq V0) (refBq V0) ⟨0, by omega⟩ rfl).symm)

theorem ref_new_1 : res_main_v139 V0 = refH V0 ⟨1, by omega⟩ :=
  (hostNew_eq (res_main_v94 V0) (refX V0) (res_main_v107 V0) (res_main_v117 V0) (refWz V0) (refBz V0) (refWr V0) (refBr V0) (refWq V0) (refBq V0)
    1 (by omega) slices_S24x480x32_S1x480x32_1_0_0 slices_S24x32_S1x32_1_0 rfl rfl).trans
    (by rw [ref_new_0 V0]; exact (H_child (refA V0) (refX V0) (refWz V0) (refBz V0) (refWr V0) (refBr V0) (refWq V0) (refBq V0) ⟨1, by omega⟩ (by decide)).symm)

theorem ref_new_2 : res_main_v184 V0 = refH V0 ⟨2, by omega⟩ :=
  (hostNew_eq (res_main_v94 V0) (refX V0) (res_main_v152 V0) (res_main_v162 V0) (refWz V0) (refBz V0) (refWr V0) (refBr V0) (refWq V0) (refBq V0)
    2 (by omega) slices_S24x480x32_S1x480x32_2_0_0 slices_S24x32_S1x32_2_0 rfl rfl).trans
    (by rw [ref_new_0 V0]; exact (H_child (refA V0) (refX V0) (refWz V0) (refBz V0) (refWr V0) (refBr V0) (refWq V0) (refBq V0) ⟨2, by omega⟩ (by decide)).symm)

theorem ref_new_3 : res_main_v229 V0 = refH V0 ⟨3, by omega⟩ :=
  (hostNew_eq (res_main_v94 V0) (refX V0) (res_main_v197 V0) (res_main_v207 V0) (refWz V0) (refBz V0) (refWr V0) (refBr V0) (refWq V0) (refBq V0)
    3 (by omega) slices_S24x480x32_S1x480x32_3_0_0 slices_S24x32_S1x32_3_0 rfl rfl).trans
    (by rw [ref_new_0 V0]; exact (H_child (refA V0) (refX V0) (refWz V0) (refBz V0) (refWr V0) (refBr V0) (refWq V0) (refBq V0) ⟨3, by omega⟩ (by decide)).symm)

theorem ref_new_4 : res_main_v274 V0 = refH V0 ⟨4, by omega⟩ :=
  (hostNew_eq (res_main_v139 V0) (refX V0) (res_main_v242 V0) (res_main_v252 V0) (refWz V0) (refBz V0) (refWr V0) (refBr V0) (refWq V0) (refBq V0)
    4 (by omega) slices_S24x480x32_S1x480x32_4_0_0 slices_S24x32_S1x32_4_0 rfl rfl).trans
    (by rw [ref_new_1 V0]; exact (H_child (refA V0) (refX V0) (refWz V0) (refBz V0) (refWr V0) (refBr V0) (refWq V0) (refBq V0) ⟨4, by omega⟩ (by decide)).symm)

theorem ref_new_5 : res_main_v319 V0 = refH V0 ⟨5, by omega⟩ :=
  (hostNew_eq (res_main_v184 V0) (refX V0) (res_main_v287 V0) (res_main_v297 V0) (refWz V0) (refBz V0) (refWr V0) (refBr V0) (refWq V0) (refBq V0)
    5 (by omega) slices_S24x480x32_S1x480x32_5_0_0 slices_S24x32_S1x32_5_0 rfl rfl).trans
    (by rw [ref_new_2 V0]; exact (H_child (refA V0) (refX V0) (refWz V0) (refBz V0) (refWr V0) (refBr V0) (refWq V0) (refBq V0) ⟨5, by omega⟩ (by decide)).symm)

theorem ref_new_6 : res_main_v364 V0 = refH V0 ⟨6, by omega⟩ :=
  (hostNew_eq (res_main_v229 V0) (refX V0) (res_main_v332 V0) (res_main_v342 V0) (refWz V0) (refBz V0) (refWr V0) (refBr V0) (refWq V0) (refBq V0)
    6 (by omega) slices_S24x480x32_S1x480x32_6_0_0 slices_S24x32_S1x32_6_0 rfl rfl).trans
    (by rw [ref_new_3 V0]; exact (H_child (refA V0) (refX V0) (refWz V0) (refBz V0) (refWr V0) (refBr V0) (refWq V0) (refBq V0) ⟨6, by omega⟩ (by decide)).symm)

theorem ref_new_7 : res_main_v409 V0 = refH V0 ⟨7, by omega⟩ :=
  (hostNew_eq (res_main_v274 V0) (refX V0) (res_main_v377 V0) (res_main_v387 V0) (refWz V0) (refBz V0) (refWr V0) (refBr V0) (refWq V0) (refBq V0)
    7 (by omega) slices_S24x480x32_S1x480x32_7_0_0 slices_S24x32_S1x32_7_0 rfl rfl).trans
    (by rw [ref_new_4 V0]; exact (H_child (refA V0) (refX V0) (refWz V0) (refBz V0) (refWr V0) (refBr V0) (refWq V0) (refBq V0) ⟨7, by omega⟩ (by decide)).symm)

theorem ref_new_8 : res_main_v454 V0 = refH V0 ⟨8, by omega⟩ :=
  (hostNew_eq (res_main_v319 V0) (refX V0) (res_main_v422 V0) (res_main_v432 V0) (refWz V0) (refBz V0) (refWr V0) (refBr V0) (refWq V0) (refBq V0)
    8 (by omega) slices_S24x480x32_S1x480x32_8_0_0 slices_S24x32_S1x32_8_0 rfl rfl).trans
    (by rw [ref_new_5 V0]; exact (H_child (refA V0) (refX V0) (refWz V0) (refBz V0) (refWr V0) (refBr V0) (refWq V0) (refBq V0) ⟨8, by omega⟩ (by decide)).symm)

theorem ref_new_9 : res_main_v499 V0 = refH V0 ⟨9, by omega⟩ :=
  (hostNew_eq (res_main_v364 V0) (refX V0) (res_main_v467 V0) (res_main_v477 V0) (refWz V0) (refBz V0) (refWr V0) (refBr V0) (refWq V0) (refBq V0)
    9 (by omega) slices_S24x480x32_S1x480x32_9_0_0 slices_S24x32_S1x32_9_0 rfl rfl).trans
    (by rw [ref_new_6 V0]; exact (H_child (refA V0) (refX V0) (refWz V0) (refBz V0) (refWr V0) (refBr V0) (refWq V0) (refBq V0) ⟨9, by omega⟩ (by decide)).symm)

theorem ref_new_10 : hostNew (res_main_v409 V0) (refX V0) (res_main_v512 V0) (res_main_v522 V0) (refWr V0) (refBr V0) (refWq V0) (refBq V0) 10 slices_S24x480x32_S1x480x32_10_0_0 slices_S24x32_S1x32_10_0 = refH V0 ⟨10, by omega⟩ :=
  (hostNew_eq (res_main_v409 V0) (refX V0) (res_main_v512 V0) (res_main_v522 V0) (refWz V0) (refBz V0) (refWr V0) (refBr V0) (refWq V0) (refBq V0)
    10 (by omega) slices_S24x480x32_S1x480x32_10_0_0 slices_S24x32_S1x32_10_0 rfl rfl).trans
    (by rw [ref_new_7 V0]; exact (H_child (refA V0) (refX V0) (refWz V0) (refBz V0) (refWr V0) (refBr V0) (refWq V0) (refBq V0) ⟨10, by omega⟩ (by decide)).symm)

theorem ref_new_11 : hostNew (res_main_v454 V0) (refX V0) (res_main_v557 V0) (res_main_v567 V0) (refWr V0) (refBr V0) (refWq V0) (refBq V0) 11 slices_S24x480x32_S1x480x32_11_0_0 slices_S24x32_S1x32_11_0 = refH V0 ⟨11, by omega⟩ :=
  (hostNew_eq (res_main_v454 V0) (refX V0) (res_main_v557 V0) (res_main_v567 V0) (refWz V0) (refBz V0) (refWr V0) (refBr V0) (refWq V0) (refBq V0)
    11 (by omega) slices_S24x480x32_S1x480x32_11_0_0 slices_S24x32_S1x32_11_0 rfl rfl).trans
    (by rw [ref_new_8 V0]; exact (H_child (refA V0) (refX V0) (refWz V0) (refBz V0) (refWr V0) (refBr V0) (refWq V0) (refBq V0) ⟨11, by omega⟩ (by decide)).symm)

theorem ref_new_12 : res_main_v634 V0 = refH V0 ⟨12, by omega⟩ :=
  (hostNew_eq (res_main_v499 V0) (refX V0) (res_main_v602 V0) (res_main_v612 V0) (refWz V0) (refBz V0) (refWr V0) (refBr V0) (refWq V0) (refBq V0)
    12 (by omega) slices_S24x480x32_S1x480x32_12_0_0 slices_S24x32_S1x32_12_0 rfl rfl).trans
    (by rw [ref_new_9 V0]; exact (H_child (refA V0) (refX V0) (refWz V0) (refBz V0) (refWr V0) (refBr V0) (refWq V0) (refBq V0) ⟨12, by omega⟩ (by decide)).symm)

theorem ref_new_13 : res_main_v679 V0 = refH V0 ⟨13, by omega⟩ :=
  (hostNew_eq (res_main_v499 V0) (refX V0) (res_main_v647 V0) (res_main_v657 V0) (refWz V0) (refBz V0) (refWr V0) (refBr V0) (refWq V0) (refBq V0)
    13 (by omega) slices_S24x480x32_S1x480x32_13_0_0 slices_S24x32_S1x32_13_0 rfl rfl).trans
    (by rw [ref_new_9 V0]; exact (H_child (refA V0) (refX V0) (refWz V0) (refBz V0) (refWr V0) (refBr V0) (refWq V0) (refBq V0) ⟨13, by omega⟩ (by decide)).symm)

theorem ref_new_14 : res_main_v724 V0 = refH V0 ⟨14, by omega⟩ :=
  (hostNew_eq (res_main_v499 V0) (refX V0) (res_main_v692 V0) (res_main_v702 V0) (refWz V0) (refBz V0) (refWr V0) (refBr V0) (refWq V0) (refBq V0)
    14 (by omega) slices_S24x480x32_S1x480x32_14_0_0 slices_S24x32_S1x32_14_0 rfl rfl).trans
    (by rw [ref_new_9 V0]; exact (H_child (refA V0) (refX V0) (refWz V0) (refBz V0) (refWr V0) (refBr V0) (refWq V0) (refBq V0) ⟨14, by omega⟩ (by decide)).symm)

theorem ref_new_15 : hostNew (res_main_v634 V0) (refX V0) (res_main_v737 V0) (res_main_v747 V0) (refWr V0) (refBr V0) (refWq V0) (refBq V0) 15 slices_S24x480x32_S1x480x32_15_0_0 slices_S24x32_S1x32_15_0 = refH V0 ⟨15, by omega⟩ :=
  (hostNew_eq (res_main_v634 V0) (refX V0) (res_main_v737 V0) (res_main_v747 V0) (refWz V0) (refBz V0) (refWr V0) (refBr V0) (refWq V0) (refBq V0)
    15 (by omega) slices_S24x480x32_S1x480x32_15_0_0 slices_S24x32_S1x32_15_0 rfl rfl).trans
    (by rw [ref_new_12 V0]; exact (H_child (refA V0) (refX V0) (refWz V0) (refBz V0) (refWr V0) (refBr V0) (refWq V0) (refBq V0) ⟨15, by omega⟩ (by decide)).symm)

theorem ref_new_16 : res_main_v814 V0 = refH V0 ⟨16, by omega⟩ :=
  (hostNew_eq (res_main_v679 V0) (refX V0) (res_main_v782 V0) (res_main_v792 V0) (refWz V0) (refBz V0) (refWr V0) (refBr V0) (refWq V0) (refBq V0)
    16 (by omega) slices_S24x480x32_S1x480x32_16_0_0 slices_S24x32_S1x32_16_0 rfl rfl).trans
    (by rw [ref_new_13 V0]; exact (H_child (refA V0) (refX V0) (refWz V0) (refBz V0) (refWr V0) (refBr V0) (refWq V0) (refBq V0) ⟨16, by omega⟩ (by decide)).symm)

theorem ref_new_17 : res_main_v859 V0 = refH V0 ⟨17, by omega⟩ :=
  (hostNew_eq (res_main_v724 V0) (refX V0) (res_main_v827 V0) (res_main_v837 V0) (refWz V0) (refBz V0) (refWr V0) (refBr V0) (refWq V0) (refBq V0)
    17 (by omega) slices_S24x480x32_S1x480x32_17_0_0 slices_S24x32_S1x32_17_0 rfl rfl).trans
    (by rw [ref_new_14 V0]; exact (H_child (refA V0) (refX V0) (refWz V0) (refBz V0) (refWr V0) (refBr V0) (refWq V0) (refBq V0) ⟨17, by omega⟩ (by decide)).symm)

theorem ref_new_18 : res_main_v904 V0 = refH V0 ⟨18, by omega⟩ :=
  (hostNew_eq (res_main_v814 V0) (refX V0) (res_main_v872 V0) (res_main_v882 V0) (refWz V0) (refBz V0) (refWr V0) (refBr V0) (refWq V0) (refBq V0)
    18 (by omega) slices_S24x480x32_S1x480x32_18_0_0 slices_S24x32_S1x32_18_0 rfl rfl).trans
    (by rw [ref_new_16 V0]; exact (H_child (refA V0) (refX V0) (refWz V0) (refBz V0) (refWr V0) (refBr V0) (refWq V0) (refBq V0) ⟨18, by omega⟩ (by decide)).symm)

theorem ref_new_19 : res_main_v949 V0 = refH V0 ⟨19, by omega⟩ :=
  (hostNew_eq (res_main_v859 V0) (refX V0) (res_main_v917 V0) (res_main_v927 V0) (refWz V0) (refBz V0) (refWr V0) (refBr V0) (refWq V0) (refBq V0)
    19 (by omega) slices_S24x480x32_S1x480x32_19_0_0 slices_S24x32_S1x32_19_0 rfl rfl).trans
    (by rw [ref_new_17 V0]; exact (H_child (refA V0) (refX V0) (refWz V0) (refBz V0) (refWr V0) (refBr V0) (refWq V0) (refBq V0) ⟨19, by omega⟩ (by decide)).symm)

theorem ref_new_20 : res_main_v994 V0 = refH V0 ⟨20, by omega⟩ :=
  (hostNew_eq (res_main_v904 V0) (refX V0) (res_main_v962 V0) (res_main_v972 V0) (refWz V0) (refBz V0) (refWr V0) (refBr V0) (refWq V0) (refBq V0)
    20 (by omega) slices_S24x480x32_S1x480x32_20_0_0 slices_S24x32_S1x32_20_0 rfl rfl).trans
    (by rw [ref_new_18 V0]; exact (H_child (refA V0) (refX V0) (refWz V0) (refBz V0) (refWr V0) (refBr V0) (refWq V0) (refBq V0) ⟨20, by omega⟩ (by decide)).symm)

theorem ref_new_21 : res_main_v1039 V0 = refH V0 ⟨21, by omega⟩ :=
  (hostNew_eq (res_main_v949 V0) (refX V0) (res_main_v1007 V0) (res_main_v1017 V0) (refWz V0) (refBz V0) (refWr V0) (refBr V0) (refWq V0) (refBq V0)
    21 (by omega) slices_S24x480x32_S1x480x32_21_0_0 slices_S24x32_S1x32_21_0 rfl rfl).trans
    (by rw [ref_new_19 V0]; exact (H_child (refA V0) (refX V0) (refWz V0) (refBz V0) (refWr V0) (refBr V0) (refWq V0) (refBq V0) ⟨21, by omega⟩ (by decide)).symm)

theorem ref_new_22 : hostNew (res_main_v994 V0) (refX V0) (res_main_v1052 V0) (res_main_v1062 V0) (refWr V0) (refBr V0) (refWq V0) (refBq V0) 22 slices_S24x480x32_S1x480x32_22_0_0 slices_S24x32_S1x32_22_0 = refH V0 ⟨22, by omega⟩ :=
  (hostNew_eq (res_main_v994 V0) (refX V0) (res_main_v1052 V0) (res_main_v1062 V0) (refWz V0) (refBz V0) (refWr V0) (refBr V0) (refWq V0) (refBq V0)
    22 (by omega) slices_S24x480x32_S1x480x32_22_0_0 slices_S24x32_S1x32_22_0 rfl rfl).trans
    (by rw [ref_new_20 V0]; exact (H_child (refA V0) (refX V0) (refWz V0) (refBz V0) (refWr V0) (refBr V0) (refWq V0) (refBq V0) ⟨22, by omega⟩ (by decide)).symm)

theorem ref_new_23 : hostNew (res_main_v1039 V0) (refX V0) (res_main_v1097 V0) (res_main_v1107 V0) (refWr V0) (refBr V0) (refWq V0) (refBq V0) 23 slices_S24x480x32_S1x480x32_23_0_0 slices_S24x32_S1x32_23_0 = refH V0 ⟨23, by omega⟩ :=
  (hostNew_eq (res_main_v1039 V0) (refX V0) (res_main_v1097 V0) (res_main_v1107 V0) (refWz V0) (refBz V0) (refWr V0) (refBr V0) (refWq V0) (refBq V0)
    23 (by omega) slices_S24x480x32_S1x480x32_23_0_0 slices_S24x32_S1x32_23_0 rfl rfl).trans
    (by rw [ref_new_21 V0]; exact (H_child (refA V0) (refX V0) (refWz V0) (refBz V0) (refWr V0) (refBr V0) (refWq V0) (refBq V0) ⟨23, by omega⟩ (by decide)).symm)

/-! ### The final stack read in each of its 24 columns -/

theorem stack_0 (b : Fin 32768) (l : Fin 32) :
    res_main_v1156 V0 (ix3 b (⟨0, by omega⟩ : Fin 24) l) = refH V0 ⟨0, by omega⟩ (ix2 b l) := by
  refine (concat_mid_piece _ _ 0 (by show (0 : ℕ) < 2; omega) (res_main_v1154 V0) rfl 0 rfl b (⟨0, by omega⟩ : Fin 16) ⟨0, by omega⟩ (by simp) l).trans ?_
  refine (concat_mid_piece _ _ 0 (by show (0 : ℕ) < 16; omega) _ rfl 0 rfl b (0 : Fin 1) (⟨0, by omega⟩ : Fin 16) (by simp) l).trans ?_
  rw [expand_mid_apply]
  exact congrFun (ref_new_0 V0) (ix2 b l)

theorem stack_1 (b : Fin 32768) (l : Fin 32) :
    res_main_v1156 V0 (ix3 b (⟨1, by omega⟩ : Fin 24) l) = refH V0 ⟨1, by omega⟩ (ix2 b l) := by
  refine (concat_mid_piece _ _ 0 (by show (0 : ℕ) < 2; omega) (res_main_v1154 V0) rfl 0 rfl b (⟨1, by omega⟩ : Fin 16) ⟨1, by omega⟩ (by simp) l).trans ?_
  refine (concat_mid_piece _ _ 1 (by show (1 : ℕ) < 16; omega) _ rfl 1 rfl b (0 : Fin 1) (⟨1, by omega⟩ : Fin 16) (by simp) l).trans ?_
  rw [expand_mid_apply]
  exact congrFun (ref_new_1 V0) (ix2 b l)

theorem stack_2 (b : Fin 32768) (l : Fin 32) :
    res_main_v1156 V0 (ix3 b (⟨2, by omega⟩ : Fin 24) l) = refH V0 ⟨2, by omega⟩ (ix2 b l) := by
  refine (concat_mid_piece _ _ 0 (by show (0 : ℕ) < 2; omega) (res_main_v1154 V0) rfl 0 rfl b (⟨2, by omega⟩ : Fin 16) ⟨2, by omega⟩ (by simp) l).trans ?_
  refine (concat_mid_piece _ _ 2 (by show (2 : ℕ) < 16; omega) _ rfl 2 rfl b (0 : Fin 1) (⟨2, by omega⟩ : Fin 16) (by simp) l).trans ?_
  rw [expand_mid_apply]
  exact congrFun (ref_new_2 V0) (ix2 b l)

theorem stack_3 (b : Fin 32768) (l : Fin 32) :
    res_main_v1156 V0 (ix3 b (⟨3, by omega⟩ : Fin 24) l) = refH V0 ⟨3, by omega⟩ (ix2 b l) := by
  refine (concat_mid_piece _ _ 0 (by show (0 : ℕ) < 2; omega) (res_main_v1154 V0) rfl 0 rfl b (⟨3, by omega⟩ : Fin 16) ⟨3, by omega⟩ (by simp) l).trans ?_
  refine (concat_mid_piece _ _ 3 (by show (3 : ℕ) < 16; omega) _ rfl 3 rfl b (0 : Fin 1) (⟨3, by omega⟩ : Fin 16) (by simp) l).trans ?_
  rw [expand_mid_apply]
  exact congrFun (ref_new_3 V0) (ix2 b l)

theorem stack_4 (b : Fin 32768) (l : Fin 32) :
    res_main_v1156 V0 (ix3 b (⟨4, by omega⟩ : Fin 24) l) = refH V0 ⟨4, by omega⟩ (ix2 b l) := by
  refine (concat_mid_piece _ _ 0 (by show (0 : ℕ) < 2; omega) (res_main_v1154 V0) rfl 0 rfl b (⟨4, by omega⟩ : Fin 16) ⟨4, by omega⟩ (by simp) l).trans ?_
  refine (concat_mid_piece _ _ 4 (by show (4 : ℕ) < 16; omega) _ rfl 4 rfl b (0 : Fin 1) (⟨4, by omega⟩ : Fin 16) (by simp) l).trans ?_
  rw [expand_mid_apply]
  exact congrFun (ref_new_4 V0) (ix2 b l)

theorem stack_5 (b : Fin 32768) (l : Fin 32) :
    res_main_v1156 V0 (ix3 b (⟨5, by omega⟩ : Fin 24) l) = refH V0 ⟨5, by omega⟩ (ix2 b l) := by
  refine (concat_mid_piece _ _ 0 (by show (0 : ℕ) < 2; omega) (res_main_v1154 V0) rfl 0 rfl b (⟨5, by omega⟩ : Fin 16) ⟨5, by omega⟩ (by simp) l).trans ?_
  refine (concat_mid_piece _ _ 5 (by show (5 : ℕ) < 16; omega) _ rfl 5 rfl b (0 : Fin 1) (⟨5, by omega⟩ : Fin 16) (by simp) l).trans ?_
  rw [expand_mid_apply]
  exact congrFun (ref_new_5 V0) (ix2 b l)

theorem stack_6 (b : Fin 32768) (l : Fin 32) :
    res_main_v1156 V0 (ix3 b (⟨6, by omega⟩ : Fin 24) l) = refH V0 ⟨6, by omega⟩ (ix2 b l) := by
  refine (concat_mid_piece _ _ 0 (by show (0 : ℕ) < 2; omega) (res_main_v1154 V0) rfl 0 rfl b (⟨6, by omega⟩ : Fin 16) ⟨6, by omega⟩ (by simp) l).trans ?_
  refine (concat_mid_piece _ _ 6 (by show (6 : ℕ) < 16; omega) _ rfl 6 rfl b (0 : Fin 1) (⟨6, by omega⟩ : Fin 16) (by simp) l).trans ?_
  rw [expand_mid_apply]
  exact congrFun (ref_new_6 V0) (ix2 b l)

theorem stack_7 (b : Fin 32768) (l : Fin 32) :
    res_main_v1156 V0 (ix3 b (⟨7, by omega⟩ : Fin 24) l) = refH V0 ⟨7, by omega⟩ (ix2 b l) := by
  refine (concat_mid_piece _ _ 0 (by show (0 : ℕ) < 2; omega) (res_main_v1154 V0) rfl 0 rfl b (⟨7, by omega⟩ : Fin 16) ⟨7, by omega⟩ (by simp) l).trans ?_
  refine (concat_mid_piece _ _ 7 (by show (7 : ℕ) < 16; omega) _ rfl 7 rfl b (0 : Fin 1) (⟨7, by omega⟩ : Fin 16) (by simp) l).trans ?_
  rw [expand_mid_apply]
  exact congrFun (ref_new_7 V0) (ix2 b l)

theorem stack_8 (b : Fin 32768) (l : Fin 32) :
    res_main_v1156 V0 (ix3 b (⟨8, by omega⟩ : Fin 24) l) = refH V0 ⟨8, by omega⟩ (ix2 b l) := by
  refine (concat_mid_piece _ _ 0 (by show (0 : ℕ) < 2; omega) (res_main_v1154 V0) rfl 0 rfl b (⟨8, by omega⟩ : Fin 16) ⟨8, by omega⟩ (by simp) l).trans ?_
  refine (concat_mid_piece _ _ 8 (by show (8 : ℕ) < 16; omega) _ rfl 8 rfl b (0 : Fin 1) (⟨8, by omega⟩ : Fin 16) (by simp) l).trans ?_
  rw [expand_mid_apply]
  exact congrFun (ref_new_8 V0) (ix2 b l)

theorem stack_9 (b : Fin 32768) (l : Fin 32) :
    res_main_v1156 V0 (ix3 b (⟨9, by omega⟩ : Fin 24) l) = refH V0 ⟨9, by omega⟩ (ix2 b l) := by
  refine (concat_mid_piece _ _ 0 (by show (0 : ℕ) < 2; omega) (res_main_v1154 V0) rfl 0 rfl b (⟨9, by omega⟩ : Fin 16) ⟨9, by omega⟩ (by simp) l).trans ?_
  refine (concat_mid_piece _ _ 9 (by show (9 : ℕ) < 16; omega) _ rfl 9 rfl b (0 : Fin 1) (⟨9, by omega⟩ : Fin 16) (by simp) l).trans ?_
  rw [expand_mid_apply]
  exact congrFun (ref_new_9 V0) (ix2 b l)

theorem stack_10 (b : Fin 32768) (l : Fin 32) :
    res_main_v1156 V0 (ix3 b (⟨10, by omega⟩ : Fin 24) l) = refH V0 ⟨10, by omega⟩ (ix2 b l) := by
  refine (concat_mid_piece _ _ 0 (by show (0 : ℕ) < 2; omega) (res_main_v1154 V0) rfl 0 rfl b (⟨10, by omega⟩ : Fin 16) ⟨10, by omega⟩ (by simp) l).trans ?_
  refine (concat_mid_piece _ _ 10 (by show (10 : ℕ) < 16; omega) _ rfl 10 rfl b (0 : Fin 1) (⟨10, by omega⟩ : Fin 16) (by simp) l).trans ?_
  rw [expand_mid_apply]
  exact congrFun (ref_new_10 V0) (ix2 b l)

theorem stack_11 (b : Fin 32768) (l : Fin 32) :
    res_main_v1156 V0 (ix3 b (⟨11, by omega⟩ : Fin 24) l) = refH V0 ⟨11, by omega⟩ (ix2 b l) := by
  refine (concat_mid_piece _ _ 0 (by show (0 : ℕ) < 2; omega) (res_main_v1154 V0) rfl 0 rfl b (⟨11, by omega⟩ : Fin 16) ⟨11, by omega⟩ (by simp) l).trans ?_
  refine (concat_mid_piece _ _ 11 (by show (11 : ℕ) < 16; omega) _ rfl 11 rfl b (0 : Fin 1) (⟨11, by omega⟩ : Fin 16) (by simp) l).trans ?_
  rw [expand_mid_apply]
  exact congrFun (ref_new_11 V0) (ix2 b l)

theorem stack_12 (b : Fin 32768) (l : Fin 32) :
    res_main_v1156 V0 (ix3 b (⟨12, by omega⟩ : Fin 24) l) = refH V0 ⟨12, by omega⟩ (ix2 b l) := by
  refine (concat_mid_piece _ _ 0 (by show (0 : ℕ) < 2; omega) (res_main_v1154 V0) rfl 0 rfl b (⟨12, by omega⟩ : Fin 16) ⟨12, by omega⟩ (by simp) l).trans ?_
  refine (concat_mid_piece _ _ 12 (by show (12 : ℕ) < 16; omega) _ rfl 12 rfl b (0 : Fin 1) (⟨12, by omega⟩ : Fin 16) (by simp) l).trans ?_
  rw [expand_mid_apply]
  exact congrFun (ref_new_12 V0) (ix2 b l)

theorem stack_13 (b : Fin 32768) (l : Fin 32) :
    res_main_v1156 V0 (ix3 b (⟨13, by omega⟩ : Fin 24) l) = refH V0 ⟨13, by omega⟩ (ix2 b l) := by
  refine (concat_mid_piece _ _ 0 (by show (0 : ℕ) < 2; omega) (res_main_v1154 V0) rfl 0 rfl b (⟨13, by omega⟩ : Fin 16) ⟨13, by omega⟩ (by simp) l).trans ?_
  refine (concat_mid_piece _ _ 13 (by show (13 : ℕ) < 16; omega) _ rfl 13 rfl b (0 : Fin 1) (⟨13, by omega⟩ : Fin 16) (by simp) l).trans ?_
  rw [expand_mid_apply]
  exact congrFun (ref_new_13 V0) (ix2 b l)

set_option maxHeartbeats 2000000 in
theorem stack_14 (b : Fin 32768) (l : Fin 32) :
    res_main_v1156 V0 (ix3 b (⟨14, by omega⟩ : Fin 24) l) = refH V0 ⟨14, by omega⟩ (ix2 b l) := by
  refine (concat_mid_piece _ _ 0 (by show (0 : ℕ) < 2; omega) (res_main_v1154 V0) rfl 0 rfl b (⟨14, by omega⟩ : Fin 16) ⟨14, by omega⟩ (by simp) l).trans ?_
  refine (concat_mid_piece _ _ 14 (by show (14 : ℕ) < 16; omega) _ rfl 14 rfl b (0 : Fin 1) (⟨14, by omega⟩ : Fin 16) (by simp) l).trans ?_
  rw [expand_mid_apply]
  exact congrFun (ref_new_14 V0) (ix2 b l)

set_option maxHeartbeats 4000000 in
theorem stack_15 (b : Fin 32768) (l : Fin 32) :
    res_main_v1156 V0 (ix3 b (⟨15, by omega⟩ : Fin 24) l) = refH V0 ⟨15, by omega⟩ (ix2 b l) := by
  refine (concat_mid_piece _ _ 0 (by show (0 : ℕ) < 2; omega) (res_main_v1154 V0) rfl 0 rfl b (⟨15, by omega⟩ : Fin 16) ⟨15, by omega⟩ (by simp) l).trans ?_
  refine (concat_mid_piece _ _ 15 (by show (15 : ℕ) < 16; omega) _ rfl 15 rfl b (0 : Fin 1) (⟨15, by omega⟩ : Fin 16) (by simp) l).trans ?_
  rw [expand_mid_apply]
  exact congrFun (ref_new_15 V0) (ix2 b l)

theorem stack_16 (b : Fin 32768) (l : Fin 32) :
    res_main_v1156 V0 (ix3 b (⟨16, by omega⟩ : Fin 24) l) = refH V0 ⟨16, by omega⟩ (ix2 b l) := by
  refine (concat_mid_piece _ _ 1 (by show (1 : ℕ) < 2; omega) _ rfl 16 rfl b (⟨0, by omega⟩ : Fin 8) ⟨16, by omega⟩ (by simp) l).trans ?_
  refine (concat_mid_piece _ _ 0 (by show (0 : ℕ) < 8; omega) _ rfl 0 rfl b (0 : Fin 1) (⟨0, by omega⟩ : Fin 8) (by simp) l).trans ?_
  rw [expand_mid_apply]
  exact congrFun (ref_new_16 V0) (ix2 b l)

theorem stack_17 (b : Fin 32768) (l : Fin 32) :
    res_main_v1156 V0 (ix3 b (⟨17, by omega⟩ : Fin 24) l) = refH V0 ⟨17, by omega⟩ (ix2 b l) := by
  refine (concat_mid_piece _ _ 1 (by show (1 : ℕ) < 2; omega) _ rfl 16 rfl b (⟨1, by omega⟩ : Fin 8) ⟨17, by omega⟩ (by simp) l).trans ?_
  refine (concat_mid_piece _ _ 1 (by show (1 : ℕ) < 8; omega) _ rfl 1 rfl b (0 : Fin 1) (⟨1, by omega⟩ : Fin 8) (by simp) l).trans ?_
  rw [expand_mid_apply]
  exact congrFun (ref_new_17 V0) (ix2 b l)

theorem stack_18 (b : Fin 32768) (l : Fin 32) :
    res_main_v1156 V0 (ix3 b (⟨18, by omega⟩ : Fin 24) l) = refH V0 ⟨18, by omega⟩ (ix2 b l) := by
  refine (concat_mid_piece _ _ 1 (by show (1 : ℕ) < 2; omega) _ rfl 16 rfl b (⟨2, by omega⟩ : Fin 8) ⟨18, by omega⟩ (by simp) l).trans ?_
  refine (concat_mid_piece _ _ 2 (by show (2 : ℕ) < 8; omega) _ rfl 2 rfl b (0 : Fin 1) (⟨2, by omega⟩ : Fin 8) (by simp) l).trans ?_
  rw [expand_mid_apply]
  exact congrFun (ref_new_18 V0) (ix2 b l)

theorem stack_19 (b : Fin 32768) (l : Fin 32) :
    res_main_v1156 V0 (ix3 b (⟨19, by omega⟩ : Fin 24) l) = refH V0 ⟨19, by omega⟩ (ix2 b l) := by
  refine (concat_mid_piece _ _ 1 (by show (1 : ℕ) < 2; omega) _ rfl 16 rfl b (⟨3, by omega⟩ : Fin 8) ⟨19, by omega⟩ (by simp) l).trans ?_
  refine (concat_mid_piece _ _ 3 (by show (3 : ℕ) < 8; omega) _ rfl 3 rfl b (0 : Fin 1) (⟨3, by omega⟩ : Fin 8) (by simp) l).trans ?_
  rw [expand_mid_apply]
  exact congrFun (ref_new_19 V0) (ix2 b l)

theorem stack_20 (b : Fin 32768) (l : Fin 32) :
    res_main_v1156 V0 (ix3 b (⟨20, by omega⟩ : Fin 24) l) = refH V0 ⟨20, by omega⟩ (ix2 b l) := by
  refine (concat_mid_piece _ _ 1 (by show (1 : ℕ) < 2; omega) _ rfl 16 rfl b (⟨4, by omega⟩ : Fin 8) ⟨20, by omega⟩ (by simp) l).trans ?_
  refine (concat_mid_piece _ _ 4 (by show (4 : ℕ) < 8; omega) _ rfl 4 rfl b (0 : Fin 1) (⟨4, by omega⟩ : Fin 8) (by simp) l).trans ?_
  rw [expand_mid_apply]
  exact congrFun (ref_new_20 V0) (ix2 b l)

theorem stack_21 (b : Fin 32768) (l : Fin 32) :
    res_main_v1156 V0 (ix3 b (⟨21, by omega⟩ : Fin 24) l) = refH V0 ⟨21, by omega⟩ (ix2 b l) := by
  refine (concat_mid_piece _ _ 1 (by show (1 : ℕ) < 2; omega) _ rfl 16 rfl b (⟨5, by omega⟩ : Fin 8) ⟨21, by omega⟩ (by simp) l).trans ?_
  refine (concat_mid_piece _ _ 5 (by show (5 : ℕ) < 8; omega) _ rfl 5 rfl b (0 : Fin 1) (⟨5, by omega⟩ : Fin 8) (by simp) l).trans ?_
  rw [expand_mid_apply]
  exact congrFun (ref_new_21 V0) (ix2 b l)

theorem stack_22 (b : Fin 32768) (l : Fin 32) :
    res_main_v1156 V0 (ix3 b (⟨22, by omega⟩ : Fin 24) l) = refH V0 ⟨22, by omega⟩ (ix2 b l) := by
  refine (concat_mid_piece _ _ 1 (by show (1 : ℕ) < 2; omega) _ rfl 16 rfl b (⟨6, by omega⟩ : Fin 8) ⟨22, by omega⟩ (by simp) l).trans ?_
  refine (concat_mid_piece _ _ 6 (by show (6 : ℕ) < 8; omega) _ rfl 6 rfl b (0 : Fin 1) (⟨6, by omega⟩ : Fin 8) (by simp) l).trans ?_
  rw [expand_mid_apply]
  exact congrFun (ref_new_22 V0) (ix2 b l)

theorem stack_23 (b : Fin 32768) (l : Fin 32) :
    res_main_v1156 V0 (ix3 b (⟨23, by omega⟩ : Fin 24) l) = refH V0 ⟨23, by omega⟩ (ix2 b l) := by
  refine (concat_mid_piece _ _ 1 (by show (1 : ℕ) < 2; omega) _ rfl 16 rfl b (⟨7, by omega⟩ : Fin 8) ⟨23, by omega⟩ (by simp) l).trans ?_
  refine (concat_mid_piece _ _ 7 (by show (7 : ℕ) < 8; omega) _ rfl 7 rfl b (0 : Fin 1) (⟨7, by omega⟩ : Fin 8) (by simp) l).trans ?_
  rw [expand_mid_apply]
  exact congrFun (ref_new_23 V0) (ix2 b l)

/-- The stack of the 24 new states is the tree of cells of the argument arrays. -/
theorem ref_result :
    res_main_v1156 V0 = G (refA V0) (refX V0) (refWz V0) (refBz V0) (refWr V0) (refBr V0) (refWq V0) (refBq V0) := by
  funext i
  obtain ⟨b, j, l, rfl⟩ : ∃ (b : Fin 32768) (j : Fin 24) (l : Fin 32), i = ix3 b j l := ⟨i 0, i 1, i 2, eq_ix3 i⟩
  show res_main_v1156 V0 (ix3 b j l) = refH V0 j (ix2 b l)
  match j with
  | ⟨0, _⟩ => exact stack_0 V0 b l
  | ⟨1, _⟩ => exact stack_1 V0 b l
  | ⟨2, _⟩ => exact stack_2 V0 b l
  | ⟨3, _⟩ => exact stack_3 V0 b l
  | ⟨4, _⟩ => exact stack_4 V0 b l
  | ⟨5, _⟩ => exact stack_5 V0 b l
  | ⟨6, _⟩ => exact stack_6 V0 b l
  | ⟨7, _⟩ => exact stack_7 V0 b l
  | ⟨8, _⟩ => exact stack_8 V0 b l
  | ⟨9, _⟩ => exact stack_9 V0 b l
  | ⟨10, _⟩ => exact stack_10 V0 b l
  | ⟨11, _⟩ => exact stack_11 V0 b l
  | ⟨12, _⟩ => exact stack_12 V0 b l
  | ⟨13, _⟩ => exact stack_13 V0 b l
  | ⟨14, _⟩ => exact stack_14 V0 b l
  | ⟨15, _⟩ => exact stack_15 V0 b l
  | ⟨16, _⟩ => exact stack_16 V0 b l
  | ⟨17, _⟩ => exact stack_17 V0 b l
  | ⟨18, _⟩ => exact stack_18 V0 b l
  | ⟨19, _⟩ => exact stack_19 V0 b l
  | ⟨20, _⟩ => exact stack_20 V0 b l
  | ⟨21, _⟩ => exact stack_21 V0 b l
  | ⟨22, _⟩ => exact stack_22 V0 b l
  | ⟨23, _⟩ => exact stack_23 V0 b l
  | ⟨n + 24, h⟩ => exact absurd h (by omega)

end PoseGru

end
-- ==== Proof.lean ====
/-
  A tree-structured gated recurrent unit over 24 joints: the kernel against its reference, over the extended reals.

  Both programs take 32768 rows of 24 hidden states of 32 numbers, a 448-number input per row shared by the joints, and
  per joint three 480 × 32 weight matrices and three bias vectors. Joint by joint, in the order 0 … 23, joint j's state
  becomes
      (1 - z) ⊙ h + z ⊙ tanh([r ⊙ h | x] · Wq_j + bq_j),   z = σ([h | x] · Wz_j + bz_j),   r = σ([h | x] · Wr_j + br_j),
  where h is the NEW state of j's parent (for the root, its own old state): the array `PoseGru.G` of GruTree.

  The kernel works on blocks of 512 rows. It keeps the states of a block in a scratch buffer, overwrites column j at
  step j, narrows the operands of its matrix products to a shorter float format and uses the machine's logistic
  operation. The reference works on all rows at once, keeps the joints' states as separate arrays, multiplies in full
  width and spells the logistic function 1 / (1 + exp(-t)). Over the extended reals narrowing is the identity, the two
  spellings of the logistic function are one function, a product accumulated into zeros is the plain sum, and every row of
  the result depends on the same row of the states and the input only: both programs compute G, with the same
  operations in the same order on every entry, so no law of arithmetic — and nothing about finiteness — is needed.

  The kernel's frames are the generated ones; the reference's frame is its run with the result dropped; the
  idealization rewrote nothing, so there is nothing to preserve.
-/
import proofs.«153635_j72524817760644_2_alg».proof.Defs
import proofs.«153635_j72524817760644_2_alg».proof.Proof.Gen.Kernel
import proofs.«153635_j72524817760644_2_alg».proof.Proof.Gen.Kernel.Skeleton
import proofs.«153635_j72524817760644_2_alg».proof.Proof.Gen.Kernel.Launch
import proofs.«153635_j72524817760644_2_alg».proof.Proof.Gen.Kernel.Points
import proofs.«153635_j72524817760644_2_alg».proof.Proof.Gen.Kernel.Frame
import proofs.«153635_j72524817760644_2_alg».proof.Proof.Gen.KernelIdeal
import proofs.«153635_j72524817760644_2_alg».proof.Proof.Gen.KernelIdeal.Skeleton
import proofs.«153635_j72524817760644_2_alg».proof.Proof.Gen.KernelIdeal.Launch
import proofs.«153635_j72524817760644_2_alg».proof.Proof.Gen.KernelIdeal.Points
import proofs.«153635_j72524817760644_2_alg».proof.Proof.Gen.KernelIdeal.Frame
import proofs.«153635_j72524817760644_2_alg».proof.Proof.Gen.ReferenceIdeal
import proofs.«153635_j72524817760644_2_alg».proof.Proof.Gen.KernelIdeal.Value
import proofs.«153635_j72524817760644_2_alg».proof.Proof.Gen.Pre_finite_inputs
import proofs.«153635_j72524817760644_2_alg».proof.Proof.KernelValue
import proofs.«153635_j72524817760644_2_alg».proof.Proof.RefTree
import Idealize.ShloMosaic.Adequacy
import Idealize.ShloMosaic.Init

noncomputable section

namespace Cert.Proof

open Idealize.ShloMosaic Idealize.SL.Sem Cert.Kernel

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both runs end with the result array at the tree of cells of the argument arrays, which agree. -/
theorem algebraic : Cert.algebraic_KernelIdeal_ReferenceIdeal := by
  intro m ρ m' ρ' _ hagree
  refine ⟨_, PoseGru.kernel_run m ρ, ?_⟩
  refine (θ_run Cert.ReferenceIdeal.defs _ _).mono (fun _ h c => ⟨(h c).1.trans ?_, (h c).2⟩)
    (Cert.ReferenceIdeal.ValueP.run (F := Ideal) m' ρ')
  rw [PoseGru.ref_result]
  obtain ⟨h0, h1, h2, h3, h4, h5, h6, h7⟩ := hagree c
  show PoseGru.G (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7)) = _
  rw [h0, h1, h2, h3, h4, h5, h6, h7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
